-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S16384x256 : Shape := ⟨2, ![16384, 256]⟩
abbrev S16384x128 : Shape := ⟨2, ![16384, 128]⟩
abbrev S128x128 : Shape := ⟨2, ![128, 128]⟩
abbrev S_ : Shape := ⟨0, ![]⟩
abbrev S16 : Shape := ⟨1, ![16]⟩
abbrev S1x16 : Shape := ⟨2, ![1, 16]⟩

abbrev nBuf : Table → Nat
  | .hbm => 2
  | .local .scVector .vmem => 4
  | _ => 0

abbrev bufTy : (tb : Table) → Fin (nBuf tb) → BufTy
  | .hbm, ⟨0, _⟩ => ⟨S16384x256, .f32⟩
  | .hbm, ⟨1, _⟩ => ⟨S16384x128, .f32⟩
  | .local .scVector .vmem, ⟨0, _⟩ => ⟨S128x128, .f32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | _, _ => ⟨S16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c128_i32_4 : BitVec 32 := 128#32
  ![v3.toNat, 128]
@[reducible] def k0_t1_loop : Scf.Loop 32 :=
  let c0_i32_9 : BitVec 32 := 0#32
  let c128_i32_10 : BitVec 32 := 128#32
  let v17 : BitVec 32 := Scalar.addi c0_i32_9 c128_i32_10
  let c1_i32 : BitVec 32 := 1#32
  ⟨c0_i32_9, v17, c1_i32⟩
def k0_off2 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let v1134 : Index := Scalar.indexCast arg12
  let c0 : Index := 0#32
  ![v1134.toNat, 0]
def k0_off3 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let v1138 : Index := Scalar.indexCast arg12
  let c16 : Index := 16#32
  ![v1138.toNat, 16]
def k0_off4 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let v1142 : Index := Scalar.indexCast arg12
  let c32 : Index := 32#32
  ![v1142.toNat, 32]
def k0_off5 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let v1146 : Index := Scalar.indexCast arg12
  let c48 : Index := 48#32
  ![v1146.toNat, 48]
def k0_off6 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let v1150 : Index := Scalar.indexCast arg12
  let c64 : Index := 64#32
  ![v1150.toNat, 64]
def k0_off7 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let v1154 : Index := Scalar.indexCast arg12
  let c80 : Index := 80#32
  ![v1154.toNat, 80]
def k0_off8 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let v1158 : Index := Scalar.indexCast arg12
  let c96 : Index := 96#32
  ![v1158.toNat, 96]
def k0_off9 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let v1162 : Index := Scalar.indexCast arg12
  let c112 : Index := 112#32
  ![v1162.toNat, 112]

def k0_chk1 (v21 : IVec S16 32) (v22 : IVec S16 32) : Prop :=
  (∀ a x, ((![v21, v22] : Fin 2 → IVec S16 32) a x).toNat < S128x128.size a)
instance k0_chk1.dec : ∀ (v21 : IVec S16 32) (v22 : IVec S16 32), Decidable (k0_chk1 v21 v22) := fun v21 v22 => decidable_of_iff' _ (Iff.of_eq (k0_chk1.eq_1 v21 v22))
theorem k0_idx1_inb : ∀ (v21 : IVec S16 32) (v22 : IVec S16 32) (k0_hw1 : k0_chk1 v21 v22), ∀ a x, ((![v21, v22] : Fin 2 → IVec S16 32) a x).toNat < S128x128.size a := fun v21 v22 k0_hw1 => k0_hw1

def k0_chk2 (v21 : IVec S16 32) (v29 : IVec S16 32) : Prop :=
  (∀ a x, ((![v21, v29] : Fin 2 → IVec S16 32) a x).toNat < S128x128.size a)
instance k0_chk2.dec : ∀ (v21 : IVec S16 32) (v29 : IVec S16 32), Decidable (k0_chk2 v21 v29) := fun v21 v29 => decidable_of_iff' _ (Iff.of_eq (k0_chk2.eq_1 v21 v29))
theorem k0_idx2_inb : ∀ (v21 : IVec S16 32) (v29 : IVec S16 32) (k0_hw2 : k0_chk2 v21 v29), ∀ a x, ((![v21, v29] : Fin 2 → IVec S16 32) a x).toNat < S128x128.size a := fun v21 v29 k0_hw2 => k0_hw2

def k0_chk3 (v21 : IVec S16 32) (v30 : IVec S16 32) : Prop :=
  (∀ a x, ((![v21, v30] : Fin 2 → IVec S16 32) a x).toNat < S128x128.size a)
instance k0_chk3.dec : ∀ (v21 : IVec S16 32) (v30 : IVec S16 32), Decidable (k0_chk3 v21 v30) := fun v21 v30 => decidable_of_iff' _ (Iff.of_eq (k0_chk3.eq_1 v21 v30))
theorem k0_idx3_inb : ∀ (v21 : IVec S16 32) (v30 : IVec S16 32) (k0_hw3 : k0_chk3 v21 v30), ∀ a x, ((![v21, v30] : Fin 2 → IVec S16 32) a x).toNat < S128x128.size a := fun v21 v30 k0_hw3 => k0_hw3

def k0_chk4 (v21 : IVec S16 32) (v37 : IVec S16 32) : Prop :=
  (∀ a x, ((![v21, v37] : Fin 2 → IVec S16 32) a x).toNat < S128x128.size a)
instance k0_chk4.dec : ∀ (v21 : IVec S16 32) (v37 : IVec S16 32), Decidable (k0_chk4 v21 v37) := fun v21 v37 => decidable_of_iff' _ (Iff.of_eq (k0_chk4.eq_1 v21 v37))
theorem k0_idx4_inb : ∀ (v21 : IVec S16 32) (v37 : IVec S16 32) (k0_hw4 : k0_chk4 v21 v37), ∀ a x, ((![v21, v37] : Fin 2 → IVec S16 32) a x).toNat < S128x128.size a := fun v21 v37 k0_hw4 => k0_hw4

def k0_chk5 (v21 : IVec S16 32) (v38 : IVec S16 32) : Prop :=
  (∀ a x, ((![v21, v38] : Fin 2 → IVec S16 32) a x).toNat < S128x128.size a)
instance k0_chk5.dec : ∀ (v21 : IVec S16 32) (v38 : IVec S16 32), Decidable (k0_chk5 v21 v38) := fun v21 v38 => decidable_of_iff' _ (Iff.of_eq (k0_chk5.eq_1 v21 v38))
theorem k0_idx5_inb : ∀ (v21 : IVec S16 32) (v38 : IVec S16 32) (k0_hw5 : k0_chk5 v21 v38), ∀ a x, ((![v21, v38] : Fin 2 → IVec S16 32) a x).toNat < S128x128.size a := fun v21 v38 k0_hw5 => k0_hw5

def k0_chk6 (v21 : IVec S16 32) (v45 : IVec S16 32) : Prop :=
  (∀ a x, ((![v21, v45] : Fin 2 → IVec S16 32) a x).toNat < S128x128.size a)
instance k0_chk6.dec : ∀ (v21 : IVec S16 32) (v45 : IVec S16 32), Decidable (k0_chk6 v21 v45) := fun v21 v45 => decidable_of_iff' _ (Iff.of_eq (k0_chk6.eq_1 v21 v45))
theorem k0_idx6_inb : ∀ (v21 : IVec S16 32) (v45 : IVec S16 32) (k0_hw6 : k0_chk6 v21 v45), ∀ a x, ((![v21, v45] : Fin 2 → IVec S16 32) a x).toNat < S128x128.size a := fun v21 v45 k0_hw6 => k0_hw6

def k0_chk7 (v21 : IVec S16 32) (v46 : IVec S16 32) : Prop :=
  (∀ a x, ((![v21, v46] : Fin 2 → IVec S16 32) a x).toNat < S128x128.size a)
instance k0_chk7.dec : ∀ (v21 : IVec S16 32) (v46 : IVec S16 32), Decidable (k0_chk7 v21 v46) := fun v21 v46 => decidable_of_iff' _ (Iff.of_eq (k0_chk7.eq_1 v21 v46))
theorem k0_idx7_inb : ∀ (v21 : IVec S16 32) (v46 : IVec S16 32) (k0_hw7 : k0_chk7 v21 v46), ∀ a x, ((![v21, v46] : Fin 2 → IVec S16 32) a x).toNat < S128x128.size a := fun v21 v46 k0_hw7 => k0_hw7

def k0_chk8 (v21 : IVec S16 32) (v53 : IVec S16 32) : Prop :=
  (∀ a x, ((![v21, v53] : Fin 2 → IVec S16 32) a x).toNat < S128x128.size a)
instance k0_chk8.dec : ∀ (v21 : IVec S16 32) (v53 : IVec S16 32), Decidable (k0_chk8 v21 v53) := fun v21 v53 => decidable_of_iff' _ (Iff.of_eq (k0_chk8.eq_1 v21 v53))
theorem k0_idx8_inb : ∀ (v21 : IVec S16 32) (v53 : IVec S16 32) (k0_hw8 : k0_chk8 v21 v53), ∀ a x, ((![v21, v53] : Fin 2 → IVec S16 32) a x).toNat < S128x128.size a := fun v21 v53 k0_hw8 => k0_hw8

def k0_chk9 (v55 : IVec S16 32) (v56 : IVec S16 32) : Prop :=
  (∀ a x, ((![v55, v56] : Fin 2 → IVec S16 32) a x).toNat < S128x128.size a)
instance k0_chk9.dec : ∀ (v55 : IVec S16 32) (v56 : IVec S16 32), Decidable (k0_chk9 v55 v56) := fun v55 v56 => decidable_of_iff' _ (Iff.of_eq (k0_chk9.eq_1 v55 v56))
theorem k0_idx9_inb : ∀ (v55 : IVec S16 32) (v56 : IVec S16 32) (k0_hw9 : k0_chk9 v55 v56), ∀ a x, ((![v55, v56] : Fin 2 → IVec S16 32) a x).toNat < S128x128.size a := fun v55 v56 k0_hw9 => k0_hw9

def k0_chk10 (v55 : IVec S16 32) (v63 : IVec S16 32) : Prop :=
  (∀ a x, ((![v55, v63] : Fin 2 → IVec S16 32) a x).toNat < S128x128.size a)
instance k0_chk10.dec : ∀ (v55 : IVec S16 32) (v63 : IVec S16 32), Decidable (k0_chk10 v55 v63) := fun v55 v63 => decidable_of_iff' _ (Iff.of_eq (k0_chk10.eq_1 v55 v63))
theorem k0_idx10_inb : ∀ (v55 : IVec S16 32) (v63 : IVec S16 32) (k0_hw10 : k0_chk10 v55 v63), ∀ a x, ((![v55, v63] : Fin 2 → IVec S16 32) a x).toNat < S128x128.size a := fun v55 v63 k0_hw10 => k0_hw10

def k0_chk11 (v55 : IVec S16 32) (v64 : IVec S16 32) : Prop :=
  (∀ a x, ((![v55, v64] : Fin 2 → IVec S16 32) a x).toNat < S128x128.size a)
instance k0_chk11.dec : ∀ (v55 : IVec S16 32) (v64 : IVec S16 32), Decidable (k0_chk11 v55 v64) := fun v55 v64 => decidable_of_iff' _ (Iff.of_eq (k0_chk11.eq_1 v55 v64))
theorem k0_idx11_inb : ∀ (v55 : IVec S16 32) (v64 : IVec S16 32) (k0_hw11 : k0_chk11 v55 v64), ∀ a x, ((![v55, v64] : Fin 2 → IVec S16 32) a x).toNat < S128x128.size a := fun v55 v64 k0_hw11 => k0_hw11

def k0_chk12 (v55 : IVec S16 32) (v71 : IVec S16 32) : Prop :=
  (∀ a x, ((![v55, v71] : Fin 2 → IVec S16 32) a x).toNat < S128x128.size a)
instance k0_chk12.dec : ∀ (v55 : IVec S16 32) (v71 : IVec S16 32), Decidable (k0_chk12 v55 v71) := fun v55 v71 => decidable_of_iff' _ (Iff.of_eq (k0_chk12.eq_1 v55 v71))
theorem k0_idx12_inb : ∀ (v55 : IVec S16 32) (v71 : IVec S16 32) (k0_hw12 : k0_chk12 v55 v71), ∀ a x, ((![v55, v71] : Fin 2 → IVec S16 32) a x).toNat < S128x128.size a := fun v55 v71 k0_hw12 => k0_hw12

def k0_chk13 (v55 : IVec S16 32) (v72 : IVec S16 32) : Prop :=
  (∀ a x, ((![v55, v72] : Fin 2 → IVec S16 32) a x).toNat < S128x128.size a)
instance k0_chk13.dec : ∀ (v55 : IVec S16 32) (v72 : IVec S16 32), Decidable (k0_chk13 v55 v72) := fun v55 v72 => decidable_of_iff' _ (Iff.of_eq (k0_chk13.eq_1 v55 v72))
theorem k0_idx13_inb : ∀ (v55 : IVec S16 32) (v72 : IVec S16 32) (k0_hw13 : k0_chk13 v55 v72), ∀ a x, ((![v55, v72] : Fin 2 → IVec S16 32) a x).toNat < S128x128.size a := fun v55 v72 k0_hw13 => k0_hw13

def k0_chk14 (v55 : IVec S16 32) (v79 : IVec S16 32) : Prop :=
  (∀ a x, ((![v55, v79] : Fin 2 → IVec S16 32) a x).toNat < S128x128.size a)
instance k0_chk14.dec : ∀ (v55 : IVec S16 32) (v79 : IVec S16 32), Decidable (k0_chk14 v55 v79) := fun v55 v79 => decidable_of_iff' _ (Iff.of_eq (k0_chk14.eq_1 v55 v79))
theorem k0_idx14_inb : ∀ (v55 : IVec S16 32) (v79 : IVec S16 32) (k0_hw14 : k0_chk14 v55 v79), ∀ a x, ((![v55, v79] : Fin 2 → IVec S16 32) a x).toNat < S128x128.size a := fun v55 v79 k0_hw14 => k0_hw14

def k0_chk15 (v55 : IVec S16 32) (v80 : IVec S16 32) : Prop :=
  (∀ a x, ((![v55, v80] : Fin 2 → IVec S16 32) a x).toNat < S128x128.size a)
instance k0_chk15.dec : ∀ (v55 : IVec S16 32) (v80 : IVec S16 32), Decidable (k0_chk15 v55 v80) := fun v55 v80 => decidable_of_iff' _ (Iff.of_eq (k0_chk15.eq_1 v55 v80))
theorem k0_idx15_inb : ∀ (v55 : IVec S16 32) (v80 : IVec S16 32) (k0_hw15 : k0_chk15 v55 v80), ∀ a x, ((![v55, v80] : Fin 2 → IVec S16 32) a x).toNat < S128x128.size a := fun v55 v80 k0_hw15 => k0_hw15

def k0_chk16 (v55 : IVec S16 32) (v87 : IVec S16 32) : Prop :=
  (∀ a x, ((![v55, v87] : Fin 2 → IVec S16 32) a x).toNat < S128x128.size a)
instance k0_chk16.dec : ∀ (v55 : IVec S16 32) (v87 : IVec S16 32), Decidable (k0_chk16 v55 v87) := fun v55 v87 => decidable_of_iff' _ (Iff.of_eq (k0_chk16.eq_1 v55 v87))
theorem k0_idx16_inb : ∀ (v55 : IVec S16 32) (v87 : IVec S16 32) (k0_hw16 : k0_chk16 v55 v87), ∀ a x, ((![v55, v87] : Fin 2 → IVec S16 32) a x).toNat < S128x128.size a := fun v55 v87 k0_hw16 => k0_hw16

def k0_chk17 (v89 : IVec S16 32) (v90 : IVec S16 32) : Prop :=
  (∀ a x, ((![v89, v90] : Fin 2 → IVec S16 32) a x).toNat < S128x128.size a)
instance k0_chk17.dec : ∀ (v89 : IVec S16 32) (v90 : IVec S16 32), Decidable (k0_chk17 v89 v90) := fun v89 v90 => decidable_of_iff' _ (Iff.of_eq (k0_chk17.eq_1 v89 v90))
theorem k0_idx17_inb : ∀ (v89 : IVec S16 32) (v90 : IVec S16 32) (k0_hw17 : k0_chk17 v89 v90), ∀ a x, ((![v89, v90] : Fin 2 → IVec S16 32) a x).toNat < S128x128.size a := fun v89 v90 k0_hw17 => k0_hw17

def k0_chk18 (v89 : IVec S16 32) (v97 : IVec S16 32) : Prop :=
  (∀ a x, ((![v89, v97] : Fin 2 → IVec S16 32) a x).toNat < S128x128.size a)
instance k0_chk18.dec : ∀ (v89 : IVec S16 32) (v97 : IVec S16 32), Decidable (k0_chk18 v89 v97) := fun v89 v97 => decidable_of_iff' _ (Iff.of_eq (k0_chk18.eq_1 v89 v97))
theorem k0_idx18_inb : ∀ (v89 : IVec S16 32) (v97 : IVec S16 32) (k0_hw18 : k0_chk18 v89 v97), ∀ a x, ((![v89, v97] : Fin 2 → IVec S16 32) a x).toNat < S128x128.size a := fun v89 v97 k0_hw18 => k0_hw18

def k0_chk19 (v89 : IVec S16 32) (v98 : IVec S16 32) : Prop :=
  (∀ a x, ((![v89, v98] : Fin 2 → IVec S16 32) a x).toNat < S128x128.size a)
instance k0_chk19.dec : ∀ (v89 : IVec S16 32) (v98 : IVec S16 32), Decidable (k0_chk19 v89 v98) := fun v89 v98 => decidable_of_iff' _ (Iff.of_eq (k0_chk19.eq_1 v89 v98))
theorem k0_idx19_inb : ∀ (v89 : IVec S16 32) (v98 : IVec S16 32) (k0_hw19 : k0_chk19 v89 v98), ∀ a x, ((![v89, v98] : Fin 2 → IVec S16 32) a x).toNat < S128x128.size a := fun v89 v98 k0_hw19 => k0_hw19

def k0_chk20 (v89 : IVec S16 32) (v105 : IVec S16 32) : Prop :=
  (∀ a x, ((![v89, v105] : Fin 2 → IVec S16 32) a x).toNat < S128x128.size a)
instance k0_chk20.dec : ∀ (v89 : IVec S16 32) (v105 : IVec S16 32), Decidable (k0_chk20 v89 v105) := fun v89 v105 => decidable_of_iff' _ (Iff.of_eq (k0_chk20.eq_1 v89 v105))
theorem k0_idx20_inb : ∀ (v89 : IVec S16 32) (v105 : IVec S16 32) (k0_hw20 : k0_chk20 v89 v105), ∀ a x, ((![v89, v105] : Fin 2 → IVec S16 32) a x).toNat < S128x128.size a := fun v89 v105 k0_hw20 => k0_hw20

def k0_chk21 (v89 : IVec S16 32) (v106 : IVec S16 32) : Prop :=
  (∀ a x, ((![v89, v106] : Fin 2 → IVec S16 32) a x).toNat < S128x128.size a)
instance k0_chk21.dec : ∀ (v89 : IVec S16 32) (v106 : IVec S16 32), Decidable (k0_chk21 v89 v106) := fun v89 v106 => decidable_of_iff' _ (Iff.of_eq (k0_chk21.eq_1 v89 v106))
theorem k0_idx21_inb : ∀ (v89 : IVec S16 32) (v106 : IVec S16 32) (k0_hw21 : k0_chk21 v89 v106), ∀ a x, ((![v89, v106] : Fin 2 → IVec S16 32) a x).toNat < S128x128.size a := fun v89 v106 k0_hw21 => k0_hw21

def k0_chk22 (v89 : IVec S16 32) (v113 : IVec S16 32) : Prop :=
  (∀ a x, ((![v89, v113] : Fin 2 → IVec S16 32) a x).toNat < S128x128.size a)
instance k0_chk22.dec : ∀ (v89 : IVec S16 32) (v113 : IVec S16 32), Decidable (k0_chk22 v89 v113) := fun v89 v113 => decidable_of_iff' _ (Iff.of_eq (k0_chk22.eq_1 v89 v113))
theorem k0_idx22_inb : ∀ (v89 : IVec S16 32) (v113 : IVec S16 32) (k0_hw22 : k0_chk22 v89 v113), ∀ a x, ((![v89, v113] : Fin 2 → IVec S16 32) a x).toNat < S128x128.size a := fun v89 v113 k0_hw22 => k0_hw22

def k0_chk23 (v89 : IVec S16 32) (v114 : IVec S16 32) : Prop :=
  (∀ a x, ((![v89, v114] : Fin 2 → IVec S16 32) a x).toNat < S128x128.size a)
instance k0_chk23.dec : ∀ (v89 : IVec S16 32) (v114 : IVec S16 32), Decidable (k0_chk23 v89 v114) := fun v89 v114 => decidable_of_iff' _ (Iff.of_eq (k0_chk23.eq_1 v89 v114))
theorem k0_idx23_inb : ∀ (v89 : IVec S16 32) (v114 : IVec S16 32) (k0_hw23 : k0_chk23 v89 v114), ∀ a x, ((![v89, v114] : Fin 2 → IVec S16 32) a x).toNat < S128x128.size a := fun v89 v114 k0_hw23 => k0_hw23

def k0_chk24 (v89 : IVec S16 32) (v121 : IVec S16 32) : Prop :=
  (∀ a x, ((![v89, v121] : Fin 2 → IVec S16 32) a x).toNat < S128x128.size a)
instance k0_chk24.dec : ∀ (v89 : IVec S16 32) (v121 : IVec S16 32), Decidable (k0_chk24 v89 v121) := fun v89 v121 => decidable_of_iff' _ (Iff.of_eq (k0_chk24.eq_1 v89 v121))
theorem k0_idx24_inb : ∀ (v89 : IVec S16 32) (v121 : IVec S16 32) (k0_hw24 : k0_chk24 v89 v121), ∀ a x, ((![v89, v121] : Fin 2 → IVec S16 32) a x).toNat < S128x128.size a := fun v89 v121 k0_hw24 => k0_hw24

def k0_chk25 (v123 : IVec S16 32) (v124 : IVec S16 32) : Prop :=
  (∀ a x, ((![v123, v124] : Fin 2 → IVec S16 32) a x).toNat < S128x128.size a)
instance k0_chk25.dec : ∀ (v123 : IVec S16 32) (v124 : IVec S16 32), Decidable (k0_chk25 v123 v124) := fun v123 v124 => decidable_of_iff' _ (Iff.of_eq (k0_chk25.eq_1 v123 v124))
theorem k0_idx25_inb : ∀ (v123 : IVec S16 32) (v124 : IVec S16 32) (k0_hw25 : k0_chk25 v123 v124), ∀ a x, ((![v123, v124] : Fin 2 → IVec S16 32) a x).toNat < S128x128.size a := fun v123 v124 k0_hw25 => k0_hw25

def k0_chk26 (v123 : IVec S16 32) (v131 : IVec S16 32) : Prop :=
  (∀ a x, ((![v123, v131] : Fin 2 → IVec S16 32) a x).toNat < S128x128.size a)
instance k0_chk26.dec : ∀ (v123 : IVec S16 32) (v131 : IVec S16 32), Decidable (k0_chk26 v123 v131) := fun v123 v131 => decidable_of_iff' _ (Iff.of_eq (k0_chk26.eq_1 v123 v131))
theorem k0_idx26_inb : ∀ (v123 : IVec S16 32) (v131 : IVec S16 32) (k0_hw26 : k0_chk26 v123 v131), ∀ a x, ((![v123, v131] : Fin 2 → IVec S16 32) a x).toNat < S128x128.size a := fun v123 v131 k0_hw26 => k0_hw26

def k0_chk27 (v123 : IVec S16 32) (v132 : IVec S16 32) : Prop :=
  (∀ a x, ((![v123, v132] : Fin 2 → IVec S16 32) a x).toNat < S128x128.size a)
instance k0_chk27.dec : ∀ (v123 : IVec S16 32) (v132 : IVec S16 32), Decidable (k0_chk27 v123 v132) := fun v123 v132 => decidable_of_iff' _ (Iff.of_eq (k0_chk27.eq_1 v123 v132))
theorem k0_idx27_inb : ∀ (v123 : IVec S16 32) (v132 : IVec S16 32) (k0_hw27 : k0_chk27 v123 v132), ∀ a x, ((![v123, v132] : Fin 2 → IVec S16 32) a x).toNat < S128x128.size a := fun v123 v132 k0_hw27 => k0_hw27

def k0_chk28 (v123 : IVec S16 32) (v139 : IVec S16 32) : Prop :=
  (∀ a x, ((![v123, v139] : Fin 2 → IVec S16 32) a x).toNat < S128x128.size a)
instance k0_chk28.dec : ∀ (v123 : IVec S16 32) (v139 : IVec S16 32), Decidable (k0_chk28 v123 v139) := fun v123 v139 => decidable_of_iff' _ (Iff.of_eq (k0_chk28.eq_1 v123 v139))
theorem k0_idx28_inb : ∀ (v123 : IVec S16 32) (v139 : IVec S16 32) (k0_hw28 : k0_chk28 v123 v139), ∀ a x, ((![v123, v139] : Fin 2 → IVec S16 32) a x).toNat < S128x128.size a := fun v123 v139 k0_hw28 => k0_hw28

def k0_chk29 (v123 : IVec S16 32) (v140 : IVec S16 32) : Prop :=
  (∀ a x, ((![v123, v140] : Fin 2 → IVec S16 32) a x).toNat < S128x128.size a)
instance k0_chk29.dec : ∀ (v123 : IVec S16 32) (v140 : IVec S16 32), Decidable (k0_chk29 v123 v140) := fun v123 v140 => decidable_of_iff' _ (Iff.of_eq (k0_chk29.eq_1 v123 v140))
theorem k0_idx29_inb : ∀ (v123 : IVec S16 32) (v140 : IVec S16 32) (k0_hw29 : k0_chk29 v123 v140), ∀ a x, ((![v123, v140] : Fin 2 → IVec S16 32) a x).toNat < S128x128.size a := fun v123 v140 k0_hw29 => k0_hw29

def k0_chk30 (v123 : IVec S16 32) (v147 : IVec S16 32) : Prop :=
  (∀ a x, ((![v123, v147] : Fin 2 → IVec S16 32) a x).toNat < S128x128.size a)
instance k0_chk30.dec : ∀ (v123 : IVec S16 32) (v147 : IVec S16 32), Decidable (k0_chk30 v123 v147) := fun v123 v147 => decidable_of_iff' _ (Iff.of_eq (k0_chk30.eq_1 v123 v147))
theorem k0_idx30_inb : ∀ (v123 : IVec S16 32) (v147 : IVec S16 32) (k0_hw30 : k0_chk30 v123 v147), ∀ a x, ((![v123, v147] : Fin 2 → IVec S16 32) a x).toNat < S128x128.size a := fun v123 v147 k0_hw30 => k0_hw30

def k0_chk31 (v123 : IVec S16 32) (v148 : IVec S16 32) : Prop :=
  (∀ a x, ((![v123, v148] : Fin 2 → IVec S16 32) a x).toNat < S128x128.size a)
instance k0_chk31.dec : ∀ (v123 : IVec S16 32) (v148 : IVec S16 32), Decidable (k0_chk31 v123 v148) := fun v123 v148 => decidable_of_iff' _ (Iff.of_eq (k0_chk31.eq_1 v123 v148))
theorem k0_idx31_inb : ∀ (v123 : IVec S16 32) (v148 : IVec S16 32) (k0_hw31 : k0_chk31 v123 v148), ∀ a x, ((![v123, v148] : Fin 2 → IVec S16 32) a x).toNat < S128x128.size a := fun v123 v148 k0_hw31 => k0_hw31

def k0_chk32 (v123 : IVec S16 32) (v155 : IVec S16 32) : Prop :=
  (∀ a x, ((![v123, v155] : Fin 2 → IVec S16 32) a x).toNat < S128x128.size a)
instance k0_chk32.dec : ∀ (v123 : IVec S16 32) (v155 : IVec S16 32), Decidable (k0_chk32 v123 v155) := fun v123 v155 => decidable_of_iff' _ (Iff.of_eq (k0_chk32.eq_1 v123 v155))
theorem k0_idx32_inb : ∀ (v123 : IVec S16 32) (v155 : IVec S16 32) (k0_hw32 : k0_chk32 v123 v155), ∀ a x, ((![v123, v155] : Fin 2 → IVec S16 32) a x).toNat < S128x128.size a := fun v123 v155 k0_hw32 => k0_hw32

def k0_chk33 (v157 : IVec S16 32) (v158 : IVec S16 32) : Prop :=
  (∀ a x, ((![v157, v158] : Fin 2 → IVec S16 32) a x).toNat < S128x128.size a)
instance k0_chk33.dec : ∀ (v157 : IVec S16 32) (v158 : IVec S16 32), Decidable (k0_chk33 v157 v158) := fun v157 v158 => decidable_of_iff' _ (Iff.of_eq (k0_chk33.eq_1 v157 v158))
theorem k0_idx33_inb : ∀ (v157 : IVec S16 32) (v158 : IVec S16 32) (k0_hw33 : k0_chk33 v157 v158), ∀ a x, ((![v157, v158] : Fin 2 → IVec S16 32) a x).toNat < S128x128.size a := fun v157 v158 k0_hw33 => k0_hw33

def k0_chk34 (v157 : IVec S16 32) (v165 : IVec S16 32) : Prop :=
  (∀ a x, ((![v157, v165] : Fin 2 → IVec S16 32) a x).toNat < S128x128.size a)
instance k0_chk34.dec : ∀ (v157 : IVec S16 32) (v165 : IVec S16 32), Decidable (k0_chk34 v157 v165) := fun v157 v165 => decidable_of_iff' _ (Iff.of_eq (k0_chk34.eq_1 v157 v165))
theorem k0_idx34_inb : ∀ (v157 : IVec S16 32) (v165 : IVec S16 32) (k0_hw34 : k0_chk34 v157 v165), ∀ a x, ((![v157, v165] : Fin 2 → IVec S16 32) a x).toNat < S128x128.size a := fun v157 v165 k0_hw34 => k0_hw34

def k0_chk35 (v157 : IVec S16 32) (v166 : IVec S16 32) : Prop :=
  (∀ a x, ((![v157, v166] : Fin 2 → IVec S16 32) a x).toNat < S128x128.size a)
instance k0_chk35.dec : ∀ (v157 : IVec S16 32) (v166 : IVec S16 32), Decidable (k0_chk35 v157 v166) := fun v157 v166 => decidable_of_iff' _ (Iff.of_eq (k0_chk35.eq_1 v157 v166))
theorem k0_idx35_inb : ∀ (v157 : IVec S16 32) (v166 : IVec S16 32) (k0_hw35 : k0_chk35 v157 v166), ∀ a x, ((![v157, v166] : Fin 2 → IVec S16 32) a x).toNat < S128x128.size a := fun v157 v166 k0_hw35 => k0_hw35

def k0_chk36 (v157 : IVec S16 32) (v173 : IVec S16 32) : Prop :=
  (∀ a x, ((![v157, v173] : Fin 2 → IVec S16 32) a x).toNat < S128x128.size a)
instance k0_chk36.dec : ∀ (v157 : IVec S16 32) (v173 : IVec S16 32), Decidable (k0_chk36 v157 v173) := fun v157 v173 => decidable_of_iff' _ (Iff.of_eq (k0_chk36.eq_1 v157 v173))
theorem k0_idx36_inb : ∀ (v157 : IVec S16 32) (v173 : IVec S16 32) (k0_hw36 : k0_chk36 v157 v173), ∀ a x, ((![v157, v173] : Fin 2 → IVec S16 32) a x).toNat < S128x128.size a := fun v157 v173 k0_hw36 => k0_hw36

def k0_chk37 (v157 : IVec S16 32) (v174 : IVec S16 32) : Prop :=
  (∀ a x, ((![v157, v174] : Fin 2 → IVec S16 32) a x).toNat < S128x128.size a)
instance k0_chk37.dec : ∀ (v157 : IVec S16 32) (v174 : IVec S16 32), Decidable (k0_chk37 v157 v174) := fun v157 v174 => decidable_of_iff' _ (Iff.of_eq (k0_chk37.eq_1 v157 v174))
theorem k0_idx37_inb : ∀ (v157 : IVec S16 32) (v174 : IVec S16 32) (k0_hw37 : k0_chk37 v157 v174), ∀ a x, ((![v157, v174] : Fin 2 → IVec S16 32) a x).toNat < S128x128.size a := fun v157 v174 k0_hw37 => k0_hw37

def k0_chk38 (v157 : IVec S16 32) (v181 : IVec S16 32) : Prop :=
  (∀ a x, ((![v157, v181] : Fin 2 → IVec S16 32) a x).toNat < S128x128.size a)
instance k0_chk38.dec : ∀ (v157 : IVec S16 32) (v181 : IVec S16 32), Decidable (k0_chk38 v157 v181) := fun v157 v181 => decidable_of_iff' _ (Iff.of_eq (k0_chk38.eq_1 v157 v181))
theorem k0_idx38_inb : ∀ (v157 : IVec S16 32) (v181 : IVec S16 32) (k0_hw38 : k0_chk38 v157 v181), ∀ a x, ((![v157, v181] : Fin 2 → IVec S16 32) a x).toNat < S128x128.size a := fun v157 v181 k0_hw38 => k0_hw38

def k0_chk39 (v157 : IVec S16 32) (v182 : IVec S16 32) : Prop :=
  (∀ a x, ((![v157, v182] : Fin 2 → IVec S16 32) a x).toNat < S128x128.size a)
instance k0_chk39.dec : ∀ (v157 : IVec S16 32) (v182 : IVec S16 32), Decidable (k0_chk39 v157 v182) := fun v157 v182 => decidable_of_iff' _ (Iff.of_eq (k0_chk39.eq_1 v157 v182))
theorem k0_idx39_inb : ∀ (v157 : IVec S16 32) (v182 : IVec S16 32) (k0_hw39 : k0_chk39 v157 v182), ∀ a x, ((![v157, v182] : Fin 2 → IVec S16 32) a x).toNat < S128x128.size a := fun v157 v182 k0_hw39 => k0_hw39

def k0_chk40 (v157 : IVec S16 32) (v189 : IVec S16 32) : Prop :=
  (∀ a x, ((![v157, v189] : Fin 2 → IVec S16 32) a x).toNat < S128x128.size a)
instance k0_chk40.dec : ∀ (v157 : IVec S16 32) (v189 : IVec S16 32), Decidable (k0_chk40 v157 v189) := fun v157 v189 => decidable_of_iff' _ (Iff.of_eq (k0_chk40.eq_1 v157 v189))
theorem k0_idx40_inb : ∀ (v157 : IVec S16 32) (v189 : IVec S16 32) (k0_hw40 : k0_chk40 v157 v189), ∀ a x, ((![v157, v189] : Fin 2 → IVec S16 32) a x).toNat < S128x128.size a := fun v157 v189 k0_hw40 => k0_hw40

def k0_chk41 (v191 : IVec S16 32) (v192 : IVec S16 32) : Prop :=
  (∀ a x, ((![v191, v192] : Fin 2 → IVec S16 32) a x).toNat < S128x128.size a)
instance k0_chk41.dec : ∀ (v191 : IVec S16 32) (v192 : IVec S16 32), Decidable (k0_chk41 v191 v192) := fun v191 v192 => decidable_of_iff' _ (Iff.of_eq (k0_chk41.eq_1 v191 v192))
theorem k0_idx41_inb : ∀ (v191 : IVec S16 32) (v192 : IVec S16 32) (k0_hw41 : k0_chk41 v191 v192), ∀ a x, ((![v191, v192] : Fin 2 → IVec S16 32) a x).toNat < S128x128.size a := fun v191 v192 k0_hw41 => k0_hw41

def k0_chk42 (v191 : IVec S16 32) (v199 : IVec S16 32) : Prop :=
  (∀ a x, ((![v191, v199] : Fin 2 → IVec S16 32) a x).toNat < S128x128.size a)
instance k0_chk42.dec : ∀ (v191 : IVec S16 32) (v199 : IVec S16 32), Decidable (k0_chk42 v191 v199) := fun v191 v199 => decidable_of_iff' _ (Iff.of_eq (k0_chk42.eq_1 v191 v199))
theorem k0_idx42_inb : ∀ (v191 : IVec S16 32) (v199 : IVec S16 32) (k0_hw42 : k0_chk42 v191 v199), ∀ a x, ((![v191, v199] : Fin 2 → IVec S16 32) a x).toNat < S128x128.size a := fun v191 v199 k0_hw42 => k0_hw42

def k0_chk43 (v191 : IVec S16 32) (v200 : IVec S16 32) : Prop :=
  (∀ a x, ((![v191, v200] : Fin 2 → IVec S16 32) a x).toNat < S128x128.size a)
instance k0_chk43.dec : ∀ (v191 : IVec S16 32) (v200 : IVec S16 32), Decidable (k0_chk43 v191 v200) := fun v191 v200 => decidable_of_iff' _ (Iff.of_eq (k0_chk43.eq_1 v191 v200))
theorem k0_idx43_inb : ∀ (v191 : IVec S16 32) (v200 : IVec S16 32) (k0_hw43 : k0_chk43 v191 v200), ∀ a x, ((![v191, v200] : Fin 2 → IVec S16 32) a x).toNat < S128x128.size a := fun v191 v200 k0_hw43 => k0_hw43

def k0_chk44 (v191 : IVec S16 32) (v207 : IVec S16 32) : Prop :=
  (∀ a x, ((![v191, v207] : Fin 2 → IVec S16 32) a x).toNat < S128x128.size a)
instance k0_chk44.dec : ∀ (v191 : IVec S16 32) (v207 : IVec S16 32), Decidable (k0_chk44 v191 v207) := fun v191 v207 => decidable_of_iff' _ (Iff.of_eq (k0_chk44.eq_1 v191 v207))
theorem k0_idx44_inb : ∀ (v191 : IVec S16 32) (v207 : IVec S16 32) (k0_hw44 : k0_chk44 v191 v207), ∀ a x, ((![v191, v207] : Fin 2 → IVec S16 32) a x).toNat < S128x128.size a := fun v191 v207 k0_hw44 => k0_hw44

def k0_chk45 (v191 : IVec S16 32) (v208 : IVec S16 32) : Prop :=
  (∀ a x, ((![v191, v208] : Fin 2 → IVec S16 32) a x).toNat < S128x128.size a)
instance k0_chk45.dec : ∀ (v191 : IVec S16 32) (v208 : IVec S16 32), Decidable (k0_chk45 v191 v208) := fun v191 v208 => decidable_of_iff' _ (Iff.of_eq (k0_chk45.eq_1 v191 v208))
theorem k0_idx45_inb : ∀ (v191 : IVec S16 32) (v208 : IVec S16 32) (k0_hw45 : k0_chk45 v191 v208), ∀ a x, ((![v191, v208] : Fin 2 → IVec S16 32) a x).toNat < S128x128.size a := fun v191 v208 k0_hw45 => k0_hw45

def k0_chk46 (v191 : IVec S16 32) (v215 : IVec S16 32) : Prop :=
  (∀ a x, ((![v191, v215] : Fin 2 → IVec S16 32) a x).toNat < S128x128.size a)
instance k0_chk46.dec : ∀ (v191 : IVec S16 32) (v215 : IVec S16 32), Decidable (k0_chk46 v191 v215) := fun v191 v215 => decidable_of_iff' _ (Iff.of_eq (k0_chk46.eq_1 v191 v215))
theorem k0_idx46_inb : ∀ (v191 : IVec S16 32) (v215 : IVec S16 32) (k0_hw46 : k0_chk46 v191 v215), ∀ a x, ((![v191, v215] : Fin 2 → IVec S16 32) a x).toNat < S128x128.size a := fun v191 v215 k0_hw46 => k0_hw46

def k0_chk47 (v191 : IVec S16 32) (v216 : IVec S16 32) : Prop :=
  (∀ a x, ((![v191, v216] : Fin 2 → IVec S16 32) a x).toNat < S128x128.size a)
instance k0_chk47.dec : ∀ (v191 : IVec S16 32) (v216 : IVec S16 32), Decidable (k0_chk47 v191 v216) := fun v191 v216 => decidable_of_iff' _ (Iff.of_eq (k0_chk47.eq_1 v191 v216))
theorem k0_idx47_inb : ∀ (v191 : IVec S16 32) (v216 : IVec S16 32) (k0_hw47 : k0_chk47 v191 v216), ∀ a x, ((![v191, v216] : Fin 2 → IVec S16 32) a x).toNat < S128x128.size a := fun v191 v216 k0_hw47 => k0_hw47

def k0_chk48 (v191 : IVec S16 32) (v223 : IVec S16 32) : Prop :=
  (∀ a x, ((![v191, v223] : Fin 2 → IVec S16 32) a x).toNat < S128x128.size a)
instance k0_chk48.dec : ∀ (v191 : IVec S16 32) (v223 : IVec S16 32), Decidable (k0_chk48 v191 v223) := fun v191 v223 => decidable_of_iff' _ (Iff.of_eq (k0_chk48.eq_1 v191 v223))
theorem k0_idx48_inb : ∀ (v191 : IVec S16 32) (v223 : IVec S16 32) (k0_hw48 : k0_chk48 v191 v223), ∀ a x, ((![v191, v223] : Fin 2 → IVec S16 32) a x).toNat < S128x128.size a := fun v191 v223 k0_hw48 => k0_hw48

def k0_chk49 (v225 : IVec S16 32) (v226 : IVec S16 32) : Prop :=
  (∀ a x, ((![v225, v226] : Fin 2 → IVec S16 32) a x).toNat < S128x128.size a)
instance k0_chk49.dec : ∀ (v225 : IVec S16 32) (v226 : IVec S16 32), Decidable (k0_chk49 v225 v226) := fun v225 v226 => decidable_of_iff' _ (Iff.of_eq (k0_chk49.eq_1 v225 v226))
theorem k0_idx49_inb : ∀ (v225 : IVec S16 32) (v226 : IVec S16 32) (k0_hw49 : k0_chk49 v225 v226), ∀ a x, ((![v225, v226] : Fin 2 → IVec S16 32) a x).toNat < S128x128.size a := fun v225 v226 k0_hw49 => k0_hw49

def k0_chk50 (v225 : IVec S16 32) (v233 : IVec S16 32) : Prop :=
  (∀ a x, ((![v225, v233] : Fin 2 → IVec S16 32) a x).toNat < S128x128.size a)
instance k0_chk50.dec : ∀ (v225 : IVec S16 32) (v233 : IVec S16 32), Decidable (k0_chk50 v225 v233) := fun v225 v233 => decidable_of_iff' _ (Iff.of_eq (k0_chk50.eq_1 v225 v233))
theorem k0_idx50_inb : ∀ (v225 : IVec S16 32) (v233 : IVec S16 32) (k0_hw50 : k0_chk50 v225 v233), ∀ a x, ((![v225, v233] : Fin 2 → IVec S16 32) a x).toNat < S128x128.size a := fun v225 v233 k0_hw50 => k0_hw50

def k0_chk51 (v225 : IVec S16 32) (v234 : IVec S16 32) : Prop :=
  (∀ a x, ((![v225, v234] : Fin 2 → IVec S16 32) a x).toNat < S128x128.size a)
instance k0_chk51.dec : ∀ (v225 : IVec S16 32) (v234 : IVec S16 32), Decidable (k0_chk51 v225 v234) := fun v225 v234 => decidable_of_iff' _ (Iff.of_eq (k0_chk51.eq_1 v225 v234))
theorem k0_idx51_inb : ∀ (v225 : IVec S16 32) (v234 : IVec S16 32) (k0_hw51 : k0_chk51 v225 v234), ∀ a x, ((![v225, v234] : Fin 2 → IVec S16 32) a x).toNat < S128x128.size a := fun v225 v234 k0_hw51 => k0_hw51

def k0_chk52 (v225 : IVec S16 32) (v241 : IVec S16 32) : Prop :=
  (∀ a x, ((![v225, v241] : Fin 2 → IVec S16 32) a x).toNat < S128x128.size a)
instance k0_chk52.dec : ∀ (v225 : IVec S16 32) (v241 : IVec S16 32), Decidable (k0_chk52 v225 v241) := fun v225 v241 => decidable_of_iff' _ (Iff.of_eq (k0_chk52.eq_1 v225 v241))
theorem k0_idx52_inb : ∀ (v225 : IVec S16 32) (v241 : IVec S16 32) (k0_hw52 : k0_chk52 v225 v241), ∀ a x, ((![v225, v241] : Fin 2 → IVec S16 32) a x).toNat < S128x128.size a := fun v225 v241 k0_hw52 => k0_hw52

def k0_chk53 (v225 : IVec S16 32) (v242 : IVec S16 32) : Prop :=
  (∀ a x, ((![v225, v242] : Fin 2 → IVec S16 32) a x).toNat < S128x128.size a)
instance k0_chk53.dec : ∀ (v225 : IVec S16 32) (v242 : IVec S16 32), Decidable (k0_chk53 v225 v242) := fun v225 v242 => decidable_of_iff' _ (Iff.of_eq (k0_chk53.eq_1 v225 v242))
theorem k0_idx53_inb : ∀ (v225 : IVec S16 32) (v242 : IVec S16 32) (k0_hw53 : k0_chk53 v225 v242), ∀ a x, ((![v225, v242] : Fin 2 → IVec S16 32) a x).toNat < S128x128.size a := fun v225 v242 k0_hw53 => k0_hw53

def k0_chk54 (v225 : IVec S16 32) (v249 : IVec S16 32) : Prop :=
  (∀ a x, ((![v225, v249] : Fin 2 → IVec S16 32) a x).toNat < S128x128.size a)
instance k0_chk54.dec : ∀ (v225 : IVec S16 32) (v249 : IVec S16 32), Decidable (k0_chk54 v225 v249) := fun v225 v249 => decidable_of_iff' _ (Iff.of_eq (k0_chk54.eq_1 v225 v249))
theorem k0_idx54_inb : ∀ (v225 : IVec S16 32) (v249 : IVec S16 32) (k0_hw54 : k0_chk54 v225 v249), ∀ a x, ((![v225, v249] : Fin 2 → IVec S16 32) a x).toNat < S128x128.size a := fun v225 v249 k0_hw54 => k0_hw54

def k0_chk55 (v225 : IVec S16 32) (v250 : IVec S16 32) : Prop :=
  (∀ a x, ((![v225, v250] : Fin 2 → IVec S16 32) a x).toNat < S128x128.size a)
instance k0_chk55.dec : ∀ (v225 : IVec S16 32) (v250 : IVec S16 32), Decidable (k0_chk55 v225 v250) := fun v225 v250 => decidable_of_iff' _ (Iff.of_eq (k0_chk55.eq_1 v225 v250))
theorem k0_idx55_inb : ∀ (v225 : IVec S16 32) (v250 : IVec S16 32) (k0_hw55 : k0_chk55 v225 v250), ∀ a x, ((![v225, v250] : Fin 2 → IVec S16 32) a x).toNat < S128x128.size a := fun v225 v250 k0_hw55 => k0_hw55

def k0_chk56 (v225 : IVec S16 32) (v257 : IVec S16 32) : Prop :=
  (∀ a x, ((![v225, v257] : Fin 2 → IVec S16 32) a x).toNat < S128x128.size a)
instance k0_chk56.dec : ∀ (v225 : IVec S16 32) (v257 : IVec S16 32), Decidable (k0_chk56 v225 v257) := fun v225 v257 => decidable_of_iff' _ (Iff.of_eq (k0_chk56.eq_1 v225 v257))
theorem k0_idx56_inb : ∀ (v225 : IVec S16 32) (v257 : IVec S16 32) (k0_hw56 : k0_chk56 v225 v257), ∀ a x, ((![v225, v257] : Fin 2 → IVec S16 32) a x).toNat < S128x128.size a := fun v225 v257 k0_hw56 => k0_hw56

def k0_chk57 (v259 : IVec S16 32) (v260 : IVec S16 32) : Prop :=
  (∀ a x, ((![v259, v260] : Fin 2 → IVec S16 32) a x).toNat < S128x128.size a)
instance k0_chk57.dec : ∀ (v259 : IVec S16 32) (v260 : IVec S16 32), Decidable (k0_chk57 v259 v260) := fun v259 v260 => decidable_of_iff' _ (Iff.of_eq (k0_chk57.eq_1 v259 v260))
theorem k0_idx57_inb : ∀ (v259 : IVec S16 32) (v260 : IVec S16 32) (k0_hw57 : k0_chk57 v259 v260), ∀ a x, ((![v259, v260] : Fin 2 → IVec S16 32) a x).toNat < S128x128.size a := fun v259 v260 k0_hw57 => k0_hw57

def k0_chk58 (v259 : IVec S16 32) (v267 : IVec S16 32) : Prop :=
  (∀ a x, ((![v259, v267] : Fin 2 → IVec S16 32) a x).toNat < S128x128.size a)
instance k0_chk58.dec : ∀ (v259 : IVec S16 32) (v267 : IVec S16 32), Decidable (k0_chk58 v259 v267) := fun v259 v267 => decidable_of_iff' _ (Iff.of_eq (k0_chk58.eq_1 v259 v267))
theorem k0_idx58_inb : ∀ (v259 : IVec S16 32) (v267 : IVec S16 32) (k0_hw58 : k0_chk58 v259 v267), ∀ a x, ((![v259, v267] : Fin 2 → IVec S16 32) a x).toNat < S128x128.size a := fun v259 v267 k0_hw58 => k0_hw58

def k0_chk59 (v259 : IVec S16 32) (v268 : IVec S16 32) : Prop :=
  (∀ a x, ((![v259, v268] : Fin 2 → IVec S16 32) a x).toNat < S128x128.size a)
instance k0_chk59.dec : ∀ (v259 : IVec S16 32) (v268 : IVec S16 32), Decidable (k0_chk59 v259 v268) := fun v259 v268 => decidable_of_iff' _ (Iff.of_eq (k0_chk59.eq_1 v259 v268))
theorem k0_idx59_inb : ∀ (v259 : IVec S16 32) (v268 : IVec S16 32) (k0_hw59 : k0_chk59 v259 v268), ∀ a x, ((![v259, v268] : Fin 2 → IVec S16 32) a x).toNat < S128x128.size a := fun v259 v268 k0_hw59 => k0_hw59

def k0_chk60 (v259 : IVec S16 32) (v275 : IVec S16 32) : Prop :=
  (∀ a x, ((![v259, v275] : Fin 2 → IVec S16 32) a x).toNat < S128x128.size a)
instance k0_chk60.dec : ∀ (v259 : IVec S16 32) (v275 : IVec S16 32), Decidable (k0_chk60 v259 v275) := fun v259 v275 => decidable_of_iff' _ (Iff.of_eq (k0_chk60.eq_1 v259 v275))
theorem k0_idx60_inb : ∀ (v259 : IVec S16 32) (v275 : IVec S16 32) (k0_hw60 : k0_chk60 v259 v275), ∀ a x, ((![v259, v275] : Fin 2 → IVec S16 32) a x).toNat < S128x128.size a := fun v259 v275 k0_hw60 => k0_hw60

def k0_chk61 (v259 : IVec S16 32) (v276 : IVec S16 32) : Prop :=
  (∀ a x, ((![v259, v276] : Fin 2 → IVec S16 32) a x).toNat < S128x128.size a)
instance k0_chk61.dec : ∀ (v259 : IVec S16 32) (v276 : IVec S16 32), Decidable (k0_chk61 v259 v276) := fun v259 v276 => decidable_of_iff' _ (Iff.of_eq (k0_chk61.eq_1 v259 v276))
theorem k0_idx61_inb : ∀ (v259 : IVec S16 32) (v276 : IVec S16 32) (k0_hw61 : k0_chk61 v259 v276), ∀ a x, ((![v259, v276] : Fin 2 → IVec S16 32) a x).toNat < S128x128.size a := fun v259 v276 k0_hw61 => k0_hw61

def k0_chk62 (v259 : IVec S16 32) (v283 : IVec S16 32) : Prop :=
  (∀ a x, ((![v259, v283] : Fin 2 → IVec S16 32) a x).toNat < S128x128.size a)
instance k0_chk62.dec : ∀ (v259 : IVec S16 32) (v283 : IVec S16 32), Decidable (k0_chk62 v259 v283) := fun v259 v283 => decidable_of_iff' _ (Iff.of_eq (k0_chk62.eq_1 v259 v283))
theorem k0_idx62_inb : ∀ (v259 : IVec S16 32) (v283 : IVec S16 32) (k0_hw62 : k0_chk62 v259 v283), ∀ a x, ((![v259, v283] : Fin 2 → IVec S16 32) a x).toNat < S128x128.size a := fun v259 v283 k0_hw62 => k0_hw62

def k0_chk63 (v259 : IVec S16 32) (v284 : IVec S16 32) : Prop :=
  (∀ a x, ((![v259, v284] : Fin 2 → IVec S16 32) a x).toNat < S128x128.size a)
instance k0_chk63.dec : ∀ (v259 : IVec S16 32) (v284 : IVec S16 32), Decidable (k0_chk63 v259 v284) := fun v259 v284 => decidable_of_iff' _ (Iff.of_eq (k0_chk63.eq_1 v259 v284))
theorem k0_idx63_inb : ∀ (v259 : IVec S16 32) (v284 : IVec S16 32) (k0_hw63 : k0_chk63 v259 v284), ∀ a x, ((![v259, v284] : Fin 2 → IVec S16 32) a x).toNat < S128x128.size a := fun v259 v284 k0_hw63 => k0_hw63

def k0_chk64 (v259 : IVec S16 32) (v291 : IVec S16 32) : Prop :=
  (∀ a x, ((![v259, v291] : Fin 2 → IVec S16 32) a x).toNat < S128x128.size a)
instance k0_chk64.dec : ∀ (v259 : IVec S16 32) (v291 : IVec S16 32), Decidable (k0_chk64 v259 v291) := fun v259 v291 => decidable_of_iff' _ (Iff.of_eq (k0_chk64.eq_1 v259 v291))
theorem k0_idx64_inb : ∀ (v259 : IVec S16 32) (v291 : IVec S16 32) (k0_hw64 : k0_chk64 v259 v291), ∀ a x, ((![v259, v291] : Fin 2 → IVec S16 32) a x).toNat < S128x128.size a := fun v259 v291 k0_hw64 => k0_hw64
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let v7 : BitVec 32 := Scalar.addi v2 c0_i32_0
  let c0_i32_169 : BitVec 32 := 0#32
  ![v7.toNat, 0]
def k0_off11 (i : grid0.Coords) (c256_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi v2 c256_i32
  let c128_i32_171 : BitVec 32 := 128#32
  ![v5.toNat, 128]

def k0_chk65 (v299 : IVec S16 32) (v300 : IVec S16 32) : Prop :=
  (∀ a x, ((![v299, v300] : Fin 2 → IVec S16 32) a x).toNat < S128x128.size a)
instance k0_chk65.dec : ∀ (v299 : IVec S16 32) (v300 : IVec S16 32), Decidable (k0_chk65 v299 v300) := fun v299 v300 => decidable_of_iff' _ (Iff.of_eq (k0_chk65.eq_1 v299 v300))
theorem k0_idx65_inb : ∀ (v299 : IVec S16 32) (v300 : IVec S16 32) (k0_hw65 : k0_chk65 v299 v300), ∀ a x, ((![v299, v300] : Fin 2 → IVec S16 32) a x).toNat < S128x128.size a := fun v299 v300 k0_hw65 => k0_hw65

def k0_chk66 (v299 : IVec S16 32) (v307 : IVec S16 32) : Prop :=
  (∀ a x, ((![v299, v307] : Fin 2 → IVec S16 32) a x).toNat < S128x128.size a)
instance k0_chk66.dec : ∀ (v299 : IVec S16 32) (v307 : IVec S16 32), Decidable (k0_chk66 v299 v307) := fun v299 v307 => decidable_of_iff' _ (Iff.of_eq (k0_chk66.eq_1 v299 v307))
theorem k0_idx66_inb : ∀ (v299 : IVec S16 32) (v307 : IVec S16 32) (k0_hw66 : k0_chk66 v299 v307), ∀ a x, ((![v299, v307] : Fin 2 → IVec S16 32) a x).toNat < S128x128.size a := fun v299 v307 k0_hw66 => k0_hw66

def k0_chk67 (v299 : IVec S16 32) (v308 : IVec S16 32) : Prop :=
  (∀ a x, ((![v299, v308] : Fin 2 → IVec S16 32) a x).toNat < S128x128.size a)
instance k0_chk67.dec : ∀ (v299 : IVec S16 32) (v308 : IVec S16 32), Decidable (k0_chk67 v299 v308) := fun v299 v308 => decidable_of_iff' _ (Iff.of_eq (k0_chk67.eq_1 v299 v308))
theorem k0_idx67_inb : ∀ (v299 : IVec S16 32) (v308 : IVec S16 32) (k0_hw67 : k0_chk67 v299 v308), ∀ a x, ((![v299, v308] : Fin 2 → IVec S16 32) a x).toNat < S128x128.size a := fun v299 v308 k0_hw67 => k0_hw67

def k0_chk68 (v299 : IVec S16 32) (v315 : IVec S16 32) : Prop :=
  (∀ a x, ((![v299, v315] : Fin 2 → IVec S16 32) a x).toNat < S128x128.size a)
instance k0_chk68.dec : ∀ (v299 : IVec S16 32) (v315 : IVec S16 32), Decidable (k0_chk68 v299 v315) := fun v299 v315 => decidable_of_iff' _ (Iff.of_eq (k0_chk68.eq_1 v299 v315))
theorem k0_idx68_inb : ∀ (v299 : IVec S16 32) (v315 : IVec S16 32) (k0_hw68 : k0_chk68 v299 v315), ∀ a x, ((![v299, v315] : Fin 2 → IVec S16 32) a x).toNat < S128x128.size a := fun v299 v315 k0_hw68 => k0_hw68

def k0_chk69 (v299 : IVec S16 32) (v316 : IVec S16 32) : Prop :=
  (∀ a x, ((![v299, v316] : Fin 2 → IVec S16 32) a x).toNat < S128x128.size a)
instance k0_chk69.dec : ∀ (v299 : IVec S16 32) (v316 : IVec S16 32), Decidable (k0_chk69 v299 v316) := fun v299 v316 => decidable_of_iff' _ (Iff.of_eq (k0_chk69.eq_1 v299 v316))
theorem k0_idx69_inb : ∀ (v299 : IVec S16 32) (v316 : IVec S16 32) (k0_hw69 : k0_chk69 v299 v316), ∀ a x, ((![v299, v316] : Fin 2 → IVec S16 32) a x).toNat < S128x128.size a := fun v299 v316 k0_hw69 => k0_hw69

def k0_chk70 (v299 : IVec S16 32) (v323 : IVec S16 32) : Prop :=
  (∀ a x, ((![v299, v323] : Fin 2 → IVec S16 32) a x).toNat < S128x128.size a)
instance k0_chk70.dec : ∀ (v299 : IVec S16 32) (v323 : IVec S16 32), Decidable (k0_chk70 v299 v323) := fun v299 v323 => decidable_of_iff' _ (Iff.of_eq (k0_chk70.eq_1 v299 v323))
theorem k0_idx70_inb : ∀ (v299 : IVec S16 32) (v323 : IVec S16 32) (k0_hw70 : k0_chk70 v299 v323), ∀ a x, ((![v299, v323] : Fin 2 → IVec S16 32) a x).toNat < S128x128.size a := fun v299 v323 k0_hw70 => k0_hw70

def k0_chk71 (v299 : IVec S16 32) (v324 : IVec S16 32) : Prop :=
  (∀ a x, ((![v299, v324] : Fin 2 → IVec S16 32) a x).toNat < S128x128.size a)
instance k0_chk71.dec : ∀ (v299 : IVec S16 32) (v324 : IVec S16 32), Decidable (k0_chk71 v299 v324) := fun v299 v324 => decidable_of_iff' _ (Iff.of_eq (k0_chk71.eq_1 v299 v324))
theorem k0_idx71_inb : ∀ (v299 : IVec S16 32) (v324 : IVec S16 32) (k0_hw71 : k0_chk71 v299 v324), ∀ a x, ((![v299, v324] : Fin 2 → IVec S16 32) a x).toNat < S128x128.size a := fun v299 v324 k0_hw71 => k0_hw71

def k0_chk72 (v299 : IVec S16 32) (v331 : IVec S16 32) : Prop :=
  (∀ a x, ((![v299, v331] : Fin 2 → IVec S16 32) a x).toNat < S128x128.size a)
instance k0_chk72.dec : ∀ (v299 : IVec S16 32) (v331 : IVec S16 32), Decidable (k0_chk72 v299 v331) := fun v299 v331 => decidable_of_iff' _ (Iff.of_eq (k0_chk72.eq_1 v299 v331))
theorem k0_idx72_inb : ∀ (v299 : IVec S16 32) (v331 : IVec S16 32) (k0_hw72 : k0_chk72 v299 v331), ∀ a x, ((![v299, v331] : Fin 2 → IVec S16 32) a x).toNat < S128x128.size a := fun v299 v331 k0_hw72 => k0_hw72

def k0_chk73 (v333 : IVec S16 32) (v334 : IVec S16 32) : Prop :=
  (∀ a x, ((![v333, v334] : Fin 2 → IVec S16 32) a x).toNat < S128x128.size a)
instance k0_chk73.dec : ∀ (v333 : IVec S16 32) (v334 : IVec S16 32), Decidable (k0_chk73 v333 v334) := fun v333 v334 => decidable_of_iff' _ (Iff.of_eq (k0_chk73.eq_1 v333 v334))
theorem k0_idx73_inb : ∀ (v333 : IVec S16 32) (v334 : IVec S16 32) (k0_hw73 : k0_chk73 v333 v334), ∀ a x, ((![v333, v334] : Fin 2 → IVec S16 32) a x).toNat < S128x128.size a := fun v333 v334 k0_hw73 => k0_hw73

def k0_chk74 (v333 : IVec S16 32) (v341 : IVec S16 32) : Prop :=
  (∀ a x, ((![v333, v341] : Fin 2 → IVec S16 32) a x).toNat < S128x128.size a)
instance k0_chk74.dec : ∀ (v333 : IVec S16 32) (v341 : IVec S16 32), Decidable (k0_chk74 v333 v341) := fun v333 v341 => decidable_of_iff' _ (Iff.of_eq (k0_chk74.eq_1 v333 v341))
theorem k0_idx74_inb : ∀ (v333 : IVec S16 32) (v341 : IVec S16 32) (k0_hw74 : k0_chk74 v333 v341), ∀ a x, ((![v333, v341] : Fin 2 → IVec S16 32) a x).toNat < S128x128.size a := fun v333 v341 k0_hw74 => k0_hw74

def k0_chk75 (v333 : IVec S16 32) (v342 : IVec S16 32) : Prop :=
  (∀ a x, ((![v333, v342] : Fin 2 → IVec S16 32) a x).toNat < S128x128.size a)
instance k0_chk75.dec : ∀ (v333 : IVec S16 32) (v342 : IVec S16 32), Decidable (k0_chk75 v333 v342) := fun v333 v342 => decidable_of_iff' _ (Iff.of_eq (k0_chk75.eq_1 v333 v342))
theorem k0_idx75_inb : ∀ (v333 : IVec S16 32) (v342 : IVec S16 32) (k0_hw75 : k0_chk75 v333 v342), ∀ a x, ((![v333, v342] : Fin 2 → IVec S16 32) a x).toNat < S128x128.size a := fun v333 v342 k0_hw75 => k0_hw75

def k0_chk76 (v333 : IVec S16 32) (v349 : IVec S16 32) : Prop :=
  (∀ a x, ((![v333, v349] : Fin 2 → IVec S16 32) a x).toNat < S128x128.size a)
instance k0_chk76.dec : ∀ (v333 : IVec S16 32) (v349 : IVec S16 32), Decidable (k0_chk76 v333 v349) := fun v333 v349 => decidable_of_iff' _ (Iff.of_eq (k0_chk76.eq_1 v333 v349))
theorem k0_idx76_inb : ∀ (v333 : IVec S16 32) (v349 : IVec S16 32) (k0_hw76 : k0_chk76 v333 v349), ∀ a x, ((![v333, v349] : Fin 2 → IVec S16 32) a x).toNat < S128x128.size a := fun v333 v349 k0_hw76 => k0_hw76

def k0_chk77 (v333 : IVec S16 32) (v350 : IVec S16 32) : Prop :=
  (∀ a x, ((![v333, v350] : Fin 2 → IVec S16 32) a x).toNat < S128x128.size a)
instance k0_chk77.dec : ∀ (v333 : IVec S16 32) (v350 : IVec S16 32), Decidable (k0_chk77 v333 v350) := fun v333 v350 => decidable_of_iff' _ (Iff.of_eq (k0_chk77.eq_1 v333 v350))
theorem k0_idx77_inb : ∀ (v333 : IVec S16 32) (v350 : IVec S16 32) (k0_hw77 : k0_chk77 v333 v350), ∀ a x, ((![v333, v350] : Fin 2 → IVec S16 32) a x).toNat < S128x128.size a := fun v333 v350 k0_hw77 => k0_hw77

def k0_chk78 (v333 : IVec S16 32) (v357 : IVec S16 32) : Prop :=
  (∀ a x, ((![v333, v357] : Fin 2 → IVec S16 32) a x).toNat < S128x128.size a)
instance k0_chk78.dec : ∀ (v333 : IVec S16 32) (v357 : IVec S16 32), Decidable (k0_chk78 v333 v357) := fun v333 v357 => decidable_of_iff' _ (Iff.of_eq (k0_chk78.eq_1 v333 v357))
theorem k0_idx78_inb : ∀ (v333 : IVec S16 32) (v357 : IVec S16 32) (k0_hw78 : k0_chk78 v333 v357), ∀ a x, ((![v333, v357] : Fin 2 → IVec S16 32) a x).toNat < S128x128.size a := fun v333 v357 k0_hw78 => k0_hw78

def k0_chk79 (v333 : IVec S16 32) (v358 : IVec S16 32) : Prop :=
  (∀ a x, ((![v333, v358] : Fin 2 → IVec S16 32) a x).toNat < S128x128.size a)
instance k0_chk79.dec : ∀ (v333 : IVec S16 32) (v358 : IVec S16 32), Decidable (k0_chk79 v333 v358) := fun v333 v358 => decidable_of_iff' _ (Iff.of_eq (k0_chk79.eq_1 v333 v358))
theorem k0_idx79_inb : ∀ (v333 : IVec S16 32) (v358 : IVec S16 32) (k0_hw79 : k0_chk79 v333 v358), ∀ a x, ((![v333, v358] : Fin 2 → IVec S16 32) a x).toNat < S128x128.size a := fun v333 v358 k0_hw79 => k0_hw79

def k0_chk80 (v333 : IVec S16 32) (v365 : IVec S16 32) : Prop :=
  (∀ a x, ((![v333, v365] : Fin 2 → IVec S16 32) a x).toNat < S128x128.size a)
instance k0_chk80.dec : ∀ (v333 : IVec S16 32) (v365 : IVec S16 32), Decidable (k0_chk80 v333 v365) := fun v333 v365 => decidable_of_iff' _ (Iff.of_eq (k0_chk80.eq_1 v333 v365))
theorem k0_idx80_inb : ∀ (v333 : IVec S16 32) (v365 : IVec S16 32) (k0_hw80 : k0_chk80 v333 v365), ∀ a x, ((![v333, v365] : Fin 2 → IVec S16 32) a x).toNat < S128x128.size a := fun v333 v365 k0_hw80 => k0_hw80

def k0_chk81 (v367 : IVec S16 32) (v368 : IVec S16 32) : Prop :=
  (∀ a x, ((![v367, v368] : Fin 2 → IVec S16 32) a x).toNat < S128x128.size a)
instance k0_chk81.dec : ∀ (v367 : IVec S16 32) (v368 : IVec S16 32), Decidable (k0_chk81 v367 v368) := fun v367 v368 => decidable_of_iff' _ (Iff.of_eq (k0_chk81.eq_1 v367 v368))
theorem k0_idx81_inb : ∀ (v367 : IVec S16 32) (v368 : IVec S16 32) (k0_hw81 : k0_chk81 v367 v368), ∀ a x, ((![v367, v368] : Fin 2 → IVec S16 32) a x).toNat < S128x128.size a := fun v367 v368 k0_hw81 => k0_hw81

def k0_chk82 (v367 : IVec S16 32) (v375 : IVec S16 32) : Prop :=
  (∀ a x, ((![v367, v375] : Fin 2 → IVec S16 32) a x).toNat < S128x128.size a)
instance k0_chk82.dec : ∀ (v367 : IVec S16 32) (v375 : IVec S16 32), Decidable (k0_chk82 v367 v375) := fun v367 v375 => decidable_of_iff' _ (Iff.of_eq (k0_chk82.eq_1 v367 v375))
theorem k0_idx82_inb : ∀ (v367 : IVec S16 32) (v375 : IVec S16 32) (k0_hw82 : k0_chk82 v367 v375), ∀ a x, ((![v367, v375] : Fin 2 → IVec S16 32) a x).toNat < S128x128.size a := fun v367 v375 k0_hw82 => k0_hw82

def k0_chk83 (v367 : IVec S16 32) (v376 : IVec S16 32) : Prop :=
  (∀ a x, ((![v367, v376] : Fin 2 → IVec S16 32) a x).toNat < S128x128.size a)
instance k0_chk83.dec : ∀ (v367 : IVec S16 32) (v376 : IVec S16 32), Decidable (k0_chk83 v367 v376) := fun v367 v376 => decidable_of_iff' _ (Iff.of_eq (k0_chk83.eq_1 v367 v376))
theorem k0_idx83_inb : ∀ (v367 : IVec S16 32) (v376 : IVec S16 32) (k0_hw83 : k0_chk83 v367 v376), ∀ a x, ((![v367, v376] : Fin 2 → IVec S16 32) a x).toNat < S128x128.size a := fun v367 v376 k0_hw83 => k0_hw83

def k0_chk84 (v367 : IVec S16 32) (v383 : IVec S16 32) : Prop :=
  (∀ a x, ((![v367, v383] : Fin 2 → IVec S16 32) a x).toNat < S128x128.size a)
instance k0_chk84.dec : ∀ (v367 : IVec S16 32) (v383 : IVec S16 32), Decidable (k0_chk84 v367 v383) := fun v367 v383 => decidable_of_iff' _ (Iff.of_eq (k0_chk84.eq_1 v367 v383))
theorem k0_idx84_inb : ∀ (v367 : IVec S16 32) (v383 : IVec S16 32) (k0_hw84 : k0_chk84 v367 v383), ∀ a x, ((![v367, v383] : Fin 2 → IVec S16 32) a x).toNat < S128x128.size a := fun v367 v383 k0_hw84 => k0_hw84

def k0_chk85 (v367 : IVec S16 32) (v384 : IVec S16 32) : Prop :=
  (∀ a x, ((![v367, v384] : Fin 2 → IVec S16 32) a x).toNat < S128x128.size a)
instance k0_chk85.dec : ∀ (v367 : IVec S16 32) (v384 : IVec S16 32), Decidable (k0_chk85 v367 v384) := fun v367 v384 => decidable_of_iff' _ (Iff.of_eq (k0_chk85.eq_1 v367 v384))
theorem k0_idx85_inb : ∀ (v367 : IVec S16 32) (v384 : IVec S16 32) (k0_hw85 : k0_chk85 v367 v384), ∀ a x, ((![v367, v384] : Fin 2 → IVec S16 32) a x).toNat < S128x128.size a := fun v367 v384 k0_hw85 => k0_hw85

def k0_chk86 (v367 : IVec S16 32) (v391 : IVec S16 32) : Prop :=
  (∀ a x, ((![v367, v391] : Fin 2 → IVec S16 32) a x).toNat < S128x128.size a)
instance k0_chk86.dec : ∀ (v367 : IVec S16 32) (v391 : IVec S16 32), Decidable (k0_chk86 v367 v391) := fun v367 v391 => decidable_of_iff' _ (Iff.of_eq (k0_chk86.eq_1 v367 v391))
theorem k0_idx86_inb : ∀ (v367 : IVec S16 32) (v391 : IVec S16 32) (k0_hw86 : k0_chk86 v367 v391), ∀ a x, ((![v367, v391] : Fin 2 → IVec S16 32) a x).toNat < S128x128.size a := fun v367 v391 k0_hw86 => k0_hw86

def k0_chk87 (v367 : IVec S16 32) (v392 : IVec S16 32) : Prop :=
  (∀ a x, ((![v367, v392] : Fin 2 → IVec S16 32) a x).toNat < S128x128.size a)
instance k0_chk87.dec : ∀ (v367 : IVec S16 32) (v392 : IVec S16 32), Decidable (k0_chk87 v367 v392) := fun v367 v392 => decidable_of_iff' _ (Iff.of_eq (k0_chk87.eq_1 v367 v392))
theorem k0_idx87_inb : ∀ (v367 : IVec S16 32) (v392 : IVec S16 32) (k0_hw87 : k0_chk87 v367 v392), ∀ a x, ((![v367, v392] : Fin 2 → IVec S16 32) a x).toNat < S128x128.size a := fun v367 v392 k0_hw87 => k0_hw87

def k0_chk88 (v367 : IVec S16 32) (v399 : IVec S16 32) : Prop :=
  (∀ a x, ((![v367, v399] : Fin 2 → IVec S16 32) a x).toNat < S128x128.size a)
instance k0_chk88.dec : ∀ (v367 : IVec S16 32) (v399 : IVec S16 32), Decidable (k0_chk88 v367 v399) := fun v367 v399 => decidable_of_iff' _ (Iff.of_eq (k0_chk88.eq_1 v367 v399))
theorem k0_idx88_inb : ∀ (v367 : IVec S16 32) (v399 : IVec S16 32) (k0_hw88 : k0_chk88 v367 v399), ∀ a x, ((![v367, v399] : Fin 2 → IVec S16 32) a x).toNat < S128x128.size a := fun v367 v399 k0_hw88 => k0_hw88

def k0_chk89 (v401 : IVec S16 32) (v402 : IVec S16 32) : Prop :=
  (∀ a x, ((![v401, v402] : Fin 2 → IVec S16 32) a x).toNat < S128x128.size a)
instance k0_chk89.dec : ∀ (v401 : IVec S16 32) (v402 : IVec S16 32), Decidable (k0_chk89 v401 v402) := fun v401 v402 => decidable_of_iff' _ (Iff.of_eq (k0_chk89.eq_1 v401 v402))
theorem k0_idx89_inb : ∀ (v401 : IVec S16 32) (v402 : IVec S16 32) (k0_hw89 : k0_chk89 v401 v402), ∀ a x, ((![v401, v402] : Fin 2 → IVec S16 32) a x).toNat < S128x128.size a := fun v401 v402 k0_hw89 => k0_hw89

def k0_chk90 (v401 : IVec S16 32) (v409 : IVec S16 32) : Prop :=
  (∀ a x, ((![v401, v409] : Fin 2 → IVec S16 32) a x).toNat < S128x128.size a)
instance k0_chk90.dec : ∀ (v401 : IVec S16 32) (v409 : IVec S16 32), Decidable (k0_chk90 v401 v409) := fun v401 v409 => decidable_of_iff' _ (Iff.of_eq (k0_chk90.eq_1 v401 v409))
theorem k0_idx90_inb : ∀ (v401 : IVec S16 32) (v409 : IVec S16 32) (k0_hw90 : k0_chk90 v401 v409), ∀ a x, ((![v401, v409] : Fin 2 → IVec S16 32) a x).toNat < S128x128.size a := fun v401 v409 k0_hw90 => k0_hw90

def k0_chk91 (v401 : IVec S16 32) (v410 : IVec S16 32) : Prop :=
  (∀ a x, ((![v401, v410] : Fin 2 → IVec S16 32) a x).toNat < S128x128.size a)
instance k0_chk91.dec : ∀ (v401 : IVec S16 32) (v410 : IVec S16 32), Decidable (k0_chk91 v401 v410) := fun v401 v410 => decidable_of_iff' _ (Iff.of_eq (k0_chk91.eq_1 v401 v410))
theorem k0_idx91_inb : ∀ (v401 : IVec S16 32) (v410 : IVec S16 32) (k0_hw91 : k0_chk91 v401 v410), ∀ a x, ((![v401, v410] : Fin 2 → IVec S16 32) a x).toNat < S128x128.size a := fun v401 v410 k0_hw91 => k0_hw91

def k0_chk92 (v401 : IVec S16 32) (v417 : IVec S16 32) : Prop :=
  (∀ a x, ((![v401, v417] : Fin 2 → IVec S16 32) a x).toNat < S128x128.size a)
instance k0_chk92.dec : ∀ (v401 : IVec S16 32) (v417 : IVec S16 32), Decidable (k0_chk92 v401 v417) := fun v401 v417 => decidable_of_iff' _ (Iff.of_eq (k0_chk92.eq_1 v401 v417))
theorem k0_idx92_inb : ∀ (v401 : IVec S16 32) (v417 : IVec S16 32) (k0_hw92 : k0_chk92 v401 v417), ∀ a x, ((![v401, v417] : Fin 2 → IVec S16 32) a x).toNat < S128x128.size a := fun v401 v417 k0_hw92 => k0_hw92

def k0_chk93 (v401 : IVec S16 32) (v418 : IVec S16 32) : Prop :=
  (∀ a x, ((![v401, v418] : Fin 2 → IVec S16 32) a x).toNat < S128x128.size a)
instance k0_chk93.dec : ∀ (v401 : IVec S16 32) (v418 : IVec S16 32), Decidable (k0_chk93 v401 v418) := fun v401 v418 => decidable_of_iff' _ (Iff.of_eq (k0_chk93.eq_1 v401 v418))
theorem k0_idx93_inb : ∀ (v401 : IVec S16 32) (v418 : IVec S16 32) (k0_hw93 : k0_chk93 v401 v418), ∀ a x, ((![v401, v418] : Fin 2 → IVec S16 32) a x).toNat < S128x128.size a := fun v401 v418 k0_hw93 => k0_hw93

def k0_chk94 (v401 : IVec S16 32) (v425 : IVec S16 32) : Prop :=
  (∀ a x, ((![v401, v425] : Fin 2 → IVec S16 32) a x).toNat < S128x128.size a)
instance k0_chk94.dec : ∀ (v401 : IVec S16 32) (v425 : IVec S16 32), Decidable (k0_chk94 v401 v425) := fun v401 v425 => decidable_of_iff' _ (Iff.of_eq (k0_chk94.eq_1 v401 v425))
theorem k0_idx94_inb : ∀ (v401 : IVec S16 32) (v425 : IVec S16 32) (k0_hw94 : k0_chk94 v401 v425), ∀ a x, ((![v401, v425] : Fin 2 → IVec S16 32) a x).toNat < S128x128.size a := fun v401 v425 k0_hw94 => k0_hw94

def k0_chk95 (v401 : IVec S16 32) (v426 : IVec S16 32) : Prop :=
  (∀ a x, ((![v401, v426] : Fin 2 → IVec S16 32) a x).toNat < S128x128.size a)
instance k0_chk95.dec : ∀ (v401 : IVec S16 32) (v426 : IVec S16 32), Decidable (k0_chk95 v401 v426) := fun v401 v426 => decidable_of_iff' _ (Iff.of_eq (k0_chk95.eq_1 v401 v426))
theorem k0_idx95_inb : ∀ (v401 : IVec S16 32) (v426 : IVec S16 32) (k0_hw95 : k0_chk95 v401 v426), ∀ a x, ((![v401, v426] : Fin 2 → IVec S16 32) a x).toNat < S128x128.size a := fun v401 v426 k0_hw95 => k0_hw95

def k0_chk96 (v401 : IVec S16 32) (v433 : IVec S16 32) : Prop :=
  (∀ a x, ((![v401, v433] : Fin 2 → IVec S16 32) a x).toNat < S128x128.size a)
instance k0_chk96.dec : ∀ (v401 : IVec S16 32) (v433 : IVec S16 32), Decidable (k0_chk96 v401 v433) := fun v401 v433 => decidable_of_iff' _ (Iff.of_eq (k0_chk96.eq_1 v401 v433))
theorem k0_idx96_inb : ∀ (v401 : IVec S16 32) (v433 : IVec S16 32) (k0_hw96 : k0_chk96 v401 v433), ∀ a x, ((![v401, v433] : Fin 2 → IVec S16 32) a x).toNat < S128x128.size a := fun v401 v433 k0_hw96 => k0_hw96

def k0_chk97 (v435 : IVec S16 32) (v436 : IVec S16 32) : Prop :=
  (∀ a x, ((![v435, v436] : Fin 2 → IVec S16 32) a x).toNat < S128x128.size a)
instance k0_chk97.dec : ∀ (v435 : IVec S16 32) (v436 : IVec S16 32), Decidable (k0_chk97 v435 v436) := fun v435 v436 => decidable_of_iff' _ (Iff.of_eq (k0_chk97.eq_1 v435 v436))
theorem k0_idx97_inb : ∀ (v435 : IVec S16 32) (v436 : IVec S16 32) (k0_hw97 : k0_chk97 v435 v436), ∀ a x, ((![v435, v436] : Fin 2 → IVec S16 32) a x).toNat < S128x128.size a := fun v435 v436 k0_hw97 => k0_hw97

def k0_chk98 (v435 : IVec S16 32) (v443 : IVec S16 32) : Prop :=
  (∀ a x, ((![v435, v443] : Fin 2 → IVec S16 32) a x).toNat < S128x128.size a)
instance k0_chk98.dec : ∀ (v435 : IVec S16 32) (v443 : IVec S16 32), Decidable (k0_chk98 v435 v443) := fun v435 v443 => decidable_of_iff' _ (Iff.of_eq (k0_chk98.eq_1 v435 v443))
theorem k0_idx98_inb : ∀ (v435 : IVec S16 32) (v443 : IVec S16 32) (k0_hw98 : k0_chk98 v435 v443), ∀ a x, ((![v435, v443] : Fin 2 → IVec S16 32) a x).toNat < S128x128.size a := fun v435 v443 k0_hw98 => k0_hw98

def k0_chk99 (v435 : IVec S16 32) (v444 : IVec S16 32) : Prop :=
  (∀ a x, ((![v435, v444] : Fin 2 → IVec S16 32) a x).toNat < S128x128.size a)
instance k0_chk99.dec : ∀ (v435 : IVec S16 32) (v444 : IVec S16 32), Decidable (k0_chk99 v435 v444) := fun v435 v444 => decidable_of_iff' _ (Iff.of_eq (k0_chk99.eq_1 v435 v444))
theorem k0_idx99_inb : ∀ (v435 : IVec S16 32) (v444 : IVec S16 32) (k0_hw99 : k0_chk99 v435 v444), ∀ a x, ((![v435, v444] : Fin 2 → IVec S16 32) a x).toNat < S128x128.size a := fun v435 v444 k0_hw99 => k0_hw99

def k0_chk100 (v435 : IVec S16 32) (v451 : IVec S16 32) : Prop :=
  (∀ a x, ((![v435, v451] : Fin 2 → IVec S16 32) a x).toNat < S128x128.size a)
instance k0_chk100.dec : ∀ (v435 : IVec S16 32) (v451 : IVec S16 32), Decidable (k0_chk100 v435 v451) := fun v435 v451 => decidable_of_iff' _ (Iff.of_eq (k0_chk100.eq_1 v435 v451))
theorem k0_idx100_inb : ∀ (v435 : IVec S16 32) (v451 : IVec S16 32) (k0_hw100 : k0_chk100 v435 v451), ∀ a x, ((![v435, v451] : Fin 2 → IVec S16 32) a x).toNat < S128x128.size a := fun v435 v451 k0_hw100 => k0_hw100

def k0_chk101 (v435 : IVec S16 32) (v452 : IVec S16 32) : Prop :=
  (∀ a x, ((![v435, v452] : Fin 2 → IVec S16 32) a x).toNat < S128x128.size a)
instance k0_chk101.dec : ∀ (v435 : IVec S16 32) (v452 : IVec S16 32), Decidable (k0_chk101 v435 v452) := fun v435 v452 => decidable_of_iff' _ (Iff.of_eq (k0_chk101.eq_1 v435 v452))
theorem k0_idx101_inb : ∀ (v435 : IVec S16 32) (v452 : IVec S16 32) (k0_hw101 : k0_chk101 v435 v452), ∀ a x, ((![v435, v452] : Fin 2 → IVec S16 32) a x).toNat < S128x128.size a := fun v435 v452 k0_hw101 => k0_hw101

def k0_chk102 (v435 : IVec S16 32) (v459 : IVec S16 32) : Prop :=
  (∀ a x, ((![v435, v459] : Fin 2 → IVec S16 32) a x).toNat < S128x128.size a)
instance k0_chk102.dec : ∀ (v435 : IVec S16 32) (v459 : IVec S16 32), Decidable (k0_chk102 v435 v459) := fun v435 v459 => decidable_of_iff' _ (Iff.of_eq (k0_chk102.eq_1 v435 v459))
theorem k0_idx102_inb : ∀ (v435 : IVec S16 32) (v459 : IVec S16 32) (k0_hw102 : k0_chk102 v435 v459), ∀ a x, ((![v435, v459] : Fin 2 → IVec S16 32) a x).toNat < S128x128.size a := fun v435 v459 k0_hw102 => k0_hw102

def k0_chk103 (v435 : IVec S16 32) (v460 : IVec S16 32) : Prop :=
  (∀ a x, ((![v435, v460] : Fin 2 → IVec S16 32) a x).toNat < S128x128.size a)
instance k0_chk103.dec : ∀ (v435 : IVec S16 32) (v460 : IVec S16 32), Decidable (k0_chk103 v435 v460) := fun v435 v460 => decidable_of_iff' _ (Iff.of_eq (k0_chk103.eq_1 v435 v460))
theorem k0_idx103_inb : ∀ (v435 : IVec S16 32) (v460 : IVec S16 32) (k0_hw103 : k0_chk103 v435 v460), ∀ a x, ((![v435, v460] : Fin 2 → IVec S16 32) a x).toNat < S128x128.size a := fun v435 v460 k0_hw103 => k0_hw103

def k0_chk104 (v435 : IVec S16 32) (v467 : IVec S16 32) : Prop :=
  (∀ a x, ((![v435, v467] : Fin 2 → IVec S16 32) a x).toNat < S128x128.size a)
instance k0_chk104.dec : ∀ (v435 : IVec S16 32) (v467 : IVec S16 32), Decidable (k0_chk104 v435 v467) := fun v435 v467 => decidable_of_iff' _ (Iff.of_eq (k0_chk104.eq_1 v435 v467))
theorem k0_idx104_inb : ∀ (v435 : IVec S16 32) (v467 : IVec S16 32) (k0_hw104 : k0_chk104 v435 v467), ∀ a x, ((![v435, v467] : Fin 2 → IVec S16 32) a x).toNat < S128x128.size a := fun v435 v467 k0_hw104 => k0_hw104

def k0_chk105 (v469 : IVec S16 32) (v470 : IVec S16 32) : Prop :=
  (∀ a x, ((![v469, v470] : Fin 2 → IVec S16 32) a x).toNat < S128x128.size a)
instance k0_chk105.dec : ∀ (v469 : IVec S16 32) (v470 : IVec S16 32), Decidable (k0_chk105 v469 v470) := fun v469 v470 => decidable_of_iff' _ (Iff.of_eq (k0_chk105.eq_1 v469 v470))
theorem k0_idx105_inb : ∀ (v469 : IVec S16 32) (v470 : IVec S16 32) (k0_hw105 : k0_chk105 v469 v470), ∀ a x, ((![v469, v470] : Fin 2 → IVec S16 32) a x).toNat < S128x128.size a := fun v469 v470 k0_hw105 => k0_hw105

def k0_chk106 (v469 : IVec S16 32) (v477 : IVec S16 32) : Prop :=
  (∀ a x, ((![v469, v477] : Fin 2 → IVec S16 32) a x).toNat < S128x128.size a)
instance k0_chk106.dec : ∀ (v469 : IVec S16 32) (v477 : IVec S16 32), Decidable (k0_chk106 v469 v477) := fun v469 v477 => decidable_of_iff' _ (Iff.of_eq (k0_chk106.eq_1 v469 v477))
theorem k0_idx106_inb : ∀ (v469 : IVec S16 32) (v477 : IVec S16 32) (k0_hw106 : k0_chk106 v469 v477), ∀ a x, ((![v469, v477] : Fin 2 → IVec S16 32) a x).toNat < S128x128.size a := fun v469 v477 k0_hw106 => k0_hw106

def k0_chk107 (v469 : IVec S16 32) (v478 : IVec S16 32) : Prop :=
  (∀ a x, ((![v469, v478] : Fin 2 → IVec S16 32) a x).toNat < S128x128.size a)
instance k0_chk107.dec : ∀ (v469 : IVec S16 32) (v478 : IVec S16 32), Decidable (k0_chk107 v469 v478) := fun v469 v478 => decidable_of_iff' _ (Iff.of_eq (k0_chk107.eq_1 v469 v478))
theorem k0_idx107_inb : ∀ (v469 : IVec S16 32) (v478 : IVec S16 32) (k0_hw107 : k0_chk107 v469 v478), ∀ a x, ((![v469, v478] : Fin 2 → IVec S16 32) a x).toNat < S128x128.size a := fun v469 v478 k0_hw107 => k0_hw107

def k0_chk108 (v469 : IVec S16 32) (v485 : IVec S16 32) : Prop :=
  (∀ a x, ((![v469, v485] : Fin 2 → IVec S16 32) a x).toNat < S128x128.size a)
instance k0_chk108.dec : ∀ (v469 : IVec S16 32) (v485 : IVec S16 32), Decidable (k0_chk108 v469 v485) := fun v469 v485 => decidable_of_iff' _ (Iff.of_eq (k0_chk108.eq_1 v469 v485))
theorem k0_idx108_inb : ∀ (v469 : IVec S16 32) (v485 : IVec S16 32) (k0_hw108 : k0_chk108 v469 v485), ∀ a x, ((![v469, v485] : Fin 2 → IVec S16 32) a x).toNat < S128x128.size a := fun v469 v485 k0_hw108 => k0_hw108

def k0_chk109 (v469 : IVec S16 32) (v486 : IVec S16 32) : Prop :=
  (∀ a x, ((![v469, v486] : Fin 2 → IVec S16 32) a x).toNat < S128x128.size a)
instance k0_chk109.dec : ∀ (v469 : IVec S16 32) (v486 : IVec S16 32), Decidable (k0_chk109 v469 v486) := fun v469 v486 => decidable_of_iff' _ (Iff.of_eq (k0_chk109.eq_1 v469 v486))
theorem k0_idx109_inb : ∀ (v469 : IVec S16 32) (v486 : IVec S16 32) (k0_hw109 : k0_chk109 v469 v486), ∀ a x, ((![v469, v486] : Fin 2 → IVec S16 32) a x).toNat < S128x128.size a := fun v469 v486 k0_hw109 => k0_hw109

def k0_chk110 (v469 : IVec S16 32) (v493 : IVec S16 32) : Prop :=
  (∀ a x, ((![v469, v493] : Fin 2 → IVec S16 32) a x).toNat < S128x128.size a)
instance k0_chk110.dec : ∀ (v469 : IVec S16 32) (v493 : IVec S16 32), Decidable (k0_chk110 v469 v493) := fun v469 v493 => decidable_of_iff' _ (Iff.of_eq (k0_chk110.eq_1 v469 v493))
theorem k0_idx110_inb : ∀ (v469 : IVec S16 32) (v493 : IVec S16 32) (k0_hw110 : k0_chk110 v469 v493), ∀ a x, ((![v469, v493] : Fin 2 → IVec S16 32) a x).toNat < S128x128.size a := fun v469 v493 k0_hw110 => k0_hw110

def k0_chk111 (v469 : IVec S16 32) (v494 : IVec S16 32) : Prop :=
  (∀ a x, ((![v469, v494] : Fin 2 → IVec S16 32) a x).toNat < S128x128.size a)
instance k0_chk111.dec : ∀ (v469 : IVec S16 32) (v494 : IVec S16 32), Decidable (k0_chk111 v469 v494) := fun v469 v494 => decidable_of_iff' _ (Iff.of_eq (k0_chk111.eq_1 v469 v494))
theorem k0_idx111_inb : ∀ (v469 : IVec S16 32) (v494 : IVec S16 32) (k0_hw111 : k0_chk111 v469 v494), ∀ a x, ((![v469, v494] : Fin 2 → IVec S16 32) a x).toNat < S128x128.size a := fun v469 v494 k0_hw111 => k0_hw111

def k0_chk112 (v469 : IVec S16 32) (v501 : IVec S16 32) : Prop :=
  (∀ a x, ((![v469, v501] : Fin 2 → IVec S16 32) a x).toNat < S128x128.size a)
instance k0_chk112.dec : ∀ (v469 : IVec S16 32) (v501 : IVec S16 32), Decidable (k0_chk112 v469 v501) := fun v469 v501 => decidable_of_iff' _ (Iff.of_eq (k0_chk112.eq_1 v469 v501))
theorem k0_idx112_inb : ∀ (v469 : IVec S16 32) (v501 : IVec S16 32) (k0_hw112 : k0_chk112 v469 v501), ∀ a x, ((![v469, v501] : Fin 2 → IVec S16 32) a x).toNat < S128x128.size a := fun v469 v501 k0_hw112 => k0_hw112

def k0_chk113 (v503 : IVec S16 32) (v504 : IVec S16 32) : Prop :=
  (∀ a x, ((![v503, v504] : Fin 2 → IVec S16 32) a x).toNat < S128x128.size a)
instance k0_chk113.dec : ∀ (v503 : IVec S16 32) (v504 : IVec S16 32), Decidable (k0_chk113 v503 v504) := fun v503 v504 => decidable_of_iff' _ (Iff.of_eq (k0_chk113.eq_1 v503 v504))
theorem k0_idx113_inb : ∀ (v503 : IVec S16 32) (v504 : IVec S16 32) (k0_hw113 : k0_chk113 v503 v504), ∀ a x, ((![v503, v504] : Fin 2 → IVec S16 32) a x).toNat < S128x128.size a := fun v503 v504 k0_hw113 => k0_hw113

def k0_chk114 (v503 : IVec S16 32) (v511 : IVec S16 32) : Prop :=
  (∀ a x, ((![v503, v511] : Fin 2 → IVec S16 32) a x).toNat < S128x128.size a)
instance k0_chk114.dec : ∀ (v503 : IVec S16 32) (v511 : IVec S16 32), Decidable (k0_chk114 v503 v511) := fun v503 v511 => decidable_of_iff' _ (Iff.of_eq (k0_chk114.eq_1 v503 v511))
theorem k0_idx114_inb : ∀ (v503 : IVec S16 32) (v511 : IVec S16 32) (k0_hw114 : k0_chk114 v503 v511), ∀ a x, ((![v503, v511] : Fin 2 → IVec S16 32) a x).toNat < S128x128.size a := fun v503 v511 k0_hw114 => k0_hw114

def k0_chk115 (v503 : IVec S16 32) (v512 : IVec S16 32) : Prop :=
  (∀ a x, ((![v503, v512] : Fin 2 → IVec S16 32) a x).toNat < S128x128.size a)
instance k0_chk115.dec : ∀ (v503 : IVec S16 32) (v512 : IVec S16 32), Decidable (k0_chk115 v503 v512) := fun v503 v512 => decidable_of_iff' _ (Iff.of_eq (k0_chk115.eq_1 v503 v512))
theorem k0_idx115_inb : ∀ (v503 : IVec S16 32) (v512 : IVec S16 32) (k0_hw115 : k0_chk115 v503 v512), ∀ a x, ((![v503, v512] : Fin 2 → IVec S16 32) a x).toNat < S128x128.size a := fun v503 v512 k0_hw115 => k0_hw115

def k0_chk116 (v503 : IVec S16 32) (v519 : IVec S16 32) : Prop :=
  (∀ a x, ((![v503, v519] : Fin 2 → IVec S16 32) a x).toNat < S128x128.size a)
instance k0_chk116.dec : ∀ (v503 : IVec S16 32) (v519 : IVec S16 32), Decidable (k0_chk116 v503 v519) := fun v503 v519 => decidable_of_iff' _ (Iff.of_eq (k0_chk116.eq_1 v503 v519))
theorem k0_idx116_inb : ∀ (v503 : IVec S16 32) (v519 : IVec S16 32) (k0_hw116 : k0_chk116 v503 v519), ∀ a x, ((![v503, v519] : Fin 2 → IVec S16 32) a x).toNat < S128x128.size a := fun v503 v519 k0_hw116 => k0_hw116

def k0_chk117 (v503 : IVec S16 32) (v520 : IVec S16 32) : Prop :=
  (∀ a x, ((![v503, v520] : Fin 2 → IVec S16 32) a x).toNat < S128x128.size a)
instance k0_chk117.dec : ∀ (v503 : IVec S16 32) (v520 : IVec S16 32), Decidable (k0_chk117 v503 v520) := fun v503 v520 => decidable_of_iff' _ (Iff.of_eq (k0_chk117.eq_1 v503 v520))
theorem k0_idx117_inb : ∀ (v503 : IVec S16 32) (v520 : IVec S16 32) (k0_hw117 : k0_chk117 v503 v520), ∀ a x, ((![v503, v520] : Fin 2 → IVec S16 32) a x).toNat < S128x128.size a := fun v503 v520 k0_hw117 => k0_hw117

def k0_chk118 (v503 : IVec S16 32) (v527 : IVec S16 32) : Prop :=
  (∀ a x, ((![v503, v527] : Fin 2 → IVec S16 32) a x).toNat < S128x128.size a)
instance k0_chk118.dec : ∀ (v503 : IVec S16 32) (v527 : IVec S16 32), Decidable (k0_chk118 v503 v527) := fun v503 v527 => decidable_of_iff' _ (Iff.of_eq (k0_chk118.eq_1 v503 v527))
theorem k0_idx118_inb : ∀ (v503 : IVec S16 32) (v527 : IVec S16 32) (k0_hw118 : k0_chk118 v503 v527), ∀ a x, ((![v503, v527] : Fin 2 → IVec S16 32) a x).toNat < S128x128.size a := fun v503 v527 k0_hw118 => k0_hw118

def k0_chk119 (v503 : IVec S16 32) (v528 : IVec S16 32) : Prop :=
  (∀ a x, ((![v503, v528] : Fin 2 → IVec S16 32) a x).toNat < S128x128.size a)
instance k0_chk119.dec : ∀ (v503 : IVec S16 32) (v528 : IVec S16 32), Decidable (k0_chk119 v503 v528) := fun v503 v528 => decidable_of_iff' _ (Iff.of_eq (k0_chk119.eq_1 v503 v528))
theorem k0_idx119_inb : ∀ (v503 : IVec S16 32) (v528 : IVec S16 32) (k0_hw119 : k0_chk119 v503 v528), ∀ a x, ((![v503, v528] : Fin 2 → IVec S16 32) a x).toNat < S128x128.size a := fun v503 v528 k0_hw119 => k0_hw119

def k0_chk120 (v503 : IVec S16 32) (v535 : IVec S16 32) : Prop :=
  (∀ a x, ((![v503, v535] : Fin 2 → IVec S16 32) a x).toNat < S128x128.size a)
instance k0_chk120.dec : ∀ (v503 : IVec S16 32) (v535 : IVec S16 32), Decidable (k0_chk120 v503 v535) := fun v503 v535 => decidable_of_iff' _ (Iff.of_eq (k0_chk120.eq_1 v503 v535))
theorem k0_idx120_inb : ∀ (v503 : IVec S16 32) (v535 : IVec S16 32) (k0_hw120 : k0_chk120 v503 v535), ∀ a x, ((![v503, v535] : Fin 2 → IVec S16 32) a x).toNat < S128x128.size a := fun v503 v535 k0_hw120 => k0_hw120

def k0_chk121 (v537 : IVec S16 32) (v538 : IVec S16 32) : Prop :=
  (∀ a x, ((![v537, v538] : Fin 2 → IVec S16 32) a x).toNat < S128x128.size a)
instance k0_chk121.dec : ∀ (v537 : IVec S16 32) (v538 : IVec S16 32), Decidable (k0_chk121 v537 v538) := fun v537 v538 => decidable_of_iff' _ (Iff.of_eq (k0_chk121.eq_1 v537 v538))
theorem k0_idx121_inb : ∀ (v537 : IVec S16 32) (v538 : IVec S16 32) (k0_hw121 : k0_chk121 v537 v538), ∀ a x, ((![v537, v538] : Fin 2 → IVec S16 32) a x).toNat < S128x128.size a := fun v537 v538 k0_hw121 => k0_hw121

def k0_chk122 (v537 : IVec S16 32) (v545 : IVec S16 32) : Prop :=
  (∀ a x, ((![v537, v545] : Fin 2 → IVec S16 32) a x).toNat < S128x128.size a)
instance k0_chk122.dec : ∀ (v537 : IVec S16 32) (v545 : IVec S16 32), Decidable (k0_chk122 v537 v545) := fun v537 v545 => decidable_of_iff' _ (Iff.of_eq (k0_chk122.eq_1 v537 v545))
theorem k0_idx122_inb : ∀ (v537 : IVec S16 32) (v545 : IVec S16 32) (k0_hw122 : k0_chk122 v537 v545), ∀ a x, ((![v537, v545] : Fin 2 → IVec S16 32) a x).toNat < S128x128.size a := fun v537 v545 k0_hw122 => k0_hw122

def k0_chk123 (v537 : IVec S16 32) (v546 : IVec S16 32) : Prop :=
  (∀ a x, ((![v537, v546] : Fin 2 → IVec S16 32) a x).toNat < S128x128.size a)
instance k0_chk123.dec : ∀ (v537 : IVec S16 32) (v546 : IVec S16 32), Decidable (k0_chk123 v537 v546) := fun v537 v546 => decidable_of_iff' _ (Iff.of_eq (k0_chk123.eq_1 v537 v546))
theorem k0_idx123_inb : ∀ (v537 : IVec S16 32) (v546 : IVec S16 32) (k0_hw123 : k0_chk123 v537 v546), ∀ a x, ((![v537, v546] : Fin 2 → IVec S16 32) a x).toNat < S128x128.size a := fun v537 v546 k0_hw123 => k0_hw123

def k0_chk124 (v537 : IVec S16 32) (v553 : IVec S16 32) : Prop :=
  (∀ a x, ((![v537, v553] : Fin 2 → IVec S16 32) a x).toNat < S128x128.size a)
instance k0_chk124.dec : ∀ (v537 : IVec S16 32) (v553 : IVec S16 32), Decidable (k0_chk124 v537 v553) := fun v537 v553 => decidable_of_iff' _ (Iff.of_eq (k0_chk124.eq_1 v537 v553))
theorem k0_idx124_inb : ∀ (v537 : IVec S16 32) (v553 : IVec S16 32) (k0_hw124 : k0_chk124 v537 v553), ∀ a x, ((![v537, v553] : Fin 2 → IVec S16 32) a x).toNat < S128x128.size a := fun v537 v553 k0_hw124 => k0_hw124

def k0_chk125 (v537 : IVec S16 32) (v554 : IVec S16 32) : Prop :=
  (∀ a x, ((![v537, v554] : Fin 2 → IVec S16 32) a x).toNat < S128x128.size a)
instance k0_chk125.dec : ∀ (v537 : IVec S16 32) (v554 : IVec S16 32), Decidable (k0_chk125 v537 v554) := fun v537 v554 => decidable_of_iff' _ (Iff.of_eq (k0_chk125.eq_1 v537 v554))
theorem k0_idx125_inb : ∀ (v537 : IVec S16 32) (v554 : IVec S16 32) (k0_hw125 : k0_chk125 v537 v554), ∀ a x, ((![v537, v554] : Fin 2 → IVec S16 32) a x).toNat < S128x128.size a := fun v537 v554 k0_hw125 => k0_hw125

def k0_chk126 (v537 : IVec S16 32) (v561 : IVec S16 32) : Prop :=
  (∀ a x, ((![v537, v561] : Fin 2 → IVec S16 32) a x).toNat < S128x128.size a)
instance k0_chk126.dec : ∀ (v537 : IVec S16 32) (v561 : IVec S16 32), Decidable (k0_chk126 v537 v561) := fun v537 v561 => decidable_of_iff' _ (Iff.of_eq (k0_chk126.eq_1 v537 v561))
theorem k0_idx126_inb : ∀ (v537 : IVec S16 32) (v561 : IVec S16 32) (k0_hw126 : k0_chk126 v537 v561), ∀ a x, ((![v537, v561] : Fin 2 → IVec S16 32) a x).toNat < S128x128.size a := fun v537 v561 k0_hw126 => k0_hw126

def k0_chk127 (v537 : IVec S16 32) (v562 : IVec S16 32) : Prop :=
  (∀ a x, ((![v537, v562] : Fin 2 → IVec S16 32) a x).toNat < S128x128.size a)
instance k0_chk127.dec : ∀ (v537 : IVec S16 32) (v562 : IVec S16 32), Decidable (k0_chk127 v537 v562) := fun v537 v562 => decidable_of_iff' _ (Iff.of_eq (k0_chk127.eq_1 v537 v562))
theorem k0_idx127_inb : ∀ (v537 : IVec S16 32) (v562 : IVec S16 32) (k0_hw127 : k0_chk127 v537 v562), ∀ a x, ((![v537, v562] : Fin 2 → IVec S16 32) a x).toNat < S128x128.size a := fun v537 v562 k0_hw127 => k0_hw127

def k0_chk128 (v537 : IVec S16 32) (v569 : IVec S16 32) : Prop :=
  (∀ a x, ((![v537, v569] : Fin 2 → IVec S16 32) a x).toNat < S128x128.size a)
instance k0_chk128.dec : ∀ (v537 : IVec S16 32) (v569 : IVec S16 32), Decidable (k0_chk128 v537 v569) := fun v537 v569 => decidable_of_iff' _ (Iff.of_eq (k0_chk128.eq_1 v537 v569))
theorem k0_idx128_inb : ∀ (v537 : IVec S16 32) (v569 : IVec S16 32) (k0_hw128 : k0_chk128 v537 v569), ∀ a x, ((![v537, v569] : Fin 2 → IVec S16 32) a x).toNat < S128x128.size a := fun v537 v569 k0_hw128 => k0_hw128
def k0_off12 (i : grid0.Coords) (c128_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v8 : BitVec 32 := Scalar.addi v2 c128_i32_1
  let c0_i32_343 : BitVec 32 := 0#32
  ![v8.toNat, 0]
def k0_off13 (i : grid0.Coords) (c384_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v6 : BitVec 32 := Scalar.addi v2 c384_i32
  let c128_i32_345 : BitVec 32 := 128#32
  ![v6.toNat, 128]

def k0_chk129 (v579 : IVec S16 32) (v580 : IVec S16 32) : Prop :=
  (∀ a x, ((![v579, v580] : Fin 2 → IVec S16 32) a x).toNat < S128x128.size a)
instance k0_chk129.dec : ∀ (v579 : IVec S16 32) (v580 : IVec S16 32), Decidable (k0_chk129 v579 v580) := fun v579 v580 => decidable_of_iff' _ (Iff.of_eq (k0_chk129.eq_1 v579 v580))
theorem k0_idx129_inb : ∀ (v579 : IVec S16 32) (v580 : IVec S16 32) (k0_hw129 : k0_chk129 v579 v580), ∀ a x, ((![v579, v580] : Fin 2 → IVec S16 32) a x).toNat < S128x128.size a := fun v579 v580 k0_hw129 => k0_hw129

def k0_chk130 (v579 : IVec S16 32) (v587 : IVec S16 32) : Prop :=
  (∀ a x, ((![v579, v587] : Fin 2 → IVec S16 32) a x).toNat < S128x128.size a)
instance k0_chk130.dec : ∀ (v579 : IVec S16 32) (v587 : IVec S16 32), Decidable (k0_chk130 v579 v587) := fun v579 v587 => decidable_of_iff' _ (Iff.of_eq (k0_chk130.eq_1 v579 v587))
theorem k0_idx130_inb : ∀ (v579 : IVec S16 32) (v587 : IVec S16 32) (k0_hw130 : k0_chk130 v579 v587), ∀ a x, ((![v579, v587] : Fin 2 → IVec S16 32) a x).toNat < S128x128.size a := fun v579 v587 k0_hw130 => k0_hw130

def k0_chk131 (v579 : IVec S16 32) (v588 : IVec S16 32) : Prop :=
  (∀ a x, ((![v579, v588] : Fin 2 → IVec S16 32) a x).toNat < S128x128.size a)
instance k0_chk131.dec : ∀ (v579 : IVec S16 32) (v588 : IVec S16 32), Decidable (k0_chk131 v579 v588) := fun v579 v588 => decidable_of_iff' _ (Iff.of_eq (k0_chk131.eq_1 v579 v588))
theorem k0_idx131_inb : ∀ (v579 : IVec S16 32) (v588 : IVec S16 32) (k0_hw131 : k0_chk131 v579 v588), ∀ a x, ((![v579, v588] : Fin 2 → IVec S16 32) a x).toNat < S128x128.size a := fun v579 v588 k0_hw131 => k0_hw131

def k0_chk132 (v579 : IVec S16 32) (v595 : IVec S16 32) : Prop :=
  (∀ a x, ((![v579, v595] : Fin 2 → IVec S16 32) a x).toNat < S128x128.size a)
instance k0_chk132.dec : ∀ (v579 : IVec S16 32) (v595 : IVec S16 32), Decidable (k0_chk132 v579 v595) := fun v579 v595 => decidable_of_iff' _ (Iff.of_eq (k0_chk132.eq_1 v579 v595))
theorem k0_idx132_inb : ∀ (v579 : IVec S16 32) (v595 : IVec S16 32) (k0_hw132 : k0_chk132 v579 v595), ∀ a x, ((![v579, v595] : Fin 2 → IVec S16 32) a x).toNat < S128x128.size a := fun v579 v595 k0_hw132 => k0_hw132

def k0_chk133 (v579 : IVec S16 32) (v596 : IVec S16 32) : Prop :=
  (∀ a x, ((![v579, v596] : Fin 2 → IVec S16 32) a x).toNat < S128x128.size a)
instance k0_chk133.dec : ∀ (v579 : IVec S16 32) (v596 : IVec S16 32), Decidable (k0_chk133 v579 v596) := fun v579 v596 => decidable_of_iff' _ (Iff.of_eq (k0_chk133.eq_1 v579 v596))
theorem k0_idx133_inb : ∀ (v579 : IVec S16 32) (v596 : IVec S16 32) (k0_hw133 : k0_chk133 v579 v596), ∀ a x, ((![v579, v596] : Fin 2 → IVec S16 32) a x).toNat < S128x128.size a := fun v579 v596 k0_hw133 => k0_hw133

def k0_chk134 (v579 : IVec S16 32) (v603 : IVec S16 32) : Prop :=
  (∀ a x, ((![v579, v603] : Fin 2 → IVec S16 32) a x).toNat < S128x128.size a)
instance k0_chk134.dec : ∀ (v579 : IVec S16 32) (v603 : IVec S16 32), Decidable (k0_chk134 v579 v603) := fun v579 v603 => decidable_of_iff' _ (Iff.of_eq (k0_chk134.eq_1 v579 v603))
theorem k0_idx134_inb : ∀ (v579 : IVec S16 32) (v603 : IVec S16 32) (k0_hw134 : k0_chk134 v579 v603), ∀ a x, ((![v579, v603] : Fin 2 → IVec S16 32) a x).toNat < S128x128.size a := fun v579 v603 k0_hw134 => k0_hw134

def k0_chk135 (v579 : IVec S16 32) (v604 : IVec S16 32) : Prop :=
  (∀ a x, ((![v579, v604] : Fin 2 → IVec S16 32) a x).toNat < S128x128.size a)
instance k0_chk135.dec : ∀ (v579 : IVec S16 32) (v604 : IVec S16 32), Decidable (k0_chk135 v579 v604) := fun v579 v604 => decidable_of_iff' _ (Iff.of_eq (k0_chk135.eq_1 v579 v604))
theorem k0_idx135_inb : ∀ (v579 : IVec S16 32) (v604 : IVec S16 32) (k0_hw135 : k0_chk135 v579 v604), ∀ a x, ((![v579, v604] : Fin 2 → IVec S16 32) a x).toNat < S128x128.size a := fun v579 v604 k0_hw135 => k0_hw135

def k0_chk136 (v579 : IVec S16 32) (v611 : IVec S16 32) : Prop :=
  (∀ a x, ((![v579, v611] : Fin 2 → IVec S16 32) a x).toNat < S128x128.size a)
instance k0_chk136.dec : ∀ (v579 : IVec S16 32) (v611 : IVec S16 32), Decidable (k0_chk136 v579 v611) := fun v579 v611 => decidable_of_iff' _ (Iff.of_eq (k0_chk136.eq_1 v579 v611))
theorem k0_idx136_inb : ∀ (v579 : IVec S16 32) (v611 : IVec S16 32) (k0_hw136 : k0_chk136 v579 v611), ∀ a x, ((![v579, v611] : Fin 2 → IVec S16 32) a x).toNat < S128x128.size a := fun v579 v611 k0_hw136 => k0_hw136

def k0_chk137 (v613 : IVec S16 32) (v614 : IVec S16 32) : Prop :=
  (∀ a x, ((![v613, v614] : Fin 2 → IVec S16 32) a x).toNat < S128x128.size a)
instance k0_chk137.dec : ∀ (v613 : IVec S16 32) (v614 : IVec S16 32), Decidable (k0_chk137 v613 v614) := fun v613 v614 => decidable_of_iff' _ (Iff.of_eq (k0_chk137.eq_1 v613 v614))
theorem k0_idx137_inb : ∀ (v613 : IVec S16 32) (v614 : IVec S16 32) (k0_hw137 : k0_chk137 v613 v614), ∀ a x, ((![v613, v614] : Fin 2 → IVec S16 32) a x).toNat < S128x128.size a := fun v613 v614 k0_hw137 => k0_hw137

def k0_chk138 (v613 : IVec S16 32) (v621 : IVec S16 32) : Prop :=
  (∀ a x, ((![v613, v621] : Fin 2 → IVec S16 32) a x).toNat < S128x128.size a)
instance k0_chk138.dec : ∀ (v613 : IVec S16 32) (v621 : IVec S16 32), Decidable (k0_chk138 v613 v621) := fun v613 v621 => decidable_of_iff' _ (Iff.of_eq (k0_chk138.eq_1 v613 v621))
theorem k0_idx138_inb : ∀ (v613 : IVec S16 32) (v621 : IVec S16 32) (k0_hw138 : k0_chk138 v613 v621), ∀ a x, ((![v613, v621] : Fin 2 → IVec S16 32) a x).toNat < S128x128.size a := fun v613 v621 k0_hw138 => k0_hw138

def k0_chk139 (v613 : IVec S16 32) (v622 : IVec S16 32) : Prop :=
  (∀ a x, ((![v613, v622] : Fin 2 → IVec S16 32) a x).toNat < S128x128.size a)
instance k0_chk139.dec : ∀ (v613 : IVec S16 32) (v622 : IVec S16 32), Decidable (k0_chk139 v613 v622) := fun v613 v622 => decidable_of_iff' _ (Iff.of_eq (k0_chk139.eq_1 v613 v622))
theorem k0_idx139_inb : ∀ (v613 : IVec S16 32) (v622 : IVec S16 32) (k0_hw139 : k0_chk139 v613 v622), ∀ a x, ((![v613, v622] : Fin 2 → IVec S16 32) a x).toNat < S128x128.size a := fun v613 v622 k0_hw139 => k0_hw139

def k0_chk140 (v613 : IVec S16 32) (v629 : IVec S16 32) : Prop :=
  (∀ a x, ((![v613, v629] : Fin 2 → IVec S16 32) a x).toNat < S128x128.size a)
instance k0_chk140.dec : ∀ (v613 : IVec S16 32) (v629 : IVec S16 32), Decidable (k0_chk140 v613 v629) := fun v613 v629 => decidable_of_iff' _ (Iff.of_eq (k0_chk140.eq_1 v613 v629))
theorem k0_idx140_inb : ∀ (v613 : IVec S16 32) (v629 : IVec S16 32) (k0_hw140 : k0_chk140 v613 v629), ∀ a x, ((![v613, v629] : Fin 2 → IVec S16 32) a x).toNat < S128x128.size a := fun v613 v629 k0_hw140 => k0_hw140

def k0_chk141 (v613 : IVec S16 32) (v630 : IVec S16 32) : Prop :=
  (∀ a x, ((![v613, v630] : Fin 2 → IVec S16 32) a x).toNat < S128x128.size a)
instance k0_chk141.dec : ∀ (v613 : IVec S16 32) (v630 : IVec S16 32), Decidable (k0_chk141 v613 v630) := fun v613 v630 => decidable_of_iff' _ (Iff.of_eq (k0_chk141.eq_1 v613 v630))
theorem k0_idx141_inb : ∀ (v613 : IVec S16 32) (v630 : IVec S16 32) (k0_hw141 : k0_chk141 v613 v630), ∀ a x, ((![v613, v630] : Fin 2 → IVec S16 32) a x).toNat < S128x128.size a := fun v613 v630 k0_hw141 => k0_hw141

def k0_chk142 (v613 : IVec S16 32) (v637 : IVec S16 32) : Prop :=
  (∀ a x, ((![v613, v637] : Fin 2 → IVec S16 32) a x).toNat < S128x128.size a)
instance k0_chk142.dec : ∀ (v613 : IVec S16 32) (v637 : IVec S16 32), Decidable (k0_chk142 v613 v637) := fun v613 v637 => decidable_of_iff' _ (Iff.of_eq (k0_chk142.eq_1 v613 v637))
theorem k0_idx142_inb : ∀ (v613 : IVec S16 32) (v637 : IVec S16 32) (k0_hw142 : k0_chk142 v613 v637), ∀ a x, ((![v613, v637] : Fin 2 → IVec S16 32) a x).toNat < S128x128.size a := fun v613 v637 k0_hw142 => k0_hw142

def k0_chk143 (v613 : IVec S16 32) (v638 : IVec S16 32) : Prop :=
  (∀ a x, ((![v613, v638] : Fin 2 → IVec S16 32) a x).toNat < S128x128.size a)
instance k0_chk143.dec : ∀ (v613 : IVec S16 32) (v638 : IVec S16 32), Decidable (k0_chk143 v613 v638) := fun v613 v638 => decidable_of_iff' _ (Iff.of_eq (k0_chk143.eq_1 v613 v638))
theorem k0_idx143_inb : ∀ (v613 : IVec S16 32) (v638 : IVec S16 32) (k0_hw143 : k0_chk143 v613 v638), ∀ a x, ((![v613, v638] : Fin 2 → IVec S16 32) a x).toNat < S128x128.size a := fun v613 v638 k0_hw143 => k0_hw143

def k0_chk144 (v613 : IVec S16 32) (v645 : IVec S16 32) : Prop :=
  (∀ a x, ((![v613, v645] : Fin 2 → IVec S16 32) a x).toNat < S128x128.size a)
instance k0_chk144.dec : ∀ (v613 : IVec S16 32) (v645 : IVec S16 32), Decidable (k0_chk144 v613 v645) := fun v613 v645 => decidable_of_iff' _ (Iff.of_eq (k0_chk144.eq_1 v613 v645))
theorem k0_idx144_inb : ∀ (v613 : IVec S16 32) (v645 : IVec S16 32) (k0_hw144 : k0_chk144 v613 v645), ∀ a x, ((![v613, v645] : Fin 2 → IVec S16 32) a x).toNat < S128x128.size a := fun v613 v645 k0_hw144 => k0_hw144

def k0_chk145 (v647 : IVec S16 32) (v648 : IVec S16 32) : Prop :=
  (∀ a x, ((![v647, v648] : Fin 2 → IVec S16 32) a x).toNat < S128x128.size a)
instance k0_chk145.dec : ∀ (v647 : IVec S16 32) (v648 : IVec S16 32), Decidable (k0_chk145 v647 v648) := fun v647 v648 => decidable_of_iff' _ (Iff.of_eq (k0_chk145.eq_1 v647 v648))
theorem k0_idx145_inb : ∀ (v647 : IVec S16 32) (v648 : IVec S16 32) (k0_hw145 : k0_chk145 v647 v648), ∀ a x, ((![v647, v648] : Fin 2 → IVec S16 32) a x).toNat < S128x128.size a := fun v647 v648 k0_hw145 => k0_hw145

def k0_chk146 (v647 : IVec S16 32) (v655 : IVec S16 32) : Prop :=
  (∀ a x, ((![v647, v655] : Fin 2 → IVec S16 32) a x).toNat < S128x128.size a)
instance k0_chk146.dec : ∀ (v647 : IVec S16 32) (v655 : IVec S16 32), Decidable (k0_chk146 v647 v655) := fun v647 v655 => decidable_of_iff' _ (Iff.of_eq (k0_chk146.eq_1 v647 v655))
theorem k0_idx146_inb : ∀ (v647 : IVec S16 32) (v655 : IVec S16 32) (k0_hw146 : k0_chk146 v647 v655), ∀ a x, ((![v647, v655] : Fin 2 → IVec S16 32) a x).toNat < S128x128.size a := fun v647 v655 k0_hw146 => k0_hw146

def k0_chk147 (v647 : IVec S16 32) (v656 : IVec S16 32) : Prop :=
  (∀ a x, ((![v647, v656] : Fin 2 → IVec S16 32) a x).toNat < S128x128.size a)
instance k0_chk147.dec : ∀ (v647 : IVec S16 32) (v656 : IVec S16 32), Decidable (k0_chk147 v647 v656) := fun v647 v656 => decidable_of_iff' _ (Iff.of_eq (k0_chk147.eq_1 v647 v656))
theorem k0_idx147_inb : ∀ (v647 : IVec S16 32) (v656 : IVec S16 32) (k0_hw147 : k0_chk147 v647 v656), ∀ a x, ((![v647, v656] : Fin 2 → IVec S16 32) a x).toNat < S128x128.size a := fun v647 v656 k0_hw147 => k0_hw147

def k0_chk148 (v647 : IVec S16 32) (v663 : IVec S16 32) : Prop :=
  (∀ a x, ((![v647, v663] : Fin 2 → IVec S16 32) a x).toNat < S128x128.size a)
instance k0_chk148.dec : ∀ (v647 : IVec S16 32) (v663 : IVec S16 32), Decidable (k0_chk148 v647 v663) := fun v647 v663 => decidable_of_iff' _ (Iff.of_eq (k0_chk148.eq_1 v647 v663))
theorem k0_idx148_inb : ∀ (v647 : IVec S16 32) (v663 : IVec S16 32) (k0_hw148 : k0_chk148 v647 v663), ∀ a x, ((![v647, v663] : Fin 2 → IVec S16 32) a x).toNat < S128x128.size a := fun v647 v663 k0_hw148 => k0_hw148

def k0_chk149 (v647 : IVec S16 32) (v664 : IVec S16 32) : Prop :=
  (∀ a x, ((![v647, v664] : Fin 2 → IVec S16 32) a x).toNat < S128x128.size a)
instance k0_chk149.dec : ∀ (v647 : IVec S16 32) (v664 : IVec S16 32), Decidable (k0_chk149 v647 v664) := fun v647 v664 => decidable_of_iff' _ (Iff.of_eq (k0_chk149.eq_1 v647 v664))
theorem k0_idx149_inb : ∀ (v647 : IVec S16 32) (v664 : IVec S16 32) (k0_hw149 : k0_chk149 v647 v664), ∀ a x, ((![v647, v664] : Fin 2 → IVec S16 32) a x).toNat < S128x128.size a := fun v647 v664 k0_hw149 => k0_hw149

def k0_chk150 (v647 : IVec S16 32) (v671 : IVec S16 32) : Prop :=
  (∀ a x, ((![v647, v671] : Fin 2 → IVec S16 32) a x).toNat < S128x128.size a)
instance k0_chk150.dec : ∀ (v647 : IVec S16 32) (v671 : IVec S16 32), Decidable (k0_chk150 v647 v671) := fun v647 v671 => decidable_of_iff' _ (Iff.of_eq (k0_chk150.eq_1 v647 v671))
theorem k0_idx150_inb : ∀ (v647 : IVec S16 32) (v671 : IVec S16 32) (k0_hw150 : k0_chk150 v647 v671), ∀ a x, ((![v647, v671] : Fin 2 → IVec S16 32) a x).toNat < S128x128.size a := fun v647 v671 k0_hw150 => k0_hw150

def k0_chk151 (v647 : IVec S16 32) (v672 : IVec S16 32) : Prop :=
  (∀ a x, ((![v647, v672] : Fin 2 → IVec S16 32) a x).toNat < S128x128.size a)
instance k0_chk151.dec : ∀ (v647 : IVec S16 32) (v672 : IVec S16 32), Decidable (k0_chk151 v647 v672) := fun v647 v672 => decidable_of_iff' _ (Iff.of_eq (k0_chk151.eq_1 v647 v672))
theorem k0_idx151_inb : ∀ (v647 : IVec S16 32) (v672 : IVec S16 32) (k0_hw151 : k0_chk151 v647 v672), ∀ a x, ((![v647, v672] : Fin 2 → IVec S16 32) a x).toNat < S128x128.size a := fun v647 v672 k0_hw151 => k0_hw151

def k0_chk152 (v647 : IVec S16 32) (v679 : IVec S16 32) : Prop :=
  (∀ a x, ((![v647, v679] : Fin 2 → IVec S16 32) a x).toNat < S128x128.size a)
instance k0_chk152.dec : ∀ (v647 : IVec S16 32) (v679 : IVec S16 32), Decidable (k0_chk152 v647 v679) := fun v647 v679 => decidable_of_iff' _ (Iff.of_eq (k0_chk152.eq_1 v647 v679))
theorem k0_idx152_inb : ∀ (v647 : IVec S16 32) (v679 : IVec S16 32) (k0_hw152 : k0_chk152 v647 v679), ∀ a x, ((![v647, v679] : Fin 2 → IVec S16 32) a x).toNat < S128x128.size a := fun v647 v679 k0_hw152 => k0_hw152

def k0_chk153 (v681 : IVec S16 32) (v682 : IVec S16 32) : Prop :=
  (∀ a x, ((![v681, v682] : Fin 2 → IVec S16 32) a x).toNat < S128x128.size a)
instance k0_chk153.dec : ∀ (v681 : IVec S16 32) (v682 : IVec S16 32), Decidable (k0_chk153 v681 v682) := fun v681 v682 => decidable_of_iff' _ (Iff.of_eq (k0_chk153.eq_1 v681 v682))
theorem k0_idx153_inb : ∀ (v681 : IVec S16 32) (v682 : IVec S16 32) (k0_hw153 : k0_chk153 v681 v682), ∀ a x, ((![v681, v682] : Fin 2 → IVec S16 32) a x).toNat < S128x128.size a := fun v681 v682 k0_hw153 => k0_hw153

def k0_chk154 (v681 : IVec S16 32) (v689 : IVec S16 32) : Prop :=
  (∀ a x, ((![v681, v689] : Fin 2 → IVec S16 32) a x).toNat < S128x128.size a)
instance k0_chk154.dec : ∀ (v681 : IVec S16 32) (v689 : IVec S16 32), Decidable (k0_chk154 v681 v689) := fun v681 v689 => decidable_of_iff' _ (Iff.of_eq (k0_chk154.eq_1 v681 v689))
theorem k0_idx154_inb : ∀ (v681 : IVec S16 32) (v689 : IVec S16 32) (k0_hw154 : k0_chk154 v681 v689), ∀ a x, ((![v681, v689] : Fin 2 → IVec S16 32) a x).toNat < S128x128.size a := fun v681 v689 k0_hw154 => k0_hw154

def k0_chk155 (v681 : IVec S16 32) (v690 : IVec S16 32) : Prop :=
  (∀ a x, ((![v681, v690] : Fin 2 → IVec S16 32) a x).toNat < S128x128.size a)
instance k0_chk155.dec : ∀ (v681 : IVec S16 32) (v690 : IVec S16 32), Decidable (k0_chk155 v681 v690) := fun v681 v690 => decidable_of_iff' _ (Iff.of_eq (k0_chk155.eq_1 v681 v690))
theorem k0_idx155_inb : ∀ (v681 : IVec S16 32) (v690 : IVec S16 32) (k0_hw155 : k0_chk155 v681 v690), ∀ a x, ((![v681, v690] : Fin 2 → IVec S16 32) a x).toNat < S128x128.size a := fun v681 v690 k0_hw155 => k0_hw155

def k0_chk156 (v681 : IVec S16 32) (v697 : IVec S16 32) : Prop :=
  (∀ a x, ((![v681, v697] : Fin 2 → IVec S16 32) a x).toNat < S128x128.size a)
instance k0_chk156.dec : ∀ (v681 : IVec S16 32) (v697 : IVec S16 32), Decidable (k0_chk156 v681 v697) := fun v681 v697 => decidable_of_iff' _ (Iff.of_eq (k0_chk156.eq_1 v681 v697))
theorem k0_idx156_inb : ∀ (v681 : IVec S16 32) (v697 : IVec S16 32) (k0_hw156 : k0_chk156 v681 v697), ∀ a x, ((![v681, v697] : Fin 2 → IVec S16 32) a x).toNat < S128x128.size a := fun v681 v697 k0_hw156 => k0_hw156

def k0_chk157 (v681 : IVec S16 32) (v698 : IVec S16 32) : Prop :=
  (∀ a x, ((![v681, v698] : Fin 2 → IVec S16 32) a x).toNat < S128x128.size a)
instance k0_chk157.dec : ∀ (v681 : IVec S16 32) (v698 : IVec S16 32), Decidable (k0_chk157 v681 v698) := fun v681 v698 => decidable_of_iff' _ (Iff.of_eq (k0_chk157.eq_1 v681 v698))
theorem k0_idx157_inb : ∀ (v681 : IVec S16 32) (v698 : IVec S16 32) (k0_hw157 : k0_chk157 v681 v698), ∀ a x, ((![v681, v698] : Fin 2 → IVec S16 32) a x).toNat < S128x128.size a := fun v681 v698 k0_hw157 => k0_hw157

def k0_chk158 (v681 : IVec S16 32) (v705 : IVec S16 32) : Prop :=
  (∀ a x, ((![v681, v705] : Fin 2 → IVec S16 32) a x).toNat < S128x128.size a)
instance k0_chk158.dec : ∀ (v681 : IVec S16 32) (v705 : IVec S16 32), Decidable (k0_chk158 v681 v705) := fun v681 v705 => decidable_of_iff' _ (Iff.of_eq (k0_chk158.eq_1 v681 v705))
theorem k0_idx158_inb : ∀ (v681 : IVec S16 32) (v705 : IVec S16 32) (k0_hw158 : k0_chk158 v681 v705), ∀ a x, ((![v681, v705] : Fin 2 → IVec S16 32) a x).toNat < S128x128.size a := fun v681 v705 k0_hw158 => k0_hw158

def k0_chk159 (v681 : IVec S16 32) (v706 : IVec S16 32) : Prop :=
  (∀ a x, ((![v681, v706] : Fin 2 → IVec S16 32) a x).toNat < S128x128.size a)
instance k0_chk159.dec : ∀ (v681 : IVec S16 32) (v706 : IVec S16 32), Decidable (k0_chk159 v681 v706) := fun v681 v706 => decidable_of_iff' _ (Iff.of_eq (k0_chk159.eq_1 v681 v706))
theorem k0_idx159_inb : ∀ (v681 : IVec S16 32) (v706 : IVec S16 32) (k0_hw159 : k0_chk159 v681 v706), ∀ a x, ((![v681, v706] : Fin 2 → IVec S16 32) a x).toNat < S128x128.size a := fun v681 v706 k0_hw159 => k0_hw159

def k0_chk160 (v681 : IVec S16 32) (v713 : IVec S16 32) : Prop :=
  (∀ a x, ((![v681, v713] : Fin 2 → IVec S16 32) a x).toNat < S128x128.size a)
instance k0_chk160.dec : ∀ (v681 : IVec S16 32) (v713 : IVec S16 32), Decidable (k0_chk160 v681 v713) := fun v681 v713 => decidable_of_iff' _ (Iff.of_eq (k0_chk160.eq_1 v681 v713))
theorem k0_idx160_inb : ∀ (v681 : IVec S16 32) (v713 : IVec S16 32) (k0_hw160 : k0_chk160 v681 v713), ∀ a x, ((![v681, v713] : Fin 2 → IVec S16 32) a x).toNat < S128x128.size a := fun v681 v713 k0_hw160 => k0_hw160

def k0_chk161 (v715 : IVec S16 32) (v716 : IVec S16 32) : Prop :=
  (∀ a x, ((![v715, v716] : Fin 2 → IVec S16 32) a x).toNat < S128x128.size a)
instance k0_chk161.dec : ∀ (v715 : IVec S16 32) (v716 : IVec S16 32), Decidable (k0_chk161 v715 v716) := fun v715 v716 => decidable_of_iff' _ (Iff.of_eq (k0_chk161.eq_1 v715 v716))
theorem k0_idx161_inb : ∀ (v715 : IVec S16 32) (v716 : IVec S16 32) (k0_hw161 : k0_chk161 v715 v716), ∀ a x, ((![v715, v716] : Fin 2 → IVec S16 32) a x).toNat < S128x128.size a := fun v715 v716 k0_hw161 => k0_hw161

def k0_chk162 (v715 : IVec S16 32) (v723 : IVec S16 32) : Prop :=
  (∀ a x, ((![v715, v723] : Fin 2 → IVec S16 32) a x).toNat < S128x128.size a)
instance k0_chk162.dec : ∀ (v715 : IVec S16 32) (v723 : IVec S16 32), Decidable (k0_chk162 v715 v723) := fun v715 v723 => decidable_of_iff' _ (Iff.of_eq (k0_chk162.eq_1 v715 v723))
theorem k0_idx162_inb : ∀ (v715 : IVec S16 32) (v723 : IVec S16 32) (k0_hw162 : k0_chk162 v715 v723), ∀ a x, ((![v715, v723] : Fin 2 → IVec S16 32) a x).toNat < S128x128.size a := fun v715 v723 k0_hw162 => k0_hw162

def k0_chk163 (v715 : IVec S16 32) (v724 : IVec S16 32) : Prop :=
  (∀ a x, ((![v715, v724] : Fin 2 → IVec S16 32) a x).toNat < S128x128.size a)
instance k0_chk163.dec : ∀ (v715 : IVec S16 32) (v724 : IVec S16 32), Decidable (k0_chk163 v715 v724) := fun v715 v724 => decidable_of_iff' _ (Iff.of_eq (k0_chk163.eq_1 v715 v724))
theorem k0_idx163_inb : ∀ (v715 : IVec S16 32) (v724 : IVec S16 32) (k0_hw163 : k0_chk163 v715 v724), ∀ a x, ((![v715, v724] : Fin 2 → IVec S16 32) a x).toNat < S128x128.size a := fun v715 v724 k0_hw163 => k0_hw163

def k0_chk164 (v715 : IVec S16 32) (v731 : IVec S16 32) : Prop :=
  (∀ a x, ((![v715, v731] : Fin 2 → IVec S16 32) a x).toNat < S128x128.size a)
instance k0_chk164.dec : ∀ (v715 : IVec S16 32) (v731 : IVec S16 32), Decidable (k0_chk164 v715 v731) := fun v715 v731 => decidable_of_iff' _ (Iff.of_eq (k0_chk164.eq_1 v715 v731))
theorem k0_idx164_inb : ∀ (v715 : IVec S16 32) (v731 : IVec S16 32) (k0_hw164 : k0_chk164 v715 v731), ∀ a x, ((![v715, v731] : Fin 2 → IVec S16 32) a x).toNat < S128x128.size a := fun v715 v731 k0_hw164 => k0_hw164

def k0_chk165 (v715 : IVec S16 32) (v732 : IVec S16 32) : Prop :=
  (∀ a x, ((![v715, v732] : Fin 2 → IVec S16 32) a x).toNat < S128x128.size a)
instance k0_chk165.dec : ∀ (v715 : IVec S16 32) (v732 : IVec S16 32), Decidable (k0_chk165 v715 v732) := fun v715 v732 => decidable_of_iff' _ (Iff.of_eq (k0_chk165.eq_1 v715 v732))
theorem k0_idx165_inb : ∀ (v715 : IVec S16 32) (v732 : IVec S16 32) (k0_hw165 : k0_chk165 v715 v732), ∀ a x, ((![v715, v732] : Fin 2 → IVec S16 32) a x).toNat < S128x128.size a := fun v715 v732 k0_hw165 => k0_hw165

def k0_chk166 (v715 : IVec S16 32) (v739 : IVec S16 32) : Prop :=
  (∀ a x, ((![v715, v739] : Fin 2 → IVec S16 32) a x).toNat < S128x128.size a)
instance k0_chk166.dec : ∀ (v715 : IVec S16 32) (v739 : IVec S16 32), Decidable (k0_chk166 v715 v739) := fun v715 v739 => decidable_of_iff' _ (Iff.of_eq (k0_chk166.eq_1 v715 v739))
theorem k0_idx166_inb : ∀ (v715 : IVec S16 32) (v739 : IVec S16 32) (k0_hw166 : k0_chk166 v715 v739), ∀ a x, ((![v715, v739] : Fin 2 → IVec S16 32) a x).toNat < S128x128.size a := fun v715 v739 k0_hw166 => k0_hw166

def k0_chk167 (v715 : IVec S16 32) (v740 : IVec S16 32) : Prop :=
  (∀ a x, ((![v715, v740] : Fin 2 → IVec S16 32) a x).toNat < S128x128.size a)
instance k0_chk167.dec : ∀ (v715 : IVec S16 32) (v740 : IVec S16 32), Decidable (k0_chk167 v715 v740) := fun v715 v740 => decidable_of_iff' _ (Iff.of_eq (k0_chk167.eq_1 v715 v740))
theorem k0_idx167_inb : ∀ (v715 : IVec S16 32) (v740 : IVec S16 32) (k0_hw167 : k0_chk167 v715 v740), ∀ a x, ((![v715, v740] : Fin 2 → IVec S16 32) a x).toNat < S128x128.size a := fun v715 v740 k0_hw167 => k0_hw167

def k0_chk168 (v715 : IVec S16 32) (v747 : IVec S16 32) : Prop :=
  (∀ a x, ((![v715, v747] : Fin 2 → IVec S16 32) a x).toNat < S128x128.size a)
instance k0_chk168.dec : ∀ (v715 : IVec S16 32) (v747 : IVec S16 32), Decidable (k0_chk168 v715 v747) := fun v715 v747 => decidable_of_iff' _ (Iff.of_eq (k0_chk168.eq_1 v715 v747))
theorem k0_idx168_inb : ∀ (v715 : IVec S16 32) (v747 : IVec S16 32) (k0_hw168 : k0_chk168 v715 v747), ∀ a x, ((![v715, v747] : Fin 2 → IVec S16 32) a x).toNat < S128x128.size a := fun v715 v747 k0_hw168 => k0_hw168

def k0_chk169 (v749 : IVec S16 32) (v750 : IVec S16 32) : Prop :=
  (∀ a x, ((![v749, v750] : Fin 2 → IVec S16 32) a x).toNat < S128x128.size a)
instance k0_chk169.dec : ∀ (v749 : IVec S16 32) (v750 : IVec S16 32), Decidable (k0_chk169 v749 v750) := fun v749 v750 => decidable_of_iff' _ (Iff.of_eq (k0_chk169.eq_1 v749 v750))
theorem k0_idx169_inb : ∀ (v749 : IVec S16 32) (v750 : IVec S16 32) (k0_hw169 : k0_chk169 v749 v750), ∀ a x, ((![v749, v750] : Fin 2 → IVec S16 32) a x).toNat < S128x128.size a := fun v749 v750 k0_hw169 => k0_hw169

def k0_chk170 (v749 : IVec S16 32) (v757 : IVec S16 32) : Prop :=
  (∀ a x, ((![v749, v757] : Fin 2 → IVec S16 32) a x).toNat < S128x128.size a)
instance k0_chk170.dec : ∀ (v749 : IVec S16 32) (v757 : IVec S16 32), Decidable (k0_chk170 v749 v757) := fun v749 v757 => decidable_of_iff' _ (Iff.of_eq (k0_chk170.eq_1 v749 v757))
theorem k0_idx170_inb : ∀ (v749 : IVec S16 32) (v757 : IVec S16 32) (k0_hw170 : k0_chk170 v749 v757), ∀ a x, ((![v749, v757] : Fin 2 → IVec S16 32) a x).toNat < S128x128.size a := fun v749 v757 k0_hw170 => k0_hw170

def k0_chk171 (v749 : IVec S16 32) (v758 : IVec S16 32) : Prop :=
  (∀ a x, ((![v749, v758] : Fin 2 → IVec S16 32) a x).toNat < S128x128.size a)
instance k0_chk171.dec : ∀ (v749 : IVec S16 32) (v758 : IVec S16 32), Decidable (k0_chk171 v749 v758) := fun v749 v758 => decidable_of_iff' _ (Iff.of_eq (k0_chk171.eq_1 v749 v758))
theorem k0_idx171_inb : ∀ (v749 : IVec S16 32) (v758 : IVec S16 32) (k0_hw171 : k0_chk171 v749 v758), ∀ a x, ((![v749, v758] : Fin 2 → IVec S16 32) a x).toNat < S128x128.size a := fun v749 v758 k0_hw171 => k0_hw171

def k0_chk172 (v749 : IVec S16 32) (v765 : IVec S16 32) : Prop :=
  (∀ a x, ((![v749, v765] : Fin 2 → IVec S16 32) a x).toNat < S128x128.size a)
instance k0_chk172.dec : ∀ (v749 : IVec S16 32) (v765 : IVec S16 32), Decidable (k0_chk172 v749 v765) := fun v749 v765 => decidable_of_iff' _ (Iff.of_eq (k0_chk172.eq_1 v749 v765))
theorem k0_idx172_inb : ∀ (v749 : IVec S16 32) (v765 : IVec S16 32) (k0_hw172 : k0_chk172 v749 v765), ∀ a x, ((![v749, v765] : Fin 2 → IVec S16 32) a x).toNat < S128x128.size a := fun v749 v765 k0_hw172 => k0_hw172

def k0_chk173 (v749 : IVec S16 32) (v766 : IVec S16 32) : Prop :=
  (∀ a x, ((![v749, v766] : Fin 2 → IVec S16 32) a x).toNat < S128x128.size a)
instance k0_chk173.dec : ∀ (v749 : IVec S16 32) (v766 : IVec S16 32), Decidable (k0_chk173 v749 v766) := fun v749 v766 => decidable_of_iff' _ (Iff.of_eq (k0_chk173.eq_1 v749 v766))
theorem k0_idx173_inb : ∀ (v749 : IVec S16 32) (v766 : IVec S16 32) (k0_hw173 : k0_chk173 v749 v766), ∀ a x, ((![v749, v766] : Fin 2 → IVec S16 32) a x).toNat < S128x128.size a := fun v749 v766 k0_hw173 => k0_hw173

def k0_chk174 (v749 : IVec S16 32) (v773 : IVec S16 32) : Prop :=
  (∀ a x, ((![v749, v773] : Fin 2 → IVec S16 32) a x).toNat < S128x128.size a)
instance k0_chk174.dec : ∀ (v749 : IVec S16 32) (v773 : IVec S16 32), Decidable (k0_chk174 v749 v773) := fun v749 v773 => decidable_of_iff' _ (Iff.of_eq (k0_chk174.eq_1 v749 v773))
theorem k0_idx174_inb : ∀ (v749 : IVec S16 32) (v773 : IVec S16 32) (k0_hw174 : k0_chk174 v749 v773), ∀ a x, ((![v749, v773] : Fin 2 → IVec S16 32) a x).toNat < S128x128.size a := fun v749 v773 k0_hw174 => k0_hw174

def k0_chk175 (v749 : IVec S16 32) (v774 : IVec S16 32) : Prop :=
  (∀ a x, ((![v749, v774] : Fin 2 → IVec S16 32) a x).toNat < S128x128.size a)
instance k0_chk175.dec : ∀ (v749 : IVec S16 32) (v774 : IVec S16 32), Decidable (k0_chk175 v749 v774) := fun v749 v774 => decidable_of_iff' _ (Iff.of_eq (k0_chk175.eq_1 v749 v774))
theorem k0_idx175_inb : ∀ (v749 : IVec S16 32) (v774 : IVec S16 32) (k0_hw175 : k0_chk175 v749 v774), ∀ a x, ((![v749, v774] : Fin 2 → IVec S16 32) a x).toNat < S128x128.size a := fun v749 v774 k0_hw175 => k0_hw175

def k0_chk176 (v749 : IVec S16 32) (v781 : IVec S16 32) : Prop :=
  (∀ a x, ((![v749, v781] : Fin 2 → IVec S16 32) a x).toNat < S128x128.size a)
instance k0_chk176.dec : ∀ (v749 : IVec S16 32) (v781 : IVec S16 32), Decidable (k0_chk176 v749 v781) := fun v749 v781 => decidable_of_iff' _ (Iff.of_eq (k0_chk176.eq_1 v749 v781))
theorem k0_idx176_inb : ∀ (v749 : IVec S16 32) (v781 : IVec S16 32) (k0_hw176 : k0_chk176 v749 v781), ∀ a x, ((![v749, v781] : Fin 2 → IVec S16 32) a x).toNat < S128x128.size a := fun v749 v781 k0_hw176 => k0_hw176

def k0_chk177 (v783 : IVec S16 32) (v784 : IVec S16 32) : Prop :=
  (∀ a x, ((![v783, v784] : Fin 2 → IVec S16 32) a x).toNat < S128x128.size a)
instance k0_chk177.dec : ∀ (v783 : IVec S16 32) (v784 : IVec S16 32), Decidable (k0_chk177 v783 v784) := fun v783 v784 => decidable_of_iff' _ (Iff.of_eq (k0_chk177.eq_1 v783 v784))
theorem k0_idx177_inb : ∀ (v783 : IVec S16 32) (v784 : IVec S16 32) (k0_hw177 : k0_chk177 v783 v784), ∀ a x, ((![v783, v784] : Fin 2 → IVec S16 32) a x).toNat < S128x128.size a := fun v783 v784 k0_hw177 => k0_hw177

def k0_chk178 (v783 : IVec S16 32) (v791 : IVec S16 32) : Prop :=
  (∀ a x, ((![v783, v791] : Fin 2 → IVec S16 32) a x).toNat < S128x128.size a)
instance k0_chk178.dec : ∀ (v783 : IVec S16 32) (v791 : IVec S16 32), Decidable (k0_chk178 v783 v791) := fun v783 v791 => decidable_of_iff' _ (Iff.of_eq (k0_chk178.eq_1 v783 v791))
theorem k0_idx178_inb : ∀ (v783 : IVec S16 32) (v791 : IVec S16 32) (k0_hw178 : k0_chk178 v783 v791), ∀ a x, ((![v783, v791] : Fin 2 → IVec S16 32) a x).toNat < S128x128.size a := fun v783 v791 k0_hw178 => k0_hw178

def k0_chk179 (v783 : IVec S16 32) (v792 : IVec S16 32) : Prop :=
  (∀ a x, ((![v783, v792] : Fin 2 → IVec S16 32) a x).toNat < S128x128.size a)
instance k0_chk179.dec : ∀ (v783 : IVec S16 32) (v792 : IVec S16 32), Decidable (k0_chk179 v783 v792) := fun v783 v792 => decidable_of_iff' _ (Iff.of_eq (k0_chk179.eq_1 v783 v792))
theorem k0_idx179_inb : ∀ (v783 : IVec S16 32) (v792 : IVec S16 32) (k0_hw179 : k0_chk179 v783 v792), ∀ a x, ((![v783, v792] : Fin 2 → IVec S16 32) a x).toNat < S128x128.size a := fun v783 v792 k0_hw179 => k0_hw179

def k0_chk180 (v783 : IVec S16 32) (v799 : IVec S16 32) : Prop :=
  (∀ a x, ((![v783, v799] : Fin 2 → IVec S16 32) a x).toNat < S128x128.size a)
instance k0_chk180.dec : ∀ (v783 : IVec S16 32) (v799 : IVec S16 32), Decidable (k0_chk180 v783 v799) := fun v783 v799 => decidable_of_iff' _ (Iff.of_eq (k0_chk180.eq_1 v783 v799))
theorem k0_idx180_inb : ∀ (v783 : IVec S16 32) (v799 : IVec S16 32) (k0_hw180 : k0_chk180 v783 v799), ∀ a x, ((![v783, v799] : Fin 2 → IVec S16 32) a x).toNat < S128x128.size a := fun v783 v799 k0_hw180 => k0_hw180

def k0_chk181 (v783 : IVec S16 32) (v800 : IVec S16 32) : Prop :=
  (∀ a x, ((![v783, v800] : Fin 2 → IVec S16 32) a x).toNat < S128x128.size a)
instance k0_chk181.dec : ∀ (v783 : IVec S16 32) (v800 : IVec S16 32), Decidable (k0_chk181 v783 v800) := fun v783 v800 => decidable_of_iff' _ (Iff.of_eq (k0_chk181.eq_1 v783 v800))
theorem k0_idx181_inb : ∀ (v783 : IVec S16 32) (v800 : IVec S16 32) (k0_hw181 : k0_chk181 v783 v800), ∀ a x, ((![v783, v800] : Fin 2 → IVec S16 32) a x).toNat < S128x128.size a := fun v783 v800 k0_hw181 => k0_hw181

def k0_chk182 (v783 : IVec S16 32) (v807 : IVec S16 32) : Prop :=
  (∀ a x, ((![v783, v807] : Fin 2 → IVec S16 32) a x).toNat < S128x128.size a)
instance k0_chk182.dec : ∀ (v783 : IVec S16 32) (v807 : IVec S16 32), Decidable (k0_chk182 v783 v807) := fun v783 v807 => decidable_of_iff' _ (Iff.of_eq (k0_chk182.eq_1 v783 v807))
theorem k0_idx182_inb : ∀ (v783 : IVec S16 32) (v807 : IVec S16 32) (k0_hw182 : k0_chk182 v783 v807), ∀ a x, ((![v783, v807] : Fin 2 → IVec S16 32) a x).toNat < S128x128.size a := fun v783 v807 k0_hw182 => k0_hw182

def k0_chk183 (v783 : IVec S16 32) (v808 : IVec S16 32) : Prop :=
  (∀ a x, ((![v783, v808] : Fin 2 → IVec S16 32) a x).toNat < S128x128.size a)
instance k0_chk183.dec : ∀ (v783 : IVec S16 32) (v808 : IVec S16 32), Decidable (k0_chk183 v783 v808) := fun v783 v808 => decidable_of_iff' _ (Iff.of_eq (k0_chk183.eq_1 v783 v808))
theorem k0_idx183_inb : ∀ (v783 : IVec S16 32) (v808 : IVec S16 32) (k0_hw183 : k0_chk183 v783 v808), ∀ a x, ((![v783, v808] : Fin 2 → IVec S16 32) a x).toNat < S128x128.size a := fun v783 v808 k0_hw183 => k0_hw183

def k0_chk184 (v783 : IVec S16 32) (v815 : IVec S16 32) : Prop :=
  (∀ a x, ((![v783, v815] : Fin 2 → IVec S16 32) a x).toNat < S128x128.size a)
instance k0_chk184.dec : ∀ (v783 : IVec S16 32) (v815 : IVec S16 32), Decidable (k0_chk184 v783 v815) := fun v783 v815 => decidable_of_iff' _ (Iff.of_eq (k0_chk184.eq_1 v783 v815))
theorem k0_idx184_inb : ∀ (v783 : IVec S16 32) (v815 : IVec S16 32) (k0_hw184 : k0_chk184 v783 v815), ∀ a x, ((![v783, v815] : Fin 2 → IVec S16 32) a x).toNat < S128x128.size a := fun v783 v815 k0_hw184 => k0_hw184

def k0_chk185 (v817 : IVec S16 32) (v818 : IVec S16 32) : Prop :=
  (∀ a x, ((![v817, v818] : Fin 2 → IVec S16 32) a x).toNat < S128x128.size a)
instance k0_chk185.dec : ∀ (v817 : IVec S16 32) (v818 : IVec S16 32), Decidable (k0_chk185 v817 v818) := fun v817 v818 => decidable_of_iff' _ (Iff.of_eq (k0_chk185.eq_1 v817 v818))
theorem k0_idx185_inb : ∀ (v817 : IVec S16 32) (v818 : IVec S16 32) (k0_hw185 : k0_chk185 v817 v818), ∀ a x, ((![v817, v818] : Fin 2 → IVec S16 32) a x).toNat < S128x128.size a := fun v817 v818 k0_hw185 => k0_hw185

def k0_chk186 (v817 : IVec S16 32) (v825 : IVec S16 32) : Prop :=
  (∀ a x, ((![v817, v825] : Fin 2 → IVec S16 32) a x).toNat < S128x128.size a)
instance k0_chk186.dec : ∀ (v817 : IVec S16 32) (v825 : IVec S16 32), Decidable (k0_chk186 v817 v825) := fun v817 v825 => decidable_of_iff' _ (Iff.of_eq (k0_chk186.eq_1 v817 v825))
theorem k0_idx186_inb : ∀ (v817 : IVec S16 32) (v825 : IVec S16 32) (k0_hw186 : k0_chk186 v817 v825), ∀ a x, ((![v817, v825] : Fin 2 → IVec S16 32) a x).toNat < S128x128.size a := fun v817 v825 k0_hw186 => k0_hw186

def k0_chk187 (v817 : IVec S16 32) (v826 : IVec S16 32) : Prop :=
  (∀ a x, ((![v817, v826] : Fin 2 → IVec S16 32) a x).toNat < S128x128.size a)
instance k0_chk187.dec : ∀ (v817 : IVec S16 32) (v826 : IVec S16 32), Decidable (k0_chk187 v817 v826) := fun v817 v826 => decidable_of_iff' _ (Iff.of_eq (k0_chk187.eq_1 v817 v826))
theorem k0_idx187_inb : ∀ (v817 : IVec S16 32) (v826 : IVec S16 32) (k0_hw187 : k0_chk187 v817 v826), ∀ a x, ((![v817, v826] : Fin 2 → IVec S16 32) a x).toNat < S128x128.size a := fun v817 v826 k0_hw187 => k0_hw187

def k0_chk188 (v817 : IVec S16 32) (v833 : IVec S16 32) : Prop :=
  (∀ a x, ((![v817, v833] : Fin 2 → IVec S16 32) a x).toNat < S128x128.size a)
instance k0_chk188.dec : ∀ (v817 : IVec S16 32) (v833 : IVec S16 32), Decidable (k0_chk188 v817 v833) := fun v817 v833 => decidable_of_iff' _ (Iff.of_eq (k0_chk188.eq_1 v817 v833))
theorem k0_idx188_inb : ∀ (v817 : IVec S16 32) (v833 : IVec S16 32) (k0_hw188 : k0_chk188 v817 v833), ∀ a x, ((![v817, v833] : Fin 2 → IVec S16 32) a x).toNat < S128x128.size a := fun v817 v833 k0_hw188 => k0_hw188

def k0_chk189 (v817 : IVec S16 32) (v834 : IVec S16 32) : Prop :=
  (∀ a x, ((![v817, v834] : Fin 2 → IVec S16 32) a x).toNat < S128x128.size a)
instance k0_chk189.dec : ∀ (v817 : IVec S16 32) (v834 : IVec S16 32), Decidable (k0_chk189 v817 v834) := fun v817 v834 => decidable_of_iff' _ (Iff.of_eq (k0_chk189.eq_1 v817 v834))
theorem k0_idx189_inb : ∀ (v817 : IVec S16 32) (v834 : IVec S16 32) (k0_hw189 : k0_chk189 v817 v834), ∀ a x, ((![v817, v834] : Fin 2 → IVec S16 32) a x).toNat < S128x128.size a := fun v817 v834 k0_hw189 => k0_hw189

def k0_chk190 (v817 : IVec S16 32) (v841 : IVec S16 32) : Prop :=
  (∀ a x, ((![v817, v841] : Fin 2 → IVec S16 32) a x).toNat < S128x128.size a)
instance k0_chk190.dec : ∀ (v817 : IVec S16 32) (v841 : IVec S16 32), Decidable (k0_chk190 v817 v841) := fun v817 v841 => decidable_of_iff' _ (Iff.of_eq (k0_chk190.eq_1 v817 v841))
theorem k0_idx190_inb : ∀ (v817 : IVec S16 32) (v841 : IVec S16 32) (k0_hw190 : k0_chk190 v817 v841), ∀ a x, ((![v817, v841] : Fin 2 → IVec S16 32) a x).toNat < S128x128.size a := fun v817 v841 k0_hw190 => k0_hw190

def k0_chk191 (v817 : IVec S16 32) (v842 : IVec S16 32) : Prop :=
  (∀ a x, ((![v817, v842] : Fin 2 → IVec S16 32) a x).toNat < S128x128.size a)
instance k0_chk191.dec : ∀ (v817 : IVec S16 32) (v842 : IVec S16 32), Decidable (k0_chk191 v817 v842) := fun v817 v842 => decidable_of_iff' _ (Iff.of_eq (k0_chk191.eq_1 v817 v842))
theorem k0_idx191_inb : ∀ (v817 : IVec S16 32) (v842 : IVec S16 32) (k0_hw191 : k0_chk191 v817 v842), ∀ a x, ((![v817, v842] : Fin 2 → IVec S16 32) a x).toNat < S128x128.size a := fun v817 v842 k0_hw191 => k0_hw191

def k0_chk192 (v817 : IVec S16 32) (v849 : IVec S16 32) : Prop :=
  (∀ a x, ((![v817, v849] : Fin 2 → IVec S16 32) a x).toNat < S128x128.size a)
instance k0_chk192.dec : ∀ (v817 : IVec S16 32) (v849 : IVec S16 32), Decidable (k0_chk192 v817 v849) := fun v817 v849 => decidable_of_iff' _ (Iff.of_eq (k0_chk192.eq_1 v817 v849))
theorem k0_idx192_inb : ∀ (v817 : IVec S16 32) (v849 : IVec S16 32) (k0_hw192 : k0_chk192 v817 v849), ∀ a x, ((![v817, v849] : Fin 2 → IVec S16 32) a x).toNat < S128x128.size a := fun v817 v849 k0_hw192 => k0_hw192
def k0_off14 (i : grid0.Coords) (c256_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v9 : BitVec 32 := Scalar.addi v2 c256_i32_2
  let c0_i32_519 : BitVec 32 := 0#32
  ![v9.toNat, 0]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32 : BitVec 32 := 384#32
  let v6 : BitVec 32 := Scalar.addi v2 c384_i32
  let c128_i32_523 : BitVec 32 := 128#32
  ![v6.toNat, 128]

def k0_chk193 (v857 : IVec S16 32) (v858 : IVec S16 32) : Prop :=
  (∀ a x, ((![v857, v858] : Fin 2 → IVec S16 32) a x).toNat < S128x128.size a)
instance k0_chk193.dec : ∀ (v857 : IVec S16 32) (v858 : IVec S16 32), Decidable (k0_chk193 v857 v858) := fun v857 v858 => decidable_of_iff' _ (Iff.of_eq (k0_chk193.eq_1 v857 v858))
theorem k0_idx193_inb : ∀ (v857 : IVec S16 32) (v858 : IVec S16 32) (k0_hw193 : k0_chk193 v857 v858), ∀ a x, ((![v857, v858] : Fin 2 → IVec S16 32) a x).toNat < S128x128.size a := fun v857 v858 k0_hw193 => k0_hw193

def k0_chk194 (v857 : IVec S16 32) (v865 : IVec S16 32) : Prop :=
  (∀ a x, ((![v857, v865] : Fin 2 → IVec S16 32) a x).toNat < S128x128.size a)
instance k0_chk194.dec : ∀ (v857 : IVec S16 32) (v865 : IVec S16 32), Decidable (k0_chk194 v857 v865) := fun v857 v865 => decidable_of_iff' _ (Iff.of_eq (k0_chk194.eq_1 v857 v865))
theorem k0_idx194_inb : ∀ (v857 : IVec S16 32) (v865 : IVec S16 32) (k0_hw194 : k0_chk194 v857 v865), ∀ a x, ((![v857, v865] : Fin 2 → IVec S16 32) a x).toNat < S128x128.size a := fun v857 v865 k0_hw194 => k0_hw194

def k0_chk195 (v857 : IVec S16 32) (v866 : IVec S16 32) : Prop :=
  (∀ a x, ((![v857, v866] : Fin 2 → IVec S16 32) a x).toNat < S128x128.size a)
instance k0_chk195.dec : ∀ (v857 : IVec S16 32) (v866 : IVec S16 32), Decidable (k0_chk195 v857 v866) := fun v857 v866 => decidable_of_iff' _ (Iff.of_eq (k0_chk195.eq_1 v857 v866))
theorem k0_idx195_inb : ∀ (v857 : IVec S16 32) (v866 : IVec S16 32) (k0_hw195 : k0_chk195 v857 v866), ∀ a x, ((![v857, v866] : Fin 2 → IVec S16 32) a x).toNat < S128x128.size a := fun v857 v866 k0_hw195 => k0_hw195

def k0_chk196 (v857 : IVec S16 32) (v873 : IVec S16 32) : Prop :=
  (∀ a x, ((![v857, v873] : Fin 2 → IVec S16 32) a x).toNat < S128x128.size a)
instance k0_chk196.dec : ∀ (v857 : IVec S16 32) (v873 : IVec S16 32), Decidable (k0_chk196 v857 v873) := fun v857 v873 => decidable_of_iff' _ (Iff.of_eq (k0_chk196.eq_1 v857 v873))
theorem k0_idx196_inb : ∀ (v857 : IVec S16 32) (v873 : IVec S16 32) (k0_hw196 : k0_chk196 v857 v873), ∀ a x, ((![v857, v873] : Fin 2 → IVec S16 32) a x).toNat < S128x128.size a := fun v857 v873 k0_hw196 => k0_hw196

def k0_chk197 (v857 : IVec S16 32) (v874 : IVec S16 32) : Prop :=
  (∀ a x, ((![v857, v874] : Fin 2 → IVec S16 32) a x).toNat < S128x128.size a)
instance k0_chk197.dec : ∀ (v857 : IVec S16 32) (v874 : IVec S16 32), Decidable (k0_chk197 v857 v874) := fun v857 v874 => decidable_of_iff' _ (Iff.of_eq (k0_chk197.eq_1 v857 v874))
theorem k0_idx197_inb : ∀ (v857 : IVec S16 32) (v874 : IVec S16 32) (k0_hw197 : k0_chk197 v857 v874), ∀ a x, ((![v857, v874] : Fin 2 → IVec S16 32) a x).toNat < S128x128.size a := fun v857 v874 k0_hw197 => k0_hw197

def k0_chk198 (v857 : IVec S16 32) (v881 : IVec S16 32) : Prop :=
  (∀ a x, ((![v857, v881] : Fin 2 → IVec S16 32) a x).toNat < S128x128.size a)
instance k0_chk198.dec : ∀ (v857 : IVec S16 32) (v881 : IVec S16 32), Decidable (k0_chk198 v857 v881) := fun v857 v881 => decidable_of_iff' _ (Iff.of_eq (k0_chk198.eq_1 v857 v881))
theorem k0_idx198_inb : ∀ (v857 : IVec S16 32) (v881 : IVec S16 32) (k0_hw198 : k0_chk198 v857 v881), ∀ a x, ((![v857, v881] : Fin 2 → IVec S16 32) a x).toNat < S128x128.size a := fun v857 v881 k0_hw198 => k0_hw198

def k0_chk199 (v857 : IVec S16 32) (v882 : IVec S16 32) : Prop :=
  (∀ a x, ((![v857, v882] : Fin 2 → IVec S16 32) a x).toNat < S128x128.size a)
instance k0_chk199.dec : ∀ (v857 : IVec S16 32) (v882 : IVec S16 32), Decidable (k0_chk199 v857 v882) := fun v857 v882 => decidable_of_iff' _ (Iff.of_eq (k0_chk199.eq_1 v857 v882))
theorem k0_idx199_inb : ∀ (v857 : IVec S16 32) (v882 : IVec S16 32) (k0_hw199 : k0_chk199 v857 v882), ∀ a x, ((![v857, v882] : Fin 2 → IVec S16 32) a x).toNat < S128x128.size a := fun v857 v882 k0_hw199 => k0_hw199

def k0_chk200 (v857 : IVec S16 32) (v889 : IVec S16 32) : Prop :=
  (∀ a x, ((![v857, v889] : Fin 2 → IVec S16 32) a x).toNat < S128x128.size a)
instance k0_chk200.dec : ∀ (v857 : IVec S16 32) (v889 : IVec S16 32), Decidable (k0_chk200 v857 v889) := fun v857 v889 => decidable_of_iff' _ (Iff.of_eq (k0_chk200.eq_1 v857 v889))
theorem k0_idx200_inb : ∀ (v857 : IVec S16 32) (v889 : IVec S16 32) (k0_hw200 : k0_chk200 v857 v889), ∀ a x, ((![v857, v889] : Fin 2 → IVec S16 32) a x).toNat < S128x128.size a := fun v857 v889 k0_hw200 => k0_hw200

def k0_chk201 (v891 : IVec S16 32) (v892 : IVec S16 32) : Prop :=
  (∀ a x, ((![v891, v892] : Fin 2 → IVec S16 32) a x).toNat < S128x128.size a)
instance k0_chk201.dec : ∀ (v891 : IVec S16 32) (v892 : IVec S16 32), Decidable (k0_chk201 v891 v892) := fun v891 v892 => decidable_of_iff' _ (Iff.of_eq (k0_chk201.eq_1 v891 v892))
theorem k0_idx201_inb : ∀ (v891 : IVec S16 32) (v892 : IVec S16 32) (k0_hw201 : k0_chk201 v891 v892), ∀ a x, ((![v891, v892] : Fin 2 → IVec S16 32) a x).toNat < S128x128.size a := fun v891 v892 k0_hw201 => k0_hw201

def k0_chk202 (v891 : IVec S16 32) (v899 : IVec S16 32) : Prop :=
  (∀ a x, ((![v891, v899] : Fin 2 → IVec S16 32) a x).toNat < S128x128.size a)
instance k0_chk202.dec : ∀ (v891 : IVec S16 32) (v899 : IVec S16 32), Decidable (k0_chk202 v891 v899) := fun v891 v899 => decidable_of_iff' _ (Iff.of_eq (k0_chk202.eq_1 v891 v899))
theorem k0_idx202_inb : ∀ (v891 : IVec S16 32) (v899 : IVec S16 32) (k0_hw202 : k0_chk202 v891 v899), ∀ a x, ((![v891, v899] : Fin 2 → IVec S16 32) a x).toNat < S128x128.size a := fun v891 v899 k0_hw202 => k0_hw202

def k0_chk203 (v891 : IVec S16 32) (v900 : IVec S16 32) : Prop :=
  (∀ a x, ((![v891, v900] : Fin 2 → IVec S16 32) a x).toNat < S128x128.size a)
instance k0_chk203.dec : ∀ (v891 : IVec S16 32) (v900 : IVec S16 32), Decidable (k0_chk203 v891 v900) := fun v891 v900 => decidable_of_iff' _ (Iff.of_eq (k0_chk203.eq_1 v891 v900))
theorem k0_idx203_inb : ∀ (v891 : IVec S16 32) (v900 : IVec S16 32) (k0_hw203 : k0_chk203 v891 v900), ∀ a x, ((![v891, v900] : Fin 2 → IVec S16 32) a x).toNat < S128x128.size a := fun v891 v900 k0_hw203 => k0_hw203

def k0_chk204 (v891 : IVec S16 32) (v907 : IVec S16 32) : Prop :=
  (∀ a x, ((![v891, v907] : Fin 2 → IVec S16 32) a x).toNat < S128x128.size a)
instance k0_chk204.dec : ∀ (v891 : IVec S16 32) (v907 : IVec S16 32), Decidable (k0_chk204 v891 v907) := fun v891 v907 => decidable_of_iff' _ (Iff.of_eq (k0_chk204.eq_1 v891 v907))
theorem k0_idx204_inb : ∀ (v891 : IVec S16 32) (v907 : IVec S16 32) (k0_hw204 : k0_chk204 v891 v907), ∀ a x, ((![v891, v907] : Fin 2 → IVec S16 32) a x).toNat < S128x128.size a := fun v891 v907 k0_hw204 => k0_hw204

def k0_chk205 (v891 : IVec S16 32) (v908 : IVec S16 32) : Prop :=
  (∀ a x, ((![v891, v908] : Fin 2 → IVec S16 32) a x).toNat < S128x128.size a)
instance k0_chk205.dec : ∀ (v891 : IVec S16 32) (v908 : IVec S16 32), Decidable (k0_chk205 v891 v908) := fun v891 v908 => decidable_of_iff' _ (Iff.of_eq (k0_chk205.eq_1 v891 v908))
theorem k0_idx205_inb : ∀ (v891 : IVec S16 32) (v908 : IVec S16 32) (k0_hw205 : k0_chk205 v891 v908), ∀ a x, ((![v891, v908] : Fin 2 → IVec S16 32) a x).toNat < S128x128.size a := fun v891 v908 k0_hw205 => k0_hw205

def k0_chk206 (v891 : IVec S16 32) (v915 : IVec S16 32) : Prop :=
  (∀ a x, ((![v891, v915] : Fin 2 → IVec S16 32) a x).toNat < S128x128.size a)
instance k0_chk206.dec : ∀ (v891 : IVec S16 32) (v915 : IVec S16 32), Decidable (k0_chk206 v891 v915) := fun v891 v915 => decidable_of_iff' _ (Iff.of_eq (k0_chk206.eq_1 v891 v915))
theorem k0_idx206_inb : ∀ (v891 : IVec S16 32) (v915 : IVec S16 32) (k0_hw206 : k0_chk206 v891 v915), ∀ a x, ((![v891, v915] : Fin 2 → IVec S16 32) a x).toNat < S128x128.size a := fun v891 v915 k0_hw206 => k0_hw206

def k0_chk207 (v891 : IVec S16 32) (v916 : IVec S16 32) : Prop :=
  (∀ a x, ((![v891, v916] : Fin 2 → IVec S16 32) a x).toNat < S128x128.size a)
instance k0_chk207.dec : ∀ (v891 : IVec S16 32) (v916 : IVec S16 32), Decidable (k0_chk207 v891 v916) := fun v891 v916 => decidable_of_iff' _ (Iff.of_eq (k0_chk207.eq_1 v891 v916))
theorem k0_idx207_inb : ∀ (v891 : IVec S16 32) (v916 : IVec S16 32) (k0_hw207 : k0_chk207 v891 v916), ∀ a x, ((![v891, v916] : Fin 2 → IVec S16 32) a x).toNat < S128x128.size a := fun v891 v916 k0_hw207 => k0_hw207

def k0_chk208 (v891 : IVec S16 32) (v923 : IVec S16 32) : Prop :=
  (∀ a x, ((![v891, v923] : Fin 2 → IVec S16 32) a x).toNat < S128x128.size a)
instance k0_chk208.dec : ∀ (v891 : IVec S16 32) (v923 : IVec S16 32), Decidable (k0_chk208 v891 v923) := fun v891 v923 => decidable_of_iff' _ (Iff.of_eq (k0_chk208.eq_1 v891 v923))
theorem k0_idx208_inb : ∀ (v891 : IVec S16 32) (v923 : IVec S16 32) (k0_hw208 : k0_chk208 v891 v923), ∀ a x, ((![v891, v923] : Fin 2 → IVec S16 32) a x).toNat < S128x128.size a := fun v891 v923 k0_hw208 => k0_hw208

def k0_chk209 (v925 : IVec S16 32) (v926 : IVec S16 32) : Prop :=
  (∀ a x, ((![v925, v926] : Fin 2 → IVec S16 32) a x).toNat < S128x128.size a)
instance k0_chk209.dec : ∀ (v925 : IVec S16 32) (v926 : IVec S16 32), Decidable (k0_chk209 v925 v926) := fun v925 v926 => decidable_of_iff' _ (Iff.of_eq (k0_chk209.eq_1 v925 v926))
theorem k0_idx209_inb : ∀ (v925 : IVec S16 32) (v926 : IVec S16 32) (k0_hw209 : k0_chk209 v925 v926), ∀ a x, ((![v925, v926] : Fin 2 → IVec S16 32) a x).toNat < S128x128.size a := fun v925 v926 k0_hw209 => k0_hw209

def k0_chk210 (v925 : IVec S16 32) (v933 : IVec S16 32) : Prop :=
  (∀ a x, ((![v925, v933] : Fin 2 → IVec S16 32) a x).toNat < S128x128.size a)
instance k0_chk210.dec : ∀ (v925 : IVec S16 32) (v933 : IVec S16 32), Decidable (k0_chk210 v925 v933) := fun v925 v933 => decidable_of_iff' _ (Iff.of_eq (k0_chk210.eq_1 v925 v933))
theorem k0_idx210_inb : ∀ (v925 : IVec S16 32) (v933 : IVec S16 32) (k0_hw210 : k0_chk210 v925 v933), ∀ a x, ((![v925, v933] : Fin 2 → IVec S16 32) a x).toNat < S128x128.size a := fun v925 v933 k0_hw210 => k0_hw210

def k0_chk211 (v925 : IVec S16 32) (v934 : IVec S16 32) : Prop :=
  (∀ a x, ((![v925, v934] : Fin 2 → IVec S16 32) a x).toNat < S128x128.size a)
instance k0_chk211.dec : ∀ (v925 : IVec S16 32) (v934 : IVec S16 32), Decidable (k0_chk211 v925 v934) := fun v925 v934 => decidable_of_iff' _ (Iff.of_eq (k0_chk211.eq_1 v925 v934))
theorem k0_idx211_inb : ∀ (v925 : IVec S16 32) (v934 : IVec S16 32) (k0_hw211 : k0_chk211 v925 v934), ∀ a x, ((![v925, v934] : Fin 2 → IVec S16 32) a x).toNat < S128x128.size a := fun v925 v934 k0_hw211 => k0_hw211

def k0_chk212 (v925 : IVec S16 32) (v941 : IVec S16 32) : Prop :=
  (∀ a x, ((![v925, v941] : Fin 2 → IVec S16 32) a x).toNat < S128x128.size a)
instance k0_chk212.dec : ∀ (v925 : IVec S16 32) (v941 : IVec S16 32), Decidable (k0_chk212 v925 v941) := fun v925 v941 => decidable_of_iff' _ (Iff.of_eq (k0_chk212.eq_1 v925 v941))
theorem k0_idx212_inb : ∀ (v925 : IVec S16 32) (v941 : IVec S16 32) (k0_hw212 : k0_chk212 v925 v941), ∀ a x, ((![v925, v941] : Fin 2 → IVec S16 32) a x).toNat < S128x128.size a := fun v925 v941 k0_hw212 => k0_hw212

def k0_chk213 (v925 : IVec S16 32) (v942 : IVec S16 32) : Prop :=
  (∀ a x, ((![v925, v942] : Fin 2 → IVec S16 32) a x).toNat < S128x128.size a)
instance k0_chk213.dec : ∀ (v925 : IVec S16 32) (v942 : IVec S16 32), Decidable (k0_chk213 v925 v942) := fun v925 v942 => decidable_of_iff' _ (Iff.of_eq (k0_chk213.eq_1 v925 v942))
theorem k0_idx213_inb : ∀ (v925 : IVec S16 32) (v942 : IVec S16 32) (k0_hw213 : k0_chk213 v925 v942), ∀ a x, ((![v925, v942] : Fin 2 → IVec S16 32) a x).toNat < S128x128.size a := fun v925 v942 k0_hw213 => k0_hw213

def k0_chk214 (v925 : IVec S16 32) (v949 : IVec S16 32) : Prop :=
  (∀ a x, ((![v925, v949] : Fin 2 → IVec S16 32) a x).toNat < S128x128.size a)
instance k0_chk214.dec : ∀ (v925 : IVec S16 32) (v949 : IVec S16 32), Decidable (k0_chk214 v925 v949) := fun v925 v949 => decidable_of_iff' _ (Iff.of_eq (k0_chk214.eq_1 v925 v949))
theorem k0_idx214_inb : ∀ (v925 : IVec S16 32) (v949 : IVec S16 32) (k0_hw214 : k0_chk214 v925 v949), ∀ a x, ((![v925, v949] : Fin 2 → IVec S16 32) a x).toNat < S128x128.size a := fun v925 v949 k0_hw214 => k0_hw214

def k0_chk215 (v925 : IVec S16 32) (v950 : IVec S16 32) : Prop :=
  (∀ a x, ((![v925, v950] : Fin 2 → IVec S16 32) a x).toNat < S128x128.size a)
instance k0_chk215.dec : ∀ (v925 : IVec S16 32) (v950 : IVec S16 32), Decidable (k0_chk215 v925 v950) := fun v925 v950 => decidable_of_iff' _ (Iff.of_eq (k0_chk215.eq_1 v925 v950))
theorem k0_idx215_inb : ∀ (v925 : IVec S16 32) (v950 : IVec S16 32) (k0_hw215 : k0_chk215 v925 v950), ∀ a x, ((![v925, v950] : Fin 2 → IVec S16 32) a x).toNat < S128x128.size a := fun v925 v950 k0_hw215 => k0_hw215

def k0_chk216 (v925 : IVec S16 32) (v957 : IVec S16 32) : Prop :=
  (∀ a x, ((![v925, v957] : Fin 2 → IVec S16 32) a x).toNat < S128x128.size a)
instance k0_chk216.dec : ∀ (v925 : IVec S16 32) (v957 : IVec S16 32), Decidable (k0_chk216 v925 v957) := fun v925 v957 => decidable_of_iff' _ (Iff.of_eq (k0_chk216.eq_1 v925 v957))
theorem k0_idx216_inb : ∀ (v925 : IVec S16 32) (v957 : IVec S16 32) (k0_hw216 : k0_chk216 v925 v957), ∀ a x, ((![v925, v957] : Fin 2 → IVec S16 32) a x).toNat < S128x128.size a := fun v925 v957 k0_hw216 => k0_hw216

def k0_chk217 (v959 : IVec S16 32) (v960 : IVec S16 32) : Prop :=
  (∀ a x, ((![v959, v960] : Fin 2 → IVec S16 32) a x).toNat < S128x128.size a)
instance k0_chk217.dec : ∀ (v959 : IVec S16 32) (v960 : IVec S16 32), Decidable (k0_chk217 v959 v960) := fun v959 v960 => decidable_of_iff' _ (Iff.of_eq (k0_chk217.eq_1 v959 v960))
theorem k0_idx217_inb : ∀ (v959 : IVec S16 32) (v960 : IVec S16 32) (k0_hw217 : k0_chk217 v959 v960), ∀ a x, ((![v959, v960] : Fin 2 → IVec S16 32) a x).toNat < S128x128.size a := fun v959 v960 k0_hw217 => k0_hw217

def k0_chk218 (v959 : IVec S16 32) (v967 : IVec S16 32) : Prop :=
  (∀ a x, ((![v959, v967] : Fin 2 → IVec S16 32) a x).toNat < S128x128.size a)
instance k0_chk218.dec : ∀ (v959 : IVec S16 32) (v967 : IVec S16 32), Decidable (k0_chk218 v959 v967) := fun v959 v967 => decidable_of_iff' _ (Iff.of_eq (k0_chk218.eq_1 v959 v967))
theorem k0_idx218_inb : ∀ (v959 : IVec S16 32) (v967 : IVec S16 32) (k0_hw218 : k0_chk218 v959 v967), ∀ a x, ((![v959, v967] : Fin 2 → IVec S16 32) a x).toNat < S128x128.size a := fun v959 v967 k0_hw218 => k0_hw218

def k0_chk219 (v959 : IVec S16 32) (v968 : IVec S16 32) : Prop :=
  (∀ a x, ((![v959, v968] : Fin 2 → IVec S16 32) a x).toNat < S128x128.size a)
instance k0_chk219.dec : ∀ (v959 : IVec S16 32) (v968 : IVec S16 32), Decidable (k0_chk219 v959 v968) := fun v959 v968 => decidable_of_iff' _ (Iff.of_eq (k0_chk219.eq_1 v959 v968))
theorem k0_idx219_inb : ∀ (v959 : IVec S16 32) (v968 : IVec S16 32) (k0_hw219 : k0_chk219 v959 v968), ∀ a x, ((![v959, v968] : Fin 2 → IVec S16 32) a x).toNat < S128x128.size a := fun v959 v968 k0_hw219 => k0_hw219

def k0_chk220 (v959 : IVec S16 32) (v975 : IVec S16 32) : Prop :=
  (∀ a x, ((![v959, v975] : Fin 2 → IVec S16 32) a x).toNat < S128x128.size a)
instance k0_chk220.dec : ∀ (v959 : IVec S16 32) (v975 : IVec S16 32), Decidable (k0_chk220 v959 v975) := fun v959 v975 => decidable_of_iff' _ (Iff.of_eq (k0_chk220.eq_1 v959 v975))
theorem k0_idx220_inb : ∀ (v959 : IVec S16 32) (v975 : IVec S16 32) (k0_hw220 : k0_chk220 v959 v975), ∀ a x, ((![v959, v975] : Fin 2 → IVec S16 32) a x).toNat < S128x128.size a := fun v959 v975 k0_hw220 => k0_hw220

def k0_chk221 (v959 : IVec S16 32) (v976 : IVec S16 32) : Prop :=
  (∀ a x, ((![v959, v976] : Fin 2 → IVec S16 32) a x).toNat < S128x128.size a)
instance k0_chk221.dec : ∀ (v959 : IVec S16 32) (v976 : IVec S16 32), Decidable (k0_chk221 v959 v976) := fun v959 v976 => decidable_of_iff' _ (Iff.of_eq (k0_chk221.eq_1 v959 v976))
theorem k0_idx221_inb : ∀ (v959 : IVec S16 32) (v976 : IVec S16 32) (k0_hw221 : k0_chk221 v959 v976), ∀ a x, ((![v959, v976] : Fin 2 → IVec S16 32) a x).toNat < S128x128.size a := fun v959 v976 k0_hw221 => k0_hw221

def k0_chk222 (v959 : IVec S16 32) (v983 : IVec S16 32) : Prop :=
  (∀ a x, ((![v959, v983] : Fin 2 → IVec S16 32) a x).toNat < S128x128.size a)
instance k0_chk222.dec : ∀ (v959 : IVec S16 32) (v983 : IVec S16 32), Decidable (k0_chk222 v959 v983) := fun v959 v983 => decidable_of_iff' _ (Iff.of_eq (k0_chk222.eq_1 v959 v983))
theorem k0_idx222_inb : ∀ (v959 : IVec S16 32) (v983 : IVec S16 32) (k0_hw222 : k0_chk222 v959 v983), ∀ a x, ((![v959, v983] : Fin 2 → IVec S16 32) a x).toNat < S128x128.size a := fun v959 v983 k0_hw222 => k0_hw222

def k0_chk223 (v959 : IVec S16 32) (v984 : IVec S16 32) : Prop :=
  (∀ a x, ((![v959, v984] : Fin 2 → IVec S16 32) a x).toNat < S128x128.size a)
instance k0_chk223.dec : ∀ (v959 : IVec S16 32) (v984 : IVec S16 32), Decidable (k0_chk223 v959 v984) := fun v959 v984 => decidable_of_iff' _ (Iff.of_eq (k0_chk223.eq_1 v959 v984))
theorem k0_idx223_inb : ∀ (v959 : IVec S16 32) (v984 : IVec S16 32) (k0_hw223 : k0_chk223 v959 v984), ∀ a x, ((![v959, v984] : Fin 2 → IVec S16 32) a x).toNat < S128x128.size a := fun v959 v984 k0_hw223 => k0_hw223

def k0_chk224 (v959 : IVec S16 32) (v991 : IVec S16 32) : Prop :=
  (∀ a x, ((![v959, v991] : Fin 2 → IVec S16 32) a x).toNat < S128x128.size a)
instance k0_chk224.dec : ∀ (v959 : IVec S16 32) (v991 : IVec S16 32), Decidable (k0_chk224 v959 v991) := fun v959 v991 => decidable_of_iff' _ (Iff.of_eq (k0_chk224.eq_1 v959 v991))
theorem k0_idx224_inb : ∀ (v959 : IVec S16 32) (v991 : IVec S16 32) (k0_hw224 : k0_chk224 v959 v991), ∀ a x, ((![v959, v991] : Fin 2 → IVec S16 32) a x).toNat < S128x128.size a := fun v959 v991 k0_hw224 => k0_hw224

def k0_chk225 (v993 : IVec S16 32) (v994 : IVec S16 32) : Prop :=
  (∀ a x, ((![v993, v994] : Fin 2 → IVec S16 32) a x).toNat < S128x128.size a)
instance k0_chk225.dec : ∀ (v993 : IVec S16 32) (v994 : IVec S16 32), Decidable (k0_chk225 v993 v994) := fun v993 v994 => decidable_of_iff' _ (Iff.of_eq (k0_chk225.eq_1 v993 v994))
theorem k0_idx225_inb : ∀ (v993 : IVec S16 32) (v994 : IVec S16 32) (k0_hw225 : k0_chk225 v993 v994), ∀ a x, ((![v993, v994] : Fin 2 → IVec S16 32) a x).toNat < S128x128.size a := fun v993 v994 k0_hw225 => k0_hw225

def k0_chk226 (v993 : IVec S16 32) (v1001 : IVec S16 32) : Prop :=
  (∀ a x, ((![v993, v1001] : Fin 2 → IVec S16 32) a x).toNat < S128x128.size a)
instance k0_chk226.dec : ∀ (v993 : IVec S16 32) (v1001 : IVec S16 32), Decidable (k0_chk226 v993 v1001) := fun v993 v1001 => decidable_of_iff' _ (Iff.of_eq (k0_chk226.eq_1 v993 v1001))
theorem k0_idx226_inb : ∀ (v993 : IVec S16 32) (v1001 : IVec S16 32) (k0_hw226 : k0_chk226 v993 v1001), ∀ a x, ((![v993, v1001] : Fin 2 → IVec S16 32) a x).toNat < S128x128.size a := fun v993 v1001 k0_hw226 => k0_hw226

def k0_chk227 (v993 : IVec S16 32) (v1002 : IVec S16 32) : Prop :=
  (∀ a x, ((![v993, v1002] : Fin 2 → IVec S16 32) a x).toNat < S128x128.size a)
instance k0_chk227.dec : ∀ (v993 : IVec S16 32) (v1002 : IVec S16 32), Decidable (k0_chk227 v993 v1002) := fun v993 v1002 => decidable_of_iff' _ (Iff.of_eq (k0_chk227.eq_1 v993 v1002))
theorem k0_idx227_inb : ∀ (v993 : IVec S16 32) (v1002 : IVec S16 32) (k0_hw227 : k0_chk227 v993 v1002), ∀ a x, ((![v993, v1002] : Fin 2 → IVec S16 32) a x).toNat < S128x128.size a := fun v993 v1002 k0_hw227 => k0_hw227

def k0_chk228 (v993 : IVec S16 32) (v1009 : IVec S16 32) : Prop :=
  (∀ a x, ((![v993, v1009] : Fin 2 → IVec S16 32) a x).toNat < S128x128.size a)
instance k0_chk228.dec : ∀ (v993 : IVec S16 32) (v1009 : IVec S16 32), Decidable (k0_chk228 v993 v1009) := fun v993 v1009 => decidable_of_iff' _ (Iff.of_eq (k0_chk228.eq_1 v993 v1009))
theorem k0_idx228_inb : ∀ (v993 : IVec S16 32) (v1009 : IVec S16 32) (k0_hw228 : k0_chk228 v993 v1009), ∀ a x, ((![v993, v1009] : Fin 2 → IVec S16 32) a x).toNat < S128x128.size a := fun v993 v1009 k0_hw228 => k0_hw228

def k0_chk229 (v993 : IVec S16 32) (v1010 : IVec S16 32) : Prop :=
  (∀ a x, ((![v993, v1010] : Fin 2 → IVec S16 32) a x).toNat < S128x128.size a)
instance k0_chk229.dec : ∀ (v993 : IVec S16 32) (v1010 : IVec S16 32), Decidable (k0_chk229 v993 v1010) := fun v993 v1010 => decidable_of_iff' _ (Iff.of_eq (k0_chk229.eq_1 v993 v1010))
theorem k0_idx229_inb : ∀ (v993 : IVec S16 32) (v1010 : IVec S16 32) (k0_hw229 : k0_chk229 v993 v1010), ∀ a x, ((![v993, v1010] : Fin 2 → IVec S16 32) a x).toNat < S128x128.size a := fun v993 v1010 k0_hw229 => k0_hw229

def k0_chk230 (v993 : IVec S16 32) (v1017 : IVec S16 32) : Prop :=
  (∀ a x, ((![v993, v1017] : Fin 2 → IVec S16 32) a x).toNat < S128x128.size a)
instance k0_chk230.dec : ∀ (v993 : IVec S16 32) (v1017 : IVec S16 32), Decidable (k0_chk230 v993 v1017) := fun v993 v1017 => decidable_of_iff' _ (Iff.of_eq (k0_chk230.eq_1 v993 v1017))
theorem k0_idx230_inb : ∀ (v993 : IVec S16 32) (v1017 : IVec S16 32) (k0_hw230 : k0_chk230 v993 v1017), ∀ a x, ((![v993, v1017] : Fin 2 → IVec S16 32) a x).toNat < S128x128.size a := fun v993 v1017 k0_hw230 => k0_hw230

def k0_chk231 (v993 : IVec S16 32) (v1018 : IVec S16 32) : Prop :=
  (∀ a x, ((![v993, v1018] : Fin 2 → IVec S16 32) a x).toNat < S128x128.size a)
instance k0_chk231.dec : ∀ (v993 : IVec S16 32) (v1018 : IVec S16 32), Decidable (k0_chk231 v993 v1018) := fun v993 v1018 => decidable_of_iff' _ (Iff.of_eq (k0_chk231.eq_1 v993 v1018))
theorem k0_idx231_inb : ∀ (v993 : IVec S16 32) (v1018 : IVec S16 32) (k0_hw231 : k0_chk231 v993 v1018), ∀ a x, ((![v993, v1018] : Fin 2 → IVec S16 32) a x).toNat < S128x128.size a := fun v993 v1018 k0_hw231 => k0_hw231

def k0_chk232 (v993 : IVec S16 32) (v1025 : IVec S16 32) : Prop :=
  (∀ a x, ((![v993, v1025] : Fin 2 → IVec S16 32) a x).toNat < S128x128.size a)
instance k0_chk232.dec : ∀ (v993 : IVec S16 32) (v1025 : IVec S16 32), Decidable (k0_chk232 v993 v1025) := fun v993 v1025 => decidable_of_iff' _ (Iff.of_eq (k0_chk232.eq_1 v993 v1025))
theorem k0_idx232_inb : ∀ (v993 : IVec S16 32) (v1025 : IVec S16 32) (k0_hw232 : k0_chk232 v993 v1025), ∀ a x, ((![v993, v1025] : Fin 2 → IVec S16 32) a x).toNat < S128x128.size a := fun v993 v1025 k0_hw232 => k0_hw232

def k0_chk233 (v1027 : IVec S16 32) (v1028 : IVec S16 32) : Prop :=
  (∀ a x, ((![v1027, v1028] : Fin 2 → IVec S16 32) a x).toNat < S128x128.size a)
instance k0_chk233.dec : ∀ (v1027 : IVec S16 32) (v1028 : IVec S16 32), Decidable (k0_chk233 v1027 v1028) := fun v1027 v1028 => decidable_of_iff' _ (Iff.of_eq (k0_chk233.eq_1 v1027 v1028))
theorem k0_idx233_inb : ∀ (v1027 : IVec S16 32) (v1028 : IVec S16 32) (k0_hw233 : k0_chk233 v1027 v1028), ∀ a x, ((![v1027, v1028] : Fin 2 → IVec S16 32) a x).toNat < S128x128.size a := fun v1027 v1028 k0_hw233 => k0_hw233

def k0_chk234 (v1027 : IVec S16 32) (v1035 : IVec S16 32) : Prop :=
  (∀ a x, ((![v1027, v1035] : Fin 2 → IVec S16 32) a x).toNat < S128x128.size a)
instance k0_chk234.dec : ∀ (v1027 : IVec S16 32) (v1035 : IVec S16 32), Decidable (k0_chk234 v1027 v1035) := fun v1027 v1035 => decidable_of_iff' _ (Iff.of_eq (k0_chk234.eq_1 v1027 v1035))
theorem k0_idx234_inb : ∀ (v1027 : IVec S16 32) (v1035 : IVec S16 32) (k0_hw234 : k0_chk234 v1027 v1035), ∀ a x, ((![v1027, v1035] : Fin 2 → IVec S16 32) a x).toNat < S128x128.size a := fun v1027 v1035 k0_hw234 => k0_hw234

def k0_chk235 (v1027 : IVec S16 32) (v1036 : IVec S16 32) : Prop :=
  (∀ a x, ((![v1027, v1036] : Fin 2 → IVec S16 32) a x).toNat < S128x128.size a)
instance k0_chk235.dec : ∀ (v1027 : IVec S16 32) (v1036 : IVec S16 32), Decidable (k0_chk235 v1027 v1036) := fun v1027 v1036 => decidable_of_iff' _ (Iff.of_eq (k0_chk235.eq_1 v1027 v1036))
theorem k0_idx235_inb : ∀ (v1027 : IVec S16 32) (v1036 : IVec S16 32) (k0_hw235 : k0_chk235 v1027 v1036), ∀ a x, ((![v1027, v1036] : Fin 2 → IVec S16 32) a x).toNat < S128x128.size a := fun v1027 v1036 k0_hw235 => k0_hw235

def k0_chk236 (v1027 : IVec S16 32) (v1043 : IVec S16 32) : Prop :=
  (∀ a x, ((![v1027, v1043] : Fin 2 → IVec S16 32) a x).toNat < S128x128.size a)
instance k0_chk236.dec : ∀ (v1027 : IVec S16 32) (v1043 : IVec S16 32), Decidable (k0_chk236 v1027 v1043) := fun v1027 v1043 => decidable_of_iff' _ (Iff.of_eq (k0_chk236.eq_1 v1027 v1043))
theorem k0_idx236_inb : ∀ (v1027 : IVec S16 32) (v1043 : IVec S16 32) (k0_hw236 : k0_chk236 v1027 v1043), ∀ a x, ((![v1027, v1043] : Fin 2 → IVec S16 32) a x).toNat < S128x128.size a := fun v1027 v1043 k0_hw236 => k0_hw236

def k0_chk237 (v1027 : IVec S16 32) (v1044 : IVec S16 32) : Prop :=
  (∀ a x, ((![v1027, v1044] : Fin 2 → IVec S16 32) a x).toNat < S128x128.size a)
instance k0_chk237.dec : ∀ (v1027 : IVec S16 32) (v1044 : IVec S16 32), Decidable (k0_chk237 v1027 v1044) := fun v1027 v1044 => decidable_of_iff' _ (Iff.of_eq (k0_chk237.eq_1 v1027 v1044))
theorem k0_idx237_inb : ∀ (v1027 : IVec S16 32) (v1044 : IVec S16 32) (k0_hw237 : k0_chk237 v1027 v1044), ∀ a x, ((![v1027, v1044] : Fin 2 → IVec S16 32) a x).toNat < S128x128.size a := fun v1027 v1044 k0_hw237 => k0_hw237

def k0_chk238 (v1027 : IVec S16 32) (v1051 : IVec S16 32) : Prop :=
  (∀ a x, ((![v1027, v1051] : Fin 2 → IVec S16 32) a x).toNat < S128x128.size a)
instance k0_chk238.dec : ∀ (v1027 : IVec S16 32) (v1051 : IVec S16 32), Decidable (k0_chk238 v1027 v1051) := fun v1027 v1051 => decidable_of_iff' _ (Iff.of_eq (k0_chk238.eq_1 v1027 v1051))
theorem k0_idx238_inb : ∀ (v1027 : IVec S16 32) (v1051 : IVec S16 32) (k0_hw238 : k0_chk238 v1027 v1051), ∀ a x, ((![v1027, v1051] : Fin 2 → IVec S16 32) a x).toNat < S128x128.size a := fun v1027 v1051 k0_hw238 => k0_hw238

def k0_chk239 (v1027 : IVec S16 32) (v1052 : IVec S16 32) : Prop :=
  (∀ a x, ((![v1027, v1052] : Fin 2 → IVec S16 32) a x).toNat < S128x128.size a)
instance k0_chk239.dec : ∀ (v1027 : IVec S16 32) (v1052 : IVec S16 32), Decidable (k0_chk239 v1027 v1052) := fun v1027 v1052 => decidable_of_iff' _ (Iff.of_eq (k0_chk239.eq_1 v1027 v1052))
theorem k0_idx239_inb : ∀ (v1027 : IVec S16 32) (v1052 : IVec S16 32) (k0_hw239 : k0_chk239 v1027 v1052), ∀ a x, ((![v1027, v1052] : Fin 2 → IVec S16 32) a x).toNat < S128x128.size a := fun v1027 v1052 k0_hw239 => k0_hw239

def k0_chk240 (v1027 : IVec S16 32) (v1059 : IVec S16 32) : Prop :=
  (∀ a x, ((![v1027, v1059] : Fin 2 → IVec S16 32) a x).toNat < S128x128.size a)
instance k0_chk240.dec : ∀ (v1027 : IVec S16 32) (v1059 : IVec S16 32), Decidable (k0_chk240 v1027 v1059) := fun v1027 v1059 => decidable_of_iff' _ (Iff.of_eq (k0_chk240.eq_1 v1027 v1059))
theorem k0_idx240_inb : ∀ (v1027 : IVec S16 32) (v1059 : IVec S16 32) (k0_hw240 : k0_chk240 v1027 v1059), ∀ a x, ((![v1027, v1059] : Fin 2 → IVec S16 32) a x).toNat < S128x128.size a := fun v1027 v1059 k0_hw240 => k0_hw240

def k0_chk241 (v1061 : IVec S16 32) (v1062 : IVec S16 32) : Prop :=
  (∀ a x, ((![v1061, v1062] : Fin 2 → IVec S16 32) a x).toNat < S128x128.size a)
instance k0_chk241.dec : ∀ (v1061 : IVec S16 32) (v1062 : IVec S16 32), Decidable (k0_chk241 v1061 v1062) := fun v1061 v1062 => decidable_of_iff' _ (Iff.of_eq (k0_chk241.eq_1 v1061 v1062))
theorem k0_idx241_inb : ∀ (v1061 : IVec S16 32) (v1062 : IVec S16 32) (k0_hw241 : k0_chk241 v1061 v1062), ∀ a x, ((![v1061, v1062] : Fin 2 → IVec S16 32) a x).toNat < S128x128.size a := fun v1061 v1062 k0_hw241 => k0_hw241

def k0_chk242 (v1061 : IVec S16 32) (v1069 : IVec S16 32) : Prop :=
  (∀ a x, ((![v1061, v1069] : Fin 2 → IVec S16 32) a x).toNat < S128x128.size a)
instance k0_chk242.dec : ∀ (v1061 : IVec S16 32) (v1069 : IVec S16 32), Decidable (k0_chk242 v1061 v1069) := fun v1061 v1069 => decidable_of_iff' _ (Iff.of_eq (k0_chk242.eq_1 v1061 v1069))
theorem k0_idx242_inb : ∀ (v1061 : IVec S16 32) (v1069 : IVec S16 32) (k0_hw242 : k0_chk242 v1061 v1069), ∀ a x, ((![v1061, v1069] : Fin 2 → IVec S16 32) a x).toNat < S128x128.size a := fun v1061 v1069 k0_hw242 => k0_hw242

def k0_chk243 (v1061 : IVec S16 32) (v1070 : IVec S16 32) : Prop :=
  (∀ a x, ((![v1061, v1070] : Fin 2 → IVec S16 32) a x).toNat < S128x128.size a)
instance k0_chk243.dec : ∀ (v1061 : IVec S16 32) (v1070 : IVec S16 32), Decidable (k0_chk243 v1061 v1070) := fun v1061 v1070 => decidable_of_iff' _ (Iff.of_eq (k0_chk243.eq_1 v1061 v1070))
theorem k0_idx243_inb : ∀ (v1061 : IVec S16 32) (v1070 : IVec S16 32) (k0_hw243 : k0_chk243 v1061 v1070), ∀ a x, ((![v1061, v1070] : Fin 2 → IVec S16 32) a x).toNat < S128x128.size a := fun v1061 v1070 k0_hw243 => k0_hw243

def k0_chk244 (v1061 : IVec S16 32) (v1077 : IVec S16 32) : Prop :=
  (∀ a x, ((![v1061, v1077] : Fin 2 → IVec S16 32) a x).toNat < S128x128.size a)
instance k0_chk244.dec : ∀ (v1061 : IVec S16 32) (v1077 : IVec S16 32), Decidable (k0_chk244 v1061 v1077) := fun v1061 v1077 => decidable_of_iff' _ (Iff.of_eq (k0_chk244.eq_1 v1061 v1077))
theorem k0_idx244_inb : ∀ (v1061 : IVec S16 32) (v1077 : IVec S16 32) (k0_hw244 : k0_chk244 v1061 v1077), ∀ a x, ((![v1061, v1077] : Fin 2 → IVec S16 32) a x).toNat < S128x128.size a := fun v1061 v1077 k0_hw244 => k0_hw244

def k0_chk245 (v1061 : IVec S16 32) (v1078 : IVec S16 32) : Prop :=
  (∀ a x, ((![v1061, v1078] : Fin 2 → IVec S16 32) a x).toNat < S128x128.size a)
instance k0_chk245.dec : ∀ (v1061 : IVec S16 32) (v1078 : IVec S16 32), Decidable (k0_chk245 v1061 v1078) := fun v1061 v1078 => decidable_of_iff' _ (Iff.of_eq (k0_chk245.eq_1 v1061 v1078))
theorem k0_idx245_inb : ∀ (v1061 : IVec S16 32) (v1078 : IVec S16 32) (k0_hw245 : k0_chk245 v1061 v1078), ∀ a x, ((![v1061, v1078] : Fin 2 → IVec S16 32) a x).toNat < S128x128.size a := fun v1061 v1078 k0_hw245 => k0_hw245

def k0_chk246 (v1061 : IVec S16 32) (v1085 : IVec S16 32) : Prop :=
  (∀ a x, ((![v1061, v1085] : Fin 2 → IVec S16 32) a x).toNat < S128x128.size a)
instance k0_chk246.dec : ∀ (v1061 : IVec S16 32) (v1085 : IVec S16 32), Decidable (k0_chk246 v1061 v1085) := fun v1061 v1085 => decidable_of_iff' _ (Iff.of_eq (k0_chk246.eq_1 v1061 v1085))
theorem k0_idx246_inb : ∀ (v1061 : IVec S16 32) (v1085 : IVec S16 32) (k0_hw246 : k0_chk246 v1061 v1085), ∀ a x, ((![v1061, v1085] : Fin 2 → IVec S16 32) a x).toNat < S128x128.size a := fun v1061 v1085 k0_hw246 => k0_hw246

def k0_chk247 (v1061 : IVec S16 32) (v1086 : IVec S16 32) : Prop :=
  (∀ a x, ((![v1061, v1086] : Fin 2 → IVec S16 32) a x).toNat < S128x128.size a)
instance k0_chk247.dec : ∀ (v1061 : IVec S16 32) (v1086 : IVec S16 32), Decidable (k0_chk247 v1061 v1086) := fun v1061 v1086 => decidable_of_iff' _ (Iff.of_eq (k0_chk247.eq_1 v1061 v1086))
theorem k0_idx247_inb : ∀ (v1061 : IVec S16 32) (v1086 : IVec S16 32) (k0_hw247 : k0_chk247 v1061 v1086), ∀ a x, ((![v1061, v1086] : Fin 2 → IVec S16 32) a x).toNat < S128x128.size a := fun v1061 v1086 k0_hw247 => k0_hw247

def k0_chk248 (v1061 : IVec S16 32) (v1093 : IVec S16 32) : Prop :=
  (∀ a x, ((![v1061, v1093] : Fin 2 → IVec S16 32) a x).toNat < S128x128.size a)
instance k0_chk248.dec : ∀ (v1061 : IVec S16 32) (v1093 : IVec S16 32), Decidable (k0_chk248 v1061 v1093) := fun v1061 v1093 => decidable_of_iff' _ (Iff.of_eq (k0_chk248.eq_1 v1061 v1093))
theorem k0_idx248_inb : ∀ (v1061 : IVec S16 32) (v1093 : IVec S16 32) (k0_hw248 : k0_chk248 v1061 v1093), ∀ a x, ((![v1061, v1093] : Fin 2 → IVec S16 32) a x).toNat < S128x128.size a := fun v1061 v1093 k0_hw248 => k0_hw248

def k0_chk249 (v1095 : IVec S16 32) (v1096 : IVec S16 32) : Prop :=
  (∀ a x, ((![v1095, v1096] : Fin 2 → IVec S16 32) a x).toNat < S128x128.size a)
instance k0_chk249.dec : ∀ (v1095 : IVec S16 32) (v1096 : IVec S16 32), Decidable (k0_chk249 v1095 v1096) := fun v1095 v1096 => decidable_of_iff' _ (Iff.of_eq (k0_chk249.eq_1 v1095 v1096))
theorem k0_idx249_inb : ∀ (v1095 : IVec S16 32) (v1096 : IVec S16 32) (k0_hw249 : k0_chk249 v1095 v1096), ∀ a x, ((![v1095, v1096] : Fin 2 → IVec S16 32) a x).toNat < S128x128.size a := fun v1095 v1096 k0_hw249 => k0_hw249

def k0_chk250 (v1095 : IVec S16 32) (v1103 : IVec S16 32) : Prop :=
  (∀ a x, ((![v1095, v1103] : Fin 2 → IVec S16 32) a x).toNat < S128x128.size a)
instance k0_chk250.dec : ∀ (v1095 : IVec S16 32) (v1103 : IVec S16 32), Decidable (k0_chk250 v1095 v1103) := fun v1095 v1103 => decidable_of_iff' _ (Iff.of_eq (k0_chk250.eq_1 v1095 v1103))
theorem k0_idx250_inb : ∀ (v1095 : IVec S16 32) (v1103 : IVec S16 32) (k0_hw250 : k0_chk250 v1095 v1103), ∀ a x, ((![v1095, v1103] : Fin 2 → IVec S16 32) a x).toNat < S128x128.size a := fun v1095 v1103 k0_hw250 => k0_hw250

def k0_chk251 (v1095 : IVec S16 32) (v1104 : IVec S16 32) : Prop :=
  (∀ a x, ((![v1095, v1104] : Fin 2 → IVec S16 32) a x).toNat < S128x128.size a)
instance k0_chk251.dec : ∀ (v1095 : IVec S16 32) (v1104 : IVec S16 32), Decidable (k0_chk251 v1095 v1104) := fun v1095 v1104 => decidable_of_iff' _ (Iff.of_eq (k0_chk251.eq_1 v1095 v1104))
theorem k0_idx251_inb : ∀ (v1095 : IVec S16 32) (v1104 : IVec S16 32) (k0_hw251 : k0_chk251 v1095 v1104), ∀ a x, ((![v1095, v1104] : Fin 2 → IVec S16 32) a x).toNat < S128x128.size a := fun v1095 v1104 k0_hw251 => k0_hw251

def k0_chk252 (v1095 : IVec S16 32) (v1111 : IVec S16 32) : Prop :=
  (∀ a x, ((![v1095, v1111] : Fin 2 → IVec S16 32) a x).toNat < S128x128.size a)
instance k0_chk252.dec : ∀ (v1095 : IVec S16 32) (v1111 : IVec S16 32), Decidable (k0_chk252 v1095 v1111) := fun v1095 v1111 => decidable_of_iff' _ (Iff.of_eq (k0_chk252.eq_1 v1095 v1111))
theorem k0_idx252_inb : ∀ (v1095 : IVec S16 32) (v1111 : IVec S16 32) (k0_hw252 : k0_chk252 v1095 v1111), ∀ a x, ((![v1095, v1111] : Fin 2 → IVec S16 32) a x).toNat < S128x128.size a := fun v1095 v1111 k0_hw252 => k0_hw252

def k0_chk253 (v1095 : IVec S16 32) (v1112 : IVec S16 32) : Prop :=
  (∀ a x, ((![v1095, v1112] : Fin 2 → IVec S16 32) a x).toNat < S128x128.size a)
instance k0_chk253.dec : ∀ (v1095 : IVec S16 32) (v1112 : IVec S16 32), Decidable (k0_chk253 v1095 v1112) := fun v1095 v1112 => decidable_of_iff' _ (Iff.of_eq (k0_chk253.eq_1 v1095 v1112))
theorem k0_idx253_inb : ∀ (v1095 : IVec S16 32) (v1112 : IVec S16 32) (k0_hw253 : k0_chk253 v1095 v1112), ∀ a x, ((![v1095, v1112] : Fin 2 → IVec S16 32) a x).toNat < S128x128.size a := fun v1095 v1112 k0_hw253 => k0_hw253

def k0_chk254 (v1095 : IVec S16 32) (v1119 : IVec S16 32) : Prop :=
  (∀ a x, ((![v1095, v1119] : Fin 2 → IVec S16 32) a x).toNat < S128x128.size a)
instance k0_chk254.dec : ∀ (v1095 : IVec S16 32) (v1119 : IVec S16 32), Decidable (k0_chk254 v1095 v1119) := fun v1095 v1119 => decidable_of_iff' _ (Iff.of_eq (k0_chk254.eq_1 v1095 v1119))
theorem k0_idx254_inb : ∀ (v1095 : IVec S16 32) (v1119 : IVec S16 32) (k0_hw254 : k0_chk254 v1095 v1119), ∀ a x, ((![v1095, v1119] : Fin 2 → IVec S16 32) a x).toNat < S128x128.size a := fun v1095 v1119 k0_hw254 => k0_hw254

def k0_chk255 (v1095 : IVec S16 32) (v1120 : IVec S16 32) : Prop :=
  (∀ a x, ((![v1095, v1120] : Fin 2 → IVec S16 32) a x).toNat < S128x128.size a)
instance k0_chk255.dec : ∀ (v1095 : IVec S16 32) (v1120 : IVec S16 32), Decidable (k0_chk255 v1095 v1120) := fun v1095 v1120 => decidable_of_iff' _ (Iff.of_eq (k0_chk255.eq_1 v1095 v1120))
theorem k0_idx255_inb : ∀ (v1095 : IVec S16 32) (v1120 : IVec S16 32) (k0_hw255 : k0_chk255 v1095 v1120), ∀ a x, ((![v1095, v1120] : Fin 2 → IVec S16 32) a x).toNat < S128x128.size a := fun v1095 v1120 k0_hw255 => k0_hw255

def k0_chk256 (v1095 : IVec S16 32) (v1127 : IVec S16 32) : Prop :=
  (∀ a x, ((![v1095, v1127] : Fin 2 → IVec S16 32) a x).toNat < S128x128.size a)
instance k0_chk256.dec : ∀ (v1095 : IVec S16 32) (v1127 : IVec S16 32), Decidable (k0_chk256 v1095 v1127) := fun v1095 v1127 => decidable_of_iff' _ (Iff.of_eq (k0_chk256.eq_1 v1095 v1127))
theorem k0_idx256_inb : ∀ (v1095 : IVec S16 32) (v1127 : IVec S16 32) (k0_hw256 : k0_chk256 v1095 v1127), ∀ a x, ((![v1095, v1127] : Fin 2 → IVec S16 32) a x).toNat < S128x128.size a := fun v1095 v1127 k0_hw256 => k0_hw256
def k0_off16 (i : grid0.Coords) (c384_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v10 : BitVec 32 := Scalar.addi v2 c384_i32_3
  let c0_i32_693 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  h_S1x16 : 0 < S1x16.numel
  shapeCasts_S1x16_S16 : S1x16.ShapeCasts S16
  shapeCasts_S16_S1x16 : S16.ShapeCasts S1x16
  h_S128x128 : 0 < S128x128.numel
  hcc0_scratch4 : 0 + S_.numel ≤ 4
  hcc0_scratch5 : 1 + S_.numel ≤ 4
  hcc0_scratch6 : 2 + S_.numel ≤ 4
  hcc0_scratch7 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (128 * r.val))) a + S128x128.size a ≤ S16384x256.size a
  k0_t1_ok : k0_t1_loop.OK
  k0_off2_inb : ∀ k0_t1 : Fin k0_t1_loop.trips, ∀ a, (k0_off2 k0_t1) a + S1x16.size a ≤ S128x128.size a
  k0_off3_inb : ∀ k0_t1 : Fin k0_t1_loop.trips, ∀ a, (k0_off3 k0_t1) a + S1x16.size a ≤ S128x128.size a
  k0_off4_inb : ∀ k0_t1 : Fin k0_t1_loop.trips, ∀ a, (k0_off4 k0_t1) a + S1x16.size a ≤ S128x128.size a
  k0_off5_inb : ∀ k0_t1 : Fin k0_t1_loop.trips, ∀ a, (k0_off5 k0_t1) a + S1x16.size a ≤ S128x128.size a
  k0_off6_inb : ∀ k0_t1 : Fin k0_t1_loop.trips, ∀ a, (k0_off6 k0_t1) a + S1x16.size a ≤ S128x128.size a
  k0_off7_inb : ∀ k0_t1 : Fin k0_t1_loop.trips, ∀ a, (k0_off7 k0_t1) a + S1x16.size a ≤ S128x128.size a
  k0_off8_inb : ∀ k0_t1 : Fin k0_t1_loop.trips, ∀ a, (k0_off8 k0_t1) a + S1x16.size a ≤ S128x128.size a
  k0_off9_inb : ∀ k0_t1 : Fin k0_t1_loop.trips, ∀ a, (k0_off9 k0_t1) a + S1x16.size a ≤ S128x128.size a
  k0_off10_inb : ∀ i : grid0.Coords, ∀ a, (k0_off10 i) a + S128x128.size a ≤ S16384x128.size a
  k0_off11_inb : ∀ i : grid0.Coords, ∀ (r : Fin 2), ∀ a, (k0_off11 i (BitVec.ofNat 32 (128 + 128 * r.val))) a + S128x128.size a ≤ S16384x256.size a
  k0_off12_inb : ∀ i : grid0.Coords, ∀ (r : Fin 2), ∀ a, (k0_off12 i (BitVec.ofNat 32 (128 * r.val))) a + S128x128.size a ≤ S16384x128.size a
  k0_off13_inb : ∀ i : grid0.Coords, ∀ (r : Fin 2), ∀ a, (k0_off13 i (BitVec.ofNat 32 (256 + 128 * r.val))) a + S128x128.size a ≤ S16384x256.size a
  k0_off14_inb : ∀ i : grid0.Coords, ∀ (r : Fin 2), ∀ a, (k0_off14 i (BitVec.ofNat 32 (128 + 128 * r.val))) a + S128x128.size a ≤ S16384x128.size a
  k0_off15_inb : ∀ i : grid0.Coords, ∀ a, (k0_off15 i) a + S128x128.size a ≤ S16384x256.size a
  k0_off16_inb : ∀ i : grid0.Coords, ∀ (r : Fin 2), ∀ a, (k0_off16 i (BitVec.ofNat 32 (256 + 128 * r.val))) a + S128x128.size a ≤ S16384x128.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7

class Facts : Prop extends Facts₀ where

variable [Facts]
-- ==== ReferenceIdeal.lean ====
abbrev S16384x256 : Shape := ⟨2, ![16384, 256]⟩
abbrev S_ : Shape := ⟨0, ![]⟩
abbrev S16384x128 : Shape := ⟨2, ![16384, 128]⟩
abbrev S16384x1 : Shape := ⟨2, ![16384, 1]⟩
abbrev S16384 : Shape := ⟨1, ![16384]⟩
abbrev S1 : Shape := ⟨1, ![1]⟩

abbrev nBuf : Space → Nat
  | .hbm => 59
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S_, .f32⟩
  | .hbm, ⟨2, _⟩ => ⟨S16384x128, .f32⟩
  | .hbm, ⟨3, _⟩ => ⟨S16384x1, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .i1⟩
  | .hbm, ⟨8, _⟩ => ⟨S16384x1, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .i1⟩
  | .hbm, ⟨13, _⟩ => ⟨S16384x1, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .i1⟩
  | .hbm, ⟨18, _⟩ => ⟨S16384x1, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .i1⟩
  | .hbm, ⟨23, _⟩ => ⟨S16384x1, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .i32⟩
  | .hbm, ⟨30, _⟩ => ⟨S1, .i32⟩
  | .hbm, ⟨31, _⟩ => ⟨S16384x128, .f32⟩
  | .hbm, ⟨32, _⟩ => ⟨S16384x1, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S_, .i32⟩
  | .hbm, ⟨39, _⟩ => ⟨S1, .i32⟩
  | .hbm, ⟨40, _⟩ => ⟨S16384x128, .f32⟩
  | .hbm, ⟨41, _⟩ => ⟨S16384x1, .f32⟩
  | .hbm, ⟨42, _⟩ => ⟨S16384, .f32⟩
  | .hbm, ⟨43, _⟩ => ⟨S_, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S_, .i32⟩
  | .hbm, ⟨48, _⟩ => ⟨S1, .i32⟩
  | .hbm, ⟨49, _⟩ => ⟨S16384x128, .f32⟩
  | .hbm, ⟨50, _⟩ => ⟨S16384x1, .f32⟩
  | .hbm, ⟨51, _⟩ => ⟨S16384, .f32⟩
  | .hbm, ⟨52, _⟩ => ⟨S_, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .i32⟩
  | .hbm, ⟨57, _⟩ => ⟨S1, .i32⟩
  | .hbm, ⟨58, _⟩ => ⟨S16384x128, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_call2_v0 : Ref sig .tc := ⟨.hbm, 44, rfl⟩
abbrev main_call2_v1 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_call3_v0 : Ref sig .tc := ⟨.hbm, 53, rfl⟩
abbrev main_call3_v1 : Ref sig .tc := ⟨.hbm, 54, rfl⟩
abbrev main_v34 : Ref sig .tc := ⟨.hbm, 55, rfl⟩
abbrev main_c_10 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]

class Facts₀ : Prop where
  bcast_S_S16384x128 : S_.BroadcastsInDim S16384x128 (![] : Fin 0 → Fin S16384x128.rank)
  slices_S16384x256_S16384x1_0_246 : S16384x256.Slices ![0, 246] S16384x1
  shapeCasts_S16384x1_S16384 : S16384x1.ShapeCasts S16384
  bcast_S_S16384 : S_.BroadcastsInDim S16384 (![] : Fin 0 → Fin S16384.rank)
  slices_S16384x256_S16384x1_0_250 : S16384x256.Slices ![0, 250] S16384x1
  slices_S16384x256_S16384x1_0_251 : S16384x256.Slices ![0, 251] S16384x1
  slices_S16384x256_S16384x1_0_255 : S16384x256.Slices ![0, 255] S16384x1
  slices_S16384x128_S16384x1_0_2 : S16384x128.Slices ![0, 2] S16384x1
  bcast_S_S1 : S_.BroadcastsInDim S1 (![] : Fin 0 → Fin S1.rank)
  slices_S16384x128_S16384x1_0_1 : S16384x128.Slices ![0, 1] S16384x1
  slices_S16384x128_S16384x1_0_3 : S16384x128.Slices ![0, 3] S16384x1
  slices_S16384x128_S16384x1_0_4 : S16384x128.Slices ![0, 4] S16384x1
  scatter_S16384x128_S1_S16384_0_1_1_0_wf : ScatterDims.WF S16384x128 S1 S16384 [0] [1] [1] 0

variable [Facts₀]

def scatter_S16384x128_S1_S16384_0_1_1_0 : ScatterDims S16384x128 S1 S16384 where
  updateWindowDims := [0]
  insertedWindowDims := [1]
  scatterDimsToOperandDims := [1]
  indexVectorDim := 0
  wf := scatter_S16384x128_S1_S16384_0_1_1_0_wf

class Facts : Prop extends Facts₀ where

variable [Facts]
-- ==== Proof.Spec.lean ====
/-
  The function both programs compute. The input is a table of 16384 rows and 256 columns; the result has 16384 rows and
  128 columns. Every entry of the result is one, except in the four action columns 1, 2, 3, 4: there the entry of row r
  is the large negative number when the row's condition entry — column 250, 246, 251, 255 of the input, in that order —
  equals one, and one otherwise.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

abbrev SIn : Shape := ⟨2, ![16384, 256]⟩
abbrev SOut : Shape := ⟨2, ![16384, 128]⟩

/-- The number one. -/
def one : F .f32 := Scalar.ofBits .f32 0x3F800000#32
/-- The large negative number, -10^9 as a single-precision word. -/
def big : F .f32 := Scalar.ofBits .f32 0xCE6E6B28#32

/-- One masked entry from its condition entry: the large negative number where the condition equals one, else one. -/
def mask1 (a : F .f32) : F .f32 := Scalar.select (FloatOps.cmpf .oeq a (one (F := F))) (big (F := F)) (one (F := F))

/-- The input column an action column reads its condition from; `none` for the columns that stay one. -/
def srcCol (q : Fin 128) : Option (Fin 256) :=
  if q.val = 1 then some 250 else if q.val = 2 then some 246 else if q.val = 3 then some 251 else if q.val = 4 then some 255 else none

/-- The whole result as a function of the whole input. -/
def G (x : Vec F SIn .f32) : Vec F SOut .f32 := fun i =>
  match srcCol (i 1) with
  | some k => mask1 (x (ix2 (i 0) k))
  | none => one

end Cert.Spec

end
-- ==== Proof.KISetup.lean ====
/-
  The common vocabulary for the idealized kernel's run: the launch configuration, the resource algebra (the launch
  handshakes beside the counters of local copies), the two arrays and the four scratch buffers as a vector subcore
  names them, the partition of the result's 16384 rows into 128 chunks of 128 rows, and the statement of one vector
  subcore's task.  The subcore at coordinates (c, s) is worker 2s + c; it owns rows 512(2s+c) … 512(2s+c)+511, that is
  chunks 4(2s+c) … 4(2s+c)+3, and it leaves in them the specified function of the input.
-/
import proofs.«203812_g17411797418577_cont_8to1_445_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203812_g17411797418577_cont_8to1_445_22_alg».proof.Proof.Gen.KernelIdeal
import proofs.«203812_g17411797418577_cont_8to1_445_22_alg».proof.Proof.Gen.KernelIdeal.Skeleton
import proofs.«203812_g17411797418577_cont_8to1_445_22_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch buffers -/

variable (m : (ℓ : Loc nD τ sig) → Buf (Elt F) ℓ) (ρ : Dev nD → PrngReg)

/-- The input and the result, as locations of device `d`. -/
abbrev xLoc (d : Dev nD) : Loc nD τ sig := (SparseCore.T d).loc main_arg0
abbrev oLoc (d : Dev nD) : Loc nD τ sig := (SparseCore.T d).loc main_v0

abbrev xV : Memref sig .scVector .hbm S16384x256 .f32 := Memref.whole main_arg0_scv
abbrev oV : Memref sig .scVector .hbm S16384x128 .f32 := Memref.whole main_v0_scv
/-- A vector subcore's scratch: two landing buffers for chunks of the input, two staging buffers for chunks of the result. -/
abbrev b0 : Memref sig .scVector .vmem S128x128 .f32 := Memref.whole cc0_scratch0
abbrev b1 : Memref sig .scVector .vmem S128x128 .f32 := Memref.whole cc0_scratch1
abbrev b2 : Memref sig .scVector .vmem S128x128 .f32 := Memref.whole cc0_scratch2
abbrev b3 : Memref sig .scVector .vmem S128x128 .f32 := Memref.whole cc0_scratch3

/-- The result's rows in 128 chunks of 128 rows. -/
theorem hdiv : 128 ∣ S16384x128.size 0 := ⟨128, rfl⟩
abbrev chunk (j : Fin 128) : Rect S16384x128 := Rect.part (s := S16384x128) (a₀ := 0) hdiv j
abbrev chunkSet (j : Fin 128) : Finset S16384x128.Idx := ((oV : Memref sig .scVector .hbm S16384x128 .f32).view.slice (chunk j)).set

/-- The coordinates of the vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))
abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl

/-- Chunk `k` (of four) of the worker at coordinates `L`: chunk 4(2s + c) + k of the 128. -/
def tileChunk (L : grid0.Coords) (k : Fin 4) : Fin 128 :=
  ⟨4 * (2 * (L 1).val + (L 0).val) + k.val, by
    have h0 : (L 0).val < 2 := (L 0).isLt
    have h1 : (L 1).val < 16 := (L 1).isLt
    have hk := k.isLt
    omega⟩

variable [FloatOps F]

/-- The result the specification prescribes, as contents of the result array on device `d`. -/
abbrev want (d : Dev nD) : Buf (Elt F) (oLoc d) := Cert.Spec.G (F := F) (m (xLoc d))

/-- What one vector subcore's task takes: a read share `q` of the whole input, and its four chunks of the result. -/
def tileGo (d : Dev nD) (L : grid0.Coords) (q : PosShare TreeShare) : sProp 𝕄 :=
  iprop((xLoc d ↦{q} m (xLoc d)) ∗ bigSep Finset.univ fun k : Fin 4 => oLoc d ↦[chunkSet (tileChunk L k)]{fullShare} m (oLoc d))
/-- What it gives back: the same share of the input, and its four chunks holding the specified result. -/
def tileTd (d : Dev nD) (L : grid0.Coords) (q : PosShare TreeShare) : sProp 𝕄 :=
  iprop((xLoc d ↦{q} m (xLoc d)) ∗ bigSep Finset.univ fun k : Fin 4 => oLoc d ↦[chunkSet (tileChunk L k)]{fullShare} want m d)

/-- One vector subcore's task, as the launch theorem's obligation asks it (before the lift to the launch's labels). -/
def TileSpec : Prop :=
  ∀ (d : Dev nD) (L : grid0.Coords) (q : PosShare TreeShare) (O : CellTallies nD τ sig (HIx 1)) (W : Waits sig (HIx 1)), (∀ g, O g none = 0) →
    iprop(levAts (K (F := F)).L (K (F := F)).lev ∗ emp ∗ tileGo m d L q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_mask L xV (Memref.isWhole_whole _) oV (Memref.isWhole_whole _) b0 (Memref.isWhole_whole _) b1 (Memref.isWhole_whole _)
            b2 (Memref.isWhole_whole _) b3 (Memref.isWhole_whole _) cc0_scratch4 cc0_scratch5 cc0_scratch6 cc0_scratch7)
          fun _ => iprop(tileTd m d L q ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.KIOwn.lean ====
/-
  A vector subcore's own storage, split into the parts its task uses: its four copy semaphores, each reading zero, and
  its four scratch buffers, each at some contents, beside the rest of what it owns.
-/
import proofs.«203812_g17411797418577_cont_8to1_445_22_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

abbrev thr (d : Dev nD) (L : grid0.Coords) : Thread nD τ := V d (cV L) (jV L)

abbrev cell4 (d : Dev nD) (L : grid0.Coords) : GSem nD τ sig := (thr d L, .dma cc0_scratch4.sem)
abbrev cell5 (d : Dev nD) (L : grid0.Coords) : GSem nD τ sig := (thr d L, .dma cc0_scratch5.sem)
abbrev cell6 (d : Dev nD) (L : grid0.Coords) : GSem nD τ sig := (thr d L, .dma cc0_scratch6.sem)
abbrev cell7 (d : Dev nD) (L : grid0.Coords) : GSem nD τ sig := (thr d L, .dma cc0_scratch7.sem)

theorem ownSems0_V :
    (ownSems0 (thr d L) : sProp 𝕄)
      = iprop(semVal (cell4 d L) 0 ∗ semVal (cell5 d L) 0 ∗ semVal (cell6 d L) 0 ∗ semVal (cell7 d L) 0
          ∗ bigSep (((((ownCells (thr d L)).erase (cell4 d L)).erase (cell5 d L)).erase (cell6 d L)).erase (cell7 d L))
              fun g => semVal g 0) := by
  unfold SparseCore.Cfg.ownSems0
  rw [SparseCore.bigSep_erase' ((mem_ownCells (g := cell4 d L)).mpr ⟨rfl, by
      show (SemLoc.dma cc0_scratch4.sem : SemLoc sig).isScoped .scVector = true; decide⟩),
    SparseCore.bigSep_erase' (Finset.mem_erase.mpr ⟨by simp [cell4, cell5]; decide, (mem_ownCells (g := cell5 d L)).mpr ⟨rfl, by
      show (SemLoc.dma cc0_scratch5.sem : SemLoc sig).isScoped .scVector = true; decide⟩⟩),
    SparseCore.bigSep_erase' (Finset.mem_erase.mpr ⟨by simp [cell5, cell6]; decide, Finset.mem_erase.mpr ⟨by simp [cell4, cell6]; decide,
      (mem_ownCells (g := cell6 d L)).mpr ⟨rfl, by show (SemLoc.dma cc0_scratch6.sem : SemLoc sig).isScoped .scVector = true; decide⟩⟩⟩),
    SparseCore.bigSep_erase' (Finset.mem_erase.mpr ⟨by simp [cell6, cell7]; decide, Finset.mem_erase.mpr ⟨by simp [cell5, cell7]; decide,
      Finset.mem_erase.mpr ⟨by simp [cell4, cell7]; decide,
      (mem_ownCells (g := cell7 d L)).mpr ⟨rfl, by show (SemLoc.dma cc0_scratch7.sem : SemLoc sig).isScoped .scVector = true; decide⟩⟩⟩⟩)]

abbrev ref0 (L : grid0.Coords) : DevRef τ sig := (Proc.scVector (cV L) (jV L)).devRef cc0_scratch0
abbrev ref1 (L : grid0.Coords) : DevRef τ sig := (Proc.scVector (cV L) (jV L)).devRef cc0_scratch1
abbrev ref2 (L : grid0.Coords) : DevRef τ sig := (Proc.scVector (cV L) (jV L)).devRef cc0_scratch2
abbrev ref3 (L : grid0.Coords) : DevRef τ sig := (Proc.scVector (cV L) (jV L)).devRef cc0_scratch3

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (ref0 L)).erase (ref1 L)).erase (ref2 L)).erase (ref3 L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ref0 L) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := ref1 L) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := ref2 L) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (cV L) (jV L)) (b := ref3 L) rfl⟩⟩⟩)]

end Cert.Proof.KI

end
-- ==== Proof.LibIdxStore.lean ====
/-
  An indexed store with every lane enabled and no accumulation, read at one element.  The stored vector's lanes are
  written in ascending order, each at the element its index vectors name; an element no lane names keeps its old value,
  and when the lanes name pairwise different elements the element a lane names holds that lane's value afterwards.
  Also an indexed load read at one lane.  General in the base shape, the number of lanes and the float instance.
-/
import Idealize.ShloMosaic.PureOps

noncomputable section

namespace Cert.LibIdxStore

open Idealize.ShloMosaic

variable {F : FTy → Type} [FloatOps F] {s : Shape} {e : EltTy} {d : Fin 1 → Nat}

/-- One lane's step of the store: the element the lane names takes the lane's value, every other element is kept. -/
def laneStep (idxs : Fin s.rank → IVec ⟨1, d⟩ 32) (v : Vec F ⟨1, d⟩ e) (g : Vec F s e) (k : Fin (d 0)) : Vec F s e :=
  fun j => if (∀ a, (j a).val = (idxs a (Shape.ofLane k)).toNat) then v (Shape.ofLane k) else g j

/-- The store with all lanes enabled and no accumulation is the fold of the lanes' steps, lowest lane first. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (laneStep idxs v) f := by
  unfold storeIdx
  congr 1

/-- Lanes that do not name `j` leave it alone. -/
theorem foldl_miss (idxs : Fin s.rank → IVec ⟨1, d⟩ 32) (v : Vec F ⟨1, d⟩ e) (l : List (Fin (d 0))) (g : Vec F s e) (j : s.Idx)
    (hj : ∀ k ∈ l, ¬ (∀ a, (j a).val = (idxs a (Shape.ofLane k)).toNat)) :
    (l.foldl (laneStep idxs v) g) j = g j := by
  induction l generalizing g with
  | nil => rfl
  | cons k ks ih =>
    rw [List.foldl_cons, ih _ (fun k' hk' => hj k' (List.mem_cons_of_mem _ hk'))]
    exact if_neg (hj k (by simp))

/-- Among lanes naming pairwise different elements, the lane that names `j` leaves its value there. -/
theorem foldl_hit (idxs : Fin s.rank → IVec ⟨1, d⟩ 32) (v : Vec F ⟨1, d⟩ e) (l : List (Fin (d 0))) (hnd : l.Nodup) (g : Vec F s e) (j : s.Idx)
    (k : Fin (d 0)) (hk : k ∈ l) (hjk : ∀ a, (j a).val = (idxs a (Shape.ofLane k)).toNat)
    (hinj : ∀ k' : Fin (d 0), (∀ a, (idxs a (Shape.ofLane k')).toNat = (idxs a (Shape.ofLane k)).toNat) → k' = k) :
    (l.foldl (laneStep idxs v) g) j = v (Shape.ofLane k) := by
  induction l generalizing g with
  | nil => simp at hk
  | cons k0 ks ih =>
    rw [List.foldl_cons]
    have hnd' := List.nodup_cons.mp hnd
    rcases List.mem_cons.mp hk with hk0 | hk'
    · subst hk0
      rw [foldl_miss]
      · exact if_pos hjk
      · intro k' hk' hc
        have hkk : k' = k := hinj k' (fun a => (hc a).symm.trans (hjk a))
        exact hnd'.1 (hkk ▸ hk')
    · exact ih hnd'.2 _ hk'

/-- An element no lane names keeps its value. -/
theorem storeIdx_of_miss (f : Vec F s e) (idxs : Fin s.rank → IVec ⟨1, d⟩ 32) (v : Vec F ⟨1, d⟩ e)
    (h : ∀ a x, (idxs a x).toNat < s.size a) (j : s.Idx)
    (hj : ∀ k : Fin (d 0), ¬ (∀ a, (j a).val = (idxs a (Shape.ofLane k)).toNat)) :
    storeIdx f idxs v (fun _ => 1#1) false h j = f j := by
  rw [storeIdx_eq_foldl]
  exact foldl_miss idxs v _ f j (fun k _ => hj k)

/-- When the lanes name pairwise different elements, the element lane `k` names holds lane `k`'s value. -/
theorem storeIdx_of_hit (f : Vec F s e) (idxs : Fin s.rank → IVec ⟨1, d⟩ 32) (v : Vec F ⟨1, d⟩ e)
    (h : ∀ a x, (idxs a x).toNat < s.size a) (j : s.Idx) (k : Fin (d 0))
    (hjk : ∀ a, (j a).val = (idxs a (Shape.ofLane k)).toNat)
    (hinj : ∀ k' : Fin (d 0), (∀ a, (idxs a (Shape.ofLane k')).toNat = (idxs a (Shape.ofLane k)).toNat) → k' = k) :
    storeIdx f idxs v (fun _ => 1#1) false h j = v (Shape.ofLane k) := by
  rw [storeIdx_eq_foldl]
  exact foldl_hit idxs v _ (List.nodup_finRange _) f j k (List.mem_finRange k) hjk hinj

/-- An indexed load at one lane: the base's element the lane's indices name. -/
theorem loadIdx_apply {t : Shape} (f : Vec F s e) (idxs : Fin s.rank → IVec t 32) (h : ∀ a x, (idxs a x).toNat < s.size a) (x : t.Idx) (j : s.Idx)
    (hj : ∀ a, (j a).val = (idxs a x).toNat) : loadIdx f idxs h x = f j := by
  unfold loadIdx
  congr 1
  funext a
  exact Fin.ext (hj a).symm

end Cert.LibIdxStore

end
-- ==== Proof.KPure.lean ====
/-
  One 128-row chunk of the mask, as a function of the 128 condition columns of the chunk that were copied in (the input's
  columns 128 … 255, so that condition column 250 is column 122 here, 246 is 118, 251 is 123, 255 is 127), and the
  invariant of the scatter that builds it.  The chunk is written 16 rows at a time: for each group of 16 rows, the four
  action columns 1, 2, 3, 4 in that order.  After `n` such writes the entries of the first `n` (group, column) pairs
  hold the mask; every entry outside the four action columns is still one.
-/
import Idealize.ShloMosaic.Lib.ValueIdx
import Idealize.ShloMosaic.Lib.Pipeline.Value
import proofs.«203812_g17411797418577_cont_8to1_445_22_alg».proof.Proof.Spec
import proofs.«203812_g17411797418577_cont_8to1_445_22_alg».proof.Proof.LibIdxStore

noncomputable section

namespace Cert.MaskTile

open Idealize.ShloMosaic Idealize.ShloMosaic.ValueIdx Cert.Spec Cert.LibIdxStore

variable {F : FTy → Type} [FloatOps F]

abbrev T : Shape := ⟨2, ![128, 128]⟩
abbrev V16 : Shape := ⟨1, ![16]⟩

/-- The column of the copied-in window an action column reads its condition from. -/
def condCol (a : Nat) : Nat := if a = 1 then 122 else if a = 2 then 118 else if a = 3 then 123 else 127

theorem condCol_lt (a : Nat) : condCol a < 128 := by unfold condCol; split_ifs <;> omega

/-- The chunk of the mask computed from the window `src`. -/
def tileG (src : Vec F T .f32) : Vec F T .f32 := fun y =>
  if 1 ≤ (y 1).val ∧ (y 1).val ≤ 4 then mask1 (src (ix2 (y 0) ⟨condCol (y 1).val, condCol_lt _⟩)) else one

/-- Every entry outside the four action columns is one. -/
def OnesOutside (f : Vec F T .f32) : Prop := ∀ y : T.Idx, ¬ (1 ≤ (y 1).val ∧ (y 1).val ≤ 4) → f y = one

/-- After `n` writes: ones outside the action columns, the mask at the first `n` (group, column) pairs. -/
def Done (n : Nat) (src f : Vec F T .f32) : Prop :=
  OnesOutside f ∧ ∀ y : T.Idx, 1 ≤ (y 1).val → (y 1).val ≤ 4 → 4 * ((y 0).val / 16) + ((y 1).val - 1) < n →
    f y = mask1 (src (ix2 (y 0) ⟨condCol (y 1).val, condCol_lt _⟩))

theorem Done.zero {src f : Vec F T .f32} (h : OnesOutside f) : Done 0 src f := ⟨h, fun _ _ _ hn => absurd hn (Nat.not_lt_zero _)⟩

theorem Done.ones {n : Nat} {src f : Vec F T .f32} (h : Done n src f) : OnesOutside f := h.1

/-- All 32 writes done: the chunk is the mask. -/
theorem Done.full {src f : Vec F T .f32} (h : Done 32 src f) : f = tileG src := by
  funext y
  unfold tileG
  by_cases hy : 1 ≤ (y 1).val ∧ (y 1).val ≤ 4
  · rw [if_pos hy]
    refine h.2 y hy.1 hy.2 ?_
    have h0 : (y 0).val < 128 := (y 0).isLt
    omega
  · rw [if_neg hy]; exact h.1 y hy

/-- Lane `k` of a 16-lane vector, as an index, has coordinate `k`. -/
theorem ofLane_zero (k : Fin ((![16] : Fin 1 → ℕ) 0)) : ((Shape.ofLane k : V16.Idx) 0).val = k.val := rfl

/-- One more write: 16 consecutive rows of group `n / 4`, action column `n % 4 + 1`, each lane the mask of its row's
    condition entry. -/
theorem Done.layer {n : Nat} {src f : Vec F T .f32} (hD : Done n src f) (hn : n < 32)
    {rows colS colL : IVec V16 32} {v : Vec F V16 .f32}
    (hrows : ∀ x : V16.Idx, (rows x).toNat = 16 * (n / 4) + (x 0).val)
    (hcolS : ∀ x : V16.Idx, (colS x).toNat = n % 4 + 1)
    (hcolL : ∀ x : V16.Idx, (colL x).toNat = condCol (n % 4 + 1))
    (hS : ∀ a x, ((![rows, colS] : Fin T.rank → IVec V16 32) a x).toNat < T.size a)
    (hv : ∀ (hL : ∀ a x, ((![rows, colL] : Fin T.rank → IVec V16 32) a x).toNat < T.size a) (x : V16.Idx),
      v x = mask1 (loadIdx src ![rows, colL] hL x)) :
    Done (n + 1) src (storeIdx f ![rows, colS] v (fun _ => 1#1) false hS) := by
  have hL : ∀ a x, ((![rows, colL] : Fin T.rank → IVec V16 32) a x).toNat < T.size a := by
    intro a x
    match a with
    | ⟨0, _⟩ => show (rows x).toNat < 128; rw [hrows]; have := (x 0).isLt; have : (x 0).val < 16 := this; omega
    | ⟨1, _⟩ => show (colL x).toNat < 128; rw [hcolL]; exact condCol_lt _
  have hit : ∀ y : T.Idx, (y 1).val = n % 4 + 1 → (y 0).val / 16 = n / 4 →
      storeIdx f ![rows, colS] v (fun _ => 1#1) false hS y = mask1 (src (ix2 (y 0) ⟨condCol (y 1).val, condCol_lt _⟩)) := by
    intro y h1 h0
    have hk : (y 0).val - 16 * (n / 4) < (![16] : Fin 1 → ℕ) 0 := by show _ < 16; have := (y 0).isLt; omega
    have hkv : ((Shape.ofLane (⟨(y 0).val - 16 * (n / 4), hk⟩ : Fin ((![16] : Fin 1 → ℕ) 0)) : V16.Idx) 0).val = (y 0).val - 16 * (n / 4) := rfl
    have hy0 : (y 0).val = 16 * (n / 4) + ((y 0).val - 16 * (n / 4)) := by omega
    rw [storeIdx_of_hit f ![rows, colS] v hS y ⟨(y 0).val - 16 * (n / 4), hk⟩]
    · rw [hv hL]
      refine congrArg mask1 ?_
      refine loadIdx_apply src _ hL _ _ ?_
      intro a
      match a with
      | ⟨0, _⟩ => show (y 0).val = (rows _).toNat; rw [hrows, hkv]; exact hy0
      | ⟨1, _⟩ => show condCol (y 1).val = (colL _).toNat; rw [hcolL, h1]
    · intro a
      match a with
      | ⟨0, _⟩ => show (y 0).val = (rows _).toNat; rw [hrows, hkv]; exact hy0
      | ⟨1, _⟩ => show (y 1).val = (colS _).toNat; rw [hcolS, h1]
    · intro k' hk'
      have e1 : (rows (Shape.ofLane k')).toNat = (rows (Shape.ofLane (⟨(y 0).val - 16 * (n / 4), hk⟩ : Fin ((![16] : Fin 1 → ℕ) 0)))).toNat := hk' 0
      rw [hrows, hrows, hkv, ofLane_zero] at e1
      exact Fin.ext (by show k'.val = (y 0).val - 16 * (n / 4); omega)
  have miss : ∀ y : T.Idx, ¬ ((y 1).val = n % 4 + 1 ∧ (y 0).val / 16 = n / 4) →
      storeIdx f ![rows, colS] v (fun _ => 1#1) false hS y = f y := by
    intro y hy
    refine storeIdx_of_miss f _ v hS y ?_
    intro k hk
    apply hy
    have h0 : (y 0).val = (rows (Shape.ofLane k)).toNat := hk 0
    have h1 : (y 1).val = (colS (Shape.ofLane k)).toNat := hk 1
    rw [hrows, ofLane_zero] at h0
    rw [hcolS] at h1
    have hk16 : k.val < 16 := k.isLt
    exact ⟨h1, by omega⟩
  refine ⟨?_, ?_⟩
  · intro y hy
    rw [miss y (fun h => hy (by omega))]
    exact hD.1 y hy
  · intro y h1 h4 hlt
    by_cases hy : (y 1).val = n % 4 + 1 ∧ (y 0).val / 16 = n / 4
    · exact hit y hy.1 hy.2
    · rw [miss y hy]
      exact hD.2 y h1 h4 (by omega)

/-- The row numbers of a group: a constant added to the lane numbers. -/
theorem rows_spec (h : V16.Iotas .scVector 32 [0]) (c : BitVec 32) (g : Nat) (hc : c.toNat = 16 * g) (hg : g < 8) :
    ∀ x : V16.Idx, (addi (broadcast V16 c) (iota .scVector V16 32 [0] h) x).toNat = 16 * g + (x 0).val := by
  intro x
  have hx : (x 0).val < 16 := (x 0).isLt
  show (c + iota .scVector V16 32 [0] h x).toNat = _
  rw [Idealize.ShloMosaic.iota_single_apply, BitVec.toNat_add, hc, BitVec.toNat_ofNat]
  omega

/-- The specified result, with the condition column written as 128 plus the window's column. -/
theorem G_alt (x : Vec F SIn .f32) (i : SOut.Idx) :
    G x i = if 1 ≤ (i 1).val ∧ (i 1).val ≤ 4 then
      mask1 (x (ix2 (i 0) ⟨128 + condCol (i 1).val, by have := condCol_lt (i 1).val; omega⟩)) else one := by
  have hlt : (i 1).val < 128 := (i 1).isLt
  unfold G
  rcases (by omega : (i 1).val = 1 ∨ (i 1).val = 2 ∨ (i 1).val = 3 ∨ (i 1).val = 4 ∨ (i 1).val = 0 ∨ 5 ≤ (i 1).val) with h | h | h | h | h | h
  · have hs : srcCol (i 1) = some 250 := by unfold srcCol; rw [if_pos h]
    rw [hs, if_pos ⟨by omega, by omega⟩]
    exact congrArg (fun c => mask1 (x (ix2 (i 0) c))) (Fin.ext (by show 250 = 128 + condCol (i 1).val; rw [h]; rfl))
  · have hs : srcCol (i 1) = some 246 := by unfold srcCol; rw [if_neg (by omega), if_pos h]
    rw [hs, if_pos ⟨by omega, by omega⟩]
    exact congrArg (fun c => mask1 (x (ix2 (i 0) c))) (Fin.ext (by show 246 = 128 + condCol (i 1).val; rw [h]; rfl))
  · have hs : srcCol (i 1) = some 251 := by unfold srcCol; rw [if_neg (by omega), if_neg (by omega), if_pos h]
    rw [hs, if_pos ⟨by omega, by omega⟩]
    exact congrArg (fun c => mask1 (x (ix2 (i 0) c))) (Fin.ext (by show 251 = 128 + condCol (i 1).val; rw [h]; rfl))
  · have hs : srcCol (i 1) = some 255 := by unfold srcCol; rw [if_neg (by omega), if_neg (by omega), if_neg (by omega), if_pos h]
    rw [hs, if_pos ⟨by omega, by omega⟩]
    exact congrArg (fun c => mask1 (x (ix2 (i 0) c))) (Fin.ext (by show 255 = 128 + condCol (i 1).val; rw [h]; rfl))
  · have hs : srcCol (i 1) = none := by unfold srcCol; rw [if_neg (by omega), if_neg (by omega), if_neg (by omega), if_neg (by omega)]
    rw [hs, if_neg (by omega)]
  · have hs : srcCol (i 1) = none := by unfold srcCol; rw [if_neg (by omega), if_neg (by omega), if_neg (by omega), if_neg (by omega)]
    rw [hs, if_neg (by omega)]

/-- A chunk of the mask is the specified result on that chunk: rows `R … R + 127` of the input, its columns 128 … 255 the
    window, against rows `R … R + 127` of the result. -/
theorem tileG_eq_G (x : Vec F SIn .f32) (src : Vec F T .f32) (y : T.Idx) (i : SOut.Idx) (hi1 : (i 1).val = (y 1).val)
    (hsrc : ∀ c : Fin 128, src (ix2 (y 0) c) = x (ix2 (i 0) ⟨128 + c.val, by have := c.isLt; omega⟩)) :
    tileG src y = G x i := by
  rw [G_alt]
  unfold tileG
  by_cases hc : 1 ≤ (y 1).val ∧ (y 1).val ≤ 4
  · rw [if_pos hc, if_pos (by rw [hi1]; exact hc), hsrc]
    exact congrArg (fun c => mask1 (x (ix2 (i 0) c))) (Fin.ext (by show 128 + condCol (y 1).val = 128 + condCol (i 1).val; rw [hi1]))
  · rw [if_neg hc, if_neg (by rw [hi1]; exact hc)]

end Cert.MaskTile

end
-- ==== Proof.KIRules.lean ====
/-
  The two indexed operations of the task as single steps.  The indexed store into a staging buffer takes the scatter's
  invariant from `n` writes done to `n + 1`: its sixteen lanes name the sixteen rows of group `n / 4` and the action
  column `n % 4 + 1`, and each lane's value is the mask of the condition entry gathered from the landing buffer.  The
  indexed load from a landing buffer reads the buffer's contents at the rows and the column its lanes name.
-/
import proofs.«203812_g17411797418577_cont_8to1_445_22_alg».proof.Proof.KIOwn
import proofs.«203812_g17411797418577_cont_8to1_445_22_alg».proof.Proof.KPure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

theorem set_access_b2 : (((b2 : Memref sig .scVector .vmem S128x128 .f32).access (.whole S128x128)).set : Finset _) = Finset.univ :=
  Memref.set_access_whole cc0_scratch2
theorem read_access_b2 (c : Vec F S128x128 .f32) :
    ((b2 : Memref sig .scVector .vmem S128x128 .f32).access (.whole S128x128)).read (Elt F) c = c :=
  Memref.read_access_whole (Elt F) cc0_scratch2 c
theorem write_access_b2 (c w : Vec F S128x128 .f32) :
    ((b2 : Memref sig .scVector .vmem S128x128 .f32).access (.whole S128x128)).write (Elt F) c w Finset.univ = w :=
  Memref.write_access_whole_univ (Elt F) cc0_scratch2 c w

/-- One indexed store into the staging buffer, with its invariant: from `n` writes done to `n + 1`. -/
theorem storeSite_b2 {α : Type} {Q : α → sProp 𝕄} {n : Nat} {src c : Vec F S128x128 .f32} (hD : Cert.MaskTile.Done n src c) (hn : n < 32)
    {rows colS colL : IVec S16 32} {v : Vec F S16 .f32}
    {h : ∀ a x, ((![rows, colS] : Fin S128x128.rank → IVec S16 32) a x).toNat < S128x128.size a}
    {hs : ((b2 : Memref sig .scVector .vmem S128x128 .f32).access (.whole S128x128)).Stores Finset.univ}
    {k : PUnit.{1} → Prog (TpuEff nD τ sig (Elt F) Λ₀ (thr d L).2) α}
    (hrows : ∀ x : S16.Idx, (rows x).toNat = 16 * (n / 4) + (x 0).val)
    (hcolS : ∀ x : S16.Idx, (colS x).toNat = n % 4 + 1)
    (hcolL : ∀ x : S16.Idx, (colL x).toNat = Cert.MaskTile.condCol (n % 4 + 1))
    (hv : ∀ (hL : ∀ a x, ((![rows, colL] : Fin S128x128.rank → IVec S16 32) a x).toNat < S128x128.size a) (x : S16.Idx),
      v x = Cert.Spec.mask1 (loadIdx src ![rows, colL] hL x)) :
    (((b2 : Memref sig .scVector .vmem S128x128 .f32).view.loc (thr d L) ↦{fullShare} c : sProp 𝕄))
      ⊢ iprop((∀ c' : Vec F S128x128 .f32, ⌜Cert.MaskTile.Done (n + 1) src c'⌝ -∗
            ((b2 : Memref sig .scVector .vmem S128x128 .f32).view.loc (thr d L) ↦{fullShare} c') -∗
            wp frame (wpE (defs₀ (F := F)) 𝒱₀ (thr d L) none) Set.univ (k ⟨⟩) Q)
        -∗ wp frame (wpE (defs₀ (F := F)) 𝒱₀ (thr d L) none) Set.univ
            (SparseCore.vectorStoreIdx (b2 : Memref sig .scVector .vmem S128x128 .f32) ![rows, colS] v (fun _ => 1#1) false h hs >>= k) Q) := by
  have key := SparseCore.wp_vectorStoreIdx (defs := defs₀ (F := F)) 𝒱₀ (thr d L) none (Set.univ : Set ℕ) (Q := Q)
    (base := (b2 : Memref sig .scVector .vmem S128x128 .f32)) (idxs := ![rows, colS]) (v := v) (mask := fun _ => 1#1) (add := false) (h := h) (hs := hs) (k := k) (f := c)
  rw [set_access_b2, read_access_b2, write_access_b2] at key
  iintro H Hk
  iapply key $$ H
  iintro H
  iapply Hk $$ [] H
  ipureintro
  exact Cert.MaskTile.Done.layer hD hn hrows hcolS hcolL h hv

theorem set_access_b3 : (((b3 : Memref sig .scVector .vmem S128x128 .f32).access (.whole S128x128)).set : Finset _) = Finset.univ :=
  Memref.set_access_whole cc0_scratch3
theorem read_access_b3 (c : Vec F S128x128 .f32) :
    ((b3 : Memref sig .scVector .vmem S128x128 .f32).access (.whole S128x128)).read (Elt F) c = c :=
  Memref.read_access_whole (Elt F) cc0_scratch3 c
theorem write_access_b3 (c w : Vec F S128x128 .f32) :
    ((b3 : Memref sig .scVector .vmem S128x128 .f32).access (.whole S128x128)).write (Elt F) c w Finset.univ = w :=
  Memref.write_access_whole_univ (Elt F) cc0_scratch3 c w

/-- One indexed store into the staging buffer, with its invariant: from `n` writes done to `n + 1`. -/
theorem storeSite_b3 {α : Type} {Q : α → sProp 𝕄} {n : Nat} {src c : Vec F S128x128 .f32} (hD : Cert.MaskTile.Done n src c) (hn : n < 32)
    {rows colS colL : IVec S16 32} {v : Vec F S16 .f32}
    {h : ∀ a x, ((![rows, colS] : Fin S128x128.rank → IVec S16 32) a x).toNat < S128x128.size a}
    {hs : ((b3 : Memref sig .scVector .vmem S128x128 .f32).access (.whole S128x128)).Stores Finset.univ}
    {k : PUnit.{1} → Prog (TpuEff nD τ sig (Elt F) Λ₀ (thr d L).2) α}
    (hrows : ∀ x : S16.Idx, (rows x).toNat = 16 * (n / 4) + (x 0).val)
    (hcolS : ∀ x : S16.Idx, (colS x).toNat = n % 4 + 1)
    (hcolL : ∀ x : S16.Idx, (colL x).toNat = Cert.MaskTile.condCol (n % 4 + 1))
    (hv : ∀ (hL : ∀ a x, ((![rows, colL] : Fin S128x128.rank → IVec S16 32) a x).toNat < S128x128.size a) (x : S16.Idx),
      v x = Cert.Spec.mask1 (loadIdx src ![rows, colL] hL x)) :
    (((b3 : Memref sig .scVector .vmem S128x128 .f32).view.loc (thr d L) ↦{fullShare} c : sProp 𝕄))
      ⊢ iprop((∀ c' : Vec F S128x128 .f32, ⌜Cert.MaskTile.Done (n + 1) src c'⌝ -∗
            ((b3 : Memref sig .scVector .vmem S128x128 .f32).view.loc (thr d L) ↦{fullShare} c') -∗
            wp frame (wpE (defs₀ (F := F)) 𝒱₀ (thr d L) none) Set.univ (k ⟨⟩) Q)
        -∗ wp frame (wpE (defs₀ (F := F)) 𝒱₀ (thr d L) none) Set.univ
            (SparseCore.vectorStoreIdx (b3 : Memref sig .scVector .vmem S128x128 .f32) ![rows, colS] v (fun _ => 1#1) false h hs >>= k) Q) := by
  have key := SparseCore.wp_vectorStoreIdx (defs := defs₀ (F := F)) 𝒱₀ (thr d L) none (Set.univ : Set ℕ) (Q := Q)
    (base := (b3 : Memref sig .scVector .vmem S128x128 .f32)) (idxs := ![rows, colS]) (v := v) (mask := fun _ => 1#1) (add := false) (h := h) (hs := hs) (k := k) (f := c)
  rw [set_access_b3, read_access_b3, write_access_b3] at key
  iintro H Hk
  iapply key $$ H
  iintro H
  iapply Hk $$ [] H
  ipureintro
  exact Cert.MaskTile.Done.layer hD hn hrows hcolS hcolL h hv

theorem read_access_b0 (c : Vec F S128x128 .f32) :
    ((b0 : Memref sig .scVector .vmem S128x128 .f32).access (.whole S128x128)).read (Elt F) c = c :=
  Memref.read_access_whole (Elt F) cc0_scratch0 c

/-- One indexed load from a landing buffer: the lanes read the buffer's contents at the rows and column they name. -/
theorem loadSite_b0 {α : Type} {Q : α → sProp 𝕄} {idxs : Fin S128x128.rank → IVec S16 32}
    {h : ∀ a x, (idxs a x).toNat < S128x128.size a} {hl : (b0 : Memref sig .scVector .vmem S128x128 .f32).view.Loads}
    {k : Vec F S16 .f32 → Prog (TpuEff nD τ sig (Elt F) Λ₀ (thr d L).2) α} {f : Vec F S128x128 .f32} :
    (((b0 : Memref sig .scVector .vmem S128x128 .f32).view.loc (thr d L) ↦{fullShare} f : sProp 𝕄))
      ⊢ iprop((((b0 : Memref sig .scVector .vmem S128x128 .f32).view.loc (thr d L) ↦{fullShare} f) -∗
            wp frame (wpE (defs₀ (F := F)) 𝒱₀ (thr d L) none) Set.univ (k (loadIdx f idxs h)) Q)
        -∗ wp frame (wpE (defs₀ (F := F)) 𝒱₀ (thr d L) none) Set.univ
            (SparseCore.vectorLoadIdx (b0 : Memref sig .scVector .vmem S128x128 .f32) idxs h hl >>= k) Q) := by
  have key := SparseCore.wp_vectorLoadIdx (defs := defs₀ (F := F)) 𝒱₀ (thr d L) none (Set.univ : Set ℕ) (Q := Q)
    (base := (b0 : Memref sig .scVector .vmem S128x128 .f32)) (idxs := idxs) (h := h) (hl := hl) (k := k) (S := Finset.univ) (q := fullShare) (f := f)
    (Finset.subset_univ _)
  rw [read_access_b0] at key
  exact key

theorem read_access_b1 (c : Vec F S128x128 .f32) :
    ((b1 : Memref sig .scVector .vmem S128x128 .f32).access (.whole S128x128)).read (Elt F) c = c :=
  Memref.read_access_whole (Elt F) cc0_scratch1 c

/-- One indexed load from a landing buffer: the lanes read the buffer's contents at the rows and column they name. -/
theorem loadSite_b1 {α : Type} {Q : α → sProp 𝕄} {idxs : Fin S128x128.rank → IVec S16 32}
    {h : ∀ a x, (idxs a x).toNat < S128x128.size a} {hl : (b1 : Memref sig .scVector .vmem S128x128 .f32).view.Loads}
    {k : Vec F S16 .f32 → Prog (TpuEff nD τ sig (Elt F) Λ₀ (thr d L).2) α} {f : Vec F S128x128 .f32} :
    (((b1 : Memref sig .scVector .vmem S128x128 .f32).view.loc (thr d L) ↦{fullShare} f : sProp 𝕄))
      ⊢ iprop((((b1 : Memref sig .scVector .vmem S128x128 .f32).view.loc (thr d L) ↦{fullShare} f) -∗
            wp frame (wpE (defs₀ (F := F)) 𝒱₀ (thr d L) none) Set.univ (k (loadIdx f idxs h)) Q)
        -∗ wp frame (wpE (defs₀ (F := F)) 𝒱₀ (thr d L) none) Set.univ
            (SparseCore.vectorLoadIdx (b1 : Memref sig .scVector .vmem S128x128 .f32) idxs h hl >>= k) Q) := by
  have key := SparseCore.wp_vectorLoadIdx (defs := defs₀ (F := F)) 𝒱₀ (thr d L) none (Set.univ : Set ℕ) (Q := Q)
    (base := (b1 : Memref sig .scVector .vmem S128x128 .f32)) (idxs := idxs) (h := h) (hl := hl) (k := k) (S := Finset.univ) (q := fullShare) (f := f)
    (Finset.subset_univ _)
  rw [read_access_b1] at key
  exact key

end Cert.Proof.KI

end
-- ==== Proof.KIFill.lean ====
/-
  The fill at the start of the task.  Trip `k` writes ones over row `k` of both staging buffers, in eight runs of sixteen
  lanes; after `k` trips the first `k` rows of each are ones, and after all 128 every entry is — in particular every entry
  outside the four action columns, which is what the scatter's invariant starts from.
-/
import proofs.«203812_g17411797418577_cont_8to1_445_22_alg».proof.Proof.KIOwn
import proofs.«203812_g17411797418577_cont_8to1_445_22_alg».proof.Proof.KPure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Every entry of the first `k` rows is one. -/
def AllOnesBelow (k : Nat) (f : Vec F S128x128 .f32) : Prop := ∀ y : S128x128.Idx, (y 0).val < k → f y = Cert.Spec.one

/-- A 16-lane piece of row `r` starting at column `c`. -/
theorem mem_seg (r c : Nat) (off : Fin 2 → Nat) (hoff : off = ![r, c]) (inb : ∀ a, off a + S1x16.size a ≤ S128x128.size a) (y : S128x128.Idx) :
    y ∈ (Rect.unit (s := S128x128) off S1x16.size inb).set ↔ (y 0).val = r ∧ c ≤ (y 1).val ∧ (y 1).val < c + 16 := by
  subst hoff
  rw [Rect.mem_set_unit]
  constructor
  · intro h
    have h0 := h 0
    have h1 := h 1
    have h0' : r ≤ (y 0).val ∧ (y 0).val < r + 1 := h0
    have h1' : c ≤ (y 1).val ∧ (y 1).val < c + 16 := h1
    omega
  · intro ⟨h0, h1, h2⟩ a
    match a with
    | ⟨0, _⟩ => show r ≤ (y 0).val ∧ (y 0).val < r + 1; omega
    | ⟨1, _⟩ => show c ≤ (y 1).val ∧ (y 1).val < c + 16; omega

/-- The eight pieces one trip of the fill writes into a staging buffer: row `k`, columns 0 … 127 in runs of 16, all ones. -/
abbrev fillPieces (k : Fin k0_t1_loop.trips) : List (View.Piece (Elt F) S128x128 .f32) :=
  [⟨Rect.unit (s := S128x128) (k0_off9 k) S1x16.size (k0_off9_inb k), shapeCast S1x16 (k0_pay1 (F := F)) shapeCasts_S16_S1x16⟩,
   ⟨Rect.unit (s := S128x128) (k0_off8 k) S1x16.size (k0_off8_inb k), shapeCast S1x16 (k0_pay1 (F := F)) shapeCasts_S16_S1x16⟩,
   ⟨Rect.unit (s := S128x128) (k0_off7 k) S1x16.size (k0_off7_inb k), shapeCast S1x16 (k0_pay1 (F := F)) shapeCasts_S16_S1x16⟩,
   ⟨Rect.unit (s := S128x128) (k0_off6 k) S1x16.size (k0_off6_inb k), shapeCast S1x16 (k0_pay1 (F := F)) shapeCasts_S16_S1x16⟩,
   ⟨Rect.unit (s := S128x128) (k0_off5 k) S1x16.size (k0_off5_inb k), shapeCast S1x16 (k0_pay1 (F := F)) shapeCasts_S16_S1x16⟩,
   ⟨Rect.unit (s := S128x128) (k0_off4 k) S1x16.size (k0_off4_inb k), shapeCast S1x16 (k0_pay1 (F := F)) shapeCasts_S16_S1x16⟩,
   ⟨Rect.unit (s := S128x128) (k0_off3 k) S1x16.size (k0_off3_inb k), shapeCast S1x16 (k0_pay1 (F := F)) shapeCasts_S16_S1x16⟩,
   ⟨Rect.unit (s := S128x128) (k0_off2 k) S1x16.size (k0_off2_inb k), shapeCast S1x16 (k0_pay1 (F := F)) shapeCasts_S16_S1x16⟩]

theorem fillPieces_mem (k : Fin k0_t1_loop.trips) (p : View.Piece (Elt F) S128x128 .f32) (hp : p ∈ fillPieces (F := F) k) (y : S128x128.Idx) :
    (y ∈ p.1.set → (y 0).val = k.val) ∧ ∀ x : p.1.shape.Idx, p.2 x = Cert.Spec.one := by
  simp only [fillPieces, List.mem_cons, List.mem_nil_iff, or_false] at hp
  rcases hp with rfl | rfl | rfl | rfl | rfl | rfl | rfl | rfl
  · exact ⟨fun h => ((mem_seg k.val 112 _ (k0_off9_eq k) (k0_off9_inb k) y).mp h).1, fun _ => rfl⟩
  · exact ⟨fun h => ((mem_seg k.val 96 _ (k0_off8_eq k) (k0_off8_inb k) y).mp h).1, fun _ => rfl⟩
  · exact ⟨fun h => ((mem_seg k.val 80 _ (k0_off7_eq k) (k0_off7_inb k) y).mp h).1, fun _ => rfl⟩
  · exact ⟨fun h => ((mem_seg k.val 64 _ (k0_off6_eq k) (k0_off6_inb k) y).mp h).1, fun _ => rfl⟩
  · exact ⟨fun h => ((mem_seg k.val 48 _ (k0_off5_eq k) (k0_off5_inb k) y).mp h).1, fun _ => rfl⟩
  · exact ⟨fun h => ((mem_seg k.val 32 _ (k0_off4_eq k) (k0_off4_inb k) y).mp h).1, fun _ => rfl⟩
  · exact ⟨fun h => ((mem_seg k.val 16 _ (k0_off3_eq k) (k0_off3_inb k) y).mp h).1, fun _ => rfl⟩
  · exact ⟨fun h => ((mem_seg k.val 0 _ (k0_off2_eq k) (k0_off2_inb k) y).mp h).1, fun _ => rfl⟩

theorem fillPieces_cover (k : Fin k0_t1_loop.trips) (y : S128x128.Idx) (hy : (y 0).val = k.val) :
    ∃ p ∈ fillPieces (F := F) k, y ∈ p.1.set := by
  have h1 : (y 1).val < 128 := (y 1).isLt
  simp only [fillPieces, List.mem_cons, List.mem_nil_iff, or_false, exists_eq_or_imp, exists_eq_left]
  rcases (by omega : (112 ≤ (y 1).val) ∨ (96 ≤ (y 1).val ∧ (y 1).val < 112) ∨ (80 ≤ (y 1).val ∧ (y 1).val < 96) ∨ (64 ≤ (y 1).val ∧ (y 1).val < 80)
      ∨ (48 ≤ (y 1).val ∧ (y 1).val < 64) ∨ (32 ≤ (y 1).val ∧ (y 1).val < 48) ∨ (16 ≤ (y 1).val ∧ (y 1).val < 32) ∨ ((y 1).val < 16)) with
    h | h | h | h | h | h | h | h
  · exact Or.inl ((mem_seg k.val 112 _ (k0_off9_eq k) (k0_off9_inb k) y).mpr ⟨hy, by omega, by omega⟩)
  · exact Or.inr (Or.inl ((mem_seg k.val 96 _ (k0_off8_eq k) (k0_off8_inb k) y).mpr ⟨hy, by omega, by omega⟩))
  · exact Or.inr (Or.inr (Or.inl ((mem_seg k.val 80 _ (k0_off7_eq k) (k0_off7_inb k) y).mpr ⟨hy, by omega, by omega⟩)))
  · exact Or.inr (Or.inr (Or.inr (Or.inl ((mem_seg k.val 64 _ (k0_off6_eq k) (k0_off6_inb k) y).mpr ⟨hy, by omega, by omega⟩))))
  · exact Or.inr (Or.inr (Or.inr (Or.inr (Or.inl ((mem_seg k.val 48 _ (k0_off5_eq k) (k0_off5_inb k) y).mpr ⟨hy, by omega, by omega⟩)))))
  · exact Or.inr (Or.inr (Or.inr (Or.inr (Or.inr (Or.inl ((mem_seg k.val 32 _ (k0_off4_eq k) (k0_off4_inb k) y).mpr ⟨hy, by omega, by omega⟩))))))
  · exact Or.inr (Or.inr (Or.inr (Or.inr (Or.inr (Or.inr (Or.inl ((mem_seg k.val 16 _ (k0_off3_eq k) (k0_off3_inb k) y).mpr ⟨hy, by omega, by omega⟩)))))))
  · exact Or.inr (Or.inr (Or.inr (Or.inr (Or.inr (Or.inr (Or.inr ((mem_seg k.val 0 _ (k0_off2_eq k) (k0_off2_inb k) y).mpr ⟨hy, by omega, by omega⟩)))))))

/-- One trip of the fill: the first `k` rows were ones, now the first `k + 1` are. -/
theorem fill_step_b2 (k : Fin k0_t1_loop.trips) (g : Vec F S128x128 .f32) (hg : AllOnesBelow k.val g) :
    AllOnesBelow (k.val + 1) ((b2 : Memref sig .scVector .vmem S128x128 .f32).view.writes (Elt F) g (fillPieces k)) := by
  intro y hy
  by_cases hk : (y 0).val = k.val
  · exact View.read_writes_apply_of_pieces (b2 : Memref sig .scVector .vmem S128x128 .f32).view g (fun _ => Cert.Spec.one) (fillPieces k)
      (fun p hp x => (fillPieces_mem k p hp y).2 x) y (fillPieces_cover k y hk)
  · have hlt : (y 0).val < k.val := by omega
    exact (View.read_writes_apply_of_forall_not_mem (b2 : Memref sig .scVector .vmem S128x128 .f32).view g y (fillPieces k)
      (fun p hp hm => hk ((fillPieces_mem k p hp y).1 hm))).trans (hg y hlt)

theorem fill_step_b3 (k : Fin k0_t1_loop.trips) (g : Vec F S128x128 .f32) (hg : AllOnesBelow k.val g) :
    AllOnesBelow (k.val + 1) ((b3 : Memref sig .scVector .vmem S128x128 .f32).view.writes (Elt F) g (fillPieces k)) := by
  intro y hy
  by_cases hk : (y 0).val = k.val
  · exact View.read_writes_apply_of_pieces (b3 : Memref sig .scVector .vmem S128x128 .f32).view g (fun _ => Cert.Spec.one) (fillPieces k)
      (fun p hp x => (fillPieces_mem k p hp y).2 x) y (fillPieces_cover k y hk)
  · have hlt : (y 0).val < k.val := by omega
    exact (View.read_writes_apply_of_forall_not_mem (b3 : Memref sig .scVector .vmem S128x128 .f32).view g y (fillPieces k)
      (fun p hp hm => hk ((fillPieces_mem k p hp y).1 hm))).trans (hg y hlt)

theorem trips_eq : k0_t1_loop.trips = 128 := by decide

/-- After the last trip every entry is one; in particular every entry outside the action columns. -/
theorem onesOutside_of_fill (g : Vec F S128x128 .f32) (hg : AllOnesBelow k0_t1_loop.trips g) : Cert.MaskTile.OnesOutside g := by
  intro y _
  refine hg y ?_
  rw [trips_eq]
  exact (y 0).isLt

end Cert.Proof.KI

end
-- ==== Proof.KISlices.lean ====
/-
  The four chunks of the result a task copies out, as the task slices them, are chunks 4(2s + c) … 4(2s + c) + 3 of the
  128 chunks of 128 rows; and the forms in which the task holds the input, its chunks of the result and its scratch.
-/
import proofs.«203812_g17411797418577_cont_8to1_445_22_alg».proof.Proof.KIOwn

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

/-- The four chunks of the result as the task slices them for its four copies out. -/
abbrev r0 (L : grid0.Coords) : Rect S16384x128 := Rect.unit (s := S16384x128) (k0_off10 L) S128x128.size (k0_off10_inb L)
abbrev r1 (L : grid0.Coords) : Rect S16384x128 := Rect.unit (s := S16384x128) (k0_off12 L 128#32) S128x128.size (k0_off12_inb L 1)
abbrev r2 (L : grid0.Coords) : Rect S16384x128 := Rect.unit (s := S16384x128) (k0_off14 L 256#32) S128x128.size (k0_off14_inb L 1)
abbrev r3 (L : grid0.Coords) : Rect S16384x128 := Rect.unit (s := S16384x128) (k0_off16 L 384#32) S128x128.size (k0_off16_inb L 1)
abbrev oS0 (L : grid0.Coords) : Memref sig .scVector .hbm S128x128 .f32 := (oV).slice (r0 L) (fun _ => rfl)
abbrev oS1 (L : grid0.Coords) : Memref sig .scVector .hbm S128x128 .f32 := (oV).slice (r1 L) (fun _ => rfl)
abbrev oS2 (L : grid0.Coords) : Memref sig .scVector .hbm S128x128 .f32 := (oV).slice (r2 L) (fun _ => rfl)
abbrev oS3 (L : grid0.Coords) : Memref sig .scVector .hbm S128x128 .f32 := (oV).slice (r3 L) (fun _ => rfl)

theorem off1_eq : k0_off12 L 128#32 = ![1024 * (L 1).val + 512 * (L 0).val + 128 * 1, 0] := k0_off12_eq L 1
theorem off2_eq : k0_off14 L 256#32 = ![1024 * (L 1).val + 512 * (L 0).val + 128 * 1 + 128, 0] := k0_off14_eq L 1
theorem off3_eq : k0_off16 L 384#32 = ![1024 * (L 1).val + 512 * (L 0).val + 128 * 1 + 256, 0] := k0_off16_eq L 1

theorem r0_eq : r0 L = chunk (tileChunk L 0) := by
  unfold r0 chunk Rect.part Rect.block
  congr 1 <;> funext a
  · rw [k0_off10_eq]
    match a with
    | 0 => simp [Shape.partIx, Shape.partSize, tileChunk]; omega
    | 1 => simp [Shape.partIx, Shape.partSize]
  · match a with
    | 0 => simp [Shape.partSize]
    | 1 => simp [Shape.partSize]
theorem r1_eq : r1 L = chunk (tileChunk L 1) := by
  unfold r1 chunk Rect.part Rect.block
  congr 1 <;> funext a
  · rw [off1_eq]
    match a with
    | 0 => simp [Shape.partIx, Shape.partSize, tileChunk]; omega
    | 1 => simp [Shape.partIx, Shape.partSize]
  · match a with
    | 0 => simp [Shape.partSize]
    | 1 => simp [Shape.partSize]
theorem r2_eq : r2 L = chunk (tileChunk L 2) := by
  unfold r2 chunk Rect.part Rect.block
  congr 1 <;> funext a
  · rw [off2_eq]
    match a with
    | 0 => simp [Shape.partIx, Shape.partSize, tileChunk]; omega
    | 1 => simp [Shape.partIx, Shape.partSize]
  · match a with
    | 0 => simp [Shape.partSize]
    | 1 => simp [Shape.partSize]
theorem r3_eq : r3 L = chunk (tileChunk L 3) := by
  unfold r3 chunk Rect.part Rect.block
  congr 1 <;> funext a
  · rw [off3_eq]
    match a with
    | 0 => simp [Shape.partIx, Shape.partSize, tileChunk]; omega
    | 1 => simp [Shape.partIx, Shape.partSize]
  · match a with
    | 0 => simp [Shape.partSize]
    | 1 => simp [Shape.partSize]

theorem set_oS0 : (oS0 L).view.set = chunkSet (tileChunk L 0) := by
  show ((oV : Memref sig .scVector .hbm S16384x128 .f32).view.slice (r0 L)).set = ((oV : Memref sig .scVector .hbm S16384x128 .f32).view.slice (chunk (tileChunk L 0))).set
  rw [r0_eq]
theorem set_oS1 : (oS1 L).view.set = chunkSet (tileChunk L 1) := by
  show ((oV : Memref sig .scVector .hbm S16384x128 .f32).view.slice (r1 L)).set = ((oV : Memref sig .scVector .hbm S16384x128 .f32).view.slice (chunk (tileChunk L 1))).set
  rw [r1_eq]
theorem set_oS2 : (oS2 L).view.set = chunkSet (tileChunk L 2) := by
  show ((oV : Memref sig .scVector .hbm S16384x128 .f32).view.slice (r2 L)).set = ((oV : Memref sig .scVector .hbm S16384x128 .f32).view.slice (chunk (tileChunk L 2))).set
  rw [r2_eq]
theorem set_oS3 : (oS3 L).view.set = chunkSet (tileChunk L 3) := by
  show ((oV : Memref sig .scVector .hbm S16384x128 .f32).view.slice (r3 L)).set = ((oV : Memref sig .scVector .hbm S16384x128 .f32).view.slice (chunk (tileChunk L 3))).set
  rw [r3_eq]

theorem pts_oS0 (f : Buf (Elt F) (oLoc d)) :
    ((oS0 L).view.loc (thr d L) ↦[(oS0 L).view.set]{fullShare} f : sProp 𝕄) = (oLoc d ↦[chunkSet (tileChunk L 0)]{fullShare} f) := by rw [set_oS0]
theorem pts_oS1 (f : Buf (Elt F) (oLoc d)) :
    ((oS1 L).view.loc (thr d L) ↦[(oS1 L).view.set]{fullShare} f : sProp 𝕄) = (oLoc d ↦[chunkSet (tileChunk L 1)]{fullShare} f) := by rw [set_oS1]
theorem pts_oS2 (f : Buf (Elt F) (oLoc d)) :
    ((oS2 L).view.loc (thr d L) ↦[(oS2 L).view.set]{fullShare} f : sProp 𝕄) = (oLoc d ↦[chunkSet (tileChunk L 2)]{fullShare} f) := by rw [set_oS2]
theorem pts_oS3 (f : Buf (Elt F) (oLoc d)) :
    ((oS3 L).view.loc (thr d L) ↦[(oS3 L).view.set]{fullShare} f : sProp 𝕄) = (oLoc d ↦[chunkSet (tileChunk L 3)]{fullShare} f) := by rw [set_oS3]

theorem pts_x (q : PosShare TreeShare) (f : Buf (Elt F) (xLoc d)) :
    ((xV : Memref sig .scVector .hbm S16384x256 .f32).view.loc (thr d L) ↦{q} f : sProp 𝕄) = (xLoc d ↦{q} f) := rfl
theorem pts_b0 (f : Buf (Elt F) ((thr d L).loc cc0_scratch0)) :
    ((b0 : Memref sig .scVector .vmem S128x128 .f32).view.loc (thr d L) ↦{fullShare} f : sProp 𝕄) = ((thr d L).loc cc0_scratch0 ↦{fullShare} f) := rfl
theorem pts_b1 (f : Buf (Elt F) ((thr d L).loc cc0_scratch1)) :
    ((b1 : Memref sig .scVector .vmem S128x128 .f32).view.loc (thr d L) ↦{fullShare} f : sProp 𝕄) = ((thr d L).loc cc0_scratch1 ↦{fullShare} f) := rfl
theorem pts_b2 (f : Buf (Elt F) ((thr d L).loc cc0_scratch2)) :
    ((b2 : Memref sig .scVector .vmem S128x128 .f32).view.loc (thr d L) ↦{fullShare} f : sProp 𝕄) = ((thr d L).loc cc0_scratch2 ↦{fullShare} f) := rfl
theorem pts_b3 (f : Buf (Elt F) ((thr d L).loc cc0_scratch3)) :
    ((b3 : Memref sig .scVector .vmem S128x128 .f32).view.loc (thr d L) ↦{fullShare} f : sProp 𝕄) = ((thr d L).loc cc0_scratch3 ↦{fullShare} f) := rfl

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]
theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

end Cert.Proof.KI

end
-- ==== Proof.KIOut.lean ====
/-
  What the four copies out leave.  A staged chunk is the mask of its landed window; the window is rows R … R + 127 and
  columns 128 … 255 of the input, where R is the first row of the chunk; so the chunk of the result holds the specified
  function of the input on rows R … R + 127.
-/
import proofs.«203812_g17411797418577_cont_8to1_445_22_alg».proof.Proof.KISlices
import proofs.«203812_g17411797418577_cont_8to1_445_22_alg».proof.Proof.KPure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)
variable [FloatOps F]

/-- A chunk of the mask computed from the input's rows `R … R + 127`, columns 128 … 255, is the specified result on the
    result's rows `R … R + 127`. -/
theorem chunk_value (R R' : Nat) (hR : R' = R) (offx offo : Fin 2 → Nat) (hx : offx = ![R, 128]) (ho : offo = ![R', 0])
    (inbx : ∀ a, offx a + S128x128.size a ≤ S16384x256.size a) (inbo : ∀ a, offo a + S128x128.size a ≤ S16384x128.size a)
    (c : Vec F S128x128 .f32)
    (hc : c = Cert.MaskTile.tileG (fun y' => m (xLoc d) (((xV : Memref sig .scVector .hbm S16384x256 .f32).slice (Rect.unit (s := S16384x256) offx S128x128.size inbx) (fun _ => rfl)).view.emb y')))
    (y : S128x128.Idx) :
    c y = want m d (((oV : Memref sig .scVector .hbm S16384x128 .f32).slice (Rect.unit (s := S16384x128) offo S128x128.size inbo) (fun _ => rfl)).view.emb y) := by
  subst hx ho hR
  rw [hc]
  refine Cert.MaskTile.tileG_eq_G (m (xLoc d)) _ y _ ?_ ?_
  · show 0 + 1 * (y 1).val = (y 1).val
    omega
  · intro c'
    refine congrArg (m (xLoc d)) ?_
    funext a
    match a with
    | ⟨0, _⟩ => exact Fin.ext rfl
    | ⟨1, _⟩ => exact Fin.ext (by show 128 + 1 * c'.val = 128 + c'.val; omega)

/-- The four chunks of the input's columns 128 … 255 as the task slices them for its four copies in. -/
abbrev xS0 (L : grid0.Coords) : Memref sig .scVector .hbm S128x128 .f32 := (xV).slice (Rect.unit (s := S16384x256) (k0_off1 L 0#32) S128x128.size (k0_off1_inb L 0)) (fun _ => rfl)
abbrev xS1 (L : grid0.Coords) : Memref sig .scVector .hbm S128x128 .f32 := (xV).slice (Rect.unit (s := S16384x256) (k0_off1 L 128#32) S128x128.size (k0_off1_inb L 1)) (fun _ => rfl)
abbrev xS2 (L : grid0.Coords) : Memref sig .scVector .hbm S128x128 .f32 := (xV).slice (Rect.unit (s := S16384x256) (k0_off11 L 256#32) S128x128.size (k0_off11_inb L 1)) (fun _ => rfl)
abbrev xS3 (L : grid0.Coords) : Memref sig .scVector .hbm S128x128 .f32 := (xV).slice (Rect.unit (s := S16384x256) (k0_off13 L 384#32) S128x128.size (k0_off13_inb L 1)) (fun _ => rfl)

theorem xoff0 : k0_off1 L 0#32 = ![1024 * (L 1).val + 512 * (L 0).val + 128 * 0, 128] := k0_off1_eq L 0
theorem xoff1 : k0_off1 L 128#32 = ![1024 * (L 1).val + 512 * (L 0).val + 128 * 1, 128] := k0_off1_eq L 1
theorem xoff2 : k0_off11 L 256#32 = ![1024 * (L 1).val + 512 * (L 0).val + 128 * 1 + 128, 128] := k0_off11_eq L 1
theorem xoff3 : k0_off13 L 384#32 = ![1024 * (L 1).val + 512 * (L 0).val + 128 * 1 + 256, 128] := k0_off13_eq L 1

theorem hpay0 (c : Vec F S128x128 .f32) (hc : c = Cert.MaskTile.tileG (fun y' => m (xLoc d) ((xS0 L).view.emb y'))) (y : S128x128.Idx) :
    c y = want m d ((oS0 L).view.emb y) :=
  chunk_value m d _ _ (by omega) _ _ (xoff0 L) (k0_off10_eq L) _ _ c hc y
theorem hpay1 (c : Vec F S128x128 .f32) (hc : c = Cert.MaskTile.tileG (fun y' => m (xLoc d) ((xS1 L).view.emb y'))) (y : S128x128.Idx) :
    c y = want m d ((oS1 L).view.emb y) :=
  chunk_value m d _ _ (by omega) _ _ (xoff1 L) (off1_eq L) _ _ c hc y
theorem hpay2 (c : Vec F S128x128 .f32) (hc : c = Cert.MaskTile.tileG (fun y' => m (xLoc d) ((xS2 L).view.emb y'))) (y : S128x128.Idx) :
    c y = want m d ((oS2 L).view.emb y) :=
  chunk_value m d _ _ (by omega) _ _ (xoff2 L) (off2_eq L) _ _ c hc y
theorem hpay3 (c : Vec F S128x128 .f32) (hc : c = Cert.MaskTile.tileG (fun y' => m (xLoc d) ((xS3 L).view.emb y'))) (y : S128x128.Idx) :
    c y = want m d ((oS3 L).view.emb y) :=
  chunk_value m d _ _ (by omega) _ _ (xoff3 L) (off3_eq L) _ _ c hc y

/-- What copy 0 out leaves in its chunk of the result, when the staged chunk is the specified result there. -/
theorem out0 (pay : S128x128.Idx → Elt F .f32) (hpay : ∀ y, pay y = want m d ((oS0 L).view.emb y)) :
    ((oS0 L).view.loc (thr d L) ↦[(oS0 L).view.set]{fullShare} (oS0 L).view.writes (Elt F) (m (oLoc d)) [⟨Rect.whole S128x128, pay⟩] : sProp 𝕄)
      ⊢ (oLoc d ↦[chunkSet (tileChunk L 0)]{fullShare} want m d) := by
  rw [← pts_oS0 (F := F) d L (want m d)]
  refine Entails.of_eq (pointsTo_congr (fun i hi => ?_))
  obtain ⟨y, -, rfl⟩ := Finset.mem_map.mp hi
  have h1 := View.read_writes_cons_emb (oS0 L).view (m (oLoc d)) (Rect.whole S128x128) pay [] y
  rw [Rect.emb_whole_apply] at h1
  exact h1.trans (hpay y)

/-- What copy 1 out leaves in its chunk of the result, when the staged chunk is the specified result there. -/
theorem out1 (pay : S128x128.Idx → Elt F .f32) (hpay : ∀ y, pay y = want m d ((oS1 L).view.emb y)) :
    ((oS1 L).view.loc (thr d L) ↦[(oS1 L).view.set]{fullShare} (oS1 L).view.writes (Elt F) (m (oLoc d)) [⟨Rect.whole S128x128, pay⟩] : sProp 𝕄)
      ⊢ (oLoc d ↦[chunkSet (tileChunk L 1)]{fullShare} want m d) := by
  rw [← pts_oS1 (F := F) d L (want m d)]
  refine Entails.of_eq (pointsTo_congr (fun i hi => ?_))
  obtain ⟨y, -, rfl⟩ := Finset.mem_map.mp hi
  have h1 := View.read_writes_cons_emb (oS1 L).view (m (oLoc d)) (Rect.whole S128x128) pay [] y
  rw [Rect.emb_whole_apply] at h1
  exact h1.trans (hpay y)

/-- What copy 2 out leaves in its chunk of the result, when the staged chunk is the specified result there. -/
theorem out2 (pay : S128x128.Idx → Elt F .f32) (hpay : ∀ y, pay y = want m d ((oS2 L).view.emb y)) :
    ((oS2 L).view.loc (thr d L) ↦[(oS2 L).view.set]{fullShare} (oS2 L).view.writes (Elt F) (m (oLoc d)) [⟨Rect.whole S128x128, pay⟩] : sProp 𝕄)
      ⊢ (oLoc d ↦[chunkSet (tileChunk L 2)]{fullShare} want m d) := by
  rw [← pts_oS2 (F := F) d L (want m d)]
  refine Entails.of_eq (pointsTo_congr (fun i hi => ?_))
  obtain ⟨y, -, rfl⟩ := Finset.mem_map.mp hi
  have h1 := View.read_writes_cons_emb (oS2 L).view (m (oLoc d)) (Rect.whole S128x128) pay [] y
  rw [Rect.emb_whole_apply] at h1
  exact h1.trans (hpay y)

/-- What copy 3 out leaves in its chunk of the result, when the staged chunk is the specified result there. -/
theorem out3 (pay : S128x128.Idx → Elt F .f32) (hpay : ∀ y, pay y = want m d ((oS3 L).view.emb y)) :
    ((oS3 L).view.loc (thr d L) ↦[(oS3 L).view.set]{fullShare} (oS3 L).view.writes (Elt F) (m (oLoc d)) [⟨Rect.whole S128x128, pay⟩] : sProp 𝕄)
      ⊢ (oLoc d ↦[chunkSet (tileChunk L 3)]{fullShare} want m d) := by
  rw [← pts_oS3 (F := F) d L (want m d)]
  refine Entails.of_eq (pointsTo_congr (fun i hi => ?_))
  obtain ⟨y, -, rfl⟩ := Finset.mem_map.mp hi
  have h1 := View.read_writes_cons_emb (oS3 L).view (m (oLoc d)) (Rect.whole S128x128) pay [] y
  rw [Rect.emb_whole_apply] at h1
  exact h1.trans (hpay y)

end Cert.Proof.KI

end
-- ==== Proof.KITile.lean ====
/-
  One vector subcore's task, from start to end.  Two copies in are started; both staging buffers are filled with ones;
  then, for each of the four chunks: the chunk's copy in is waited for (and, from the third chunk on, the copy out that
  last read the staging buffer), 32 gather–compare–select–scatter steps build the chunk in the staging buffer, its copy
  out is started, and the copy in of the chunk two ahead is started into the landing buffer just read; at the end the last
  two copies out are waited for.  Every semaphore has at most one copy in flight, and no buffer is read or written while
  a copy reads or writes it, so what each wait hands back is determined.  The scatter's invariant carries the value: after
  its 32 steps the staged chunk is the mask of the landed window.
-/
import proofs.«203812_g17411797418577_cont_8to1_445_22_alg».proof.Proof.KIRules
import proofs.«203812_g17411797418577_cont_8to1_445_22_alg».proof.Proof.KIFill
import proofs.«203812_g17411797418577_cont_8to1_445_22_alg».proof.Proof.KISlices
import proofs.«203812_g17411797418577_cont_8to1_445_22_alg».proof.Proof.KIOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-- The fill's invariant: in both staging buffers the first `k` rows are ones. -/
def fillInv (d : Dev nD) (L : grid0.Coords) (k : Nat) (_ : PUnit) : sProp 𝕄 :=
  iprop((∃ f2 : Vec F S128x128 .f32, ⌜AllOnesBelow k f2⌝ ∗ (b2 : Memref sig .scVector .vmem S128x128 .f32).view.loc (thr d L) ↦{fullShare} f2)
    ∗ (∃ f3 : Vec F S128x128 .f32, ⌜AllOnesBelow k f3⌝ ∗ (b3 : Memref sig .scVector .vmem S128x128 .f32).view.loc (thr d L) ↦{fullShare} f3))

theorem allOnesBelow_zero (f : Vec F S128x128 .f32) : AllOnesBelow 0 f := fun _ h => absurd h (Nat.not_lt_zero _)

set_option hygiene false in
/-- An indexed load from the first landing buffer. -/
macro "ld0" : tactic => `(tactic| (iapply (loadSite_b0 d L) $$ Hb0; iintro Hb0))
set_option hygiene false in
/-- An indexed load from the second landing buffer. -/
macro "ld1" : tactic => `(tactic| (iapply (loadSite_b1 d L) $$ Hb1; iintro Hb1))
set_option hygiene false in
/-- An indexed store into the first staging buffer, continuing a chunk. -/
macro "st2 " c:Lean.binderIdent h:Lean.binderIdent : tactic => `(tactic| (iapply (storeSite_b2 d L (by assumption) (by decide) (Cert.MaskTile.rows_spec _ _ _ (by decide) (by decide)) (fun _ => rfl) (fun _ => rfl) (fun _ _ => rfl)) $$ Hb2; iintro %$c %$h Hb2))
set_option hygiene false in
/-- An indexed store into the second staging buffer, continuing a chunk. -/
macro "st3 " c:Lean.binderIdent h:Lean.binderIdent : tactic => `(tactic| (iapply (storeSite_b3 d L (by assumption) (by decide) (Cert.MaskTile.rows_spec _ _ _ (by decide) (by decide)) (fun _ => rfl) (fun _ => rfl) (fun _ _ => rfl)) $$ Hb3; iintro %$c %$h Hb3))
set_option hygiene false in
/-- The first indexed store of a chunk into a staging buffer that still holds an earlier chunk. -/
macro "st2z " c:Lean.binderIdent h:Lean.binderIdent : tactic => `(tactic| (iapply (storeSite_b2 d L (Cert.MaskTile.Done.zero (Cert.MaskTile.Done.ones (by assumption))) (by decide) (Cert.MaskTile.rows_spec _ _ _ (by decide) (by decide)) (fun _ => rfl) (fun _ => rfl) (fun _ _ => rfl)) $$ Hb2; iintro %$c %$h Hb2))
set_option hygiene false in
macro "st3z " c:Lean.binderIdent h:Lean.binderIdent : tactic => `(tactic| (iapply (storeSite_b3 d L (Cert.MaskTile.Done.zero (Cert.MaskTile.Done.ones (by assumption))) (by decide) (Cert.MaskTile.rows_spec _ _ _ (by decide) (by decide)) (fun _ => rfl) (fun _ => rfl) (fun _ _ => rfl)) $$ Hb3; iintro %$c %$h Hb3))
set_option hygiene false in
/-- The first indexed store into a staging buffer after the fill. -/
macro "st2o " c:Lean.binderIdent h:Lean.binderIdent : tactic => `(tactic| (iapply (storeSite_b2 d L (Cert.MaskTile.Done.zero ho2) (by decide) (Cert.MaskTile.rows_spec _ _ _ (by decide) (by decide)) (fun _ => rfl) (fun _ => rfl) (fun _ _ => rfl)) $$ Hb2; iintro %$c %$h Hb2))
set_option hygiene false in
macro "st3o " c:Lean.binderIdent h:Lean.binderIdent : tactic => `(tactic| (iapply (storeSite_b3 d L (Cert.MaskTile.Done.zero ho3) (by decide) (Cert.MaskTile.rows_spec _ _ _ (by decide) (by decide)) (fun _ => rfl) (fun _ => rfl) (fun _ _ => rfl)) $$ Hb3; iintro %$c %$h Hb3))

set_option maxHeartbeats 16000000 in
theorem tile_body : TileSpec m := by
  intro d L q O W hO
  rw [cc0__sc_mask_eq_skeleton]
  rw [(K (F := F)).scopedBufs_V facts d (cV L) (jV L), SparseCore.Cfg.scopedSems0_V (Val := Elt F) d (cV L) (jV L), ownSems0_V, ownBufs_V,
    tileGo, bigSep_fin4]
  iintro ⟨#Hlv, -, ⟨Hx, Ho0, Ho1, Ho2, Ho3⟩, ⟨⟨%f0, Hb0⟩, ⟨%f1, Hb1⟩, ⟨%f2, Hb2⟩, ⟨%f3, Hb3⟩, Hbufs⟩, ⟨Hs4, Hs5, Hs6, Hs7, Hsems⟩, HO⟩
  ihave Hmw := ((K (F := F)).mayWaits_none (thr := thr d L) hO) $$ Hlv
  ihave Hxs := (Transfers.pointsTo_toks_split q 2) $$ Hx
  icases Hxs with ⟨Hxd, Hxt⟩
  ihave Hxt' := (Entails.of_eq (bigSep_fin2 _)) $$ Hxt
  icases Hxt' with ⟨Hx0, Hx1⟩
  ihave Hx0 := (Entails.of_eq (pts_x (F := F) d L _ _).symm) $$ Hx0
  ihave Hx1 := (Entails.of_eq (pts_x (F := F) d L _ _).symm) $$ Hx1
  ihave Ho0 := (Entails.of_eq (pts_oS0 (F := F) d L _).symm) $$ Ho0
  ihave Ho1 := (Entails.of_eq (pts_oS1 (F := F) d L _).symm) $$ Ho1
  ihave Ho2 := (Entails.of_eq (pts_oS2 (F := F) d L _).symm) $$ Ho2
  ihave Ho3 := (Entails.of_eq (pts_oS3 (F := F) d L _).symm) $$ Ho3
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  unfold cc0__sc_mask_skel
  sl_exec
  sl_for (fillInv (F := F) d L) $$ [Hb2 Hb3]
  case region =>
    intro k _
    unfold fillInv
    iintro ⟨⟨%g2, %hg2, Hb2⟩, ⟨%g3, %hg3, Hb3⟩⟩
    sl_exec
    sl_step
    isplitl [Hb2]
    · iexists _; isplitr
      · ipureintro; exact fill_step_b2 k g2 hg2
      · iexact Hb2
    · iexists _; isplitr
      · ipureintro; exact fill_step_b3 k g3 hg3
      · iexact Hb3
  · unfold fillInv
    isplitl [Hb2]
    · iexists f2; isplitr
      · ipureintro; exact allOnesBelow_zero _
      · iexact Hb2
    · iexists f3; isplitr
      · ipureintro; exact allOnesBelow_zero _
      · iexact Hb3
  iintro %_ HI
  unfold fillInv
  icases HI with ⟨⟨%g2, %hg2, Hb2⟩, ⟨%g3, %hg3, Hb3⟩⟩
  have ho2 : Cert.MaskTile.OnesOutside g2 := onesOutside_of_fill g2 hg2
  have ho3 : Cert.MaskTile.OnesOutside g3 := onesOutside_of_fill g3 hg3
  sl_exec
  ld0; sl_exec; st2o ca hDa; sl_exec
  iterate 31 (ld0; sl_exec; st2 ca hDa; sl_exec)
  ld1; sl_exec; st3o cb hDb; sl_exec
  iterate 31 (ld1; sl_exec; st3 cb hDb; sl_exec)
  ld0; sl_exec; st2z cc hDc; sl_exec
  iterate 31 (ld0; sl_exec; st2 cc hDc; sl_exec)
  ld1; sl_exec; st3z cd hDd; sl_exec
  iterate 31 (ld1; sl_exec; st3 cd hDd; sl_exec)
  have hca : ca = Cert.MaskTile.tileG (fun y' => m (xLoc d) ((xS0 L).view.emb y')) := by
    rw [Cert.MaskTile.Done.full hDa]
    exact congrArg Cert.MaskTile.tileG ((View.write_whole_univ cc0_scratch0 _ _).trans rfl)
  have hcb : cb = Cert.MaskTile.tileG (fun y' => m (xLoc d) ((xS1 L).view.emb y')) := by
    rw [Cert.MaskTile.Done.full hDb]
    exact congrArg Cert.MaskTile.tileG ((View.write_whole_univ cc0_scratch1 _ _).trans rfl)
  have hcc : cc = Cert.MaskTile.tileG (fun y' => m (xLoc d) ((xS2 L).view.emb y')) := by
    rw [Cert.MaskTile.Done.full hDc]
    exact congrArg Cert.MaskTile.tileG ((View.write_whole_univ cc0_scratch0 _ _).trans rfl)
  have hcd : cd = Cert.MaskTile.tileG (fun y' => m (xLoc d) ((xS3 L).view.emb y')) := by
    rw [Cert.MaskTile.Done.full hDd]
    exact congrArg Cert.MaskTile.tileG ((View.write_whole_univ cc0_scratch1 _ _).trans rfl)
  sl_step
  rw [tileTd, bigSep_fin4]
  isplitl [Hxd Hx0 Hx1 Ho0 Ho1 Ho2 Ho3]
  · isplitl [Hxd Hx0 Hx1]
    · iapply (Transfers.pointsTo_toks_join q 2)
      isplitl [Hxd]; · iexact Hxd
      rw [bigSep_fin2]
      isplitl [Hx0]; · iexact Hx0
      iexact Hx1
    · isplitl [Ho0]
      · iapply (out0 m d L _ (hpay0 m d L ca hca)); iexact Ho0
      isplitl [Ho1]
      · iapply (out1 m d L _ (hpay1 m d L cb hcb)); iexact Ho1
      isplitl [Ho2]
      · iapply (out2 m d L _ (hpay2 m d L cc hcc)); iexact Ho2
      · iapply (out3 m d L _ (hpay3 m d L cd hcd)); iexact Ho3
  isplitl [Hb0 Hb1 Hb2 Hb3 Hbufs]
  · isplitl [Hb0]; · iexists _; iexact Hb0
    isplitl [Hb1]; · iexists _; iexact Hb1
    isplitl [Hb2]; · iexists _; iexact Hb2
    isplitl [Hb3]; · iexists _; iexact Hb3
    iexact Hbufs
  isplitl [Hs4 Hs5 Hs6 Hs7 Hsems]
  · isplitl [Hs4]; · iexact Hs4
    isplitl [Hs5]; · iexact Hs5
    isplitl [Hs6]; · iexact Hs6
    isplitl [Hs7]; · iexact Hs7
    iexact Hsems
  iexists _; isplitr
  rotate_left
  · iexact HO
  · ipureintro; intro p hp
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    exact .inl hp

end Cert.Proof.KI

end
-- ==== Proof.KILaunch.lean ====
/-
  The launch of the idealized kernel: how the one call's operands are dealt to the two SparseCores and to the sixteen
  vector subcores of each, and gathered back.  The input is only read: it goes out whole as read shares, one per
  SparseCore and, of that one, one per vector subcore, the remainder of each split kept where the split was made.  The
  result's 128 chunks of rows go out four to a vector subcore: subcore s of SparseCore c holds chunks 4(2s + c) …
  4(2s + c) + 3, and (c, s, k) ↦ 4(2s + c) + k is a bijection onto the 128 chunks.  Assuming the statement of one vector
  subcore's task, every fair execution of the whole program ends with the specified result, the input unchanged.
-/
import proofs.«203812_g17411797418577_cont_8to1_445_22_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

/-! ## Who is handed what -/

/-- The coordinates of vector subcore `s` of SparseCore `c`, the grid's two bounds read as the numbers they are. -/
def LL (c : Fin 2) (s : Fin 16) : grid0.Coords := coordsV (Fin.cast bound_zero.symm c) (Fin.cast bound_one.symm s)

/-- The read share of the input that SparseCore `c` is handed, and of it the one its vector subcore `s` is handed. -/
abbrev qC (c : Fin 2) : PosShare TreeShare := shareTok fullShare 2 c
abbrev qT (c : Fin 2) (s : Fin 16) : PosShare TreeShare := shareTok (qC c) 16 s

/-- The four chunks of the vector subcore at coordinates `L`, holding `f`. -/
def tileChunks (d : Dev nD) (L : grid0.Coords) (f : Buf (Elt F) (oLoc d)) : sProp 𝕄 :=
  bigSep Finset.univ fun k : Fin 4 => oLoc d ↦[chunkSet (tileChunk L k)]{fullShare} f
/-- The sixty-four chunks of SparseCore `c`, holding `f`. -/
def coreChunks (d : Dev nD) (c : Fin 2) (f : Buf (Elt F) (oLoc d)) : sProp 𝕄 :=
  bigSep Finset.univ fun s : Fin 16 => tileChunks d (LL c s) f

variable [FloatOps F]

theorem tileGo_eq (d : Dev nD) (L : grid0.Coords) (q : PosShare TreeShare) :
    tileGo m d L q = iprop((xLoc d ↦{q} m (xLoc d)) ∗ tileChunks d L (m (oLoc d))) := rfl
theorem tileTd_eq (d : Dev nD) (L : grid0.Coords) (q : PosShare TreeShare) :
    tileTd m d L q = iprop((xLoc d ↦{q} m (xLoc d)) ∗ tileChunks d L (want m d)) := rfl

/-! ## What the handshakes carry -/

/-- The one call hands SparseCore `c` its read share of the input and its sixty-four chunks of the result, each vector
    subcore its share of that share and its four chunks, and brings them back, the chunks at the specified result. -/
def P : (K (F := F)).Pay (nD := nD) (Val := Elt F) (Name := ℕ) (U := UU) where
  st := fun q d c => match q, c with
    | 0, c => iprop((xLoc d ↦{qC (Fin.cast nCore_zero c)} m (xLoc d)) ∗ coreChunks d (Fin.cast nCore_zero c) (m (oLoc d)))
  dn := fun q d c => match q, c with
    | 0, c => iprop((xLoc d ↦{qC (Fin.cast nCore_zero c)} m (xLoc d)) ∗ coreChunks d (Fin.cast nCore_zero c) (want m d))
  go := fun q d c i => match q, c, i with
    | 0, c, i => tileGo m d (LL (Fin.cast nCore_zero c) (Fin.cast nSub_zero i)) (qT (Fin.cast nCore_zero c) (Fin.cast nSub_zero i))
  td := fun q d c i => match q, c, i with
    | 0, c, i => tileTd m d (LL (Fin.cast nCore_zero c) (Fin.cast nSub_zero i)) (qT (Fin.cast nCore_zero c) (Fin.cast nSub_zero i))
  x := fun _ _ => iprop(emp)

theorem P_st (d : Dev nD) (c : Fin ((K (F := F)).nCore 0)) :
    (P m).st 0 d c = iprop((xLoc d ↦{qC (Fin.cast nCore_zero c)} m (xLoc d)) ∗ coreChunks d (Fin.cast nCore_zero c) (m (oLoc d))) := rfl
theorem P_dn (d : Dev nD) (c : Fin ((K (F := F)).nCore 0)) :
    (P m).dn 0 d c = iprop((xLoc d ↦{qC (Fin.cast nCore_zero c)} m (xLoc d)) ∗ coreChunks d (Fin.cast nCore_zero c) (want m d)) := rfl
theorem P_go (d : Dev nD) (c : Fin ((K (F := F)).nCore 0)) (i : Fin ((K (F := F)).nSub 0)) :
    (P m).go 0 d c i = tileGo m d (LL (Fin.cast nCore_zero c) (Fin.cast nSub_zero i)) (qT (Fin.cast nCore_zero c) (Fin.cast nSub_zero i)) := rfl
theorem P_td (d : Dev nD) (c : Fin ((K (F := F)).nCore 0)) (i : Fin ((K (F := F)).nSub 0)) :
    (P m).td 0 d c i = tileTd m d (LL (Fin.cast nCore_zero c) (Fin.cast nSub_zero i)) (qT (Fin.cast nCore_zero c) (Fin.cast nSub_zero i)) := rfl

instance P_storable : (P (F := F) m).IsStorable where
  st q d c := match q, c with
    | 0, c => by rw [P_st]; unfold coreChunks tileChunks; infer_instance
  dn q d c := match q, c with
    | 0, c => by rw [P_dn]; unfold coreChunks tileChunks; infer_instance
  go q d c i := match q, c, i with
    | 0, c, i => by rw [P_go, tileGo_eq]; unfold tileChunks; infer_instance
  td q d c i := match q, c, i with
    | 0, c, i => by rw [P_td, tileTd_eq]; unfold tileChunks; infer_instance

/-! ## One vector subcore's task, as the launch asks it -/

theorem defs₀_vector (c : Fin τ.nSC) (s : Fin τ.nSub) :
    defs₀ (F := F) (.scVector c s) 0 ()
      = SparseCore.onTile hcore0 hsub0 (fun c s => cc0__sc_mask (coordsV c s)
          xV (Memref.isWhole_whole _) oV (Memref.isWhole_whole _) b0 (Memref.isWhole_whole _) b1 (Memref.isWhole_whole _)
          b2 (Memref.isWhole_whole _) b3 (Memref.isWhole_whole _) cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileSpec m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) (qT (Fin.cast nCore_zero c) (Fin.cast nSub_zero i)) O W hO).trans (wp_mono frame _ _ fun _ => obl_post)

/-! ## The chunks partition the result, and the tasks' chunks are all of them -/

theorem chunkSet_eq (j : Fin 128) : chunkSet j = (chunk j).set := by
  show ((View.whole (main_v0_scv : Ref sig .scVector)).slice (chunk j)).set = _
  rw [View.set_slice]; exact Finset.map_refl
theorem chunks_disjoint : ∀ i ∈ (Finset.univ : Finset (Fin 128)), ∀ j ∈ (Finset.univ : Finset (Fin 128)), i ≠ j → Disjoint (chunkSet i) (chunkSet j) :=
  fun i _ j _ h => by rw [chunkSet_eq, chunkSet_eq]; exact Rect.part_disjoint hdiv h
theorem chunks_cover : (Finset.univ : Finset (Fin 128)).biUnion chunkSet = Finset.univ :=
  (Finset.biUnion_congr rfl fun i _ => chunkSet_eq i).trans (Rect.biUnion_part hdiv)

omit [FloatOps F] in
/-- The result whole is its 128 chunks. -/
theorem oPts_chunks (d : Dev nD) (f : Buf (Elt F) (oLoc d)) :
    (oLoc d ↦{fullShare} f : sProp 𝕄) = bigSep Finset.univ fun j : Fin 128 => oLoc d ↦[chunkSet j]{fullShare} f := by
  rw [← pointsTo_biUnion Finset.univ (ℓ := oLoc d) chunkSet chunks_disjoint, chunks_cover]; try rfl

/-- Chunk `k` of vector subcore `s` of SparseCore `c`: the number 4(2s + c) + k. -/
def chunkOf (x : Fin 2 × Fin 16 × Fin 4) : Fin 128 := tileChunk (LL x.1 x.2.1) x.2.2

theorem chunkOf_val (c : Fin 2) (s : Fin 16) (k : Fin 4) : (chunkOf (c, s, k)).val = 4 * (2 * s.val + c.val) + k.val := rfl

/-- Two of the 2 · 16 · 4 places name different chunks: k is the number mod 4, c the quotient's parity, s its half. -/
theorem chunkOf_injective : Function.Injective chunkOf := by
  rintro ⟨c, s, k⟩ ⟨c', s', k'⟩ e
  have h : 4 * (2 * s.val + c.val) + k.val = 4 * (2 * s'.val + c'.val) + k'.val := congrArg Fin.val e
  have := c.isLt; have := c'.isLt; have := s.isLt; have := s'.isLt; have := k.isLt; have := k'.isLt
  have hc : c = c' := Fin.ext (by omega)
  have hs : s = s' := Fin.ext (by omega)
  have hk : k = k' := Fin.ext (by omega)
  rw [hc, hs, hk]

/-- and every chunk is named: chunk j by k = j mod 4, c = (j / 4) mod 2, s = j / 8. -/
theorem chunkOf_image : (Finset.univ : Finset (Fin 2 × Fin 16 × Fin 4)).image chunkOf = Finset.univ := by
  refine Finset.eq_univ_iff_forall.mpr fun j => Finset.mem_image.mpr ?_
  have hj := j.isLt
  refine ⟨(⟨j.val / 4 % 2, by omega⟩, ⟨j.val / 8, by omega⟩, ⟨j.val % 4, by omega⟩), Finset.mem_univ _, Fin.ext ?_⟩
  show 4 * (2 * (j.val / 8) + j.val / 4 % 2) + j.val % 4 = j.val
  omega

omit [FloatOps F] in
/-- So a family over the 128 chunks is the same family regrouped by SparseCore, then vector subcore, then chunk of four. -/
theorem bigSep_chunks (Φ : Fin 128 → sProp 𝕄) :
    bigSep Finset.univ Φ
      = bigSep Finset.univ fun c : Fin 2 => bigSep Finset.univ fun s : Fin 16 => bigSep Finset.univ fun k : Fin 4 => Φ (tileChunk (LL c s) k) := by
  rw [← chunkOf_image, SparseCore.bigSep_image_of_injOn chunkOf_injective.injOn Φ, bigSep_univ_prod]
  refine bigSep_congr fun c _ => ?_
  rw [bigSep_univ_prod]
  rfl

omit [FloatOps F] in
/-- The result whole is the two SparseCores' chunks. -/
theorem oPts_cores (d : Dev nD) (f : Buf (Elt F) (oLoc d)) :
    (oLoc d ↦{fullShare} f : sProp 𝕄) = bigSep Finset.univ fun c : Fin 2 => coreChunks d c f := by
  rw [oPts_chunks, bigSep_chunks]; rfl

/-! ## A SparseCore's operands split among its vector subcores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the sixteen tasks of SparseCore `c` are handed together: a read share each, and the SparseCore's chunks. -/
theorem go_all (d : Dev nD) (c : Fin ((K (F := F)).nCore 0)) :
    (bigSep Finset.univ fun i : Fin ((K (F := F)).nSub 0) => (P m).go 0 d c i)
      = iprop((bigSep Finset.univ fun s : Fin 16 => xLoc d ↦{qT (Fin.cast nCore_zero c) s} m (xLoc d)) ∗ coreChunks d (Fin.cast nCore_zero c) (m (oLoc d))) := by
  simp only [P_go, tileGo_eq]
  rw [bigSep_tasks (F := F) (fun s => iprop((xLoc d ↦{qT (Fin.cast nCore_zero c) s} m (xLoc d)) ∗ tileChunks d (LL (Fin.cast nCore_zero c) s) (m (oLoc d)))),
    bigSep_sep']
  rfl
/-- and what they hand back. -/
theorem td_all (d : Dev nD) (c : Fin ((K (F := F)).nCore 0)) :
    (bigSep Finset.univ fun i : Fin ((K (F := F)).nSub 0) => (P m).td 0 d c i)
      = iprop((bigSep Finset.univ fun s : Fin 16 => xLoc d ↦{qT (Fin.cast nCore_zero c) s} m (xLoc d)) ∗ coreChunks d (Fin.cast nCore_zero c) (want m d)) := by
  simp only [P_td, tileTd_eq]
  rw [bigSep_tasks (F := F) (fun s => iprop((xLoc d ↦{qT (Fin.cast nCore_zero c) s} m (xLoc d)) ∗ tileChunks d (LL (Fin.cast nCore_zero c) s) (want m d))),
    bigSep_sep']
  rfl

/-- The SparseCore's read share splits into sixteen and a remainder, which stays here until the shares come back. -/
theorem vecSplit : (K (F := F)).VecSplit' (P m) 0 := by
  intro d c
  rw [go_all, td_all, P_st, P_dn]
  generalize Fin.cast nCore_zero c = c2
  iintro ⟨Hx, Ho⟩
  ihave Hx' := (pointsTo_toks_split (qC c2) 16) $$ Hx
  icases Hx' with ⟨Hdrop, Htoks⟩
  imodintro
  isplitl [Htoks Ho]
  · isplitl [Htoks]; · iexact Htoks
    iexact Ho
  iintro ⟨Htoks, Ho⟩
  isplitl [Hdrop Htoks]
  · iapply (pointsTo_toks_join (qC c2) 16)
    isplitl [Hdrop]; · iexact Hdrop
    iexact Htoks
  iexact Ho

/-! ## The launch element: the handshakes' rounds; the local copies' counters are not needed here -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the call takes for the two SparseCores: a read share of the input each, and each its chunks of the result. -/
theorem st0_eq (d : Dev nD) :
    (bigSep Finset.univ fun c : Fin ((K (F := F)).nCore 0) => (P m).st 0 d c)
      = iprop((bigSep Finset.univ fun c : Fin 2 => xLoc d ↦{qC c} m (xLoc d)) ∗ bigSep Finset.univ fun c : Fin 2 => coreChunks d c (m (oLoc d))) := by
  simp only [P_st]
  rw [bigSep_cores (F := F) (fun c => iprop((xLoc d ↦{qC c} m (xLoc d)) ∗ coreChunks d c (m (oLoc d)))), bigSep_sep']
/-- and what it hands back. -/
theorem dn0_eq (d : Dev nD) :
    (bigSep Finset.univ fun c : Fin ((K (F := F)).nCore 0) => (P m).dn 0 d c)
      = iprop((bigSep Finset.univ fun c : Fin 2 => xLoc d ↦{qC c} m (xLoc d)) ∗ bigSep Finset.univ fun c : Fin 2 => coreChunks d c (want m d)) := by
  simp only [P_dn]
  rw [bigSep_cores (F := F) (fun c => iprop((xLoc d ↦{qC c} m (xLoc d)) ∗ coreChunks d c (want m d))), bigSep_sep']

/-- What @main ends with: the result whole at the specified contents, the input whole as it was. -/
abbrev FIN (d : Dev nD) : sProp 𝕄 := iprop((oLoc d ↦{fullShare} want m d) ∗ xLoc d ↦{fullShare} m (xLoc d))

/-- @main on device `d`'s TensorCore: the one call.  Before it the input splits into two read shares and a remainder,
    kept here, and the result into the two SparseCores' chunks; after it both are joined back whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  ihave Hx' := (pointsTo_toks_split fullShare 2) $$ Hx
  icases Hx' with ⟨Hdrop, Htoks⟩
  ihave Ho' := (Entails.of_eq (oPts_cores (F := F) d (m (oLoc d)))) $$ Ho
  iapply ((K (F := F)).wp_run (D (F := F)) 𝒱 (EH := EH) (P := P m) κ d 0) $$ [Hst Htoks Ho' Hdrop]
  isplitr; · iexact Hctx
  isplitl [Hst]; · iexact Hst
  isplitl [Htoks Ho']
  · rw [st0_eq]
    isplitl [Htoks]; · iexact Htoks
    iexact Ho'
  iintro ⟨Hst, Hdn⟩
  ihave Hdn' := (Entails.of_eq (dn0_eq m d)) $$ Hdn
  icases Hdn' with ⟨Htoks, Ho⟩
  ihave Hx := (pointsTo_toks_join fullShare 2) $$ [Hdrop Htoks]
  · isplitl [Hdrop]; · iexact Hdrop
    iexact Htoks
  ihave Ho' := (Entails.of_eq (oPts_cores (F := F) d (want m d)).symm) $$ Ho
  imodintro
  isplitl [Hst]; · iexact Hst
  isplitl [Ho']; · iexact Ho'
  iexact Hx

/-! ## The final memory reads the claim -/

def fq (d : Dev nD) (s' : Phys nD τ sig (Elt F)) : Prop := s'.mem.mem (oLoc d) = want m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Ho, Hx⟩, HSI⟩
  ihave H := (persistent_entails_right (SI_pointsTo_agree (st := s') (ℓ := oLoc d) (I := Finset.univ) (q := fullShare) (f := want m d))) $$ [HSI Ho]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## The program's run -/

/-- Every fair execution of the idealized kernel's threads ends, nothing faulting, with the specified result in the
    result array and the input unchanged, on every device — given one vector subcore's task. -/
theorem run_main [∀ e, Nonempty (Elt F e)] (htile : TileSpec m) :
    θ_run (Cert.KernelIdeal.defs (F := F)) (Cert.KernelIdeal.threads (F := F)) ⟨m, fun _ => 0, ρ⟩
      (fun r => ∀ c : Dev nD, r.2.mem (oLoc c) = want m c ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = want m c ∧ r.2.mem (xLoc c) = m (xLoc c)) (fun _ h => h)

end Cert.Proof.KI

end
-- ==== Proof.KBSetup.lean ====
/-
  The common vocabulary for the word-level kernel's run: the launch configuration, the resource algebra (the launch
  handshakes beside the counters of local copies), the two arrays and the four scratch buffers as a vector subcore
  names them, the partition of the result's 16384 rows into 128 chunks of 128 rows, and the statement of one vector
  subcore's task.  The subcore at coordinates (c, s) is worker 2s + c; it owns rows 512(2s+c) … 512(2s+c)+511, that is
  chunks 4(2s+c) … 4(2s+c)+3, and it leaves in them the specified function of the input.
-/
import proofs.«203812_g17411797418577_cont_8to1_445_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203812_g17411797418577_cont_8to1_445_22_alg».proof.Proof.Gen.Kernel
import proofs.«203812_g17411797418577_cont_8to1_445_22_alg».proof.Proof.Gen.Kernel.Skeleton
import proofs.«203812_g17411797418577_cont_8to1_445_22_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch buffers -/

variable (m : (ℓ : Loc nD τ sig) → Buf (Elt F) ℓ) (ρ : Dev nD → PrngReg)

/-- The input and the result, as locations of device `d`. -/
abbrev xLoc (d : Dev nD) : Loc nD τ sig := (SparseCore.T d).loc main_arg0
abbrev oLoc (d : Dev nD) : Loc nD τ sig := (SparseCore.T d).loc main_v0

abbrev xV : Memref sig .scVector .hbm S16384x256 .f32 := Memref.whole main_arg0_scv
abbrev oV : Memref sig .scVector .hbm S16384x128 .f32 := Memref.whole main_v0_scv
/-- A vector subcore's scratch: two landing buffers for chunks of the input, two staging buffers for chunks of the result. -/
abbrev b0 : Memref sig .scVector .vmem S128x128 .f32 := Memref.whole cc0_scratch0
abbrev b1 : Memref sig .scVector .vmem S128x128 .f32 := Memref.whole cc0_scratch1
abbrev b2 : Memref sig .scVector .vmem S128x128 .f32 := Memref.whole cc0_scratch2
abbrev b3 : Memref sig .scVector .vmem S128x128 .f32 := Memref.whole cc0_scratch3

/-- The result's rows in 128 chunks of 128 rows. -/
theorem hdiv : 128 ∣ S16384x128.size 0 := ⟨128, rfl⟩
abbrev chunk (j : Fin 128) : Rect S16384x128 := Rect.part (s := S16384x128) (a₀ := 0) hdiv j
abbrev chunkSet (j : Fin 128) : Finset S16384x128.Idx := ((oV : Memref sig .scVector .hbm S16384x128 .f32).view.slice (chunk j)).set

/-- The coordinates of the vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))
abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl

/-- Chunk `k` (of four) of the worker at coordinates `L`: chunk 4(2s + c) + k of the 128. -/
def tileChunk (L : grid0.Coords) (k : Fin 4) : Fin 128 :=
  ⟨4 * (2 * (L 1).val + (L 0).val) + k.val, by
    have h0 : (L 0).val < 2 := (L 0).isLt
    have h1 : (L 1).val < 16 := (L 1).isLt
    have hk := k.isLt
    omega⟩

variable [FloatOps F]

/-- The result the specification prescribes, as contents of the result array on device `d`. -/
abbrev want (d : Dev nD) : Buf (Elt F) (oLoc d) := Cert.Spec.G (F := F) (m (xLoc d))

/-- What one vector subcore's task takes: a read share `q` of the whole input, and its four chunks of the result. -/
def tileGo (d : Dev nD) (L : grid0.Coords) (q : PosShare TreeShare) : sProp 𝕄 :=
  iprop((xLoc d ↦{q} m (xLoc d)) ∗ bigSep Finset.univ fun k : Fin 4 => oLoc d ↦[chunkSet (tileChunk L k)]{fullShare} m (oLoc d))
/-- What it gives back: the same share of the input, and its four chunks holding the specified result. -/
def tileTd (d : Dev nD) (L : grid0.Coords) (q : PosShare TreeShare) : sProp 𝕄 :=
  iprop((xLoc d ↦{q} m (xLoc d)) ∗ bigSep Finset.univ fun k : Fin 4 => oLoc d ↦[chunkSet (tileChunk L k)]{fullShare} want m d)

/-- One vector subcore's task, as the launch theorem's obligation asks it (before the lift to the launch's labels). -/
def TileSpec : Prop :=
  ∀ (d : Dev nD) (L : grid0.Coords) (q : PosShare TreeShare) (O : CellTallies nD τ sig (HIx 1)) (W : Waits sig (HIx 1)), (∀ g, O g none = 0) →
    iprop(levAts (K (F := F)).L (K (F := F)).lev ∗ emp ∗ tileGo m d L q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_mask L xV (Memref.isWhole_whole _) oV (Memref.isWhole_whole _) b0 (Memref.isWhole_whole _) b1 (Memref.isWhole_whole _)
            b2 (Memref.isWhole_whole _) b3 (Memref.isWhole_whole _) cc0_scratch4 cc0_scratch5 cc0_scratch6 cc0_scratch7)
          fun _ => iprop(tileTd m d L q ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.KBOwn.lean ====
/-
  A vector subcore's own storage, split into the parts its task uses: its four copy semaphores, each reading zero, and
  its four scratch buffers, each at some contents, beside the rest of what it owns.
-/
import proofs.«203812_g17411797418577_cont_8to1_445_22_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

abbrev thr (d : Dev nD) (L : grid0.Coords) : Thread nD τ := V d (cV L) (jV L)

abbrev cell4 (d : Dev nD) (L : grid0.Coords) : GSem nD τ sig := (thr d L, .dma cc0_scratch4.sem)
abbrev cell5 (d : Dev nD) (L : grid0.Coords) : GSem nD τ sig := (thr d L, .dma cc0_scratch5.sem)
abbrev cell6 (d : Dev nD) (L : grid0.Coords) : GSem nD τ sig := (thr d L, .dma cc0_scratch6.sem)
abbrev cell7 (d : Dev nD) (L : grid0.Coords) : GSem nD τ sig := (thr d L, .dma cc0_scratch7.sem)

theorem ownSems0_V :
    (ownSems0 (thr d L) : sProp 𝕄)
      = iprop(semVal (cell4 d L) 0 ∗ semVal (cell5 d L) 0 ∗ semVal (cell6 d L) 0 ∗ semVal (cell7 d L) 0
          ∗ bigSep (((((ownCells (thr d L)).erase (cell4 d L)).erase (cell5 d L)).erase (cell6 d L)).erase (cell7 d L))
              fun g => semVal g 0) := by
  unfold SparseCore.Cfg.ownSems0
  rw [SparseCore.bigSep_erase' ((mem_ownCells (g := cell4 d L)).mpr ⟨rfl, by
      show (SemLoc.dma cc0_scratch4.sem : SemLoc sig).isScoped .scVector = true; decide⟩),
    SparseCore.bigSep_erase' (Finset.mem_erase.mpr ⟨by simp [cell4, cell5]; decide, (mem_ownCells (g := cell5 d L)).mpr ⟨rfl, by
      show (SemLoc.dma cc0_scratch5.sem : SemLoc sig).isScoped .scVector = true; decide⟩⟩),
    SparseCore.bigSep_erase' (Finset.mem_erase.mpr ⟨by simp [cell5, cell6]; decide, Finset.mem_erase.mpr ⟨by simp [cell4, cell6]; decide,
      (mem_ownCells (g := cell6 d L)).mpr ⟨rfl, by show (SemLoc.dma cc0_scratch6.sem : SemLoc sig).isScoped .scVector = true; decide⟩⟩⟩),
    SparseCore.bigSep_erase' (Finset.mem_erase.mpr ⟨by simp [cell6, cell7]; decide, Finset.mem_erase.mpr ⟨by simp [cell5, cell7]; decide,
      Finset.mem_erase.mpr ⟨by simp [cell4, cell7]; decide,
      (mem_ownCells (g := cell7 d L)).mpr ⟨rfl, by show (SemLoc.dma cc0_scratch7.sem : SemLoc sig).isScoped .scVector = true; decide⟩⟩⟩⟩)]

abbrev ref0 (L : grid0.Coords) : DevRef τ sig := (Proc.scVector (cV L) (jV L)).devRef cc0_scratch0
abbrev ref1 (L : grid0.Coords) : DevRef τ sig := (Proc.scVector (cV L) (jV L)).devRef cc0_scratch1
abbrev ref2 (L : grid0.Coords) : DevRef τ sig := (Proc.scVector (cV L) (jV L)).devRef cc0_scratch2
abbrev ref3 (L : grid0.Coords) : DevRef τ sig := (Proc.scVector (cV L) (jV L)).devRef cc0_scratch3

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (ref0 L)).erase (ref1 L)).erase (ref2 L)).erase (ref3 L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ref0 L) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := ref1 L) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := ref2 L) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (cV L) (jV L)) (b := ref3 L) rfl⟩⟩⟩)]

end Cert.Proof.KB

end
-- ==== Proof.KBRules.lean ====
/-
  The two indexed operations of the task as single steps.  The indexed store into a staging buffer takes the scatter's
  invariant from `n` writes done to `n + 1`: its sixteen lanes name the sixteen rows of group `n / 4` and the action
  column `n % 4 + 1`, and each lane's value is the mask of the condition entry gathered from the landing buffer.  The
  indexed load from a landing buffer reads the buffer's contents at the rows and the column its lanes name.
-/
import proofs.«203812_g17411797418577_cont_8to1_445_22_alg».proof.Proof.KBOwn
import proofs.«203812_g17411797418577_cont_8to1_445_22_alg».proof.Proof.KPure

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

theorem set_access_b2 : (((b2 : Memref sig .scVector .vmem S128x128 .f32).access (.whole S128x128)).set : Finset _) = Finset.univ :=
  Memref.set_access_whole cc0_scratch2
theorem read_access_b2 (c : Vec F S128x128 .f32) :
    ((b2 : Memref sig .scVector .vmem S128x128 .f32).access (.whole S128x128)).read (Elt F) c = c :=
  Memref.read_access_whole (Elt F) cc0_scratch2 c
theorem write_access_b2 (c w : Vec F S128x128 .f32) :
    ((b2 : Memref sig .scVector .vmem S128x128 .f32).access (.whole S128x128)).write (Elt F) c w Finset.univ = w :=
  Memref.write_access_whole_univ (Elt F) cc0_scratch2 c w

/-- One indexed store into the staging buffer, with its invariant: from `n` writes done to `n + 1`. -/
theorem storeSite_b2 {α : Type} {Q : α → sProp 𝕄} {n : Nat} {src c : Vec F S128x128 .f32} (hD : Cert.MaskTile.Done n src c) (hn : n < 32)
    {rows colS colL : IVec S16 32} {v : Vec F S16 .f32}
    {h : ∀ a x, ((![rows, colS] : Fin S128x128.rank → IVec S16 32) a x).toNat < S128x128.size a}
    {hs : ((b2 : Memref sig .scVector .vmem S128x128 .f32).access (.whole S128x128)).Stores Finset.univ}
    {k : PUnit.{1} → Prog (TpuEff nD τ sig (Elt F) Λ₀ (thr d L).2) α}
    (hrows : ∀ x : S16.Idx, (rows x).toNat = 16 * (n / 4) + (x 0).val)
    (hcolS : ∀ x : S16.Idx, (colS x).toNat = n % 4 + 1)
    (hcolL : ∀ x : S16.Idx, (colL x).toNat = Cert.MaskTile.condCol (n % 4 + 1))
    (hv : ∀ (hL : ∀ a x, ((![rows, colL] : Fin S128x128.rank → IVec S16 32) a x).toNat < S128x128.size a) (x : S16.Idx),
      v x = Cert.Spec.mask1 (loadIdx src ![rows, colL] hL x)) :
    (((b2 : Memref sig .scVector .vmem S128x128 .f32).view.loc (thr d L) ↦{fullShare} c : sProp 𝕄))
      ⊢ iprop((∀ c' : Vec F S128x128 .f32, ⌜Cert.MaskTile.Done (n + 1) src c'⌝ -∗
            ((b2 : Memref sig .scVector .vmem S128x128 .f32).view.loc (thr d L) ↦{fullShare} c') -∗
            wp frame (wpE (defs₀ (F := F)) 𝒱₀ (thr d L) none) Set.univ (k ⟨⟩) Q)
        -∗ wp frame (wpE (defs₀ (F := F)) 𝒱₀ (thr d L) none) Set.univ
            (SparseCore.vectorStoreIdx (b2 : Memref sig .scVector .vmem S128x128 .f32) ![rows, colS] v (fun _ => 1#1) false h hs >>= k) Q) := by
  have key := SparseCore.wp_vectorStoreIdx (defs := defs₀ (F := F)) 𝒱₀ (thr d L) none (Set.univ : Set ℕ) (Q := Q)
    (base := (b2 : Memref sig .scVector .vmem S128x128 .f32)) (idxs := ![rows, colS]) (v := v) (mask := fun _ => 1#1) (add := false) (h := h) (hs := hs) (k := k) (f := c)
  rw [set_access_b2, read_access_b2, write_access_b2] at key
  iintro H Hk
  iapply key $$ H
  iintro H
  iapply Hk $$ [] H
  ipureintro
  exact Cert.MaskTile.Done.layer hD hn hrows hcolS hcolL h hv

theorem set_access_b3 : (((b3 : Memref sig .scVector .vmem S128x128 .f32).access (.whole S128x128)).set : Finset _) = Finset.univ :=
  Memref.set_access_whole cc0_scratch3
theorem read_access_b3 (c : Vec F S128x128 .f32) :
    ((b3 : Memref sig .scVector .vmem S128x128 .f32).access (.whole S128x128)).read (Elt F) c = c :=
  Memref.read_access_whole (Elt F) cc0_scratch3 c
theorem write_access_b3 (c w : Vec F S128x128 .f32) :
    ((b3 : Memref sig .scVector .vmem S128x128 .f32).access (.whole S128x128)).write (Elt F) c w Finset.univ = w :=
  Memref.write_access_whole_univ (Elt F) cc0_scratch3 c w

/-- One indexed store into the staging buffer, with its invariant: from `n` writes done to `n + 1`. -/
theorem storeSite_b3 {α : Type} {Q : α → sProp 𝕄} {n : Nat} {src c : Vec F S128x128 .f32} (hD : Cert.MaskTile.Done n src c) (hn : n < 32)
    {rows colS colL : IVec S16 32} {v : Vec F S16 .f32}
    {h : ∀ a x, ((![rows, colS] : Fin S128x128.rank → IVec S16 32) a x).toNat < S128x128.size a}
    {hs : ((b3 : Memref sig .scVector .vmem S128x128 .f32).access (.whole S128x128)).Stores Finset.univ}
    {k : PUnit.{1} → Prog (TpuEff nD τ sig (Elt F) Λ₀ (thr d L).2) α}
    (hrows : ∀ x : S16.Idx, (rows x).toNat = 16 * (n / 4) + (x 0).val)
    (hcolS : ∀ x : S16.Idx, (colS x).toNat = n % 4 + 1)
    (hcolL : ∀ x : S16.Idx, (colL x).toNat = Cert.MaskTile.condCol (n % 4 + 1))
    (hv : ∀ (hL : ∀ a x, ((![rows, colL] : Fin S128x128.rank → IVec S16 32) a x).toNat < S128x128.size a) (x : S16.Idx),
      v x = Cert.Spec.mask1 (loadIdx src ![rows, colL] hL x)) :
    (((b3 : Memref sig .scVector .vmem S128x128 .f32).view.loc (thr d L) ↦{fullShare} c : sProp 𝕄))
      ⊢ iprop((∀ c' : Vec F S128x128 .f32, ⌜Cert.MaskTile.Done (n + 1) src c'⌝ -∗
            ((b3 : Memref sig .scVector .vmem S128x128 .f32).view.loc (thr d L) ↦{fullShare} c') -∗
            wp frame (wpE (defs₀ (F := F)) 𝒱₀ (thr d L) none) Set.univ (k ⟨⟩) Q)
        -∗ wp frame (wpE (defs₀ (F := F)) 𝒱₀ (thr d L) none) Set.univ
            (SparseCore.vectorStoreIdx (b3 : Memref sig .scVector .vmem S128x128 .f32) ![rows, colS] v (fun _ => 1#1) false h hs >>= k) Q) := by
  have key := SparseCore.wp_vectorStoreIdx (defs := defs₀ (F := F)) 𝒱₀ (thr d L) none (Set.univ : Set ℕ) (Q := Q)
    (base := (b3 : Memref sig .scVector .vmem S128x128 .f32)) (idxs := ![rows, colS]) (v := v) (mask := fun _ => 1#1) (add := false) (h := h) (hs := hs) (k := k) (f := c)
  rw [set_access_b3, read_access_b3, write_access_b3] at key
  iintro H Hk
  iapply key $$ H
  iintro H
  iapply Hk $$ [] H
  ipureintro
  exact Cert.MaskTile.Done.layer hD hn hrows hcolS hcolL h hv

theorem read_access_b0 (c : Vec F S128x128 .f32) :
    ((b0 : Memref sig .scVector .vmem S128x128 .f32).access (.whole S128x128)).read (Elt F) c = c :=
  Memref.read_access_whole (Elt F) cc0_scratch0 c

/-- One indexed load from a landing buffer: the lanes read the buffer's contents at the rows and column they name. -/
theorem loadSite_b0 {α : Type} {Q : α → sProp 𝕄} {idxs : Fin S128x128.rank → IVec S16 32}
    {h : ∀ a x, (idxs a x).toNat < S128x128.size a} {hl : (b0 : Memref sig .scVector .vmem S128x128 .f32).view.Loads}
    {k : Vec F S16 .f32 → Prog (TpuEff nD τ sig (Elt F) Λ₀ (thr d L).2) α} {f : Vec F S128x128 .f32} :
    (((b0 : Memref sig .scVector .vmem S128x128 .f32).view.loc (thr d L) ↦{fullShare} f : sProp 𝕄))
      ⊢ iprop((((b0 : Memref sig .scVector .vmem S128x128 .f32).view.loc (thr d L) ↦{fullShare} f) -∗
            wp frame (wpE (defs₀ (F := F)) 𝒱₀ (thr d L) none) Set.univ (k (loadIdx f idxs h)) Q)
        -∗ wp frame (wpE (defs₀ (F := F)) 𝒱₀ (thr d L) none) Set.univ
            (SparseCore.vectorLoadIdx (b0 : Memref sig .scVector .vmem S128x128 .f32) idxs h hl >>= k) Q) := by
  have key := SparseCore.wp_vectorLoadIdx (defs := defs₀ (F := F)) 𝒱₀ (thr d L) none (Set.univ : Set ℕ) (Q := Q)
    (base := (b0 : Memref sig .scVector .vmem S128x128 .f32)) (idxs := idxs) (h := h) (hl := hl) (k := k) (S := Finset.univ) (q := fullShare) (f := f)
    (Finset.subset_univ _)
  rw [read_access_b0] at key
  exact key

theorem read_access_b1 (c : Vec F S128x128 .f32) :
    ((b1 : Memref sig .scVector .vmem S128x128 .f32).access (.whole S128x128)).read (Elt F) c = c :=
  Memref.read_access_whole (Elt F) cc0_scratch1 c

/-- One indexed load from a landing buffer: the lanes read the buffer's contents at the rows and column they name. -/
theorem loadSite_b1 {α : Type} {Q : α → sProp 𝕄} {idxs : Fin S128x128.rank → IVec S16 32}
    {h : ∀ a x, (idxs a x).toNat < S128x128.size a} {hl : (b1 : Memref sig .scVector .vmem S128x128 .f32).view.Loads}
    {k : Vec F S16 .f32 → Prog (TpuEff nD τ sig (Elt F) Λ₀ (thr d L).2) α} {f : Vec F S128x128 .f32} :
    (((b1 : Memref sig .scVector .vmem S128x128 .f32).view.loc (thr d L) ↦{fullShare} f : sProp 𝕄))
      ⊢ iprop((((b1 : Memref sig .scVector .vmem S128x128 .f32).view.loc (thr d L) ↦{fullShare} f) -∗
            wp frame (wpE (defs₀ (F := F)) 𝒱₀ (thr d L) none) Set.univ (k (loadIdx f idxs h)) Q)
        -∗ wp frame (wpE (defs₀ (F := F)) 𝒱₀ (thr d L) none) Set.univ
            (SparseCore.vectorLoadIdx (b1 : Memref sig .scVector .vmem S128x128 .f32) idxs h hl >>= k) Q) := by
  have key := SparseCore.wp_vectorLoadIdx (defs := defs₀ (F := F)) 𝒱₀ (thr d L) none (Set.univ : Set ℕ) (Q := Q)
    (base := (b1 : Memref sig .scVector .vmem S128x128 .f32)) (idxs := idxs) (h := h) (hl := hl) (k := k) (S := Finset.univ) (q := fullShare) (f := f)
    (Finset.subset_univ _)
  rw [read_access_b1] at key
  exact key

end Cert.Proof.KB

end
-- ==== Proof.KBFill.lean ====
/-
  The fill at the start of the task.  Trip `k` writes ones over row `k` of both staging buffers, in eight runs of sixteen
  lanes; after `k` trips the first `k` rows of each are ones, and after all 128 every entry is — in particular every entry
  outside the four action columns, which is what the scatter's invariant starts from.
-/
import proofs.«203812_g17411797418577_cont_8to1_445_22_alg».proof.Proof.KBOwn
import proofs.«203812_g17411797418577_cont_8to1_445_22_alg».proof.Proof.KPure

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Every entry of the first `k` rows is one. -/
def AllOnesBelow (k : Nat) (f : Vec F S128x128 .f32) : Prop := ∀ y : S128x128.Idx, (y 0).val < k → f y = Cert.Spec.one

/-- A 16-lane piece of row `r` starting at column `c`. -/
theorem mem_seg (r c : Nat) (off : Fin 2 → Nat) (hoff : off = ![r, c]) (inb : ∀ a, off a + S1x16.size a ≤ S128x128.size a) (y : S128x128.Idx) :
    y ∈ (Rect.unit (s := S128x128) off S1x16.size inb).set ↔ (y 0).val = r ∧ c ≤ (y 1).val ∧ (y 1).val < c + 16 := by
  subst hoff
  rw [Rect.mem_set_unit]
  constructor
  · intro h
    have h0 := h 0
    have h1 := h 1
    have h0' : r ≤ (y 0).val ∧ (y 0).val < r + 1 := h0
    have h1' : c ≤ (y 1).val ∧ (y 1).val < c + 16 := h1
    omega
  · intro ⟨h0, h1, h2⟩ a
    match a with
    | ⟨0, _⟩ => show r ≤ (y 0).val ∧ (y 0).val < r + 1; omega
    | ⟨1, _⟩ => show c ≤ (y 1).val ∧ (y 1).val < c + 16; omega

/-- The eight pieces one trip of the fill writes into a staging buffer: row `k`, columns 0 … 127 in runs of 16, all ones. -/
abbrev fillPieces (k : Fin k0_t1_loop.trips) : List (View.Piece (Elt F) S128x128 .f32) :=
  [⟨Rect.unit (s := S128x128) (k0_off9 k) S1x16.size (k0_off9_inb k), shapeCast S1x16 (k0_pay1 (F := F)) shapeCasts_S16_S1x16⟩,
   ⟨Rect.unit (s := S128x128) (k0_off8 k) S1x16.size (k0_off8_inb k), shapeCast S1x16 (k0_pay1 (F := F)) shapeCasts_S16_S1x16⟩,
   ⟨Rect.unit (s := S128x128) (k0_off7 k) S1x16.size (k0_off7_inb k), shapeCast S1x16 (k0_pay1 (F := F)) shapeCasts_S16_S1x16⟩,
   ⟨Rect.unit (s := S128x128) (k0_off6 k) S1x16.size (k0_off6_inb k), shapeCast S1x16 (k0_pay1 (F := F)) shapeCasts_S16_S1x16⟩,
   ⟨Rect.unit (s := S128x128) (k0_off5 k) S1x16.size (k0_off5_inb k), shapeCast S1x16 (k0_pay1 (F := F)) shapeCasts_S16_S1x16⟩,
   ⟨Rect.unit (s := S128x128) (k0_off4 k) S1x16.size (k0_off4_inb k), shapeCast S1x16 (k0_pay1 (F := F)) shapeCasts_S16_S1x16⟩,
   ⟨Rect.unit (s := S128x128) (k0_off3 k) S1x16.size (k0_off3_inb k), shapeCast S1x16 (k0_pay1 (F := F)) shapeCasts_S16_S1x16⟩,
   ⟨Rect.unit (s := S128x128) (k0_off2 k) S1x16.size (k0_off2_inb k), shapeCast S1x16 (k0_pay1 (F := F)) shapeCasts_S16_S1x16⟩]

theorem fillPieces_mem (k : Fin k0_t1_loop.trips) (p : View.Piece (Elt F) S128x128 .f32) (hp : p ∈ fillPieces (F := F) k) (y : S128x128.Idx) :
    (y ∈ p.1.set → (y 0).val = k.val) ∧ ∀ x : p.1.shape.Idx, p.2 x = Cert.Spec.one := by
  simp only [fillPieces, List.mem_cons, List.mem_nil_iff, or_false] at hp
  rcases hp with rfl | rfl | rfl | rfl | rfl | rfl | rfl | rfl
  · exact ⟨fun h => ((mem_seg k.val 112 _ (k0_off9_eq k) (k0_off9_inb k) y).mp h).1, fun _ => rfl⟩
  · exact ⟨fun h => ((mem_seg k.val 96 _ (k0_off8_eq k) (k0_off8_inb k) y).mp h).1, fun _ => rfl⟩
  · exact ⟨fun h => ((mem_seg k.val 80 _ (k0_off7_eq k) (k0_off7_inb k) y).mp h).1, fun _ => rfl⟩
  · exact ⟨fun h => ((mem_seg k.val 64 _ (k0_off6_eq k) (k0_off6_inb k) y).mp h).1, fun _ => rfl⟩
  · exact ⟨fun h => ((mem_seg k.val 48 _ (k0_off5_eq k) (k0_off5_inb k) y).mp h).1, fun _ => rfl⟩
  · exact ⟨fun h => ((mem_seg k.val 32 _ (k0_off4_eq k) (k0_off4_inb k) y).mp h).1, fun _ => rfl⟩
  · exact ⟨fun h => ((mem_seg k.val 16 _ (k0_off3_eq k) (k0_off3_inb k) y).mp h).1, fun _ => rfl⟩
  · exact ⟨fun h => ((mem_seg k.val 0 _ (k0_off2_eq k) (k0_off2_inb k) y).mp h).1, fun _ => rfl⟩

theorem fillPieces_cover (k : Fin k0_t1_loop.trips) (y : S128x128.Idx) (hy : (y 0).val = k.val) :
    ∃ p ∈ fillPieces (F := F) k, y ∈ p.1.set := by
  have h1 : (y 1).val < 128 := (y 1).isLt
  simp only [fillPieces, List.mem_cons, List.mem_nil_iff, or_false, exists_eq_or_imp, exists_eq_left]
  rcases (by omega : (112 ≤ (y 1).val) ∨ (96 ≤ (y 1).val ∧ (y 1).val < 112) ∨ (80 ≤ (y 1).val ∧ (y 1).val < 96) ∨ (64 ≤ (y 1).val ∧ (y 1).val < 80)
      ∨ (48 ≤ (y 1).val ∧ (y 1).val < 64) ∨ (32 ≤ (y 1).val ∧ (y 1).val < 48) ∨ (16 ≤ (y 1).val ∧ (y 1).val < 32) ∨ ((y 1).val < 16)) with
    h | h | h | h | h | h | h | h
  · exact Or.inl ((mem_seg k.val 112 _ (k0_off9_eq k) (k0_off9_inb k) y).mpr ⟨hy, by omega, by omega⟩)
  · exact Or.inr (Or.inl ((mem_seg k.val 96 _ (k0_off8_eq k) (k0_off8_inb k) y).mpr ⟨hy, by omega, by omega⟩))
  · exact Or.inr (Or.inr (Or.inl ((mem_seg k.val 80 _ (k0_off7_eq k) (k0_off7_inb k) y).mpr ⟨hy, by omega, by omega⟩)))
  · exact Or.inr (Or.inr (Or.inr (Or.inl ((mem_seg k.val 64 _ (k0_off6_eq k) (k0_off6_inb k) y).mpr ⟨hy, by omega, by omega⟩))))
  · exact Or.inr (Or.inr (Or.inr (Or.inr (Or.inl ((mem_seg k.val 48 _ (k0_off5_eq k) (k0_off5_inb k) y).mpr ⟨hy, by omega, by omega⟩)))))
  · exact Or.inr (Or.inr (Or.inr (Or.inr (Or.inr (Or.inl ((mem_seg k.val 32 _ (k0_off4_eq k) (k0_off4_inb k) y).mpr ⟨hy, by omega, by omega⟩))))))
  · exact Or.inr (Or.inr (Or.inr (Or.inr (Or.inr (Or.inr (Or.inl ((mem_seg k.val 16 _ (k0_off3_eq k) (k0_off3_inb k) y).mpr ⟨hy, by omega, by omega⟩)))))))
  · exact Or.inr (Or.inr (Or.inr (Or.inr (Or.inr (Or.inr (Or.inr ((mem_seg k.val 0 _ (k0_off2_eq k) (k0_off2_inb k) y).mpr ⟨hy, by omega, by omega⟩)))))))

/-- One trip of the fill: the first `k` rows were ones, now the first `k + 1` are. -/
theorem fill_step_b2 (k : Fin k0_t1_loop.trips) (g : Vec F S128x128 .f32) (hg : AllOnesBelow k.val g) :
    AllOnesBelow (k.val + 1) ((b2 : Memref sig .scVector .vmem S128x128 .f32).view.writes (Elt F) g (fillPieces k)) := by
  intro y hy
  by_cases hk : (y 0).val = k.val
  · exact View.read_writes_apply_of_pieces (b2 : Memref sig .scVector .vmem S128x128 .f32).view g (fun _ => Cert.Spec.one) (fillPieces k)
      (fun p hp x => (fillPieces_mem k p hp y).2 x) y (fillPieces_cover k y hk)
  · have hlt : (y 0).val < k.val := by omega
    exact (View.read_writes_apply_of_forall_not_mem (b2 : Memref sig .scVector .vmem S128x128 .f32).view g y (fillPieces k)
      (fun p hp hm => hk ((fillPieces_mem k p hp y).1 hm))).trans (hg y hlt)

theorem fill_step_b3 (k : Fin k0_t1_loop.trips) (g : Vec F S128x128 .f32) (hg : AllOnesBelow k.val g) :
    AllOnesBelow (k.val + 1) ((b3 : Memref sig .scVector .vmem S128x128 .f32).view.writes (Elt F) g (fillPieces k)) := by
  intro y hy
  by_cases hk : (y 0).val = k.val
  · exact View.read_writes_apply_of_pieces (b3 : Memref sig .scVector .vmem S128x128 .f32).view g (fun _ => Cert.Spec.one) (fillPieces k)
      (fun p hp x => (fillPieces_mem k p hp y).2 x) y (fillPieces_cover k y hk)
  · have hlt : (y 0).val < k.val := by omega
    exact (View.read_writes_apply_of_forall_not_mem (b3 : Memref sig .scVector .vmem S128x128 .f32).view g y (fillPieces k)
      (fun p hp hm => hk ((fillPieces_mem k p hp y).1 hm))).trans (hg y hlt)

theorem trips_eq : k0_t1_loop.trips = 128 := by decide

/-- After the last trip every entry is one; in particular every entry outside the action columns. -/
theorem onesOutside_of_fill (g : Vec F S128x128 .f32) (hg : AllOnesBelow k0_t1_loop.trips g) : Cert.MaskTile.OnesOutside g := by
  intro y _
  refine hg y ?_
  rw [trips_eq]
  exact (y 0).isLt

end Cert.Proof.KB

end
-- ==== Proof.KBSlices.lean ====
/-
  The four chunks of the result a task copies out, as the task slices them, are chunks 4(2s + c) … 4(2s + c) + 3 of the
  128 chunks of 128 rows; and the forms in which the task holds the input, its chunks of the result and its scratch.
-/
import proofs.«203812_g17411797418577_cont_8to1_445_22_alg».proof.Proof.KBOwn

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

/-- The four chunks of the result as the task slices them for its four copies out. -/
abbrev r0 (L : grid0.Coords) : Rect S16384x128 := Rect.unit (s := S16384x128) (k0_off10 L) S128x128.size (k0_off10_inb L)
abbrev r1 (L : grid0.Coords) : Rect S16384x128 := Rect.unit (s := S16384x128) (k0_off12 L 128#32) S128x128.size (k0_off12_inb L 1)
abbrev r2 (L : grid0.Coords) : Rect S16384x128 := Rect.unit (s := S16384x128) (k0_off14 L 256#32) S128x128.size (k0_off14_inb L 1)
abbrev r3 (L : grid0.Coords) : Rect S16384x128 := Rect.unit (s := S16384x128) (k0_off16 L 384#32) S128x128.size (k0_off16_inb L 1)
abbrev oS0 (L : grid0.Coords) : Memref sig .scVector .hbm S128x128 .f32 := (oV).slice (r0 L) (fun _ => rfl)
abbrev oS1 (L : grid0.Coords) : Memref sig .scVector .hbm S128x128 .f32 := (oV).slice (r1 L) (fun _ => rfl)
abbrev oS2 (L : grid0.Coords) : Memref sig .scVector .hbm S128x128 .f32 := (oV).slice (r2 L) (fun _ => rfl)
abbrev oS3 (L : grid0.Coords) : Memref sig .scVector .hbm S128x128 .f32 := (oV).slice (r3 L) (fun _ => rfl)

theorem off1_eq : k0_off12 L 128#32 = ![1024 * (L 1).val + 512 * (L 0).val + 128 * 1, 0] := k0_off12_eq L 1
theorem off2_eq : k0_off14 L 256#32 = ![1024 * (L 1).val + 512 * (L 0).val + 128 * 1 + 128, 0] := k0_off14_eq L 1
theorem off3_eq : k0_off16 L 384#32 = ![1024 * (L 1).val + 512 * (L 0).val + 128 * 1 + 256, 0] := k0_off16_eq L 1

theorem r0_eq : r0 L = chunk (tileChunk L 0) := by
  unfold r0 chunk Rect.part Rect.block
  congr 1 <;> funext a
  · rw [k0_off10_eq]
    match a with
    | 0 => simp [Shape.partIx, Shape.partSize, tileChunk]; omega
    | 1 => simp [Shape.partIx, Shape.partSize]
  · match a with
    | 0 => simp [Shape.partSize]
    | 1 => simp [Shape.partSize]
theorem r1_eq : r1 L = chunk (tileChunk L 1) := by
  unfold r1 chunk Rect.part Rect.block
  congr 1 <;> funext a
  · rw [off1_eq]
    match a with
    | 0 => simp [Shape.partIx, Shape.partSize, tileChunk]; omega
    | 1 => simp [Shape.partIx, Shape.partSize]
  · match a with
    | 0 => simp [Shape.partSize]
    | 1 => simp [Shape.partSize]
theorem r2_eq : r2 L = chunk (tileChunk L 2) := by
  unfold r2 chunk Rect.part Rect.block
  congr 1 <;> funext a
  · rw [off2_eq]
    match a with
    | 0 => simp [Shape.partIx, Shape.partSize, tileChunk]; omega
    | 1 => simp [Shape.partIx, Shape.partSize]
  · match a with
    | 0 => simp [Shape.partSize]
    | 1 => simp [Shape.partSize]
theorem r3_eq : r3 L = chunk (tileChunk L 3) := by
  unfold r3 chunk Rect.part Rect.block
  congr 1 <;> funext a
  · rw [off3_eq]
    match a with
    | 0 => simp [Shape.partIx, Shape.partSize, tileChunk]; omega
    | 1 => simp [Shape.partIx, Shape.partSize]
  · match a with
    | 0 => simp [Shape.partSize]
    | 1 => simp [Shape.partSize]

theorem set_oS0 : (oS0 L).view.set = chunkSet (tileChunk L 0) := by
  show ((oV : Memref sig .scVector .hbm S16384x128 .f32).view.slice (r0 L)).set = ((oV : Memref sig .scVector .hbm S16384x128 .f32).view.slice (chunk (tileChunk L 0))).set
  rw [r0_eq]
theorem set_oS1 : (oS1 L).view.set = chunkSet (tileChunk L 1) := by
  show ((oV : Memref sig .scVector .hbm S16384x128 .f32).view.slice (r1 L)).set = ((oV : Memref sig .scVector .hbm S16384x128 .f32).view.slice (chunk (tileChunk L 1))).set
  rw [r1_eq]
theorem set_oS2 : (oS2 L).view.set = chunkSet (tileChunk L 2) := by
  show ((oV : Memref sig .scVector .hbm S16384x128 .f32).view.slice (r2 L)).set = ((oV : Memref sig .scVector .hbm S16384x128 .f32).view.slice (chunk (tileChunk L 2))).set
  rw [r2_eq]
theorem set_oS3 : (oS3 L).view.set = chunkSet (tileChunk L 3) := by
  show ((oV : Memref sig .scVector .hbm S16384x128 .f32).view.slice (r3 L)).set = ((oV : Memref sig .scVector .hbm S16384x128 .f32).view.slice (chunk (tileChunk L 3))).set
  rw [r3_eq]

theorem pts_oS0 (f : Buf (Elt F) (oLoc d)) :
    ((oS0 L).view.loc (thr d L) ↦[(oS0 L).view.set]{fullShare} f : sProp 𝕄) = (oLoc d ↦[chunkSet (tileChunk L 0)]{fullShare} f) := by rw [set_oS0]
theorem pts_oS1 (f : Buf (Elt F) (oLoc d)) :
    ((oS1 L).view.loc (thr d L) ↦[(oS1 L).view.set]{fullShare} f : sProp 𝕄) = (oLoc d ↦[chunkSet (tileChunk L 1)]{fullShare} f) := by rw [set_oS1]
theorem pts_oS2 (f : Buf (Elt F) (oLoc d)) :
    ((oS2 L).view.loc (thr d L) ↦[(oS2 L).view.set]{fullShare} f : sProp 𝕄) = (oLoc d ↦[chunkSet (tileChunk L 2)]{fullShare} f) := by rw [set_oS2]
theorem pts_oS3 (f : Buf (Elt F) (oLoc d)) :
    ((oS3 L).view.loc (thr d L) ↦[(oS3 L).view.set]{fullShare} f : sProp 𝕄) = (oLoc d ↦[chunkSet (tileChunk L 3)]{fullShare} f) := by rw [set_oS3]

theorem pts_x (q : PosShare TreeShare) (f : Buf (Elt F) (xLoc d)) :
    ((xV : Memref sig .scVector .hbm S16384x256 .f32).view.loc (thr d L) ↦{q} f : sProp 𝕄) = (xLoc d ↦{q} f) := rfl
theorem pts_b0 (f : Buf (Elt F) ((thr d L).loc cc0_scratch0)) :
    ((b0 : Memref sig .scVector .vmem S128x128 .f32).view.loc (thr d L) ↦{fullShare} f : sProp 𝕄) = ((thr d L).loc cc0_scratch0 ↦{fullShare} f) := rfl
theorem pts_b1 (f : Buf (Elt F) ((thr d L).loc cc0_scratch1)) :
    ((b1 : Memref sig .scVector .vmem S128x128 .f32).view.loc (thr d L) ↦{fullShare} f : sProp 𝕄) = ((thr d L).loc cc0_scratch1 ↦{fullShare} f) := rfl
theorem pts_b2 (f : Buf (Elt F) ((thr d L).loc cc0_scratch2)) :
    ((b2 : Memref sig .scVector .vmem S128x128 .f32).view.loc (thr d L) ↦{fullShare} f : sProp 𝕄) = ((thr d L).loc cc0_scratch2 ↦{fullShare} f) := rfl
theorem pts_b3 (f : Buf (Elt F) ((thr d L).loc cc0_scratch3)) :
    ((b3 : Memref sig .scVector .vmem S128x128 .f32).view.loc (thr d L) ↦{fullShare} f : sProp 𝕄) = ((thr d L).loc cc0_scratch3 ↦{fullShare} f) := rfl

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]
theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

end Cert.Proof.KB

end
-- ==== Proof.KBOut.lean ====
/-
  What the four copies out leave.  A staged chunk is the mask of its landed window; the window is rows R … R + 127 and
  columns 128 … 255 of the input, where R is the first row of the chunk; so the chunk of the result holds the specified
  function of the input on rows R … R + 127.
-/
import proofs.«203812_g17411797418577_cont_8to1_445_22_alg».proof.Proof.KBSlices
import proofs.«203812_g17411797418577_cont_8to1_445_22_alg».proof.Proof.KPure

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)
variable [FloatOps F]

/-- A chunk of the mask computed from the input's rows `R … R + 127`, columns 128 … 255, is the specified result on the
    result's rows `R … R + 127`. -/
theorem chunk_value (R R' : Nat) (hR : R' = R) (offx offo : Fin 2 → Nat) (hx : offx = ![R, 128]) (ho : offo = ![R', 0])
    (inbx : ∀ a, offx a + S128x128.size a ≤ S16384x256.size a) (inbo : ∀ a, offo a + S128x128.size a ≤ S16384x128.size a)
    (c : Vec F S128x128 .f32)
    (hc : c = Cert.MaskTile.tileG (fun y' => m (xLoc d) (((xV : Memref sig .scVector .hbm S16384x256 .f32).slice (Rect.unit (s := S16384x256) offx S128x128.size inbx) (fun _ => rfl)).view.emb y')))
    (y : S128x128.Idx) :
    c y = want m d (((oV : Memref sig .scVector .hbm S16384x128 .f32).slice (Rect.unit (s := S16384x128) offo S128x128.size inbo) (fun _ => rfl)).view.emb y) := by
  subst hx ho hR
  rw [hc]
  refine Cert.MaskTile.tileG_eq_G (m (xLoc d)) _ y _ ?_ ?_
  · show 0 + 1 * (y 1).val = (y 1).val
    omega
  · intro c'
    refine congrArg (m (xLoc d)) ?_
    funext a
    match a with
    | ⟨0, _⟩ => exact Fin.ext rfl
    | ⟨1, _⟩ => exact Fin.ext (by show 128 + 1 * c'.val = 128 + c'.val; omega)

/-- The four chunks of the input's columns 128 … 255 as the task slices them for its four copies in. -/
abbrev xS0 (L : grid0.Coords) : Memref sig .scVector .hbm S128x128 .f32 := (xV).slice (Rect.unit (s := S16384x256) (k0_off1 L 0#32) S128x128.size (k0_off1_inb L 0)) (fun _ => rfl)
abbrev xS1 (L : grid0.Coords) : Memref sig .scVector .hbm S128x128 .f32 := (xV).slice (Rect.unit (s := S16384x256) (k0_off1 L 128#32) S128x128.size (k0_off1_inb L 1)) (fun _ => rfl)
abbrev xS2 (L : grid0.Coords) : Memref sig .scVector .hbm S128x128 .f32 := (xV).slice (Rect.unit (s := S16384x256) (k0_off11 L 256#32) S128x128.size (k0_off11_inb L 1)) (fun _ => rfl)
abbrev xS3 (L : grid0.Coords) : Memref sig .scVector .hbm S128x128 .f32 := (xV).slice (Rect.unit (s := S16384x256) (k0_off13 L 384#32) S128x128.size (k0_off13_inb L 1)) (fun _ => rfl)

theorem xoff0 : k0_off1 L 0#32 = ![1024 * (L 1).val + 512 * (L 0).val + 128 * 0, 128] := k0_off1_eq L 0
theorem xoff1 : k0_off1 L 128#32 = ![1024 * (L 1).val + 512 * (L 0).val + 128 * 1, 128] := k0_off1_eq L 1
theorem xoff2 : k0_off11 L 256#32 = ![1024 * (L 1).val + 512 * (L 0).val + 128 * 1 + 128, 128] := k0_off11_eq L 1
theorem xoff3 : k0_off13 L 384#32 = ![1024 * (L 1).val + 512 * (L 0).val + 128 * 1 + 256, 128] := k0_off13_eq L 1

theorem hpay0 (c : Vec F S128x128 .f32) (hc : c = Cert.MaskTile.tileG (fun y' => m (xLoc d) ((xS0 L).view.emb y'))) (y : S128x128.Idx) :
    c y = want m d ((oS0 L).view.emb y) :=
  chunk_value m d _ _ (by omega) _ _ (xoff0 L) (k0_off10_eq L) _ _ c hc y
theorem hpay1 (c : Vec F S128x128 .f32) (hc : c = Cert.MaskTile.tileG (fun y' => m (xLoc d) ((xS1 L).view.emb y'))) (y : S128x128.Idx) :
    c y = want m d ((oS1 L).view.emb y) :=
  chunk_value m d _ _ (by omega) _ _ (xoff1 L) (off1_eq L) _ _ c hc y
theorem hpay2 (c : Vec F S128x128 .f32) (hc : c = Cert.MaskTile.tileG (fun y' => m (xLoc d) ((xS2 L).view.emb y'))) (y : S128x128.Idx) :
    c y = want m d ((oS2 L).view.emb y) :=
  chunk_value m d _ _ (by omega) _ _ (xoff2 L) (off2_eq L) _ _ c hc y
theorem hpay3 (c : Vec F S128x128 .f32) (hc : c = Cert.MaskTile.tileG (fun y' => m (xLoc d) ((xS3 L).view.emb y'))) (y : S128x128.Idx) :
    c y = want m d ((oS3 L).view.emb y) :=
  chunk_value m d _ _ (by omega) _ _ (xoff3 L) (off3_eq L) _ _ c hc y

/-- What copy 0 out leaves in its chunk of the result, when the staged chunk is the specified result there. -/
theorem out0 (pay : S128x128.Idx → Elt F .f32) (hpay : ∀ y, pay y = want m d ((oS0 L).view.emb y)) :
    ((oS0 L).view.loc (thr d L) ↦[(oS0 L).view.set]{fullShare} (oS0 L).view.writes (Elt F) (m (oLoc d)) [⟨Rect.whole S128x128, pay⟩] : sProp 𝕄)
      ⊢ (oLoc d ↦[chunkSet (tileChunk L 0)]{fullShare} want m d) := by
  rw [← pts_oS0 (F := F) d L (want m d)]
  refine Entails.of_eq (pointsTo_congr (fun i hi => ?_))
  obtain ⟨y, -, rfl⟩ := Finset.mem_map.mp hi
  have h1 := View.read_writes_cons_emb (oS0 L).view (m (oLoc d)) (Rect.whole S128x128) pay [] y
  rw [Rect.emb_whole_apply] at h1
  exact h1.trans (hpay y)

/-- What copy 1 out leaves in its chunk of the result, when the staged chunk is the specified result there. -/
theorem out1 (pay : S128x128.Idx → Elt F .f32) (hpay : ∀ y, pay y = want m d ((oS1 L).view.emb y)) :
    ((oS1 L).view.loc (thr d L) ↦[(oS1 L).view.set]{fullShare} (oS1 L).view.writes (Elt F) (m (oLoc d)) [⟨Rect.whole S128x128, pay⟩] : sProp 𝕄)
      ⊢ (oLoc d ↦[chunkSet (tileChunk L 1)]{fullShare} want m d) := by
  rw [← pts_oS1 (F := F) d L (want m d)]
  refine Entails.of_eq (pointsTo_congr (fun i hi => ?_))
  obtain ⟨y, -, rfl⟩ := Finset.mem_map.mp hi
  have h1 := View.read_writes_cons_emb (oS1 L).view (m (oLoc d)) (Rect.whole S128x128) pay [] y
  rw [Rect.emb_whole_apply] at h1
  exact h1.trans (hpay y)

/-- What copy 2 out leaves in its chunk of the result, when the staged chunk is the specified result there. -/
theorem out2 (pay : S128x128.Idx → Elt F .f32) (hpay : ∀ y, pay y = want m d ((oS2 L).view.emb y)) :
    ((oS2 L).view.loc (thr d L) ↦[(oS2 L).view.set]{fullShare} (oS2 L).view.writes (Elt F) (m (oLoc d)) [⟨Rect.whole S128x128, pay⟩] : sProp 𝕄)
      ⊢ (oLoc d ↦[chunkSet (tileChunk L 2)]{fullShare} want m d) := by
  rw [← pts_oS2 (F := F) d L (want m d)]
  refine Entails.of_eq (pointsTo_congr (fun i hi => ?_))
  obtain ⟨y, -, rfl⟩ := Finset.mem_map.mp hi
  have h1 := View.read_writes_cons_emb (oS2 L).view (m (oLoc d)) (Rect.whole S128x128) pay [] y
  rw [Rect.emb_whole_apply] at h1
  exact h1.trans (hpay y)

/-- What copy 3 out leaves in its chunk of the result, when the staged chunk is the specified result there. -/
theorem out3 (pay : S128x128.Idx → Elt F .f32) (hpay : ∀ y, pay y = want m d ((oS3 L).view.emb y)) :
    ((oS3 L).view.loc (thr d L) ↦[(oS3 L).view.set]{fullShare} (oS3 L).view.writes (Elt F) (m (oLoc d)) [⟨Rect.whole S128x128, pay⟩] : sProp 𝕄)
      ⊢ (oLoc d ↦[chunkSet (tileChunk L 3)]{fullShare} want m d) := by
  rw [← pts_oS3 (F := F) d L (want m d)]
  refine Entails.of_eq (pointsTo_congr (fun i hi => ?_))
  obtain ⟨y, -, rfl⟩ := Finset.mem_map.mp hi
  have h1 := View.read_writes_cons_emb (oS3 L).view (m (oLoc d)) (Rect.whole S128x128) pay [] y
  rw [Rect.emb_whole_apply] at h1
  exact h1.trans (hpay y)

end Cert.Proof.KB

end
-- ==== Proof.KBTile.lean ====
/-
  One vector subcore's task, from start to end.  Two copies in are started; both staging buffers are filled with ones;
  then, for each of the four chunks: the chunk's copy in is waited for (and, from the third chunk on, the copy out that
  last read the staging buffer), 32 gather–compare–select–scatter steps build the chunk in the staging buffer, its copy
  out is started, and the copy in of the chunk two ahead is started into the landing buffer just read; at the end the last
  two copies out are waited for.  Every semaphore has at most one copy in flight, and no buffer is read or written while
  a copy reads or writes it, so what each wait hands back is determined.  The scatter's invariant carries the value: after
  its 32 steps the staged chunk is the mask of the landed window.
-/
import proofs.«203812_g17411797418577_cont_8to1_445_22_alg».proof.Proof.KBRules
import proofs.«203812_g17411797418577_cont_8to1_445_22_alg».proof.Proof.KBFill
import proofs.«203812_g17411797418577_cont_8to1_445_22_alg».proof.Proof.KBSlices
import proofs.«203812_g17411797418577_cont_8to1_445_22_alg».proof.Proof.KBOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-- The fill's invariant: in both staging buffers the first `k` rows are ones. -/
def fillInv (d : Dev nD) (L : grid0.Coords) (k : Nat) (_ : PUnit) : sProp 𝕄 :=
  iprop((∃ f2 : Vec F S128x128 .f32, ⌜AllOnesBelow k f2⌝ ∗ (b2 : Memref sig .scVector .vmem S128x128 .f32).view.loc (thr d L) ↦{fullShare} f2)
    ∗ (∃ f3 : Vec F S128x128 .f32, ⌜AllOnesBelow k f3⌝ ∗ (b3 : Memref sig .scVector .vmem S128x128 .f32).view.loc (thr d L) ↦{fullShare} f3))

theorem allOnesBelow_zero (f : Vec F S128x128 .f32) : AllOnesBelow 0 f := fun _ h => absurd h (Nat.not_lt_zero _)

set_option hygiene false in
/-- An indexed load from the first landing buffer. -/
macro "ld0" : tactic => `(tactic| (iapply (loadSite_b0 d L) $$ Hb0; iintro Hb0))
set_option hygiene false in
/-- An indexed load from the second landing buffer. -/
macro "ld1" : tactic => `(tactic| (iapply (loadSite_b1 d L) $$ Hb1; iintro Hb1))
set_option hygiene false in
/-- An indexed store into the first staging buffer, continuing a chunk. -/
macro "st2 " c:Lean.binderIdent h:Lean.binderIdent : tactic => `(tactic| (iapply (storeSite_b2 d L (by assumption) (by decide) (Cert.MaskTile.rows_spec _ _ _ (by decide) (by decide)) (fun _ => rfl) (fun _ => rfl) (fun _ _ => rfl)) $$ Hb2; iintro %$c %$h Hb2))
set_option hygiene false in
/-- An indexed store into the second staging buffer, continuing a chunk. -/
macro "st3 " c:Lean.binderIdent h:Lean.binderIdent : tactic => `(tactic| (iapply (storeSite_b3 d L (by assumption) (by decide) (Cert.MaskTile.rows_spec _ _ _ (by decide) (by decide)) (fun _ => rfl) (fun _ => rfl) (fun _ _ => rfl)) $$ Hb3; iintro %$c %$h Hb3))
set_option hygiene false in
/-- The first indexed store of a chunk into a staging buffer that still holds an earlier chunk. -/
macro "st2z " c:Lean.binderIdent h:Lean.binderIdent : tactic => `(tactic| (iapply (storeSite_b2 d L (Cert.MaskTile.Done.zero (Cert.MaskTile.Done.ones (by assumption))) (by decide) (Cert.MaskTile.rows_spec _ _ _ (by decide) (by decide)) (fun _ => rfl) (fun _ => rfl) (fun _ _ => rfl)) $$ Hb2; iintro %$c %$h Hb2))
set_option hygiene false in
macro "st3z " c:Lean.binderIdent h:Lean.binderIdent : tactic => `(tactic| (iapply (storeSite_b3 d L (Cert.MaskTile.Done.zero (Cert.MaskTile.Done.ones (by assumption))) (by decide) (Cert.MaskTile.rows_spec _ _ _ (by decide) (by decide)) (fun _ => rfl) (fun _ => rfl) (fun _ _ => rfl)) $$ Hb3; iintro %$c %$h Hb3))
set_option hygiene false in
/-- The first indexed store into a staging buffer after the fill. -/
macro "st2o " c:Lean.binderIdent h:Lean.binderIdent : tactic => `(tactic| (iapply (storeSite_b2 d L (Cert.MaskTile.Done.zero ho2) (by decide) (Cert.MaskTile.rows_spec _ _ _ (by decide) (by decide)) (fun _ => rfl) (fun _ => rfl) (fun _ _ => rfl)) $$ Hb2; iintro %$c %$h Hb2))
set_option hygiene false in
macro "st3o " c:Lean.binderIdent h:Lean.binderIdent : tactic => `(tactic| (iapply (storeSite_b3 d L (Cert.MaskTile.Done.zero ho3) (by decide) (Cert.MaskTile.rows_spec _ _ _ (by decide) (by decide)) (fun _ => rfl) (fun _ => rfl) (fun _ _ => rfl)) $$ Hb3; iintro %$c %$h Hb3))

set_option maxHeartbeats 16000000 in
theorem tile_body : TileSpec m := by
  intro d L q O W hO
  rw [cc0__sc_mask_eq_skeleton]
  rw [(K (F := F)).scopedBufs_V facts d (cV L) (jV L), SparseCore.Cfg.scopedSems0_V (Val := Elt F) d (cV L) (jV L), ownSems0_V, ownBufs_V,
    tileGo, bigSep_fin4]
  iintro ⟨#Hlv, -, ⟨Hx, Ho0, Ho1, Ho2, Ho3⟩, ⟨⟨%f0, Hb0⟩, ⟨%f1, Hb1⟩, ⟨%f2, Hb2⟩, ⟨%f3, Hb3⟩, Hbufs⟩, ⟨Hs4, Hs5, Hs6, Hs7, Hsems⟩, HO⟩
  ihave Hmw := ((K (F := F)).mayWaits_none (thr := thr d L) hO) $$ Hlv
  ihave Hxs := (Transfers.pointsTo_toks_split q 2) $$ Hx
  icases Hxs with ⟨Hxd, Hxt⟩
  ihave Hxt' := (Entails.of_eq (bigSep_fin2 _)) $$ Hxt
  icases Hxt' with ⟨Hx0, Hx1⟩
  ihave Hx0 := (Entails.of_eq (pts_x (F := F) d L _ _).symm) $$ Hx0
  ihave Hx1 := (Entails.of_eq (pts_x (F := F) d L _ _).symm) $$ Hx1
  ihave Ho0 := (Entails.of_eq (pts_oS0 (F := F) d L _).symm) $$ Ho0
  ihave Ho1 := (Entails.of_eq (pts_oS1 (F := F) d L _).symm) $$ Ho1
  ihave Ho2 := (Entails.of_eq (pts_oS2 (F := F) d L _).symm) $$ Ho2
  ihave Ho3 := (Entails.of_eq (pts_oS3 (F := F) d L _).symm) $$ Ho3
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  unfold cc0__sc_mask_skel
  sl_exec
  sl_for (fillInv (F := F) d L) $$ [Hb2 Hb3]
  case region =>
    intro k _
    unfold fillInv
    iintro ⟨⟨%g2, %hg2, Hb2⟩, ⟨%g3, %hg3, Hb3⟩⟩
    sl_exec
    sl_step
    isplitl [Hb2]
    · iexists _; isplitr
      · ipureintro; exact fill_step_b2 k g2 hg2
      · iexact Hb2
    · iexists _; isplitr
      · ipureintro; exact fill_step_b3 k g3 hg3
      · iexact Hb3
  · unfold fillInv
    isplitl [Hb2]
    · iexists f2; isplitr
      · ipureintro; exact allOnesBelow_zero _
      · iexact Hb2
    · iexists f3; isplitr
      · ipureintro; exact allOnesBelow_zero _
      · iexact Hb3
  iintro %_ HI
  unfold fillInv
  icases HI with ⟨⟨%g2, %hg2, Hb2⟩, ⟨%g3, %hg3, Hb3⟩⟩
  have ho2 : Cert.MaskTile.OnesOutside g2 := onesOutside_of_fill g2 hg2
  have ho3 : Cert.MaskTile.OnesOutside g3 := onesOutside_of_fill g3 hg3
  sl_exec
  ld0; sl_exec; st2o ca hDa; sl_exec
  iterate 31 (ld0; sl_exec; st2 ca hDa; sl_exec)
  ld1; sl_exec; st3o cb hDb; sl_exec
  iterate 31 (ld1; sl_exec; st3 cb hDb; sl_exec)
  ld0; sl_exec; st2z cc hDc; sl_exec
  iterate 31 (ld0; sl_exec; st2 cc hDc; sl_exec)
  ld1; sl_exec; st3z cd hDd; sl_exec
  iterate 31 (ld1; sl_exec; st3 cd hDd; sl_exec)
  have hca : ca = Cert.MaskTile.tileG (fun y' => m (xLoc d) ((xS0 L).view.emb y')) := by
    rw [Cert.MaskTile.Done.full hDa]
    exact congrArg Cert.MaskTile.tileG ((View.write_whole_univ cc0_scratch0 _ _).trans rfl)
  have hcb : cb = Cert.MaskTile.tileG (fun y' => m (xLoc d) ((xS1 L).view.emb y')) := by
    rw [Cert.MaskTile.Done.full hDb]
    exact congrArg Cert.MaskTile.tileG ((View.write_whole_univ cc0_scratch1 _ _).trans rfl)
  have hcc : cc = Cert.MaskTile.tileG (fun y' => m (xLoc d) ((xS2 L).view.emb y')) := by
    rw [Cert.MaskTile.Done.full hDc]
    exact congrArg Cert.MaskTile.tileG ((View.write_whole_univ cc0_scratch0 _ _).trans rfl)
  have hcd : cd = Cert.MaskTile.tileG (fun y' => m (xLoc d) ((xS3 L).view.emb y')) := by
    rw [Cert.MaskTile.Done.full hDd]
    exact congrArg Cert.MaskTile.tileG ((View.write_whole_univ cc0_scratch1 _ _).trans rfl)
  sl_step
  rw [tileTd, bigSep_fin4]
  isplitl [Hxd Hx0 Hx1 Ho0 Ho1 Ho2 Ho3]
  · isplitl [Hxd Hx0 Hx1]
    · iapply (Transfers.pointsTo_toks_join q 2)
      isplitl [Hxd]; · iexact Hxd
      rw [bigSep_fin2]
      isplitl [Hx0]; · iexact Hx0
      iexact Hx1
    · isplitl [Ho0]
      · iapply (out0 m d L _ (hpay0 m d L ca hca)); iexact Ho0
      isplitl [Ho1]
      · iapply (out1 m d L _ (hpay1 m d L cb hcb)); iexact Ho1
      isplitl [Ho2]
      · iapply (out2 m d L _ (hpay2 m d L cc hcc)); iexact Ho2
      · iapply (out3 m d L _ (hpay3 m d L cd hcd)); iexact Ho3
  isplitl [Hb0 Hb1 Hb2 Hb3 Hbufs]
  · isplitl [Hb0]; · iexists _; iexact Hb0
    isplitl [Hb1]; · iexists _; iexact Hb1
    isplitl [Hb2]; · iexists _; iexact Hb2
    isplitl [Hb3]; · iexists _; iexact Hb3
    iexact Hbufs
  isplitl [Hs4 Hs5 Hs6 Hs7 Hsems]
  · isplitl [Hs4]; · iexact Hs4
    isplitl [Hs5]; · iexact Hs5
    isplitl [Hs6]; · iexact Hs6
    isplitl [Hs7]; · iexact Hs7
    iexact Hsems
  iexists _; isplitr
  rotate_left
  · iexact HO
  · ipureintro; intro p hp
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    rcases Finset.mem_insert.mp hp with h | hp
    · exact .inr (by subst h; rfl)
    exact .inl hp

end Cert.Proof.KB

end
-- ==== Proof.KBLaunch.lean ====
/-
  The launch of the word-level kernel: how the one call's operands are dealt to the two SparseCores and to the sixteen
  vector subcores of each, and gathered back.  The input is only read: it goes out whole as read shares, one per
  SparseCore and, of that one, one per vector subcore, the remainder of each split kept where the split was made.  The
  result's 128 chunks of rows go out four to a vector subcore: subcore s of SparseCore c holds chunks 4(2s + c) …
  4(2s + c) + 3, and (c, s, k) ↦ 4(2s + c) + k is a bijection onto the 128 chunks.  Assuming the statement of one vector
  subcore's task, every fair execution of the whole program ends with the specified result, the input unchanged.
-/
import proofs.«203812_g17411797418577_cont_8to1_445_22_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

/-! ## Who is handed what -/

/-- The coordinates of vector subcore `s` of SparseCore `c`, the grid's two bounds read as the numbers they are. -/
def LL (c : Fin 2) (s : Fin 16) : grid0.Coords := coordsV (Fin.cast bound_zero.symm c) (Fin.cast bound_one.symm s)

/-- The read share of the input that SparseCore `c` is handed, and of it the one its vector subcore `s` is handed. -/
abbrev qC (c : Fin 2) : PosShare TreeShare := shareTok fullShare 2 c
abbrev qT (c : Fin 2) (s : Fin 16) : PosShare TreeShare := shareTok (qC c) 16 s

/-- The four chunks of the vector subcore at coordinates `L`, holding `f`. -/
def tileChunks (d : Dev nD) (L : grid0.Coords) (f : Buf (Elt F) (oLoc d)) : sProp 𝕄 :=
  bigSep Finset.univ fun k : Fin 4 => oLoc d ↦[chunkSet (tileChunk L k)]{fullShare} f
/-- The sixty-four chunks of SparseCore `c`, holding `f`. -/
def coreChunks (d : Dev nD) (c : Fin 2) (f : Buf (Elt F) (oLoc d)) : sProp 𝕄 :=
  bigSep Finset.univ fun s : Fin 16 => tileChunks d (LL c s) f

variable [FloatOps F]

theorem tileGo_eq (d : Dev nD) (L : grid0.Coords) (q : PosShare TreeShare) :
    tileGo m d L q = iprop((xLoc d ↦{q} m (xLoc d)) ∗ tileChunks d L (m (oLoc d))) := rfl
theorem tileTd_eq (d : Dev nD) (L : grid0.Coords) (q : PosShare TreeShare) :
    tileTd m d L q = iprop((xLoc d ↦{q} m (xLoc d)) ∗ tileChunks d L (want m d)) := rfl

/-! ## What the handshakes carry -/

/-- The one call hands SparseCore `c` its read share of the input and its sixty-four chunks of the result, each vector
    subcore its share of that share and its four chunks, and brings them back, the chunks at the specified result. -/
def P : (K (F := F)).Pay (nD := nD) (Val := Elt F) (Name := ℕ) (U := UU) where
  st := fun q d c => match q, c with
    | 0, c => iprop((xLoc d ↦{qC (Fin.cast nCore_zero c)} m (xLoc d)) ∗ coreChunks d (Fin.cast nCore_zero c) (m (oLoc d)))
  dn := fun q d c => match q, c with
    | 0, c => iprop((xLoc d ↦{qC (Fin.cast nCore_zero c)} m (xLoc d)) ∗ coreChunks d (Fin.cast nCore_zero c) (want m d))
  go := fun q d c i => match q, c, i with
    | 0, c, i => tileGo m d (LL (Fin.cast nCore_zero c) (Fin.cast nSub_zero i)) (qT (Fin.cast nCore_zero c) (Fin.cast nSub_zero i))
  td := fun q d c i => match q, c, i with
    | 0, c, i => tileTd m d (LL (Fin.cast nCore_zero c) (Fin.cast nSub_zero i)) (qT (Fin.cast nCore_zero c) (Fin.cast nSub_zero i))
  x := fun _ _ => iprop(emp)

theorem P_st (d : Dev nD) (c : Fin ((K (F := F)).nCore 0)) :
    (P m).st 0 d c = iprop((xLoc d ↦{qC (Fin.cast nCore_zero c)} m (xLoc d)) ∗ coreChunks d (Fin.cast nCore_zero c) (m (oLoc d))) := rfl
theorem P_dn (d : Dev nD) (c : Fin ((K (F := F)).nCore 0)) :
    (P m).dn 0 d c = iprop((xLoc d ↦{qC (Fin.cast nCore_zero c)} m (xLoc d)) ∗ coreChunks d (Fin.cast nCore_zero c) (want m d)) := rfl
theorem P_go (d : Dev nD) (c : Fin ((K (F := F)).nCore 0)) (i : Fin ((K (F := F)).nSub 0)) :
    (P m).go 0 d c i = tileGo m d (LL (Fin.cast nCore_zero c) (Fin.cast nSub_zero i)) (qT (Fin.cast nCore_zero c) (Fin.cast nSub_zero i)) := rfl
theorem P_td (d : Dev nD) (c : Fin ((K (F := F)).nCore 0)) (i : Fin ((K (F := F)).nSub 0)) :
    (P m).td 0 d c i = tileTd m d (LL (Fin.cast nCore_zero c) (Fin.cast nSub_zero i)) (qT (Fin.cast nCore_zero c) (Fin.cast nSub_zero i)) := rfl

instance P_storable : (P (F := F) m).IsStorable where
  st q d c := match q, c with
    | 0, c => by rw [P_st]; unfold coreChunks tileChunks; infer_instance
  dn q d c := match q, c with
    | 0, c => by rw [P_dn]; unfold coreChunks tileChunks; infer_instance
  go q d c i := match q, c, i with
    | 0, c, i => by rw [P_go, tileGo_eq]; unfold tileChunks; infer_instance
  td q d c i := match q, c, i with
    | 0, c, i => by rw [P_td, tileTd_eq]; unfold tileChunks; infer_instance

/-! ## One vector subcore's task, as the launch asks it -/

theorem defs₀_vector (c : Fin τ.nSC) (s : Fin τ.nSub) :
    defs₀ (F := F) (.scVector c s) 0 ()
      = SparseCore.onTile hcore0 hsub0 (fun c s => cc0__sc_mask (coordsV c s)
          xV (Memref.isWhole_whole _) oV (Memref.isWhole_whole _) b0 (Memref.isWhole_whole _) b1 (Memref.isWhole_whole _)
          b2 (Memref.isWhole_whole _) b3 (Memref.isWhole_whole _) cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileSpec m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) (qT (Fin.cast nCore_zero c) (Fin.cast nSub_zero i)) O W hO).trans (wp_mono frame _ _ fun _ => obl_post)

/-! ## The chunks partition the result, and the tasks' chunks are all of them -/

theorem chunkSet_eq (j : Fin 128) : chunkSet j = (chunk j).set := by
  show ((View.whole (main_v0_scv : Ref sig .scVector)).slice (chunk j)).set = _
  rw [View.set_slice]; exact Finset.map_refl
theorem chunks_disjoint : ∀ i ∈ (Finset.univ : Finset (Fin 128)), ∀ j ∈ (Finset.univ : Finset (Fin 128)), i ≠ j → Disjoint (chunkSet i) (chunkSet j) :=
  fun i _ j _ h => by rw [chunkSet_eq, chunkSet_eq]; exact Rect.part_disjoint hdiv h
theorem chunks_cover : (Finset.univ : Finset (Fin 128)).biUnion chunkSet = Finset.univ :=
  (Finset.biUnion_congr rfl fun i _ => chunkSet_eq i).trans (Rect.biUnion_part hdiv)

omit [FloatOps F] in
/-- The result whole is its 128 chunks. -/
theorem oPts_chunks (d : Dev nD) (f : Buf (Elt F) (oLoc d)) :
    (oLoc d ↦{fullShare} f : sProp 𝕄) = bigSep Finset.univ fun j : Fin 128 => oLoc d ↦[chunkSet j]{fullShare} f := by
  rw [← pointsTo_biUnion Finset.univ (ℓ := oLoc d) chunkSet chunks_disjoint, chunks_cover]; try rfl

/-- Chunk `k` of vector subcore `s` of SparseCore `c`: the number 4(2s + c) + k. -/
def chunkOf (x : Fin 2 × Fin 16 × Fin 4) : Fin 128 := tileChunk (LL x.1 x.2.1) x.2.2

theorem chunkOf_val (c : Fin 2) (s : Fin 16) (k : Fin 4) : (chunkOf (c, s, k)).val = 4 * (2 * s.val + c.val) + k.val := rfl

/-- Two of the 2 · 16 · 4 places name different chunks: k is the number mod 4, c the quotient's parity, s its half. -/
theorem chunkOf_injective : Function.Injective chunkOf := by
  rintro ⟨c, s, k⟩ ⟨c', s', k'⟩ e
  have h : 4 * (2 * s.val + c.val) + k.val = 4 * (2 * s'.val + c'.val) + k'.val := congrArg Fin.val e
  have := c.isLt; have := c'.isLt; have := s.isLt; have := s'.isLt; have := k.isLt; have := k'.isLt
  have hc : c = c' := Fin.ext (by omega)
  have hs : s = s' := Fin.ext (by omega)
  have hk : k = k' := Fin.ext (by omega)
  rw [hc, hs, hk]

/-- and every chunk is named: chunk j by k = j mod 4, c = (j / 4) mod 2, s = j / 8. -/
theorem chunkOf_image : (Finset.univ : Finset (Fin 2 × Fin 16 × Fin 4)).image chunkOf = Finset.univ := by
  refine Finset.eq_univ_iff_forall.mpr fun j => Finset.mem_image.mpr ?_
  have hj := j.isLt
  refine ⟨(⟨j.val / 4 % 2, by omega⟩, ⟨j.val / 8, by omega⟩, ⟨j.val % 4, by omega⟩), Finset.mem_univ _, Fin.ext ?_⟩
  show 4 * (2 * (j.val / 8) + j.val / 4 % 2) + j.val % 4 = j.val
  omega

omit [FloatOps F] in
/-- So a family over the 128 chunks is the same family regrouped by SparseCore, then vector subcore, then chunk of four. -/
theorem bigSep_chunks (Φ : Fin 128 → sProp 𝕄) :
    bigSep Finset.univ Φ
      = bigSep Finset.univ fun c : Fin 2 => bigSep Finset.univ fun s : Fin 16 => bigSep Finset.univ fun k : Fin 4 => Φ (tileChunk (LL c s) k) := by
  rw [← chunkOf_image, SparseCore.bigSep_image_of_injOn chunkOf_injective.injOn Φ, bigSep_univ_prod]
  refine bigSep_congr fun c _ => ?_
  rw [bigSep_univ_prod]
  rfl

omit [FloatOps F] in
/-- The result whole is the two SparseCores' chunks. -/
theorem oPts_cores (d : Dev nD) (f : Buf (Elt F) (oLoc d)) :
    (oLoc d ↦{fullShare} f : sProp 𝕄) = bigSep Finset.univ fun c : Fin 2 => coreChunks d c f := by
  rw [oPts_chunks, bigSep_chunks]; rfl

/-! ## A SparseCore's operands split among its vector subcores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the sixteen tasks of SparseCore `c` are handed together: a read share each, and the SparseCore's chunks. -/
theorem go_all (d : Dev nD) (c : Fin ((K (F := F)).nCore 0)) :
    (bigSep Finset.univ fun i : Fin ((K (F := F)).nSub 0) => (P m).go 0 d c i)
      = iprop((bigSep Finset.univ fun s : Fin 16 => xLoc d ↦{qT (Fin.cast nCore_zero c) s} m (xLoc d)) ∗ coreChunks d (Fin.cast nCore_zero c) (m (oLoc d))) := by
  simp only [P_go, tileGo_eq]
  rw [bigSep_tasks (F := F) (fun s => iprop((xLoc d ↦{qT (Fin.cast nCore_zero c) s} m (xLoc d)) ∗ tileChunks d (LL (Fin.cast nCore_zero c) s) (m (oLoc d)))),
    bigSep_sep']
  rfl
/-- and what they hand back. -/
theorem td_all (d : Dev nD) (c : Fin ((K (F := F)).nCore 0)) :
    (bigSep Finset.univ fun i : Fin ((K (F := F)).nSub 0) => (P m).td 0 d c i)
      = iprop((bigSep Finset.univ fun s : Fin 16 => xLoc d ↦{qT (Fin.cast nCore_zero c) s} m (xLoc d)) ∗ coreChunks d (Fin.cast nCore_zero c) (want m d)) := by
  simp only [P_td, tileTd_eq]
  rw [bigSep_tasks (F := F) (fun s => iprop((xLoc d ↦{qT (Fin.cast nCore_zero c) s} m (xLoc d)) ∗ tileChunks d (LL (Fin.cast nCore_zero c) s) (want m d))),
    bigSep_sep']
  rfl

/-- The SparseCore's read share splits into sixteen and a remainder, which stays here until the shares come back. -/
theorem vecSplit : (K (F := F)).VecSplit' (P m) 0 := by
  intro d c
  rw [go_all, td_all, P_st, P_dn]
  generalize Fin.cast nCore_zero c = c2
  iintro ⟨Hx, Ho⟩
  ihave Hx' := (pointsTo_toks_split (qC c2) 16) $$ Hx
  icases Hx' with ⟨Hdrop, Htoks⟩
  imodintro
  isplitl [Htoks Ho]
  · isplitl [Htoks]; · iexact Htoks
    iexact Ho
  iintro ⟨Htoks, Ho⟩
  isplitl [Hdrop Htoks]
  · iapply (pointsTo_toks_join (qC c2) 16)
    isplitl [Hdrop]; · iexact Hdrop
    iexact Htoks
  iexact Ho

/-! ## The launch element: the handshakes' rounds; the local copies' counters are not needed here -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the call takes for the two SparseCores: a read share of the input each, and each its chunks of the result. -/
theorem st0_eq (d : Dev nD) :
    (bigSep Finset.univ fun c : Fin ((K (F := F)).nCore 0) => (P m).st 0 d c)
      = iprop((bigSep Finset.univ fun c : Fin 2 => xLoc d ↦{qC c} m (xLoc d)) ∗ bigSep Finset.univ fun c : Fin 2 => coreChunks d c (m (oLoc d))) := by
  simp only [P_st]
  rw [bigSep_cores (F := F) (fun c => iprop((xLoc d ↦{qC c} m (xLoc d)) ∗ coreChunks d c (m (oLoc d)))), bigSep_sep']
/-- and what it hands back. -/
theorem dn0_eq (d : Dev nD) :
    (bigSep Finset.univ fun c : Fin ((K (F := F)).nCore 0) => (P m).dn 0 d c)
      = iprop((bigSep Finset.univ fun c : Fin 2 => xLoc d ↦{qC c} m (xLoc d)) ∗ bigSep Finset.univ fun c : Fin 2 => coreChunks d c (want m d)) := by
  simp only [P_dn]
  rw [bigSep_cores (F := F) (fun c => iprop((xLoc d ↦{qC c} m (xLoc d)) ∗ coreChunks d c (want m d))), bigSep_sep']

/-- What @main ends with: the result whole at the specified contents, the input whole as it was. -/
abbrev FIN (d : Dev nD) : sProp 𝕄 := iprop((oLoc d ↦{fullShare} want m d) ∗ xLoc d ↦{fullShare} m (xLoc d))

/-- @main on device `d`'s TensorCore: the one call.  Before it the input splits into two read shares and a remainder,
    kept here, and the result into the two SparseCores' chunks; after it both are joined back whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  ihave Hx' := (pointsTo_toks_split fullShare 2) $$ Hx
  icases Hx' with ⟨Hdrop, Htoks⟩
  ihave Ho' := (Entails.of_eq (oPts_cores (F := F) d (m (oLoc d)))) $$ Ho
  iapply ((K (F := F)).wp_run (D (F := F)) 𝒱 (EH := EH) (P := P m) κ d 0) $$ [Hst Htoks Ho' Hdrop]
  isplitr; · iexact Hctx
  isplitl [Hst]; · iexact Hst
  isplitl [Htoks Ho']
  · rw [st0_eq]
    isplitl [Htoks]; · iexact Htoks
    iexact Ho'
  iintro ⟨Hst, Hdn⟩
  ihave Hdn' := (Entails.of_eq (dn0_eq m d)) $$ Hdn
  icases Hdn' with ⟨Htoks, Ho⟩
  ihave Hx := (pointsTo_toks_join fullShare 2) $$ [Hdrop Htoks]
  · isplitl [Hdrop]; · iexact Hdrop
    iexact Htoks
  ihave Ho' := (Entails.of_eq (oPts_cores (F := F) d (want m d)).symm) $$ Ho
  imodintro
  isplitl [Hst]; · iexact Hst
  isplitl [Ho']; · iexact Ho'
  iexact Hx

/-! ## The final memory reads the claim -/

def fq (d : Dev nD) (s' : Phys nD τ sig (Elt F)) : Prop := s'.mem.mem (oLoc d) = want m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Ho, Hx⟩, HSI⟩
  ihave H := (persistent_entails_right (SI_pointsTo_agree (st := s') (ℓ := oLoc d) (I := Finset.univ) (q := fullShare) (f := want m d))) $$ [HSI Ho]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## The program's run -/

/-- Every fair execution of the word-level kernel's threads ends, nothing faulting, with the specified result in the
    result array and the input unchanged, on every device — given one vector subcore's task. -/
theorem run_main [∀ e, Nonempty (Elt F e)] (htile : TileSpec m) :
    θ_run (Cert.Kernel.defs (F := F)) (Cert.Kernel.threads (F := F)) ⟨m, fun _ => 0, ρ⟩
      (fun r => ∀ c : Dev nD, r.2.mem (oLoc c) = want m c ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = want m c ∧ r.2.mem (xLoc c) = m (xLoc c)) (fun _ h => h)

end Cert.Proof.KB

end
-- ==== Proof.RefStages.lean ====
/-
  The reference's result, overwrite by overwrite. The reference starts from an array of ones with 16384 rows and 128
  columns and overwrites four whole columns, one after the other: column 2, then 1, then 3, then 4. The new column is,
  row by row, the large negative number where the row's condition holds — column 246, 250, 251, 255 of the argument
  equals one — and otherwise what the column held before. Each overwrite is a scatter of one whole column at one
  constant column index. These are the names of the pieces; what they hold index by index is read elsewhere.
-/
import proofs.«203812_g17411797418577_cont_8to1_445_22_alg».proof.Proof.Gen.ReferenceIdeal

noncomputable section

namespace Cert.RefStages

open Cert.ReferenceIdeal Cert.ReferenceIdeal.Gen Idealize.ShloMosaic

variable {F : FTy → Type} [FloatOps F]

/-- The array of ones the four overwrites start from. -/
def ones : (⟨S16384x128, .f32⟩ : BufTy).Contents (Elt F) :=
  broadcastInDim S16384x128 ![] bcast_S_S16384x128 (constant S_ .f32 0x3F800000#32)

/-- Row by row, whether column `k` of the argument equals one. -/
def cond (k : Nat) (hk : S16384x256.Slices ![0, k] S16384x1) (x : (⟨S16384x256, .f32⟩ : BufTy).Contents (Elt F)) : (⟨S16384, .i1⟩ : BufTy).Contents (Elt F) :=
  cmpf .oeq (shapeCast S16384 (extractStridedSlice S16384x1 ![0, k] x hk) shapeCasts_S16384x1_S16384)
    (broadcastInDim S16384 ![] bcast_S_S16384 (constant S_ .f32 0x3F800000#32))

/-- One new column: row by row the large negative number where the condition holds, else what column `q` of the
    array so far holds. -/
def newCol (cnd : (⟨S16384, .i1⟩ : BufTy).Contents (Elt F)) (q : Nat) (hq : S16384x128.Slices ![0, q] S16384x1) (old : (⟨S16384x128, .f32⟩ : BufTy).Contents (Elt F)) :
    (⟨S16384, .f32⟩ : BufTy).Contents (Elt F) :=
  select cnd (broadcastInDim S16384 ![] bcast_S_S16384 (constant S_ .f32 0xCE6E6B28#32))
    (shapeCast S16384 (extractStridedSlice S16384x1 ![0, q] old hq) shapeCasts_S16384x1_S16384)

/-- The one scatter index of an overwrite: the column's number. -/
def colIdx (qw : BitVec 32) : (⟨S1, .i32⟩ : BufTy).Contents (Elt F) := broadcastInDim S1 ![] bcast_S_S1 (constantI S_ 32 qw)

/-- One overwrite: column `qw` of the array so far replaced by the new column. -/
def stage (cnd : (⟨S16384, .i1⟩ : BufTy).Contents (Elt F)) (q : Nat) (hq : S16384x128.Slices ![0, q] S16384x1) (qw : BitVec 32) (old : (⟨S16384x128, .f32⟩ : BufTy).Contents (Elt F)) : (⟨S16384x128, .f32⟩ : BufTy).Contents (Elt F) :=
  Host.scatter scatter_S16384x128_S1_S16384_0_1_1_0 (fun _ b => b) old (colIdx (F := F) qw) (newCol (F := F) cnd q hq old)

/-- The array after the fourth overwrite, as a function of the argument: columns 2, 1, 3, 4 overwritten in that order,
    on the conditions read off the argument's columns 246, 250, 251, 255. -/
def res4 (x : (⟨S16384x256, .f32⟩ : BufTy).Contents (Elt F)) : (⟨S16384x128, .f32⟩ : BufTy).Contents (Elt F) :=
  stage (F := F) (cond 255 slices_S16384x256_S16384x1_0_255 x) 4 slices_S16384x128_S16384x1_0_4 4#32
    (stage (F := F) (cond 251 slices_S16384x256_S16384x1_0_251 x) 3 slices_S16384x128_S16384x1_0_3 3#32
      (stage (F := F) (cond 250 slices_S16384x256_S16384x1_0_250 x) 1 slices_S16384x128_S16384x1_0_1 1#32
        (stage (F := F) (cond 246 slices_S16384x256_S16384x1_0_246 x) 2 slices_S16384x128_S16384x1_0_2 2#32 (ones (F := F)))))

end Cert.RefStages

end
-- ==== Proof.RefStretches.lean ====
/-
  The reference's operations read in four stretches, one per overwrite. Run in order from any contents, the first
  stretch computes the four conditions and the first overwrite of the array of ones; each later stretch reads the array
  the stretch before left and one condition, and leaves the next overwrite, touching neither the later conditions nor the
  argument. Composed, the last array is the fourth overwrite of the third of the second of the first, each on its own
  condition: the function `res4` of the argument. Each stretch is read from arbitrary contents, so the array an
  overwrite starts from enters its statement as a name.
-/
import proofs.«203812_g17411797418577_cont_8to1_445_22_alg».proof.Proof.RefStages
import Idealize.ShloMosaic.Lib.StableHlo.Run

noncomputable section

namespace Cert.RefStretches

open Cert.ReferenceIdeal Cert.ReferenceIdeal.Gen Cert.RefStages Idealize.ShloMosaic Idealize.ShloMosaic.TcCoe Idealize.SL.Sem Idealize.ShloMosaic.StableHlo

variable {F : FTy → Type} [FloatOps F]

/-! ## The operations in four stretches, one per overwrite -/

/-- The operations up to the first overwrite (`main_v21`); the four conditions are computed here. -/
abbrev seg1 : List (HloOp τ sig (Elt F)) :=
  [ nullary main_cst (constant S_ .f32 0x3F800000#32),
    unary main_cst main_v0 (broadcastInDim S16384x128 ![] bcast_S_S16384x128 : (⟨S_, .f32⟩ : BufTy).Contents (Elt F) → (⟨S16384x128, .f32⟩ : BufTy).Contents (Elt F)),
    unary main_arg0 main_v1 ((extractStridedSlice S16384x1 ![0, 246] · slices_S16384x256_S16384x1_0_246) : (⟨S16384x256, .f32⟩ : BufTy).Contents (Elt F) → (⟨S16384x1, .f32⟩ : BufTy).Contents (Elt F)),
    reshape main_v1 main_v2 rfl shapeCasts_S16384x1_S16384,
    nullary main_cst_0 (constant S_ .f32 0x3F800000#32),
    unary main_cst_0 main_v3 (broadcastInDim S16384 ![] bcast_S_S16384 : (⟨S_, .f32⟩ : BufTy).Contents (Elt F) → (⟨S16384, .f32⟩ : BufTy).Contents (Elt F)),
    binary main_v2 main_v3 main_v4 (cmpf .oeq : (⟨S16384, .f32⟩ : BufTy).Contents (Elt F) → (⟨S16384, .f32⟩ : BufTy).Contents (Elt F) → (⟨S16384, .i1⟩ : BufTy).Contents (Elt F)),
    unary main_arg0 main_v5 ((extractStridedSlice S16384x1 ![0, 250] · slices_S16384x256_S16384x1_0_250) : (⟨S16384x256, .f32⟩ : BufTy).Contents (Elt F) → (⟨S16384x1, .f32⟩ : BufTy).Contents (Elt F)),
    reshape main_v5 main_v6 rfl shapeCasts_S16384x1_S16384,
    nullary main_cst_1 (constant S_ .f32 0x3F800000#32),
    unary main_cst_1 main_v7 (broadcastInDim S16384 ![] bcast_S_S16384 : (⟨S_, .f32⟩ : BufTy).Contents (Elt F) → (⟨S16384, .f32⟩ : BufTy).Contents (Elt F)),
    binary main_v6 main_v7 main_v8 (cmpf .oeq : (⟨S16384, .f32⟩ : BufTy).Contents (Elt F) → (⟨S16384, .f32⟩ : BufTy).Contents (Elt F) → (⟨S16384, .i1⟩ : BufTy).Contents (Elt F)),
    unary main_arg0 main_v9 ((extractStridedSlice S16384x1 ![0, 251] · slices_S16384x256_S16384x1_0_251) : (⟨S16384x256, .f32⟩ : BufTy).Contents (Elt F) → (⟨S16384x1, .f32⟩ : BufTy).Contents (Elt F)),
    reshape main_v9 main_v10 rfl shapeCasts_S16384x1_S16384,
    nullary main_cst_2 (constant S_ .f32 0x3F800000#32),
    unary main_cst_2 main_v11 (broadcastInDim S16384 ![] bcast_S_S16384 : (⟨S_, .f32⟩ : BufTy).Contents (Elt F) → (⟨S16384, .f32⟩ : BufTy).Contents (Elt F)),
    binary main_v10 main_v11 main_v12 (cmpf .oeq : (⟨S16384, .f32⟩ : BufTy).Contents (Elt F) → (⟨S16384, .f32⟩ : BufTy).Contents (Elt F) → (⟨S16384, .i1⟩ : BufTy).Contents (Elt F)),
    unary main_arg0 main_v13 ((extractStridedSlice S16384x1 ![0, 255] · slices_S16384x256_S16384x1_0_255) : (⟨S16384x256, .f32⟩ : BufTy).Contents (Elt F) → (⟨S16384x1, .f32⟩ : BufTy).Contents (Elt F)),
    reshape main_v13 main_v14 rfl shapeCasts_S16384x1_S16384,
    nullary main_cst_3 (constant S_ .f32 0x3F800000#32),
    unary main_cst_3 main_v15 (broadcastInDim S16384 ![] bcast_S_S16384 : (⟨S_, .f32⟩ : BufTy).Contents (Elt F) → (⟨S16384, .f32⟩ : BufTy).Contents (Elt F)),
    binary main_v14 main_v15 main_v16 (cmpf .oeq : (⟨S16384, .f32⟩ : BufTy).Contents (Elt F) → (⟨S16384, .f32⟩ : BufTy).Contents (Elt F) → (⟨S16384, .i1⟩ : BufTy).Contents (Elt F)),
    unary main_v0 main_v17 ((extractStridedSlice S16384x1 ![0, 2] · slices_S16384x128_S16384x1_0_2) : (⟨S16384x128, .f32⟩ : BufTy).Contents (Elt F) → (⟨S16384x1, .f32⟩ : BufTy).Contents (Elt F)),
    reshape main_v17 main_v18 rfl shapeCasts_S16384x1_S16384,
    nullary main_cst_4 (constant S_ .f32 0xCE6E6B28#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S16384, .f32⟩) main_call0_v1) (broadcastInDim S16384 ![] bcast_S_S16384),
    TRef.ternary (TRef.of (T := ⟨S16384, .i1⟩) main_v4) (TRef.of (T := ⟨S16384, .f32⟩) main_call0_v1) (TRef.of (T := ⟨S16384, .f32⟩) main_v18) (TRef.of (T := ⟨S16384, .f32⟩) main_v19) select,
    nullary main_c (constantI S_ 32 2#32),
    unary main_c main_v20 (broadcastInDim S1 ![] bcast_S_S1 : (⟨S_, .i32⟩ : BufTy).Contents (Elt F) → (⟨S1, .i32⟩ : BufTy).Contents (Elt F)),
    ternary main_v0 main_v20 main_v19 main_v21 ((fun x i u => Host.scatter scatter_S16384x128_S1_S16384_0_1_1_0 (fun _ b => b) x i u) : (⟨S16384x128, .f32⟩ : BufTy).Contents (Elt F) → (⟨S1, .i32⟩ : BufTy).Contents (Elt F) → (⟨S16384, .f32⟩ : BufTy).Contents (Elt F) → (⟨S16384x128, .f32⟩ : BufTy).Contents (Elt F)) ]
/-- The operations of the second overwrite (`main_v26`). -/
abbrev seg2 : List (HloOp τ sig (Elt F)) :=
  [ unary main_v21 main_v22 ((extractStridedSlice S16384x1 ![0, 1] · slices_S16384x128_S16384x1_0_1) : (⟨S16384x128, .f32⟩ : BufTy).Contents (Elt F) → (⟨S16384x1, .f32⟩ : BufTy).Contents (Elt F)),
    reshape main_v22 main_v23 rfl shapeCasts_S16384x1_S16384,
    nullary main_cst_5 (constant S_ .f32 0xCE6E6B28#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S16384, .f32⟩) main_call1_v1) (broadcastInDim S16384 ![] bcast_S_S16384),
    TRef.ternary (TRef.of (T := ⟨S16384, .i1⟩) main_v8) (TRef.of (T := ⟨S16384, .f32⟩) main_call1_v1) (TRef.of (T := ⟨S16384, .f32⟩) main_v23) (TRef.of (T := ⟨S16384, .f32⟩) main_v24) select,
    nullary main_c_6 (constantI S_ 32 1#32),
    unary main_c_6 main_v25 (broadcastInDim S1 ![] bcast_S_S1 : (⟨S_, .i32⟩ : BufTy).Contents (Elt F) → (⟨S1, .i32⟩ : BufTy).Contents (Elt F)),
    ternary main_v21 main_v25 main_v24 main_v26 ((fun x i u => Host.scatter scatter_S16384x128_S1_S16384_0_1_1_0 (fun _ b => b) x i u) : (⟨S16384x128, .f32⟩ : BufTy).Contents (Elt F) → (⟨S1, .i32⟩ : BufTy).Contents (Elt F) → (⟨S16384, .f32⟩ : BufTy).Contents (Elt F) → (⟨S16384x128, .f32⟩ : BufTy).Contents (Elt F)) ]
/-- The operations of the third overwrite (`main_v31`). -/
abbrev seg3 : List (HloOp τ sig (Elt F)) :=
  [ unary main_v26 main_v27 ((extractStridedSlice S16384x1 ![0, 3] · slices_S16384x128_S16384x1_0_3) : (⟨S16384x128, .f32⟩ : BufTy).Contents (Elt F) → (⟨S16384x1, .f32⟩ : BufTy).Contents (Elt F)),
    reshape main_v27 main_v28 rfl shapeCasts_S16384x1_S16384,
    nullary main_cst_7 (constant S_ .f32 0xCE6E6B28#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S16384, .f32⟩) main_call2_v1) (broadcastInDim S16384 ![] bcast_S_S16384),
    TRef.ternary (TRef.of (T := ⟨S16384, .i1⟩) main_v12) (TRef.of (T := ⟨S16384, .f32⟩) main_call2_v1) (TRef.of (T := ⟨S16384, .f32⟩) main_v28) (TRef.of (T := ⟨S16384, .f32⟩) main_v29) select,
    nullary main_c_8 (constantI S_ 32 3#32),
    unary main_c_8 main_v30 (broadcastInDim S1 ![] bcast_S_S1 : (⟨S_, .i32⟩ : BufTy).Contents (Elt F) → (⟨S1, .i32⟩ : BufTy).Contents (Elt F)),
    ternary main_v26 main_v30 main_v29 main_v31 ((fun x i u => Host.scatter scatter_S16384x128_S1_S16384_0_1_1_0 (fun _ b => b) x i u) : (⟨S16384x128, .f32⟩ : BufTy).Contents (Elt F) → (⟨S1, .i32⟩ : BufTy).Contents (Elt F) → (⟨S16384, .f32⟩ : BufTy).Contents (Elt F) → (⟨S16384x128, .f32⟩ : BufTy).Contents (Elt F)) ]
/-- The operations of the fourth overwrite (`main_v36`). -/
abbrev seg4 : List (HloOp τ sig (Elt F)) :=
  [ unary main_v31 main_v32 ((extractStridedSlice S16384x1 ![0, 4] · slices_S16384x128_S16384x1_0_4) : (⟨S16384x128, .f32⟩ : BufTy).Contents (Elt F) → (⟨S16384x1, .f32⟩ : BufTy).Contents (Elt F)),
    reshape main_v32 main_v33 rfl shapeCasts_S16384x1_S16384,
    nullary main_cst_9 (constant S_ .f32 0xCE6E6B28#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S16384, .f32⟩) main_call3_v1) (broadcastInDim S16384 ![] bcast_S_S16384),
    TRef.ternary (TRef.of (T := ⟨S16384, .i1⟩) main_v16) (TRef.of (T := ⟨S16384, .f32⟩) main_call3_v1) (TRef.of (T := ⟨S16384, .f32⟩) main_v33) (TRef.of (T := ⟨S16384, .f32⟩) main_v34) select,
    nullary main_c_10 (constantI S_ 32 4#32),
    unary main_c_10 main_v35 (broadcastInDim S1 ![] bcast_S_S1 : (⟨S_, .i32⟩ : BufTy).Contents (Elt F) → (⟨S1, .i32⟩ : BufTy).Contents (Elt F)),
    ternary main_v31 main_v35 main_v34 main_v36 ((fun x i u => Host.scatter scatter_S16384x128_S1_S16384_0_1_1_0 (fun _ b => b) x i u) : (⟨S16384x128, .f32⟩ : BufTy).Contents (Elt F) → (⟨S1, .i32⟩ : BufTy).Contents (Elt F) → (⟨S16384, .f32⟩ : BufTy).Contents (Elt F) → (⟨S16384x128, .f32⟩ : BufTy).Contents (Elt F)) ]

/-- Two stretches run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons a t ih => exact ih _

section Stretches
variable (V : Valuation τ sig (Elt F))

theorem s1_v21 : after (seg1 (F := F)) V (Proc.devRef .tc main_v21)
    = stage (F := F) (cond 246 slices_S16384x256_S16384x1_0_246 (V (Proc.devRef .tc main_arg0))) 2 slices_S16384x128_S16384x1_0_2 2#32 (ones (F := F)) := by
  after_results_simp; rfl
theorem s1_v8 : after (seg1 (F := F)) V (Proc.devRef .tc main_v8) = cond (F := F) 250 slices_S16384x256_S16384x1_0_250 (V (Proc.devRef .tc main_arg0)) := by
  after_results_simp; rfl
theorem s1_v12 : after (seg1 (F := F)) V (Proc.devRef .tc main_v12) = cond (F := F) 251 slices_S16384x256_S16384x1_0_251 (V (Proc.devRef .tc main_arg0)) := by
  after_results_simp; rfl
theorem s1_v16 : after (seg1 (F := F)) V (Proc.devRef .tc main_v16) = cond (F := F) 255 slices_S16384x256_S16384x1_0_255 (V (Proc.devRef .tc main_arg0)) := by
  after_results_simp; rfl

theorem s2_v26 : after (seg2 (F := F)) V (Proc.devRef .tc main_v26)
    = stage (F := F) (V (Proc.devRef .tc main_v8)) 1 slices_S16384x128_S16384x1_0_1 1#32 (V (Proc.devRef .tc main_v21)) := by
  after_results_simp; rfl
theorem s2_v12 : after (seg2 (F := F)) V (Proc.devRef .tc main_v12) = V (Proc.devRef .tc main_v12) := by
  after_results_simp
theorem s2_v16 : after (seg2 (F := F)) V (Proc.devRef .tc main_v16) = V (Proc.devRef .tc main_v16) := by
  after_results_simp

theorem s3_v31 : after (seg3 (F := F)) V (Proc.devRef .tc main_v31)
    = stage (F := F) (V (Proc.devRef .tc main_v12)) 3 slices_S16384x128_S16384x1_0_3 3#32 (V (Proc.devRef .tc main_v26)) := by
  after_results_simp; rfl
theorem s3_v16 : after (seg3 (F := F)) V (Proc.devRef .tc main_v16) = V (Proc.devRef .tc main_v16) := by
  after_results_simp

theorem s4_v36 : after (seg4 (F := F)) V (Proc.devRef .tc main_v36)
    = stage (F := F) (V (Proc.devRef .tc main_v16)) 4 slices_S16384x128_S16384x1_0_4 4#32 (V (Proc.devRef .tc main_v31)) := by
  after_results_simp; rfl

end Stretches

/-- `main_v36` after the four stretches is the array after the fourth overwrite, of the argument. -/
theorem after_segs (V : Valuation τ sig (Elt F)) :
    after (seg1 (F := F) ++ (seg2 ++ (seg3 ++ seg4))) V (Proc.devRef .tc main_v36) = res4 (F := F) (V (Proc.devRef .tc main_arg0)) := by
  rw [after_append, after_append, after_append, s4_v36, s3_v16, s2_v16, s1_v16, s3_v31, s2_v12, s1_v12, s2_v26, s1_v8, s1_v21]
  rfl

end Cert.RefStretches

end
-- ==== Proof.ScatterRead.lean ====
/-
  A scatter that overwrites (its body returns the update) read at an index. The scatter is a left fold, over the update
  indices in row-major order, of single-point overwrites: update index j overwrites the operand index the dimension
  numbers send j to. When every update index lands inside the operand and no two land on the same place, the result at
  the place j lands on is update j, and at a place no update lands on it is the operand.
-/
import Idealize.ShloMosaic.PureOps.ShapeOps

namespace Cert.ScatterRead

open Idealize.ShloMosaic

section Fold
variable {ι κ α : Type}

/-- A fold of steps none of which changes the value at i leaves the value at i. -/
theorem foldl_miss (step : (κ → α) → ι → (κ → α)) (i : κ) :
    ∀ (l : List ι) (x : κ → α), (∀ r, ∀ n ∈ l, step r n i = r i) → l.foldl step x i = x i
  | [], _, _ => rfl
  | b :: t, x, h => by
    rw [List.foldl_cons, foldl_miss step i t (step x b) (fun r n hn => h r n (List.mem_cons_of_mem _ hn))]
    exact h x b List.mem_cons_self

/-- A fold over a list without repeats in which exactly the step of n sets the value at i, to a, ends with a at i. -/
theorem foldl_hit (step : (κ → α) → ι → (κ → α)) (i : κ) (a : α) (n : ι) (hhit : ∀ r, step r n i = a) :
    ∀ (l : List ι) (x : κ → α), n ∈ l → l.Nodup → (∀ r, ∀ m ∈ l, m ≠ n → step r m i = r i) → l.foldl step x i = a
  | [], _, hn, _, _ => absurd hn List.not_mem_nil
  | b :: t, x, hn, hnd, hmiss => by
    rw [List.foldl_cons]
    have hnd' := List.nodup_cons.1 hnd
    by_cases hb : n = b
    · subst hb
      rw [foldl_miss step i t (step x n) (fun r m hm => hmiss r m (List.mem_cons_of_mem _ hm) (fun e => hnd'.1 (e ▸ hm)))]
      exact hhit x
    · have hnt : n ∈ t := (List.mem_cons.1 hn).resolve_left hb
      exact foldl_hit step i a n hhit t (step x b) hnt hnd'.2 (fun r m hm => hmiss r m (List.mem_cons_of_mem _ hm))

end Fold

variable {s si u : Shape} {w : Nat} {α : Type}

/-- The overwriting scatter at the place update index j lands on is update j. -/
theorem scatter_hit (d : ScatterDims s si u) (x : s.Idx → α) (idx : IVec si w) (upd : u.Idx → α) (g : u.Idx → s.Idx)
    (hg : ∀ j, d.resultIdx? j idx = some (g j)) (hinj : Function.Injective g) (j : u.Idx) :
    Host.scatter d (fun _ b => b) x idx upd (g j) = upd j := by
  unfold Host.scatter
  refine foldl_hit _ (g j) (upd j) (u.rowMajor j) (fun r => ?_) _ x (List.mem_finRange _) (List.nodup_finRange _)
    (fun r m _ hm => ?_)
  · rw [hg, Equiv.symm_apply_apply]
    exact if_pos rfl
  · rw [hg]
    refine if_neg fun e => hm ?_
    rw [hinj e, Equiv.apply_symm_apply]

/-- The overwriting scatter at a place no update index lands on is the operand. -/
theorem scatter_miss (d : ScatterDims s si u) (x : s.Idx → α) (idx : IVec si w) (upd : u.Idx → α) (g : u.Idx → s.Idx)
    (hg : ∀ j, d.resultIdx? j idx = some (g j)) (i : s.Idx) (hi : ∀ j, g j ≠ i) :
    Host.scatter d (fun _ b => b) x idx upd i = x i := by
  unfold Host.scatter
  refine foldl_miss _ i _ x (fun r n _ => ?_)
  rw [hg]
  exact if_neg fun e => hi _ e.symm

end Cert.ScatterRead
-- ==== Proof.RefValue.lean ====
/-
  The reference's result is the specified function of its argument, index by index. Reading one overwrite at an index:
  every update index lands inside the array, row j of the overwritten column, and distinct rows land on distinct
  places; so at the overwritten column the result is the new column's entry, and at any other column it is what was
  there. The four overwritten columns 2, 1, 3, 4 are distinct, so when a column is overwritten it still holds ones, and
  the new entry is: the large negative number where the condition entry equals one, else one. Every other column
  keeps its ones.
-/
import proofs.«203812_g17411797418577_cont_8to1_445_22_alg».proof.Proof.RefStages
import proofs.«203812_g17411797418577_cont_8to1_445_22_alg».proof.Proof.ScatterRead
import proofs.«203812_g17411797418577_cont_8to1_445_22_alg».proof.Proof.Spec
import Idealize.ShloMosaic.Lib.Pipeline.Value

noncomputable section

namespace Cert.RefValue

open Cert.ReferenceIdeal Cert.ReferenceIdeal.Gen Cert.RefStages Idealize.ShloMosaic Idealize.ShloMosaic.ValueIdx

variable {F : FTy → Type} [FloatOps F]

/-- The overwrites' dimension numbers: the update is one whole column, its column the one scatter index. -/
abbrev dd : ScatterDims S16384x128 S1 S16384 := scatter_S16384x128_S1_S16384_0_1_1_0

/-! ## Where an update index lands -/

theorem start0 (idx : IVec S1 32) (j : S16384.Idx) : dd.start j idx (0 : Fin 2) = 0 := rfl
theorem window0 (j : S16384.Idx) : dd.window j (0 : Fin 2) = (j 0).val := rfl
theorem window1 (j : S16384.Idx) : dd.window j (1 : Fin 2) = 0 := rfl
theorem start1 (idx : IVec S1 32) (j : S16384.Idx) : dd.start j idx (1 : Fin 2) = (idx (ix1 0)).toInt := by
  unfold ScatterDims.start
  rw [dif_pos (by decide)]
  exact congrArg (fun k => (idx k).toInt) (funext fun b => match b with | ⟨0, _⟩ => rfl)

/-- Row `j` of column `c`. -/
def land (c : Fin 128) (j : S16384.Idx) : S16384x128.Idx := ix2 (j 0) c

/-- Every update index lands inside the array: row `j` of the column the index word names. -/
theorem resultIdx_col (idx : IVec S1 32) (c : Fin 128) (hc : (idx (ix1 0)).toInt = (c.val : Int)) (j : S16384.Idx) :
    dd.resultIdx? j idx = some (land c j) := by
  unfold ScatterDims.resultIdx?
  have hs : ∀ a : Fin 2, dd.start j idx a + dd.window j a = ((land c j) a).val := fun a =>
    match a with
    | ⟨0, _⟩ => by rw [show (⟨0, _⟩ : Fin 2) = 0 from rfl, start0, window0]; simp [land]
    | ⟨1, _⟩ => by rw [show (⟨1, _⟩ : Fin 2) = 1 from rfl, start1, window1, hc]; simp [land]
  rw [dif_pos (fun a => by rw [hs a]; exact ⟨Int.natCast_nonneg _, by exact_mod_cast ((land c j) a).isLt⟩)]
  congr 1
  funext a
  exact Fin.ext (by show (dd.start j idx a + dd.window j a).toNat = _; rw [hs a]; exact Int.toNat_natCast _)

theorem land_injective (c : Fin 128) : Function.Injective (land c) := fun j j' h => by
  funext a
  match a with
  | ⟨0, _⟩ => exact congrFun h 0

/-! ## One overwrite at an index -/

/-- At the overwritten column the result is the new column's entry. -/
theorem stage_hit (cnd : (⟨S16384, .i1⟩ : BufTy).Contents (Elt F)) (q : Nat) (hq : S16384x128.Slices ![0, q] S16384x1) (qw : BitVec 32)
    (old : (⟨S16384x128, .f32⟩ : BufTy).Contents (Elt F)) (c : Fin 128) (hc : qw.toInt = (c.val : Int)) (r : Fin 16384) :
    stage (F := F) cnd q hq qw old (ix2 r c) = newCol (F := F) cnd q hq old (ix1 r) :=
  Cert.ScatterRead.scatter_hit dd old (colIdx (F := F) qw) (newCol (F := F) cnd q hq old) (land c)
    (resultIdx_col _ c hc) (land_injective c) (ix1 r)

/-- At any other column the result is what was there. -/
theorem stage_miss (cnd : (⟨S16384, .i1⟩ : BufTy).Contents (Elt F)) (q : Nat) (hq : S16384x128.Slices ![0, q] S16384x1) (qw : BitVec 32)
    (old : (⟨S16384x128, .f32⟩ : BufTy).Contents (Elt F)) (c : Fin 128) (hc : qw.toInt = (c.val : Int)) (r : Fin 16384) (c' : Fin 128)
    (hne : c' ≠ c) :
    stage (F := F) cnd q hq qw old (ix2 r c') = old (ix2 r c') :=
  Cert.ScatterRead.scatter_miss dd old (colIdx (F := F) qw) (newCol (F := F) cnd q hq old) (land c)
    (resultIdx_col _ c hc) (ix2 r c') (fun j h => hne (congrFun h 1).symm)

/-- The condition at a row: whether the argument's entry there equals one. -/
theorem cond_apply (k : Nat) (hk : S16384x256.Slices ![0, k] S16384x1) (x : (⟨S16384x256, .f32⟩ : BufTy).Contents (Elt F))
    (kf : Fin 256) (hkf : kf.val = k) (r : Fin 16384) :
    cond (F := F) k hk x (ix1 r) = FloatOps.cmpf .oeq (x (ix2 r kf)) (Cert.Spec.one (F := F)) := by
  unfold Cert.RefStages.cond
  rw [cmpf_apply]
  congr 1
  rw [shapeCast_apply _ shapeCasts_S16384x1_S16384 (ix1 r) (ix2 r 0)
    (by rewrite [Shape.rowMajor_val_two, Shape.rowMajor_val_one]; show r.val * 1 + 0 = r.val; omega)]
  exact extractStridedSlice_apply ![0, k] x hk (ix2 r 0) (ix2 r kf) (fun a => match a with
    | ⟨0, _⟩ => by show r.val = 0 + r.val; omega
    | ⟨1, _⟩ => by show kf.val = k + 0; omega)

/-- The new column at a row: the large negative number where the condition holds, else the old entry of column `q`. -/
theorem newCol_apply (cnd : (⟨S16384, .i1⟩ : BufTy).Contents (Elt F)) (q : Nat) (hq : S16384x128.Slices ![0, q] S16384x1)
    (old : (⟨S16384x128, .f32⟩ : BufTy).Contents (Elt F)) (qf : Fin 128) (hqf : qf.val = q) (r : Fin 16384) :
    newCol (F := F) cnd q hq old (ix1 r) = Scalar.select (cnd (ix1 r)) (Cert.Spec.big (F := F)) (old (ix2 r qf)) := by
  unfold newCol
  rw [select_apply]
  congr 1
  rw [shapeCast_apply _ shapeCasts_S16384x1_S16384 (ix1 r) (ix2 r 0)
    (by rewrite [Shape.rowMajor_val_two, Shape.rowMajor_val_one]; show r.val * 1 + 0 = r.val; omega)]
  exact extractStridedSlice_apply ![0, q] old hq (ix2 r 0) (ix2 r qf) (fun a => match a with
    | ⟨0, _⟩ => by show r.val = 0 + r.val; omega
    | ⟨1, _⟩ => by show qf.val = q + 0; omega)

theorem ones_apply (i : S16384x128.Idx) : ones (F := F) i = Cert.Spec.one (F := F) := rfl

/-! ## The four overwrites, column by column -/

section Columns
variable (x : (⟨S16384x256, .f32⟩ : BufTy).Contents (Elt F)) (r : Fin 16384)

/-- The array after the first overwrite (column 2, on the argument's column 246). -/
def a1 : (⟨S16384x128, .f32⟩ : BufTy).Contents (Elt F) :=
  stage (F := F) (cond 246 slices_S16384x256_S16384x1_0_246 x) 2 slices_S16384x128_S16384x1_0_2 2#32 (ones (F := F))
/-- The array after the second overwrite (column 1, on the argument's column 250). -/
def a2 : (⟨S16384x128, .f32⟩ : BufTy).Contents (Elt F) :=
  stage (F := F) (cond 250 slices_S16384x256_S16384x1_0_250 x) 1 slices_S16384x128_S16384x1_0_1 1#32 (a1 x)
/-- The array after the third overwrite (column 3, on the argument's column 251). -/
def a3 : (⟨S16384x128, .f32⟩ : BufTy).Contents (Elt F) :=
  stage (F := F) (cond 251 slices_S16384x256_S16384x1_0_251 x) 3 slices_S16384x128_S16384x1_0_3 3#32 (a2 x)

theorem res4_eq : res4 (F := F) x
    = stage (F := F) (cond 255 slices_S16384x256_S16384x1_0_255 x) 4 slices_S16384x128_S16384x1_0_4 4#32 (a3 x) := rfl

/-- One masked entry, as an overwrite of a column that still holds ones computes it. -/
theorem masked (k : Nat) (hk : S16384x256.Slices ![0, k] S16384x1) (kf : Fin 256) (hkf : kf.val = k)
    (q : Nat) (hq : S16384x128.Slices ![0, q] S16384x1) (qf : Fin 128) (hqf : qf.val = q)
    (old : (⟨S16384x128, .f32⟩ : BufTy).Contents (Elt F)) (hold : old (ix2 r qf) = Cert.Spec.one (F := F)) :
    newCol (F := F) (cond k hk x) q hq old (ix1 r) = Cert.Spec.mask1 (F := F) (x (ix2 r kf)) := by
  rw [newCol_apply _ q hq old qf hqf r, cond_apply k hk x kf hkf r, hold]
  rfl

theorem a1_miss (c : Fin 128) (h2 : c ≠ ⟨2, by decide⟩) : a1 (F := F) x (ix2 r c) = Cert.Spec.one (F := F) := by
  unfold a1
  rw [stage_miss _ _ _ _ _ ⟨2, by decide⟩ (by decide) r c h2]
  rfl
theorem a1_at2 : a1 (F := F) x (ix2 r ⟨2, by decide⟩) = Cert.Spec.mask1 (F := F) (x (ix2 r ⟨246, by decide⟩)) := by
  unfold a1
  rw [stage_hit _ _ _ _ _ ⟨2, by decide⟩ (by decide) r]
  exact masked x r 246 _ ⟨246, by decide⟩ rfl 2 _ ⟨2, by decide⟩ rfl _ rfl

theorem a2_miss (c : Fin 128) (h1 : c ≠ ⟨1, by decide⟩) (h2 : c ≠ ⟨2, by decide⟩) : a2 (F := F) x (ix2 r c) = Cert.Spec.one (F := F) := by
  unfold a2
  rw [stage_miss _ _ _ _ _ ⟨1, by decide⟩ (by decide) r c h1]
  exact a1_miss x r c h2
theorem a2_at1 : a2 (F := F) x (ix2 r ⟨1, by decide⟩) = Cert.Spec.mask1 (F := F) (x (ix2 r ⟨250, by decide⟩)) := by
  unfold a2
  rw [stage_hit _ _ _ _ _ ⟨1, by decide⟩ (by decide) r]
  exact masked x r 250 _ ⟨250, by decide⟩ rfl 1 _ ⟨1, by decide⟩ rfl _ (a1_miss x r _ (by decide))
theorem a2_at2 : a2 (F := F) x (ix2 r ⟨2, by decide⟩) = Cert.Spec.mask1 (F := F) (x (ix2 r ⟨246, by decide⟩)) := by
  unfold a2
  rw [stage_miss _ _ _ _ _ ⟨1, by decide⟩ (by decide) r ⟨2, by decide⟩ (by decide)]
  exact a1_at2 x r

theorem a3_miss (c : Fin 128) (h1 : c ≠ ⟨1, by decide⟩) (h2 : c ≠ ⟨2, by decide⟩) (h3 : c ≠ ⟨3, by decide⟩) :
    a3 (F := F) x (ix2 r c) = Cert.Spec.one (F := F) := by
  unfold a3
  rw [stage_miss _ _ _ _ _ ⟨3, by decide⟩ (by decide) r c h3]
  exact a2_miss x r c h1 h2
theorem a3_at3 : a3 (F := F) x (ix2 r ⟨3, by decide⟩) = Cert.Spec.mask1 (F := F) (x (ix2 r ⟨251, by decide⟩)) := by
  unfold a3
  rw [stage_hit _ _ _ _ _ ⟨3, by decide⟩ (by decide) r]
  exact masked x r 251 _ ⟨251, by decide⟩ rfl 3 _ ⟨3, by decide⟩ rfl _ (a2_miss x r _ (by decide) (by decide))
theorem a3_at1 : a3 (F := F) x (ix2 r ⟨1, by decide⟩) = Cert.Spec.mask1 (F := F) (x (ix2 r ⟨250, by decide⟩)) := by
  unfold a3
  rw [stage_miss _ _ _ _ _ ⟨3, by decide⟩ (by decide) r ⟨1, by decide⟩ (by decide)]
  exact a2_at1 x r
theorem a3_at2 : a3 (F := F) x (ix2 r ⟨2, by decide⟩) = Cert.Spec.mask1 (F := F) (x (ix2 r ⟨246, by decide⟩)) := by
  unfold a3
  rw [stage_miss _ _ _ _ _ ⟨3, by decide⟩ (by decide) r ⟨2, by decide⟩ (by decide)]
  exact a2_at2 x r

theorem res4_miss (c : Fin 128) (h1 : c ≠ ⟨1, by decide⟩) (h2 : c ≠ ⟨2, by decide⟩) (h3 : c ≠ ⟨3, by decide⟩) (h4 : c ≠ ⟨4, by decide⟩) :
    res4 (F := F) x (ix2 r c) = Cert.Spec.one (F := F) := by
  rw [res4_eq, stage_miss _ _ _ _ _ ⟨4, by decide⟩ (by decide) r c h4]
  exact a3_miss x r c h1 h2 h3
theorem res4_at4 : res4 (F := F) x (ix2 r ⟨4, by decide⟩) = Cert.Spec.mask1 (F := F) (x (ix2 r ⟨255, by decide⟩)) := by
  rw [res4_eq, stage_hit _ _ _ _ _ ⟨4, by decide⟩ (by decide) r]
  exact masked x r 255 _ ⟨255, by decide⟩ rfl 4 _ ⟨4, by decide⟩ rfl _ (a3_miss x r _ (by decide) (by decide) (by decide))
theorem res4_at3 : res4 (F := F) x (ix2 r ⟨3, by decide⟩) = Cert.Spec.mask1 (F := F) (x (ix2 r ⟨251, by decide⟩)) := by
  rw [res4_eq, stage_miss _ _ _ _ _ ⟨4, by decide⟩ (by decide) r ⟨3, by decide⟩ (by decide)]
  exact a3_at3 x r
theorem res4_at1 : res4 (F := F) x (ix2 r ⟨1, by decide⟩) = Cert.Spec.mask1 (F := F) (x (ix2 r ⟨250, by decide⟩)) := by
  rw [res4_eq, stage_miss _ _ _ _ _ ⟨4, by decide⟩ (by decide) r ⟨1, by decide⟩ (by decide)]
  exact a3_at1 x r
theorem res4_at2 : res4 (F := F) x (ix2 r ⟨2, by decide⟩) = Cert.Spec.mask1 (F := F) (x (ix2 r ⟨246, by decide⟩)) := by
  rw [res4_eq, stage_miss _ _ _ _ _ ⟨4, by decide⟩ (by decide) r ⟨2, by decide⟩ (by decide)]
  exact a3_at2 x r

end Columns

/-- The array after the fourth overwrite is the specified function of the argument. -/
theorem res4_eq_G (x : (⟨S16384x256, .f32⟩ : BufTy).Contents (Elt F)) : res4 (F := F) x = Cert.Spec.G (F := F) x := by
  funext i
  obtain ⟨r, c, rfl⟩ : ∃ (r : Fin 16384) (c : Fin 128), i = ix2 r c := ⟨i 0, i 1, eq_ix2 i⟩
  by_cases h1 : c = ⟨1, by decide⟩
  · subst h1; rw [res4_at1]; rfl
  by_cases h2 : c = ⟨2, by decide⟩
  · subst h2; rw [res4_at2]; rfl
  by_cases h3 : c = ⟨3, by decide⟩
  · subst h3; rw [res4_at3]; rfl
  by_cases h4 : c = ⟨4, by decide⟩
  · subst h4; rw [res4_at4]; rfl
  rw [res4_miss x r c h1 h2 h3 h4]
  have hv : ∀ n (hn : n < 128), c ≠ ⟨n, hn⟩ → c.val ≠ n := fun n hn h e => h (Fin.ext e)
  show _ = (match Cert.Spec.srcCol c with | some k => Cert.Spec.mask1 (F := F) (x (ix2 r k)) | none => Cert.Spec.one (F := F))
  rw [show Cert.Spec.srcCol c = none from by
    unfold Cert.Spec.srcCol
    rw [if_neg (hv 1 _ h1), if_neg (hv 2 _ h2), if_neg (hv 3 _ h3), if_neg (hv 4 _ h4)]]

end Cert.RefValue

end
-- ==== Proof.RefClaims.lean ====
/-
  The reference runs, and its result is the specified function of its argument: every weakly fair execution of the
  reference terminates with the result array at `Cert.Spec.G` of the argument array and the argument unchanged — the
  run read back, with the array after the fourth overwrite identified index by index. Dropping the value gives the
  reference's frame claim.
-/
import proofs.«203812_g17411797418577_cont_8to1_445_22_alg».proof.Defs
import proofs.«203812_g17411797418577_cont_8to1_445_22_alg».proof.Proof.Gen.Pre_finite_inputs
import proofs.«203812_g17411797418577_cont_8to1_445_22_alg».proof.Proof.RefRun
import proofs.«203812_g17411797418577_cont_8to1_445_22_alg».proof.Proof.RefValue

noncomputable section

namespace Cert.RefValue

open Cert.ReferenceIdeal Cert.ReferenceIdeal.Gen Idealize.ShloMosaic Idealize.ShloMosaic.TcCoe Idealize.SL.Sem

/-- On every device, for any float values, from any memory with zero counters: the reference terminates with its result
    at the specified function of its argument, the argument unchanged. -/
theorem ref_run {F : FTy → Type} [FloatOps F] (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩
      (fun r => ∀ c : Dev nD,
        r.2.mem ((c.tc : Thread nD τ).loc main_v36) = Cert.Spec.G (F := F) (m ((c.tc : Thread nD τ).loc main_arg0))
        ∧ r.2.mem ((c.tc : Thread nD τ).loc main_arg0) = m ((c.tc : Thread nD τ).loc main_arg0)) :=
  (θ_run Cert.ReferenceIdeal.defs _ _).mono (fun _ h c => ⟨(h c).1.trans (res4_eq_G _), (h c).2⟩)
    (Cert.ReferenceIdeal.ValueP.run (F := F) m ρ)

/-- The reference's frame claim: the run with the value dropped. -/
theorem frame_ri : Cert.frame_ReferenceIdeal := fun m ρ _ =>
  (θ_run Cert.ReferenceIdeal.defs _ _).mono (fun _ h c => (h c).2) (ref_run (F := Ideal) m ρ)

end Cert.RefValue

end
-- ==== Proof.lean ====
/-
  The kernel and the reference compute one function of the input table x (16384 rows, 256 columns): a table of 16384 rows
  and 128 columns that is one everywhere except in the action columns 1, 2, 3, 4, where row r holds the large negative
  number exactly when x[r, 250], x[r, 246], x[r, 251], x[r, 255] (in that order) equals one.

  The kernel runs on 32 vector subcores; worker w = 2s + c owns rows 512 w … 512 w + 511 and handles them in four chunks of
  128 rows.  For each chunk it copies the chunk's columns 128 … 255 of x into a landing buffer, and, sixteen rows at a
  time and for each of the four action columns, gathers the condition column out of the landing buffer, compares with one,
  selects, and scatters the sixteen results into the action column of a staging buffer that was filled with ones at the
  start; the staging buffer is then copied out to the chunk of the result.  Two landing and two staging buffers alternate,
  each copy on a semaphore of its own, and every copy is waited for before its buffer is touched again, so the run does
  not depend on the order in which the copies complete.  The invariant of the scatter (Proof/KPure.lean) counts the
  (row group, action column) pairs already written; after the 32nd the staged chunk is the specified function of the
  landed window, which is the specified result on the chunk's rows.  The reference builds the same table by four column
  updates of a table of ones (Proof/RefValue.lean).  No arithmetic is involved, only comparison and selection, so the
  result is the same function at the word level and over the extended reals, and the precondition is not used.
-/
import proofs.«203812_g17411797418577_cont_8to1_445_22_alg».proof.Defs
import proofs.«203812_g17411797418577_cont_8to1_445_22_alg».proof.Proof.Gen.Kernel
import proofs.«203812_g17411797418577_cont_8to1_445_22_alg».proof.Proof.Gen.Kernel.Skeleton
import proofs.«203812_g17411797418577_cont_8to1_445_22_alg».proof.Proof.Gen.KernelIdeal
import proofs.«203812_g17411797418577_cont_8to1_445_22_alg».proof.Proof.Gen.KernelIdeal.Skeleton
import proofs.«203812_g17411797418577_cont_8to1_445_22_alg».proof.Proof.Gen.ReferenceIdeal
import proofs.«203812_g17411797418577_cont_8to1_445_22_alg».proof.Proof.Gen.Pre_finite_inputs
import proofs.«203812_g17411797418577_cont_8to1_445_22_alg».proof.Proof.KITile
import proofs.«203812_g17411797418577_cont_8to1_445_22_alg».proof.Proof.KILaunch
import proofs.«203812_g17411797418577_cont_8to1_445_22_alg».proof.Proof.KBTile
import proofs.«203812_g17411797418577_cont_8to1_445_22_alg».proof.Proof.KBLaunch
import proofs.«203812_g17411797418577_cont_8to1_445_22_alg».proof.Proof.RefClaims
import Idealize.ShloMosaic.Adequacy
import Idealize.ShloMosaic.Init

noncomputable section

namespace Cert.Proof

open Idealize.ShloMosaic Idealize.SL.Sem

/-- The kernel at the word level runs to the end, faults nowhere and leaves its input unchanged. -/
theorem frame_k : Cert.frame_Kernel := fun m ρ _ =>
  (θ_run Cert.Kernel.defs _ _).mono (fun _ h c => (h c).2) (Cert.Proof.KB.run_main (F := Bits) m ρ (Cert.Proof.KB.tile_body m))

/-- The same of the idealized kernel. -/
theorem frame_ki : Cert.frame_KernelIdeal := fun m ρ _ =>
  (θ_run Cert.KernelIdeal.defs _ _).mono (fun _ h c => (h c).2) (Cert.Proof.KI.run_main (F := Ideal) m ρ (Cert.Proof.KI.tile_body m))

/-- Both idealized programs end with the specified function of the input. -/
theorem algebraic : Cert.algebraic_KernelIdeal_ReferenceIdeal := fun m ρ m' ρ' _ hagree =>
  ⟨fun c => Cert.Spec.G (F := Ideal) (m ((c.tc : Thread Cert.KernelIdeal.nD Cert.KernelIdeal.τ).loc Cert.KernelIdeal.main_arg0)),
    Cert.Proof.KI.run_main (F := Ideal) m ρ (Cert.Proof.KI.tile_body m),
    (θ_run Cert.ReferenceIdeal.defs _ _).mono (fun _ h c => ⟨by rw [(h c).1, hagree c], (h c).2⟩)
      (Cert.RefValue.ref_run (F := Ideal) m' ρ')⟩

theorem claim : Cert.Claim := ⟨Cert.Kernel.Gen.facts, Cert.KernelIdeal.Gen.facts, Cert.ReferenceIdeal.Gen.facts, Cert.Pre_finite_inputs.Gen.facts,
  frame_k, frame_ki, Cert.RefValue.frame_ri, trivial, algebraic⟩

end Cert.Proof

end
